-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)) →
    ∃ (v0 : (c : Dev Cert.KernelIdeal.nD) → Buf (Elt Ideal) ((c.tc : Thread Cert.KernelIdeal.nD Cert.KernelIdeal.τ).loc Cert.KernelIdeal.main_v110)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v110) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v171) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000 : Shape := ⟨1, ![50000]⟩
abbrev S50000x300 : Shape := ⟨2, ![50000, 300]⟩
abbrev S1000000 : Shape := ⟨1, ![1000000]⟩
abbrev S50001x64 : Shape := ⟨2, ![50001, 64]⟩
abbrev S256x64 : Shape := ⟨2, ![256, 64]⟩
abbrev S256 : Shape := ⟨1, ![256]⟩
abbrev S300x300 : Shape := ⟨2, ![300, 300]⟩
abbrev S300 : Shape := ⟨1, ![300]⟩
abbrev S256x300 : Shape := ⟨2, ![256, 300]⟩
abbrev S3x256x512 : Shape := ⟨3, ![3, 256, 512]⟩
abbrev S3x256 : Shape := ⟨2, ![3, 256]⟩
abbrev S2x256x256 : Shape := ⟨3, ![2, 256, 256]⟩
abbrev S2x256 : Shape := ⟨2, ![2, 256]⟩
abbrev S_ : Shape := ⟨0, ![]⟩

class Facts : Prop where
  bcast_S_S50000x300 : S_.BroadcastsInDim S50000x300 (![] : Fin 0 → Fin S50000x300.rank)
  reducesTo_S50000x300_S_d0_1 : S50000x300.ReducesTo [0, 1] S_
  h_S_ : 0 < S_.numel
  bcast_S_S50001x64 : S_.BroadcastsInDim S50001x64 (![] : Fin 0 → Fin S50001x64.rank)
  reducesTo_S50001x64_S_d0_1 : S50001x64.ReducesTo [0, 1] S_
  bcast_S_S256x64 : S_.BroadcastsInDim S256x64 (![] : Fin 0 → Fin S256x64.rank)
  reducesTo_S256x64_S_d0_1 : S256x64.ReducesTo [0, 1] S_
  bcast_S_S256 : S_.BroadcastsInDim S256 (![] : Fin 0 → Fin S256.rank)
  reducesTo_S256_S_d0 : S256.ReducesTo [0] S_
  bcast_S_S300x300 : S_.BroadcastsInDim S300x300 (![] : Fin 0 → Fin S300x300.rank)
  reducesTo_S300x300_S_d0_1 : S300x300.ReducesTo [0, 1] S_
  bcast_S_S300 : S_.BroadcastsInDim S300 (![] : Fin 0 → Fin S300.rank)
  reducesTo_S300_S_d0 : S300.ReducesTo [0] S_
  bcast_S_S256x300 : S_.BroadcastsInDim S256x300 (![] : Fin 0 → Fin S256x300.rank)
  reducesTo_S256x300_S_d0_1 : S256x300.ReducesTo [0, 1] S_
  bcast_S_S3x256x512 : S_.BroadcastsInDim S3x256x512 (![] : Fin 0 → Fin S3x256x512.rank)
  reducesTo_S3x256x512_S_d0_1_2 : S3x256x512.ReducesTo [0, 1, 2] S_
  bcast_S_S3x256 : S_.BroadcastsInDim S3x256 (![] : Fin 0 → Fin S3x256.rank)
  reducesTo_S3x256_S_d0_1 : S3x256.ReducesTo [0, 1] S_
  bcast_S_S2x256x256 : S_.BroadcastsInDim S2x256x256 (![] : Fin 0 → Fin S2x256x256.rank)
  reducesTo_S2x256x256_S_d0_1_2 : S2x256x256.ReducesTo [0, 1, 2] S_
  bcast_S_S2x256 : S_.BroadcastsInDim S2x256 (![] : Fin 0 → Fin S2x256.rank)
  reducesTo_S2x256_S_d0_1 : S2x256.ReducesTo [0, 1] S_

variable [Facts]

def fn_part4 {F : FTy → Type} [FloatOps F] (main_v63 : IVec S_ 1) (main_v67 : IVec S_ 1) : IVec S_ 1 :=
  let main_v68 : IVec S_ 1 := andi main_v63 main_v67
  main_v68

def fn_part3 {F : FTy → Type} [FloatOps F] (main_arg14 : FVec F S2x256 .f32) (main_arg15 : FVec F S2x256x256 .f32) (main_arg16 : FVec F S2x256 .f32) (main_v48 : IVec S_ 1) (main_v49 : FVec F S2x256x256 .f32) (main_v50 : FVec F S2x256x256 .f32) : IVec S_ 1 :=
  let main_v51 : IVec S2x256x256 1 := cmpf .olt main_v49 main_v50
  let main_c_19 : IVec S_ 1 := constantI S_ 1 1#1
  let main_v52 : IVec S_ 1 := (fun x v => Host.reduce IntOp.andi x v reducesTo_S2x256x256_S_d0_1_2 h_S_) main_v51 main_c_19
  let main_v53 : IVec S_ 1 := andi main_v48 main_v52
  let main_v54 : FVec F S2x256 .f32 := Host.absf main_arg14
  let main_cst_20 : FVec F S_ .f32 := constant S_ .f32 0x7F800000#32
  let main_v55 : FVec F S2x256 .f32 := broadcastInDim S2x256 ![] bcast_S_S2x256 main_cst_20
  let main_v56 : IVec S2x256 1 := cmpf .olt main_v54 main_v55
  let main_c_21 : IVec S_ 1 := constantI S_ 1 1#1
  let main_v57 : IVec S_ 1 := (fun x v => Host.reduce IntOp.andi x v reducesTo_S2x256_S_d0_1 h_S_) main_v56 main_c_21
  let main_v58 : IVec S_ 1 := andi main_v53 main_v57
  let main_v59 : FVec F S2x256x256 .f32 := Host.absf main_arg15
  let main_cst_22 : FVec F S_ .f32 := constant S_ .f32 0x7F800000#32
  let main_v60 : FVec F S2x256x256 .f32 := broadcastInDim S2x256x256 ![] bcast_S_S2x256x256 main_cst_22
  let main_v61 : IVec S2x256x256 1 := cmpf .olt main_v59 main_v60
  let main_c_23 : IVec S_ 1 := constantI S_ 1 1#1
  let main_v62 : IVec S_ 1 := (fun x v => Host.reduce IntOp.andi x v reducesTo_S2x256x256_S_d0_1_2 h_S_) main_v61 main_c_23
  let main_v63 : IVec S_ 1 := andi main_v58 main_v62
  let main_v64 : FVec F S2x256 .f32 := Host.absf main_arg16
  let main_cst_24 : FVec F S_ .f32 := constant S_ .f32 0x7F800000#32
  let main_v65 : FVec F S2x256 .f32 := broadcastInDim S2x256 ![] bcast_S_S2x256 main_cst_24
  let main_v66 : IVec S2x256 1 := cmpf .olt main_v64 main_v65
  let main_c_25 : IVec S_ 1 := constantI S_ 1 1#1
  let main_v67 : IVec S_ 1 := (fun x v => Host.reduce IntOp.andi x v reducesTo_S2x256_S_d0_1 h_S_) main_v66 main_c_25
  fn_part4 (F := F) main_v63 main_v67

def fn_part2 {F : FTy → Type} [FloatOps F] (main_arg10 : FVec F S256 .f32) (main_arg11 : FVec F S3x256x512 .f32) (main_arg12 : FVec F S3x256 .f32) (main_arg13 : FVec F S2x256x256 .f32) (main_arg14 : FVec F S2x256 .f32) (main_arg15 : FVec F S2x256x256 .f32) (main_arg16 : FVec F S2x256 .f32) (main_v33 : IVec S_ 1) : IVec S_ 1 :=
  let main_v34 : FVec F S256 .f32 := Host.absf main_arg10
  let main_cst_12 : FVec F S_ .f32 := constant S_ .f32 0x7F800000#32
  let main_v35 : FVec F S256 .f32 := broadcastInDim S256 ![] bcast_S_S256 main_cst_12
  let main_v36 : IVec S256 1 := cmpf .olt main_v34 main_v35
  let main_c_13 : IVec S_ 1 := constantI S_ 1 1#1
  let main_v37 : IVec S_ 1 := (fun x v => Host.reduce IntOp.andi x v reducesTo_S256_S_d0 h_S_) main_v36 main_c_13
  let main_v38 : IVec S_ 1 := andi main_v33 main_v37
  let main_v39 : FVec F S3x256x512 .f32 := Host.absf main_arg11
  let main_cst_14 : FVec F S_ .f32 := constant S_ .f32 0x7F800000#32
  let main_v40 : FVec F S3x256x512 .f32 := broadcastInDim S3x256x512 ![] bcast_S_S3x256x512 main_cst_14
  let main_v41 : IVec S3x256x512 1 := cmpf .olt main_v39 main_v40
  let main_c_15 : IVec S_ 1 := constantI S_ 1 1#1
  let main_v42 : IVec S_ 1 := (fun x v => Host.reduce IntOp.andi x v reducesTo_S3x256x512_S_d0_1_2 h_S_) main_v41 main_c_15
  let main_v43 : IVec S_ 1 := andi main_v38 main_v42
  let main_v44 : FVec F S3x256 .f32 := Host.absf main_arg12
  let main_cst_16 : FVec F S_ .f32 := constant S_ .f32 0x7F800000#32
  let main_v45 : FVec F S3x256 .f32 := broadcastInDim S3x256 ![] bcast_S_S3x256 main_cst_16
  let main_v46 : IVec S3x256 1 := cmpf .olt main_v44 main_v45
  let main_c_17 : IVec S_ 1 := constantI S_ 1 1#1
  let main_v47 : IVec S_ 1 := (fun x v => Host.reduce IntOp.andi x v reducesTo_S3x256_S_d0_1 h_S_) main_v46 main_c_17
  let main_v48 : IVec S_ 1 := andi main_v43 main_v47
  let main_v49 : FVec F S2x256x256 .f32 := Host.absf main_arg13
  let main_cst_18 : FVec F S_ .f32 := constant S_ .f32 0x7F800000#32
  let main_v50 : FVec F S2x256x256 .f32 := broadcastInDim S2x256x256 ![] bcast_S_S2x256x256 main_cst_18
  fn_part3 (F := F) main_arg14 main_arg15 main_arg16 main_v48 main_v49 main_v50

def fn_part1 {F : FTy → Type} [FloatOps F] (main_arg7 : FVec F S300x300 .f32) (main_arg8 : FVec F S300 .f32) (main_arg9 : FVec F S256x300 .f32) (main_arg10 : FVec F S256 .f32) (main_arg11 : FVec F S3x256x512 .f32) (main_arg12 : FVec F S3x256 .f32) (main_arg13 : FVec F S2x256x256 .f32) (main_arg14 : FVec F S2x256 .f32) (main_arg15 : FVec F S2x256x256 .f32) (main_arg16 : FVec F S2x256 .f32) (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  let main_v19 : FVec F S300x300 .f32 := Host.absf main_arg7
  let main_cst_6 : FVec F S_ .f32 := constant S_ .f32 0x7F800000#32
  let main_v20 : FVec F S300x300 .f32 := broadcastInDim S300x300 ![] bcast_S_S300x300 main_cst_6
  let main_v21 : IVec S300x300 1 := cmpf .olt main_v19 main_v20
  let main_c_7 : IVec S_ 1 := constantI S_ 1 1#1
  let main_v22 : IVec S_ 1 := (fun x v => Host.reduce IntOp.andi x v reducesTo_S300x300_S_d0_1 h_S_) main_v21 main_c_7
  let main_v23 : IVec S_ 1 := andi main_v18 main_v22
  let main_v24 : FVec F S300 .f32 := Host.absf main_arg8
  let main_cst_8 : FVec F S_ .f32 := constant S_ .f32 0x7F800000#32
  let main_v25 : FVec F S300 .f32 := broadcastInDim S300 ![] bcast_S_S300 main_cst_8
  let main_v26 : IVec S300 1 := cmpf .olt main_v24 main_v25
  let main_c_9 : IVec S_ 1 := constantI S_ 1 1#1
  let main_v27 : IVec S_ 1 := (fun x v => Host.reduce IntOp.andi x v reducesTo_S300_S_d0 h_S_) main_v26 main_c_9
  let main_v28 : IVec S_ 1 := andi main_v23 main_v27
  let main_v29 : FVec F S256x300 .f32 := Host.absf main_arg9
  let main_cst_10 : FVec F S_ .f32 := constant S_ .f32 0x7F800000#32
  let main_v30 : FVec F S256x300 .f32 := broadcastInDim S256x300 ![] bcast_S_S256x300 main_cst_10
  let main_v31 : IVec S256x300 1 := cmpf .olt main_v29 main_v30
  let main_c_11 : IVec S_ 1 := constantI S_ 1 1#1
  let main_v32 : IVec S_ 1 := (fun x v => Host.reduce IntOp.andi x v reducesTo_S256x300_S_d0_1 h_S_) main_v31 main_c_11
  let main_v33 : IVec S_ 1 := andi main_v28 main_v32
  fn_part2 (F := F) main_arg10 main_arg11 main_arg12 main_arg13 main_arg14 main_arg15 main_arg16 main_v33

def fn {F : FTy → Type} [FloatOps F] (main_arg0 : IVec S50000 32) (main_arg1 : FVec F S50000x300 .f32) (main_arg2 : IVec S1000000 32) (main_arg3 : IVec S1000000 32) (main_arg4 : FVec F S50001x64 .f32) (main_arg5 : FVec F S256x64 .f32) (main_arg6 : FVec F S256 .f32) (main_arg7 : FVec F S300x300 .f32) (main_arg8 : FVec F S300 .f32) (main_arg9 : FVec F S256x300 .f32) (main_arg10 : FVec F S256 .f32) (main_arg11 : FVec F S3x256x512 .f32) (main_arg12 : FVec F S3x256 .f32) (main_arg13 : FVec F S2x256x256 .f32) (main_arg14 : FVec F S2x256 .f32) (main_arg15 : FVec F S2x256x256 .f32) (main_arg16 : FVec F S2x256 .f32) : IVec S_ 1 :=
  let main_v0 : FVec F S50000x300 .f32 := Host.absf main_arg1
  let main_cst : FVec F S_ .f32 := constant S_ .f32 0x7F800000#32
  let main_v1 : FVec F S50000x300 .f32 := broadcastInDim S50000x300 ![] bcast_S_S50000x300 main_cst
  let main_v2 : IVec S50000x300 1 := cmpf .olt main_v0 main_v1
  let main_c : IVec S_ 1 := constantI S_ 1 1#1
  let main_v3 : IVec S_ 1 := (fun x v => Host.reduce IntOp.andi x v reducesTo_S50000x300_S_d0_1 h_S_) main_v2 main_c
  let main_v4 : FVec F S50001x64 .f32 := Host.absf main_arg4
  let main_cst_0 : FVec F S_ .f32 := constant S_ .f32 0x7F800000#32
  let main_v5 : FVec F S50001x64 .f32 := broadcastInDim S50001x64 ![] bcast_S_S50001x64 main_cst_0
  let main_v6 : IVec S50001x64 1 := cmpf .olt main_v4 main_v5
  let main_c_1 : IVec S_ 1 := constantI S_ 1 1#1
  let main_v7 : IVec S_ 1 := (fun x v => Host.reduce IntOp.andi x v reducesTo_S50001x64_S_d0_1 h_S_) main_v6 main_c_1
  let main_v8 : IVec S_ 1 := andi main_v3 main_v7
  let main_v9 : FVec F S256x64 .f32 := Host.absf main_arg5
  let main_cst_2 : FVec F S_ .f32 := constant S_ .f32 0x7F800000#32
  let main_v10 : FVec F S256x64 .f32 := broadcastInDim S256x64 ![] bcast_S_S256x64 main_cst_2
  let main_v11 : IVec S256x64 1 := cmpf .olt main_v9 main_v10
  let main_c_3 : IVec S_ 1 := constantI S_ 1 1#1
  let main_v12 : IVec S_ 1 := (fun x v => Host.reduce IntOp.andi x v reducesTo_S256x64_S_d0_1 h_S_) main_v11 main_c_3
  let main_v13 : IVec S_ 1 := andi main_v8 main_v12
  let main_v14 : FVec F S256 .f32 := Host.absf main_arg6
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_arg7 main_arg8 main_arg9 main_arg10 main_arg11 main_arg12 main_arg13 main_arg14 main_arg15 main_arg16 main_v13 main_v16
-- ==== Kernel.lean ====
abbrev S50000 : Shape := ⟨1, ![50000]⟩
abbrev S50000x300 : Shape := ⟨2, ![50000, 300]⟩
abbrev S1000000 : Shape := ⟨1, ![1000000]⟩
abbrev S50001x64 : Shape := ⟨2, ![50001, 64]⟩
abbrev S256x64 : Shape := ⟨2, ![256, 64]⟩
abbrev S256 : Shape := ⟨1, ![256]⟩
abbrev S300x300 : Shape := ⟨2, ![300, 300]⟩
abbrev S300 : Shape := ⟨1, ![300]⟩
abbrev S256x300 : Shape := ⟨2, ![256, 300]⟩
abbrev S3x256x512 : Shape := ⟨3, ![3, 256, 512]⟩
abbrev S3x256 : Shape := ⟨2, ![3, 256]⟩
abbrev S2x256x256 : Shape := ⟨3, ![2, 256, 256]⟩
abbrev S2x256 : Shape := ⟨2, ![2, 256]⟩
abbrev S_ : Shape := ⟨0, ![]⟩
abbrev S50000x1 : Shape := ⟨2, ![50000, 1]⟩
abbrev S50000x64 : Shape := ⟨2, ![50000, 64]⟩
abbrev S64x256 : Shape := ⟨2, ![64, 256]⟩
abbrev S300x256 : Shape := ⟨2, ![300, 256]⟩
abbrev S1x256 : Shape := ⟨2, ![1, 256]⟩
abbrev S1x300 : Shape := ⟨2, ![1, 300]⟩
abbrev S50000x256 : Shape := ⟨2, ![50000, 256]⟩
abbrev S1000x64 : Shape := ⟨2, ![1000, 64]⟩
abbrev S1000x300 : Shape := ⟨2, ![1000, 300]⟩
abbrev S1000x256 : Shape := ⟨2, ![1000, 256]⟩
abbrev S1000000x1 : Shape := ⟨2, ![1000000, 1]⟩
abbrev S1000000x256 : Shape := ⟨2, ![1000000, 256]⟩
abbrev S1x256x512 : Shape := ⟨3, ![1, 256, 512]⟩
abbrev S256x512 : Shape := ⟨2, ![256, 512]⟩
abbrev S256x256 : Shape := ⟨2, ![256, 256]⟩
abbrev S1x256x256 : Shape := ⟨3, ![1, 256, 256]⟩
abbrev S1000 : Shape := ⟨1, ![1000]⟩
abbrev S1000x1 : Shape := ⟨2, ![1000, 1]⟩

abbrev nBuf : Space → Nat
  | .hbm => 142
  | .vmem => 47
  | .smem => 0
  | _ => 0

abbrev hbmTy0_0 (i : Nat) : BufTy := match i % 128 with
  | 0 => ⟨S50000, .i32⟩
  | 1 => ⟨S50000x300, .f32⟩
  | 2 => ⟨S1000000, .i32⟩
  | 3 => ⟨S1000000, .i32⟩
  | 4 => ⟨S50001x64, .f32⟩
  | 5 => ⟨S256x64, .f32⟩
  | 6 => ⟨S256, .f32⟩
  | 7 => ⟨S300x300, .f32⟩
  | 8 => ⟨S300, .f32⟩
  | 9 => ⟨S256x300, .f32⟩
  | 10 => ⟨S256, .f32⟩
  | 11 => ⟨S3x256x512, .f32⟩
  | 12 => ⟨S3x256, .f32⟩
  | 13 => ⟨S2x256x256, .f32⟩
  | 14 => ⟨S2x256, .f32⟩
  | 15 => ⟨S2x256x256, .f32⟩
  | 16 => ⟨S2x256, .f32⟩
  | 17 => ⟨S_, .i32⟩
  | 18 => ⟨S50000, .i32⟩
  | 19 => ⟨S50000, .i1⟩
  | 20 => ⟨S_, .i32⟩
  | 21 => ⟨S50000, .i32⟩
  | 22 => ⟨S50000, .i32⟩
  | 23 => ⟨S50000, .i32⟩
  | 24 => ⟨S50000x1, .i32⟩
  | 25 => ⟨S50000x64, .f32⟩
  | 26 => ⟨S64x256, .f32⟩
  | 27 => ⟨S300x300, .f32⟩
  | 28 => ⟨S300x256, .f32⟩
  | 29 => ⟨S1x256, .f32⟩
  | 30 => ⟨S1x300, .f32⟩
  | 31 => ⟨S1x256, .f32⟩
  | 32 => ⟨S50000x256, .f32⟩
  | 33 => ⟨S_, .f32⟩
  | 34 => ⟨S1000000, .f32⟩
  | 35 => ⟨S_, .f32⟩
  | 36 => ⟨S50000, .f32⟩
  | 37 => ⟨S1000000x1, .i32⟩
  | 38 => ⟨S50000, .f32⟩
  | 39 => ⟨S_, .f32⟩
  | 40 => ⟨S50000, .f32⟩
  | 41 => ⟨S50000, .f32⟩
  | 42 => ⟨S50000x1, .f32⟩
  | 43 => ⟨S_, .i32⟩
  | 44 => ⟨S1000000, .i32⟩
  | 45 => ⟨S1000000, .i1⟩
  | 46 => ⟨S_, .i32⟩
  | 47 => ⟨S1000000, .i32⟩
  | 48 => ⟨S1000000, .i32⟩
  | 49 => ⟨S1000000, .i32⟩
  | 50 => ⟨S1000000x1, .i32⟩
  | 51 => ⟨S1000000x256, .f32⟩
  | 52 => ⟨S_, .f32⟩
  | 53 => ⟨S50000x256, .f32⟩
  | 54 => ⟨S1000000x1, .i32⟩
  | 55 => ⟨S50000x256, .f32⟩
  | 56 => ⟨S50000x256, .f32⟩
  | 57 => ⟨S50000x256, .f32⟩
  | 58 => ⟨S1x256x512, .f32⟩
  | 59 => ⟨S256x512, .f32⟩
  | 60 => ⟨S256x256, .f32⟩
  | 61 => ⟨S256x256, .f32⟩
  | 62 => ⟨S256x256, .f32⟩
  | 63 => ⟨S256x256, .f32⟩
  | 64 => ⟨S1x256, .f32⟩
  | 65 => ⟨S256, .f32⟩
  | 66 => ⟨S1x256x256, .f32⟩
  | 67 => ⟨S256x256, .f32⟩
  | 68 => ⟨S256x256, .f32⟩
  | 69 => ⟨S1x256, .f32⟩
  | 70 => ⟨S256, .f32⟩
  | 71 => ⟨S1x256x256, .f32⟩
  | 72 => ⟨S256x256, .f32⟩
  | 73 => ⟨S256x256, .f32⟩
  | 74 => ⟨S1x256, .f32⟩
  | 75 => ⟨S256, .f32⟩
  | 76 => ⟨S1x256, .f32⟩
  | 77 => ⟨S1x256, .f32⟩
  | 78 => ⟨S1x256, .f32⟩
  | 79 => ⟨S50000x256, .f32⟩
  | 80 => ⟨S_, .i32⟩
  | 81 => ⟨S1000000, .i32⟩
  | 82 => ⟨S1000000, .i1⟩
  | 83 => ⟨S_, .i32⟩
  | 84 => ⟨S1000000, .i32⟩
  | 85 => ⟨S1000000, .i32⟩
  | 86 => ⟨S1000000, .i32⟩
  | 87 => ⟨S1000000x1, .i32⟩
  | 88 => ⟨S1000000x256, .f32⟩
  | 89 => ⟨S_, .f32⟩
  | 90 => ⟨S50000x256, .f32⟩
  | 91 => ⟨S1000000x1, .i32⟩
  | 92 => ⟨S50000x256, .f32⟩
  | 93 => ⟨S50000x256, .f32⟩
  | 94 => ⟨S50000x256, .f32⟩
  | 95 => ⟨S1x256x512, .f32⟩
  | 96 => ⟨S256x512, .f32⟩
  | 97 => ⟨S256x256, .f32⟩
  | 98 => ⟨S256x256, .f32⟩
  | 99 => ⟨S256x256, .f32⟩
  | 100 => ⟨S256x256, .f32⟩
  | 101 => ⟨S1x256, .f32⟩
  | 102 => ⟨S256, .f32⟩
  | 103 => ⟨S1x256x256, .f32⟩
  | 104 => ⟨S256x256, .f32⟩
  | 105 => ⟨S256x256, .f32⟩
  | 106 => ⟨S1x256, .f32⟩
  | 107 => ⟨S256, .f32⟩
  | 108 => ⟨S1x256x256, .f32⟩
  | 109 => ⟨S256x256, .f32⟩
  | 110 => ⟨S256x256, .f32⟩
  | 111 => ⟨S1x256, .f32⟩
  | 112 => ⟨S256, .f32⟩
  | 113 => ⟨S1x256, .f32⟩
  | 114 => ⟨S1x256, .f32⟩
  | 115 => ⟨S1x256, .f32⟩
  | 116 => ⟨S50000x256, .f32⟩
  | 117 => ⟨S_, .i32⟩
  | 118 => ⟨S1000000, .i32⟩
  | 119 => ⟨S1000000, .i1⟩
  | 120 => ⟨S_, .i32⟩
  | 121 => ⟨S1000000, .i32⟩
  | 122 => ⟨S1000000, .i32⟩
  | 123 => ⟨S1000000, .i32⟩
  | 124 => ⟨S1000000x1, .i32⟩
  | 125 => ⟨S1000000x256, .f32⟩
  | 126 => ⟨S_, .f32⟩
  | 127 => ⟨S50000x256, .f32⟩
  | _ => ⟨S50000, .i32⟩

abbrev hbmTy0_1 (i : Nat) : BufTy := match i % 128 with
  | 0 => ⟨S1000000x1, .i32⟩
  | 1 => ⟨S50000x256, .f32⟩
  | 2 => ⟨S50000x256, .f32⟩
  | 3 => ⟨S50000x256, .f32⟩
  | 4 => ⟨S1x256x512, .f32⟩
  | 5 => ⟨S256x512, .f32⟩
  | 6 => ⟨S256x256, .f32⟩
  | 7 => ⟨S256x256, .f32⟩
  | 8 => ⟨S256x256, .f32⟩
  | 9 => ⟨S256x256, .f32⟩
  | 10 => ⟨S1x256, .f32⟩
  | 11 => ⟨S256, .f32⟩
  | 12 => ⟨S1x256, .f32⟩
  | 13 => ⟨S50000x256, .f32⟩
  | _ => ⟨S50000, .i32⟩

abbrev hbmTy (i : Nat) : BufTy := match i / 128 with
  | 0 => hbmTy0_0 i
  | 1 => hbmTy0_1 i
  | _ => ⟨S50000, .i32⟩

abbrev bufTy : (tb : Table) → Fin (tcTables nBuf tb) → BufTy
  | .hbm, ⟨i, _⟩ => hbmTy i
  | .local _ .vmem, ⟨0, _⟩ => ⟨S1000x64, .f32⟩
  | .local _ .vmem, ⟨1, _⟩ => ⟨S1000x64, .f32⟩
  | .local _ .vmem, ⟨2, _⟩ => ⟨S1000x300, .f32⟩
  | .local _ .vmem, ⟨3, _⟩ => ⟨S1000x300, .f32⟩
  | .local _ .vmem, ⟨4, _⟩ => ⟨S64x256, .f32⟩
  | .local _ .vmem, ⟨5, _⟩ => ⟨S1x256, .f32⟩
  | .local _ .vmem, ⟨6, _⟩ => ⟨S300x300, .f32⟩
  | .local _ .vmem, ⟨7, _⟩ => ⟨S1x300, .f32⟩
  | .local _ .vmem, ⟨8, _⟩ => ⟨S300x256, .f32⟩
  | .local _ .vmem, ⟨9, _⟩ => ⟨S1x256, .f32⟩
  | .local _ .vmem, ⟨10, _⟩ => ⟨S1000x256, .f32⟩
  | .local _ .vmem, ⟨11, _⟩ => ⟨S1000x256, .f32⟩
  | .local _ .vmem, ⟨12, _⟩ => ⟨S1000x256, .f32⟩
  | .local _ .vmem, ⟨13, _⟩ => ⟨S1000x256, .f32⟩
  | .local _ .vmem, ⟨14, _⟩ => ⟨S1000x256, .f32⟩
  | .local _ .vmem, ⟨15, _⟩ => ⟨S1000x256, .f32⟩
  | .local _ .vmem, ⟨16, _⟩ => ⟨S256x256, .f32⟩
  | .local _ .vmem, ⟨17, _⟩ => ⟨S256x256, .f32⟩
  | .local _ .vmem, ⟨18, _⟩ => ⟨S1x256, .f32⟩
  | .local _ .vmem, ⟨19, _⟩ => ⟨S256x256, .f32⟩
  | .local _ .vmem, ⟨20, _⟩ => ⟨S1x256, .f32⟩
  | .local _ .vmem, ⟨21, _⟩ => ⟨S256x256, .f32⟩
  | .local _ .vmem, ⟨22, _⟩ => ⟨S1x256, .f32⟩
  | .local _ .vmem, ⟨23, _⟩ => ⟨S1000x256, .f32⟩
  | .local _ .vmem, ⟨24, _⟩ => ⟨S1000x256, .f32⟩
  | .local _ .vmem, ⟨25, _⟩ => ⟨S1000x256, .f32⟩
  | .local _ .vmem, ⟨26, _⟩ => ⟨S1000x256, .f32⟩
  | .local _ .vmem, ⟨27, _⟩ => ⟨S1000x256, .f32⟩
  | .local _ .vmem, ⟨28, _⟩ => ⟨S1000x256, .f32⟩
  | .local _ .vmem, ⟨29, _⟩ => ⟨S256x256, .f32⟩
  | .local _ .vmem, ⟨30, _⟩ => ⟨S256x256, .f32⟩
  | .local _ .vmem, ⟨31, _⟩ => ⟨S1x256, .f32⟩
  | .local _ .vmem, ⟨32, _⟩ => ⟨S256x256, .f32⟩
  | .local _ .vmem, ⟨33, _⟩ => ⟨S1x256, .f32⟩
  | .local _ .vmem, ⟨34, _⟩ => ⟨S256x256, .f32⟩
  | .local _ .vmem, ⟨35, _⟩ => ⟨S1x256, .f32⟩
  | .local _ .vmem, ⟨36, _⟩ => ⟨S1000x256, .f32⟩
  | .local _ .vmem, ⟨37, _⟩ => ⟨S1000x256, .f32⟩
  | .local _ .vmem, ⟨38, _⟩ => ⟨S1000x256, .f32⟩
  | .local _ .vmem, ⟨39, _⟩ => ⟨S1000x256, .f32⟩
  | .local _ .vmem, ⟨40, _⟩ => ⟨S1000x256, .f32⟩
  | .local _ .vmem, ⟨41, _⟩ => ⟨S1000x256, .f32⟩
  | .local _ .vmem, ⟨42, _⟩ => ⟨S256x256, .f32⟩
  | .local _ .vmem, ⟨43, _⟩ => ⟨S256x256, .f32⟩
  | .local _ .vmem, ⟨44, _⟩ => ⟨S1x256, .f32⟩
  | .local _ .vmem, ⟨45, _⟩ => ⟨S1000x256, .f32⟩
  | .local _ .vmem, ⟨46, _⟩ => ⟨S1000x256, .f32⟩
  | _, _ => ⟨S50000, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | _, _ => false

abbrev semScoped : Fin 0 → Bool
  | ⟨_, h⟩ => absurd h (Nat.not_lt_zero _)

abbrev dmaSemScoped : Fin 47 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | _ => false

abbrev sig : RefSig :=
  ofTc nBuf bufTy 0 47 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_c : Ref sig .tc := ⟨.hbm, 17, rfl⟩
abbrev main_v0 : Ref sig .tc := ⟨.hbm, 18, rfl⟩
abbrev main_v1 : Ref sig .tc := ⟨.hbm, 19, rfl⟩
abbrev main_c_0 : Ref sig .tc := ⟨.hbm, 20, rfl⟩
abbrev main_v2 : Ref sig .tc := ⟨.hbm, 21, rfl⟩
abbrev main_v3 : Ref sig .tc := ⟨.hbm, 22, rfl⟩
abbrev main_v4 : Ref sig .tc := ⟨.hbm, 23, rfl⟩
abbrev main_v5 : Ref sig .tc := ⟨.hbm, 24, rfl⟩
abbrev main_v6 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_cst : Ref sig .tc := ⟨.hbm, 33, rfl⟩
abbrev main_v14 : Ref sig .tc := ⟨.hbm, 34, rfl⟩
abbrev main_cst_1 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_cst_2 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_c_3 : Ref sig .tc := ⟨.hbm, 43, rfl⟩
abbrev main_v21 : Ref sig .tc := ⟨.hbm, 44, rfl⟩
abbrev main_v22 : Ref sig .tc := ⟨.hbm, 45, rfl⟩
abbrev main_c_4 : Ref sig .tc := ⟨.hbm, 46, rfl⟩
abbrev main_v23 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_cst_5 : Ref sig .tc := ⟨.hbm, 52, rfl⟩
abbrev main_v28 : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_c_6 : Ref sig .tc := ⟨.hbm, 80, rfl⟩
abbrev main_v55 : Ref sig .tc := ⟨.hbm, 81, rfl⟩
abbrev main_v56 : Ref sig .tc := ⟨.hbm, 82, rfl⟩
abbrev main_c_7 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_cst_8 : Ref sig .tc := ⟨.hbm, 89, rfl⟩
abbrev main_v62 : Ref sig .tc := ⟨.hbm, 90, rfl⟩
abbrev main_v63 : Ref sig .tc := ⟨.hbm, 91, rfl⟩
abbrev main_v64 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩
abbrev main_v72 : Ref sig .tc := ⟨.hbm, 100, rfl⟩
abbrev main_v73 : Ref sig .tc := ⟨.hbm, 101, rfl⟩
abbrev main_v74 : Ref sig .tc := ⟨.hbm, 102, rfl⟩
abbrev main_v75 : Ref sig .tc := ⟨.hbm, 103, rfl⟩
abbrev main_v76 : Ref sig .tc := ⟨.hbm, 104, rfl⟩
abbrev main_v77 : Ref sig .tc := ⟨.hbm, 105, rfl⟩
abbrev main_v78 : Ref sig .tc := ⟨.hbm, 106, rfl⟩
abbrev main_v79 : Ref sig .tc := ⟨.hbm, 107, rfl⟩
abbrev main_v80 : Ref sig .tc := ⟨.hbm, 108, rfl⟩
abbrev main_v81 : Ref sig .tc := ⟨.hbm, 109, rfl⟩
abbrev main_v82 : Ref sig .tc := ⟨.hbm, 110, rfl⟩
abbrev main_v83 : Ref sig .tc := ⟨.hbm, 111, rfl⟩
abbrev main_v84 : Ref sig .tc := ⟨.hbm, 112, rfl⟩
abbrev main_v85 : Ref sig .tc := ⟨.hbm, 113, rfl⟩
abbrev main_v86 : Ref sig .tc := ⟨.hbm, 114, rfl⟩
abbrev main_v87 : Ref sig .tc := ⟨.hbm, 115, rfl⟩
abbrev main_v88 : Ref sig .tc := ⟨.hbm, 116, rfl⟩
abbrev main_c_9 : Ref sig .tc := ⟨.hbm, 117, rfl⟩
abbrev main_v89 : Ref sig .tc := ⟨.hbm, 118, rfl⟩
abbrev main_v90 : Ref sig .tc := ⟨.hbm, 119, rfl⟩
abbrev main_c_10 : Ref sig .tc := ⟨.hbm, 120, rfl⟩
abbrev main_v91 : Ref sig .tc := ⟨.hbm, 121, rfl⟩
abbrev main_v92 : Ref sig .tc := ⟨.hbm, 122, rfl⟩
abbrev main_v93 : Ref sig .tc := ⟨.hbm, 123, rfl⟩
abbrev main_v94 : Ref sig .tc := ⟨.hbm, 124, rfl⟩
abbrev main_v95 : Ref sig .tc := ⟨.hbm, 125, rfl⟩
abbrev main_cst_11 : Ref sig .tc := ⟨.hbm, 126, rfl⟩
abbrev main_v96 : Ref sig .tc := ⟨.hbm, 127, rfl⟩
abbrev main_v97 : Ref sig .tc := ⟨.hbm, 128, rfl⟩
abbrev main_v98 : Ref sig .tc := ⟨.hbm, 129, rfl⟩
abbrev main_v99 : Ref sig .tc := ⟨.hbm, 130, rfl⟩
abbrev main_v100 : Ref sig .tc := ⟨.hbm, 131, rfl⟩
abbrev main_v101 : Ref sig .tc := ⟨.hbm, 132, rfl⟩
abbrev main_v102 : Ref sig .tc := ⟨.hbm, 133, rfl⟩
abbrev main_v103 : Ref sig .tc := ⟨.hbm, 134, rfl⟩
abbrev main_v104 : Ref sig .tc := ⟨.hbm, 135, rfl⟩
abbrev main_v105 : Ref sig .tc := ⟨.hbm, 136, rfl⟩
abbrev main_v106 : Ref sig .tc := ⟨.hbm, 137, rfl⟩
abbrev main_v107 : Ref sig .tc := ⟨.hbm, 138, rfl⟩
abbrev main_v108 : Ref sig .tc := ⟨.hbm, 139, rfl⟩
abbrev main_v109 : Ref sig .tc := ⟨.hbm, 140, rfl⟩
abbrev main_v110 : Ref sig .tc := ⟨.hbm, 141, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg8_1 : Ref sig .tc := ⟨.vmem, 11, rfl⟩
abbrev cc1_stg0_0 : Ref sig .tc := ⟨.vmem, 12, rfl⟩
abbrev cc1_stg0_1 : Ref sig .tc := ⟨.vmem, 13, rfl⟩
abbrev cc1_stg1_0 : Ref sig .tc := ⟨.vmem, 14, rfl⟩
abbrev cc1_stg1_1 : Ref sig .tc := ⟨.vmem, 15, rfl⟩
abbrev cc1_stg2_0 : Ref sig .tc := ⟨.vmem, 16, rfl⟩
abbrev cc1_stg3_0 : Ref sig .tc := ⟨.vmem, 17, rfl⟩
abbrev cc1_stg4_0 : Ref sig .tc := ⟨.vmem, 18, rfl⟩
abbrev cc1_stg5_0 : Ref sig .tc := ⟨.vmem, 19, rfl⟩
abbrev cc1_stg6_0 : Ref sig .tc := ⟨.vmem, 20, rfl⟩
abbrev cc1_stg7_0 : Ref sig .tc := ⟨.vmem, 21, rfl⟩
abbrev cc1_stg8_0 : Ref sig .tc := ⟨.vmem, 22, rfl⟩
abbrev cc1_stg9_0 : Ref sig .tc := ⟨.vmem, 23, rfl⟩
abbrev cc1_stg9_1 : Ref sig .tc := ⟨.vmem, 24, rfl⟩
abbrev cc2_stg0_0 : Ref sig .tc := ⟨.vmem, 25, rfl⟩
abbrev cc2_stg0_1 : Ref sig .tc := ⟨.vmem, 26, rfl⟩
abbrev cc2_stg1_0 : Ref sig .tc := ⟨.vmem, 27, rfl⟩
abbrev cc2_stg1_1 : Ref sig .tc := ⟨.vmem, 28, rfl⟩
abbrev cc2_stg2_0 : Ref sig .tc := ⟨.vmem, 29, rfl⟩
abbrev cc2_stg3_0 : Ref sig .tc := ⟨.vmem, 30, rfl⟩
abbrev cc2_stg4_0 : Ref sig .tc := ⟨.vmem, 31, rfl⟩
abbrev cc2_stg5_0 : Ref sig .tc := ⟨.vmem, 32, rfl⟩
abbrev cc2_stg6_0 : Ref sig .tc := ⟨.vmem, 33, rfl⟩
abbrev cc2_stg7_0 : Ref sig .tc := ⟨.vmem, 34, rfl⟩
abbrev cc2_stg8_0 : Ref sig .tc := ⟨.vmem, 35, rfl⟩
abbrev cc2_stg9_0 : Ref sig .tc := ⟨.vmem, 36, rfl⟩
abbrev cc2_stg9_1 : Ref sig .tc := ⟨.vmem, 37, rfl⟩
abbrev cc3_stg0_0 : Ref sig .tc := ⟨.vmem, 38, rfl⟩
abbrev cc3_stg0_1 : Ref sig .tc := ⟨.vmem, 39, rfl⟩
abbrev cc3_stg1_0 : Ref sig .tc := ⟨.vmem, 40, rfl⟩
abbrev cc3_stg1_1 : Ref sig .tc := ⟨.vmem, 41, rfl⟩
abbrev cc3_stg2_0 : Ref sig .tc := ⟨.vmem, 42, rfl⟩
abbrev cc3_stg3_0 : Ref sig .tc := ⟨.vmem, 43, rfl⟩
abbrev cc3_stg4_0 : Ref sig .tc := ⟨.vmem, 44, rfl⟩
abbrev cc3_stg5_0 : Ref sig .tc := ⟨.vmem, 45, rfl⟩
abbrev cc3_stg5_1 : Ref sig .tc := ⟨.vmem, 46, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem8_1 : DmaSem sig := 11
abbrev cc1_sem0_0 : DmaSem sig := 12
abbrev cc1_sem0_1 : DmaSem sig := 13
abbrev cc1_sem1_0 : DmaSem sig := 14
abbrev cc1_sem1_1 : DmaSem sig := 15
abbrev cc1_sem2_0 : DmaSem sig := 16
abbrev cc1_sem3_0 : DmaSem sig := 17
abbrev cc1_sem4_0 : DmaSem sig := 18
abbrev cc1_sem5_0 : DmaSem sig := 19
abbrev cc1_sem6_0 : DmaSem sig := 20
abbrev cc1_sem7_0 : DmaSem sig := 21
abbrev cc1_sem8_0 : DmaSem sig := 22
abbrev cc1_sem9_0 : DmaSem sig := 23
abbrev cc1_sem9_1 : DmaSem sig := 24
abbrev cc2_sem0_0 : DmaSem sig := 25
abbrev cc2_sem0_1 : DmaSem sig := 26
abbrev cc2_sem1_0 : DmaSem sig := 27
abbrev cc2_sem1_1 : DmaSem sig := 28
abbrev cc2_sem2_0 : DmaSem sig := 29
abbrev cc2_sem3_0 : DmaSem sig := 30
abbrev cc2_sem4_0 : DmaSem sig := 31
abbrev cc2_sem5_0 : DmaSem sig := 32
abbrev cc2_sem6_0 : DmaSem sig := 33
abbrev cc2_sem7_0 : DmaSem sig := 34
abbrev cc2_sem8_0 : DmaSem sig := 35
abbrev cc2_sem9_0 : DmaSem sig := 36
abbrev cc2_sem9_1 : DmaSem sig := 37
abbrev cc3_sem0_0 : DmaSem sig := 38
abbrev cc3_sem0_1 : DmaSem sig := 39
abbrev cc3_sem1_0 : DmaSem sig := 40
abbrev cc3_sem1_1 : DmaSem sig := 41
abbrev cc3_sem2_0 : DmaSem sig := 42
abbrev cc3_sem3_0 : DmaSem sig := 43
abbrev cc3_sem4_0 : DmaSem sig := 44
abbrev cc3_sem5_0 : DmaSem sig := 45
abbrev cc3_sem5_1 : DmaSem sig := 46

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1000x300 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S64x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S300x300 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x300 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S300x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S1000x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S1000x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1000x256 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S256x256 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S256x256 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x256 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S256x256 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x256 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S256x256 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S1x256 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 2 → Memref sig .tc .vmem S1000x256 .f32 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true]

abbrev grid2 : Pipeline.Grid := ⟨1, ![50], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_8 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_9 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S1000x256 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S1000x256 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S256x256 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S256x256 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x256 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S256x256 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S1x256 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 1 → Memref sig .tc .vmem S256x256 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false]

abbrev stage2_8 : Fin 1 → Memref sig .tc .vmem S1x256 .f32 := fun | 0 => Memref.whole cc2_stg8_0 | ⟨_ + 1, h⟩ => absurd h (Nat.not_lt.2 (Nat.le_add_left _ _))
abbrev sem2_8 : Fin 1 → DmaSem sig := fun | 0 => cc2_sem8_0 | ⟨_ + 1, h⟩ => absurd h (Nat.not_lt.2 (Nat.le_add_left _ _))
abbrev reads2_8 : Fin grid2.rank → Bool := ![false]

abbrev stage2_9 : Fin 2 → Memref sig .tc .vmem S1000x256 .f32 := fun | 0 => Memref.whole cc2_stg9_0 | 1 => Memref.whole cc2_stg9_1 | ⟨_ + 2, h⟩ => absurd h (Nat.not_lt.2 (Nat.le_add_left _ _))
abbrev sem2_9 : Fin 2 → DmaSem sig := fun | 0 => cc2_sem9_0 | 1 => cc2_sem9_1 | ⟨_ + 2, h⟩ => absurd h (Nat.not_lt.2 (Nat.le_add_left _ _))
abbrev reads2_9 : Fin grid2.rank → Bool := ![true]

abbrev grid3 : Pipeline.Grid := ⟨1, ![50], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S1000x256 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S1000x256 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S256x256 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S256x256 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x256 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 2 → Memref sig .tc .vmem S1000x256 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

class Facts₀ : Prop where
  bcast_S_S50000 : S_.BroadcastsInDim S50000 (![] : Fin 0 → Fin S50000.rank)
  bcast_S50000_S50000x1_0 : S50000.BroadcastsInDim S50000x1 (![0] : Fin 1 → Fin S50000x1.rank)
  transposes_S256x64_S64x256_1_0 : S256x64.Transposes [1, 0] S64x256
  transposes_S300x300_S300x300_1_0 : S300x300.Transposes [1, 0] S300x300
  transposes_S256x300_S300x256_1_0 : S256x300.Transposes [1, 0] S300x256
  shapeCasts_S256_S1x256 : S256.ShapeCasts S1x256
  shapeCasts_S300_S1x300 : S300.ShapeCasts S1x300
  inb_S1000x64_S1000x64_0_0 : ∀ a, (![0, 0] : Fin 2 → Nat) a + S1000x64.size a ≤ S1000x64.size a
  h_S1000x64 : 0 < S1000x64.numel
  shapeCasts_S1000x64_S1000x64 : S1000x64.ShapeCasts S1000x64
  bitsLt_bf16_f32 : FTy.bits .bf16 < FTy.bits .f32
  inb_S64x256_S64x256_0_0 : ∀ a, (![0, 0] : Fin 2 → Nat) a + S64x256.size a ≤ S64x256.size a
  h_S64x256 : 0 < S64x256.numel
  shapeCasts_S64x256_S64x256 : S64x256.ShapeCasts S64x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S1000x256 : S1x256.Broadcasts S1000x256
  inb_S1000x300_S1000x300_0_0 : ∀ a, (![0, 0] : Fin 2 → Nat) a + S1000x300.size a ≤ S1000x300.size a
  h_S1000x300 : 0 < S1000x300.numel
  inb_S300x300_S300x300_0_0 : ∀ a, (![0, 0] : Fin 2 → Nat) a + S300x300.size a ≤ S300x300.size a
  h_S300x300 : 0 < S300x300.numel
  shapeCasts_S300x300_S300x300 : S300x300.ShapeCasts S300x300
  inb_S1x300_S1x300_0_0 : ∀ a, (![0, 0] : Fin 2 → Nat) a + S1x300.size a ≤ S1x300.size a
  h_S1x300 : 0 < S1x300.numel
  shapeCasts_S1x300_S1x300 : S1x300.ShapeCasts S1x300
  broadcasts_S1x300_S1000x300 : S1x300.Broadcasts S1000x300
  inb_S300x256_S300x256_0_0 : ∀ a, (![0, 0] : Fin 2 → Nat) a + S300x256.size a ≤ S300x256.size a
  h_S300x256 : 0 < S300x256.numel
  shapeCasts_S300x256_S300x256 : S300x256.ShapeCasts S300x256
  inb_S1000x256_S1000x256_0_0 : ∀ a, (![0, 0] : Fin 2 → Nat) a + S1000x256.size a ≤ S1000x256.size a
  h_S1000x256 : 0 < S1000x256.numel
  bcast_S_S1000000 : S_.BroadcastsInDim S1000000 (![] : Fin 0 → Fin S1000000.rank)
  bcast_S1000000_S1000000x1_0 : S1000000.BroadcastsInDim S1000000x1 (![0] : Fin 1 → Fin S1000000x1.rank)
  bcast_S_S50000x256 : S_.BroadcastsInDim S50000x256 (![] : Fin 0 → Fin S50000x256.rank)
  bcast_S50000x1_S50000x256_0_1 : S50000x1.BroadcastsInDim S50000x256 (![0, 1] : Fin 2 → Fin S50000x256.rank)
  slices_S3x256x512_S1x256x512_0_0_0 : S3x256x512.Slices ![0, 0, 0] S1x256x512
  shapeCasts_S1x256x512_S256x512 : S1x256x512.ShapeCasts S256x512
  slices_S256x512_S256x256_0_0 : S256x512.Slices ![0, 0] S256x256
  transposes_S256x256_S256x256_1_0 : S256x256.Transposes [1, 0] S256x256
  slices_S256x512_S256x256_0_256 : S256x512.Slices ![0, 256] S256x256
  slices_S3x256_S1x256_0_0 : S3x256.Slices ![0, 0] S1x256
  shapeCasts_S1x256_S256 : S1x256.ShapeCasts S256
  slices_S2x256x256_S1x256x256_0_0_0 : S2x256x256.Slices ![0, 0, 0] S1x256x256
  shapeCasts_S1x256x256_S256x256 : S1x256x256.ShapeCasts S256x256
  slices_S2x256_S1x256_0_0 : S2x256.Slices ![0, 0] S1x256
  shapeCasts_S1000x256_S1000x256 : S1000x256.ShapeCasts S1000x256
  inb_S256x256_S256x256_0_0 : ∀ a, (![0, 0] : Fin 2 → Nat) a + S256x256.size a ≤ S256x256.size a
  h_S256x256 : 0 < S256x256.numel
  shapeCasts_S256x256_S256x256 : S256x256.ShapeCasts S256x256
  reduces_S1000x256_S1000 : S1000x256.Reduces [1] S1000
  shapeCasts_S1000_S1000x1 : S1000.ShapeCasts S1000x1
  broadcasts_S1000x1_S1000x256 : S1000x1.Broadcasts S1000x256
  slices_S3x256x512_S1x256x512_1_0_0 : S3x256x512.Slices ![1, 0, 0] S1x256x512
  slices_S3x256_S1x256_1_0 : S3x256.Slices ![1, 0] S1x256
  slices_S2x256x256_S1x256x256_1_0_0 : S2x256x256.Slices ![1, 0, 0] S1x256x256
  slices_S2x256_S1x256_1_0 : S2x256.Slices ![1, 0] S1x256
  slices_S3x256x512_S1x256x512_2_0_0 : S3x256x512.Slices ![2, 0, 0] S1x256x512
  slices_S3x256_S1x256_2_0 : S3x256.Slices ![2, 0] S1x256
  gather_S50001x64_S50000x1_S50000x64_1_0_n_n_0_1_164_wf : GatherDims.WF S50001x64 S50000x1 S50000x64 [1] [0] [] [0] [] 1 ![1, 64]
  dot_S1000x64_S64x256_S1000x256_1_0_0_1_n_n_wf : DotDims.WF S1000x64 S64x256 S1000x256 [1] [0] [0] [1] [] []
  dot_S1000x300_S300x300_S1000x300_1_0_0_1_n_n_wf : DotDims.WF S1000x300 S300x300 S1000x300 [1] [0] [0] [1] [] []
  dot_S1000x300_S300x256_S1000x256_1_0_0_1_n_n_wf : DotDims.WF S1000x300 S300x256 S1000x256 [1] [0] [0] [1] [] []
  scatter_S50000_S1000000x1_S1000000_n_0_0_1_wf : ScatterDims.WF S50000 S1000000x1 S1000000 [] [0] [0] 1
  gather_S50000x256_S1000000x1_S1000000x256_1_0_n_n_0_1_1256_wf : GatherDims.WF S50000x256 S1000000x1 S1000000x256 [1] [0] [] [0] [] 1 ![1, 256]
  scatter_S50000x256_S1000000x1_S1000000x256_1_0_0_1_wf : ScatterDims.WF S50000x256 S1000000x1 S1000000x256 [1] [0] [0] 1
  dot_S1000x256_S256x256_S1000x256_1_0_0_1_n_n_wf : DotDims.WF S1000x256 S256x256 S1000x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1000x64.size a ≤ S50000x64.size a
  hwx0_0 : ∀ i : grid0.Coords, EltTy.bits .f32 = 32 ∨ (Rect.block (s := S50000x64) S1000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1000x300.size a ≤ S50000x300.size a
  hwx0_1 : ∀ i : grid0.Coords, EltTy.bits .f32 = 32 ∨ (Rect.block (s := S50000x300) S1000x300.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x256.size a ≤ S64x256.size a
  hwx0_2 : ∀ i : grid0.Coords, EltTy.bits .f32 = 32 ∨ (Rect.block (s := S64x256) S64x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x256.size a ≤ S1x256.size a
  hwx0_3 : ∀ i : grid0.Coords, EltTy.bits .f32 = 32 ∨ (Rect.block (s := S1x256) S1x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S300x300.size a ≤ S300x300.size a
  hwx0_4 : ∀ i : grid0.Coords, EltTy.bits .f32 = 32 ∨ (Rect.block (s := S300x300) S300x300.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x300.size a ≤ S1x300.size a
  hwx0_5 : ∀ i : grid0.Coords, EltTy.bits .f32 = 32 ∨ (Rect.block (s := S1x300) S1x300.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S300x256.size a ≤ S300x256.size a
  hwx0_6 : ∀ i : grid0.Coords, EltTy.bits .f32 = 32 ∨ (Rect.block (s := S300x256) S300x256.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x256.size a ≤ S1x256.size a
  hwx0_7 : ∀ i : grid0.Coords, EltTy.bits .f32 = 32 ∨ (Rect.block (s := S1x256) S1x256.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S1000x256.size a ≤ S50000x256.size a
  hwx0_8 : ∀ i : grid0.Coords, EltTy.bits .f32 = 32 ∨ (Rect.block (s := S50000x256) S1000x256.size (cc0_transform_8 i) (hinb0_8 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1000x256.size a ≤ S50000x256.size a
  hwx1_0 : ∀ i : grid1.Coords, EltTy.bits .f32 = 32 ∨ (Rect.block (s := S50000x256) S1000x256.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1000x256.size a ≤ S50000x256.size a
  hwx1_1 : ∀ i : grid1.Coords, EltTy.bits .f32 = 32 ∨ (Rect.block (s := S50000x256) S1000x256.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S256x256.size a ≤ S256x256.size a
  hwx1_2 : ∀ i : grid1.Coords, EltTy.bits .f32 = 32 ∨ (Rect.block (s := S256x256) S256x256.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S256x256.size a ≤ S256x256.size a
  hwx1_3 : ∀ i : grid1.Coords, EltTy.bits .f32 = 32 ∨ (Rect.block (s := S256x256) S256x256.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x256.size a ≤ S1x256.size a
  hwx1_4 : ∀ i : grid1.Coords, EltTy.bits .f32 = 32 ∨ (Rect.block (s := S1x256) S1x256.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S256x256.size a ≤ S256x256.size a
  hwx1_5 : ∀ i : grid1.Coords, EltTy.bits .f32 = 32 ∨ (Rect.block (s := S256x256) S256x256.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x256.size a ≤ S1x256.size a
  hwx1_6 : ∀ i : grid1.Coords, EltTy.bits .f32 = 32 ∨ (Rect.block (s := S1x256) S1x256.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S256x256.size a ≤ S256x256.size a
  hwx1_7 : ∀ i : grid1.Coords, EltTy.bits .f32 = 32 ∨ (Rect.block (s := S256x256) S256x256.size (cc1_transform_7 i) (hinb1_7 i)).WholeWords (EltTy.packing .f32)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S1x256.size a ≤ S1x256.size a
  hwx1_8 : ∀ i : grid1.Coords, EltTy.bits .f32 = 32 ∨ (Rect.block (s := S1x256) S1x256.size (cc1_transform_8 i) (hinb1_8 i)).WholeWords (EltTy.packing .f32)
  hstage1_9 : ∀ j, (stage1_9 j).IsWhole
  nbuf1_9 : grid1.bufCount reads1_9 false = 2
  hreads1_9 : ∀ i i' : grid1.Coords, (∀ a, reads1_9 a = true → i a = i' a) → cc1_transform_9 i = cc1_transform_9 i'
  hinb1_9 : ∀ (i : grid1.Coords) a, (cc1_transform_9 i a + 1) * S1000x256.size a ≤ S50000x256.size a
  hwx1_9 : ∀ i : grid1.Coords, EltTy.bits .f32 = 32 ∨ (Rect.block (s := S50000x256) S1000x256.size (cc1_transform_9 i) (hinb1_9 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1000x256.size a ≤ S50000x256.size a
  hwx2_0 : ∀ i : grid2.Coords, EltTy.bits .f32 = 32 ∨ (Rect.block (s := S50000x256) S1000x256.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S1000x256.size a ≤ S50000x256.size a
  hwx2_1 : ∀ i : grid2.Coords, EltTy.bits .f32 = 32 ∨ (Rect.block (s := S50000x256) S1000x256.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S256x256.size a ≤ S256x256.size a
  hwx2_2 : ∀ i : grid2.Coords, EltTy.bits .f32 = 32 ∨ (Rect.block (s := S256x256) S256x256.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S256x256.size a ≤ S256x256.size a
  hwx2_3 : ∀ i : grid2.Coords, EltTy.bits .f32 = 32 ∨ (Rect.block (s := S256x256) S256x256.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x256.size a ≤ S1x256.size a
  hwx2_4 : ∀ i : grid2.Coords, EltTy.bits .f32 = 32 ∨ (Rect.block (s := S1x256) S1x256.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S256x256.size a ≤ S256x256.size a
  hwx2_5 : ∀ i : grid2.Coords, EltTy.bits .f32 = 32 ∨ (Rect.block (s := S256x256) S256x256.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S1x256.size a ≤ S1x256.size a
  hwx2_6 : ∀ i : grid2.Coords, EltTy.bits .f32 = 32 ∨ (Rect.block (s := S1x256) S1x256.size (cc2_transform_6 i) (hinb2_6 i)).WholeWords (EltTy.packing .f32)
  hstage2_7 : ∀ j, (stage2_7 j).IsWhole
  nbuf2_7 : grid2.bufCount reads2_7 true = 1
  hreads2_7 : ∀ i i' : grid2.Coords, (∀ a, reads2_7 a = true → i a = i' a) → cc2_transform_7 i = cc2_transform_7 i'
  hinb2_7 : ∀ (i : grid2.Coords) a, (cc2_transform_7 i a + 1) * S256x256.size a ≤ S256x256.size a
  hwx2_7 : ∀ i : grid2.Coords, EltTy.bits .f32 = 32 ∨ (Rect.block (s := S256x256) S256x256.size (cc2_transform_7 i) (hinb2_7 i)).WholeWords (EltTy.packing .f32)
  hstage2_8 : ∀ j, (stage2_8 j).IsWhole
  nbuf2_8 : grid2.bufCount reads2_8 true = 1
  hreads2_8 : ∀ i i' : grid2.Coords, (∀ a, reads2_8 a = true → i a = i' a) → cc2_transform_8 i = cc2_transform_8 i'
  hinb2_8 : ∀ (i : grid2.Coords) a, (cc2_transform_8 i a + 1) * S1x256.size a ≤ S1x256.size a
  hwx2_8 : ∀ i : grid2.Coords, EltTy.bits .f32 = 32 ∨ (Rect.block (s := S1x256) S1x256.size (cc2_transform_8 i) (hinb2_8 i)).WholeWords (EltTy.packing .f32)
  hstage2_9 : ∀ j, (stage2_9 j).IsWhole
  nbuf2_9 : grid2.bufCount reads2_9 false = 2
  hreads2_9 : ∀ i i' : grid2.Coords, (∀ a, reads2_9 a = true → i a = i' a) → cc2_transform_9 i = cc2_transform_9 i'
  hinb2_9 : ∀ (i : grid2.Coords) a, (cc2_transform_9 i a + 1) * S1000x256.size a ≤ S50000x256.size a
  hwx2_9 : ∀ i : grid2.Coords, EltTy.bits .f32 = 32 ∨ (Rect.block (s := S50000x256) S1000x256.size (cc2_transform_9 i) (hinb2_9 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S1000x256.size a ≤ S50000x256.size a
  hwx3_0 : ∀ i : grid3.Coords, EltTy.bits .f32 = 32 ∨ (Rect.block (s := S50000x256) S1000x256.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S1000x256.size a ≤ S50000x256.size a
  hwx3_1 : ∀ i : grid3.Coords, EltTy.bits .f32 = 32 ∨ (Rect.block (s := S50000x256) S1000x256.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S256x256.size a ≤ S256x256.size a
  hwx3_2 : ∀ i : grid3.Coords, EltTy.bits .f32 = 32 ∨ (Rect.block (s := S256x256) S256x256.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S256x256.size a ≤ S256x256.size a
  hwx3_3 : ∀ i : grid3.Coords, EltTy.bits .f32 = 32 ∨ (Rect.block (s := S256x256) S256x256.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x256.size a ≤ S1x256.size a
  hwx3_4 : ∀ i : grid3.Coords, EltTy.bits .f32 = 32 ∨ (Rect.block (s := S1x256) S1x256.size (cc3_transform_4 i) (hinb3_4 i)).WholeWords (EltTy.packing .f32)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S1000x256.size a ≤ S50000x256.size a
  hwx3_5 : ∀ i : grid3.Coords, EltTy.bits .f32 = 32 ∨ (Rect.block (s := S50000x256) S1000x256.size (cc3_transform_5 i) (hinb3_5 i)).WholeWords (EltTy.packing .f32)

variable [Facts₀]

def gather_S50001x64_S50000x1_S50000x64_1_0_n_n_0_1_164 : GatherDims S50001x64 S50000x1 S50000x64 where
  offsetDims := [1]
  collapsedSliceDims := [0]
  operandBatchingDims := []
  startIndicesBatchingDims := []
  startIndexMap := [0]
  indexVectorDim := 1
  sliceSizes := ![1, 64]
  wf := gather_S50001x64_S50000x1_S50000x64_1_0_n_n_0_1_164_wf
def dot_S1000x64_S64x256_S1000x256_1_0_0_1_n_n : DotDims S1000x64 S64x256 S1000x256 where
  lhsContracting := [1]
  rhsContracting := [0]
  lhsNonContracting := [0]
  rhsNonContracting := [1]
  lhsBatch := []
  rhsBatch := []
  wf := dot_S1000x64_S64x256_S1000x256_1_0_0_1_n_n_wf
def dot_S1000x300_S300x300_S1000x300_1_0_0_1_n_n : DotDims S1000x300 S300x300 S1000x300 where
  lhsContracting := [1]
  rhsContracting := [0]
  lhsNonContracting := [0]
  rhsNonContracting := [1]
  lhsBatch := []
  rhsBatch := []
  wf := dot_S1000x300_S300x300_S1000x300_1_0_0_1_n_n_wf
def dot_S1000x300_S300x256_S1000x256_1_0_0_1_n_n : DotDims S1000x300 S300x256 S1000x256 where
  lhsContracting := [1]
  rhsContracting := [0]
  lhsNonContracting := [0]
  rhsNonContracting := [1]
  lhsBatch := []
  rhsBatch := []
  wf := dot_S1000x300_S300x256_S1000x256_1_0_0_1_n_n_wf
def scatter_S50000_S1000000x1_S1000000_n_0_0_1 : ScatterDims S50000 S1000000x1 S1000000 where
  updateWindowDims := []
  insertedWindowDims := [0]
  scatterDimsToOperandDims := [0]
  indexVectorDim := 1
  wf := scatter_S50000_S1000000x1_S1000000_n_0_0_1_wf
def gather_S50000x256_S1000000x1_S1000000x256_1_0_n_n_0_1_1256 : GatherDims S50000x256 S1000000x1 S1000000x256 where
  offsetDims := [1]
  collapsedSliceDims := [0]
  operandBatchingDims := []
  startIndicesBatchingDims := []
  startIndexMap := [0]
  indexVectorDim := 1
  sliceSizes := ![1, 256]
  wf := gather_S50000x256_S1000000x1_S1000000x256_1_0_n_n_0_1_1256_wf
def scatter_S50000x256_S1000000x1_S1000000x256_1_0_0_1 : ScatterDims S50000x256 S1000000x1 S1000000x256 where
  updateWindowDims := [1]
  insertedWindowDims := [0]
  scatterDimsToOperandDims := [0]
  indexVectorDim := 1
  wf := scatter_S50000x256_S1000000x1_S1000000x256_1_0_0_1_wf
def dot_S1000x256_S256x256_S1000x256_1_0_0_1_n_n : DotDims S1000x256 S256x256 S1000x256 where
  lhsContracting := [1]
  rhsContracting := [0]
  lhsNonContracting := [0]
  rhsNonContracting := [1]
  lhsBatch := []
  rhsBatch := []
  wf := dot_S1000x256_S256x256_S1000x256_1_0_0_1_n_n_wf

abbrev win0_0 : Pipeline.Window sig grid0 :=
  Pipeline.Window.ofSpec (Memref.whole main_v6) S1000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1000x300.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v7) S64x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v10) S1x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v8) S300x300.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v11) S1x300.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v9) S300x256.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v12) S1x256.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v13) S1000x256.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

abbrev win1_0 : Pipeline.Window sig grid1 :=
  Pipeline.Window.ofSpec (Memref.whole main_v13) S1000x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v32) S1000x256.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v36) S256x256.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v38) S256x256.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v51) S1x256.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v43) S256x256.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v52) S1x256.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v48) S256x256.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v53) S1x256.size cc1_transform_8 reads1_8 false true 1 stage1_8 sem1_8
    hrank1 hreads1_8 hinb1_8 nbuf1_8 (Memref.isWhole_whole _) hwx1_8 hstage1_8

abbrev win1_9 : Pipeline.Window sig grid1 :=
  Pipeline.Window.ofSpec (Memref.whole main_v54) S1000x256.size cc1_transform_9 reads1_9 true false 2 stage1_9 sem1_9
    hrank1 hreads1_9 hinb1_9 nbuf1_9 (Memref.isWhole_whole _) hwx1_9 hstage1_9

abbrev win1 : Fin 10 → Pipeline.Window sig grid1 := fun | 0 => win1_0 | 1 => win1_1 | 2 => win1_2 | 3 => win1_3 | 4 => win1_4 | 5 => win1_5 | 6 => win1_6 | 7 => win1_7 | 8 => win1_8 | 9 => win1_9 | ⟨_ + 10, h⟩ => absurd h (Nat.not_lt.2 (Nat.le_add_left _ _))
abbrev spec1 : Fin 10 → Pipeline.WinSpec sig grid1.rank := fun w => (win1 w).toWinSpec

abbrev win2_0 : Pipeline.Window sig grid2 :=
  Pipeline.Window.ofSpec (Memref.whole main_v54) S1000x256.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v66) S1000x256.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v70) S256x256.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v72) S256x256.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v85) S1x256.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v77) S256x256.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v86) S1x256.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_v82) S256x256.size cc2_transform_7 reads2_7 false true 1 stage2_7 sem2_7
    hrank2 hreads2_7 hinb2_7 nbuf2_7 (Memref.isWhole_whole _) hwx2_7 hstage2_7

abbrev win2_8 : Pipeline.Window sig grid2 :=
  Pipeline.Window.ofSpec (Memref.whole main_v87) S1x256.size cc2_transform_8 reads2_8 false true 1 stage2_8 sem2_8
    hrank2 hreads2_8 hinb2_8 nbuf2_8 (Memref.isWhole_whole _) hwx2_8 hstage2_8

abbrev win2_9 : Pipeline.Window sig grid2 :=
  Pipeline.Window.ofSpec (Memref.whole main_v88) S1000x256.size cc2_transform_9 reads2_9 true false 2 stage2_9 sem2_9
    hrank2 hreads2_9 hinb2_9 nbuf2_9 (Memref.isWhole_whole _) hwx2_9 hstage2_9

abbrev win2 : Fin 10 → Pipeline.Window sig grid2 := fun | 0 => win2_0 | 1 => win2_1 | 2 => win2_2 | 3 => win2_3 | 4 => win2_4 | 5 => win2_5 | 6 => win2_6 | 7 => win2_7 | 8 => win2_8 | 9 => win2_9 | ⟨_ + 10, h⟩ => absurd h (Nat.not_lt.2 (Nat.le_add_left _ _))
abbrev spec2 : Fin 10 → Pipeline.WinSpec sig grid2.rank := fun w => (win2 w).toWinSpec

abbrev win3_0 : Pipeline.Window sig grid3 :=
  Pipeline.Window.ofSpec (Memref.whole main_v88) S1000x256.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v100) S1000x256.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v104) S256x256.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v106) S256x256.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v109) S1x256.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v110) S1000x256.size cc3_transform_5 reads3_5 true false 2 stage3_5 sem3_5
    hrank3 hreads3_5 hinb3_5 nbuf3_5 (Memref.isWhole_whole _) hwx3_5 hstage3_5

abbrev win3 : Fin 6 → Pipeline.Window sig grid3 := fun | 0 => win3_0 | 1 => win3_1 | 2 => win3_2 | 3 => win3_3 | 4 => win3_4 | 5 => win3_5 | ⟨_ + 6, h⟩ => absurd h (Nat.not_lt.2 (Nat.le_add_left _ _))
abbrev spec3 : Fin 6 → Pipeline.WinSpec sig grid3.rank := fun w => (win3 w).toWinSpec

class Facts : Prop extends Facts₀ where

variable [Facts]
-- ==== ReferenceIdeal.lean ====
abbrev S50000 : Shape := ⟨1, ![50000]⟩
abbrev S50000x300 : Shape := ⟨2, ![50000, 300]⟩
abbrev S1000000 : Shape := ⟨1, ![1000000]⟩
abbrev S50001x64 : Shape := ⟨2, ![50001, 64]⟩
abbrev S256x64 : Shape := ⟨2, ![256, 64]⟩
abbrev S256 : Shape := ⟨1, ![256]⟩
abbrev S300x300 : Shape := ⟨2, ![300, 300]⟩
abbrev S300 : Shape := ⟨1, ![300]⟩
abbrev S256x300 : Shape := ⟨2, ![256, 300]⟩
abbrev S3x256x512 : Shape := ⟨3, ![3, 256, 512]⟩
abbrev S3x256 : Shape := ⟨2, ![3, 256]⟩
abbrev S2x256x256 : Shape := ⟨3, ![2, 256, 256]⟩
abbrev S2x256 : Shape := ⟨2, ![2, 256]⟩
abbrev S_ : Shape := ⟨0, ![]⟩
abbrev S50000x1 : Shape := ⟨2, ![50000, 1]⟩
abbrev S50000x64 : Shape := ⟨2, ![50000, 64]⟩
abbrev S64x256 : Shape := ⟨2, ![64, 256]⟩
abbrev S50000x256 : Shape := ⟨2, ![50000, 256]⟩
abbrev S1x256 : Shape := ⟨2, ![1, 256]⟩
abbrev S1x300 : Shape := ⟨2, ![1, 300]⟩
abbrev S300x256 : Shape := ⟨2, ![300, 256]⟩
abbrev S1000000x1 : Shape := ⟨2, ![1000000, 1]⟩
abbrev S1000000x256 : Shape := ⟨2, ![1000000, 256]⟩
abbrev S50000x512 : Shape := ⟨2, ![50000, 512]⟩
abbrev S1x256x512 : Shape := ⟨3, ![1, 256, 512]⟩
abbrev S256x512 : Shape := ⟨2, ![256, 512]⟩
abbrev S512x256 : Shape := ⟨2, ![512, 256]⟩
abbrev S1x256x256 : Shape := ⟨3, ![1, 256, 256]⟩
abbrev S256x256 : Shape := ⟨2, ![256, 256]⟩

abbrev nBuf : Space → Nat
  | .hbm => 273
  | .vmem => 0
  | .smem => 0
  | _ => 0

abbrev hbmTy0_0 (i : Nat) : BufTy := match i % 128 with
  | 0 => ⟨S50000, .i32⟩
  | 1 => ⟨S50000x300, .f32⟩
  | 2 => ⟨S1000000, .i32⟩
  | 3 => ⟨S1000000, .i32⟩
  | 4 => ⟨S50001x64, .f32⟩
  | 5 => ⟨S256x64, .f32⟩
  | 6 => ⟨S256, .f32⟩
  | 7 => ⟨S300x300, .f32⟩
  | 8 => ⟨S300, .f32⟩
  | 9 => ⟨S256x300, .f32⟩
  | 10 => ⟨S256, .f32⟩
  | 11 => ⟨S3x256x512, .f32⟩
  | 12 => ⟨S3x256, .f32⟩
  | 13 => ⟨S2x256x256, .f32⟩
  | 14 => ⟨S2x256, .f32⟩
  | 15 => ⟨S2x256x256, .f32⟩
  | 16 => ⟨S2x256, .f32⟩
  | 17 => ⟨S_, .i32⟩
  | 18 => ⟨S50000, .i32⟩
  | 19 => ⟨S50000, .i1⟩
  | 20 => ⟨S_, .i32⟩
  | 21 => ⟨S50000, .i32⟩
  | 22 => ⟨S50000, .i32⟩
  | 23 => ⟨S50000, .i32⟩
  | 24 => ⟨S50000x1, .i32⟩
  | 25 => ⟨S50000x64, .f32⟩
  | 26 => ⟨S64x256, .f32⟩
  | 27 => ⟨S50000x256, .f32⟩
  | 28 => ⟨S1x256, .f32⟩
  | 29 => ⟨S50000x256, .f32⟩
  | 30 => ⟨S50000x256, .f32⟩
  | 31 => ⟨S_, .f32⟩
  | 32 => ⟨S_, .f32⟩
  | 33 => ⟨S50000x256, .f32⟩
  | 34 => ⟨S50000x256, .i1⟩
  | 35 => ⟨S_, .f32⟩
  | 36 => ⟨S50000x256, .f32⟩
  | 37 => ⟨S50000x256, .f32⟩
  | 38 => ⟨S50000x256, .f32⟩
  | 39 => ⟨S300x300, .f32⟩
  | 40 => ⟨S50000x300, .f32⟩
  | 41 => ⟨S1x300, .f32⟩
  | 42 => ⟨S50000x300, .f32⟩
  | 43 => ⟨S50000x300, .f32⟩
  | 44 => ⟨S_, .f32⟩
  | 45 => ⟨S_, .f32⟩
  | 46 => ⟨S50000x300, .f32⟩
  | 47 => ⟨S50000x300, .i1⟩
  | 48 => ⟨S_, .f32⟩
  | 49 => ⟨S50000x300, .f32⟩
  | 50 => ⟨S50000x300, .f32⟩
  | 51 => ⟨S50000x300, .f32⟩
  | 52 => ⟨S300x256, .f32⟩
  | 53 => ⟨S50000x256, .f32⟩
  | 54 => ⟨S1x256, .f32⟩
  | 55 => ⟨S50000x256, .f32⟩
  | 56 => ⟨S50000x256, .f32⟩
  | 57 => ⟨S_, .f32⟩
  | 58 => ⟨S_, .f32⟩
  | 59 => ⟨S50000x256, .f32⟩
  | 60 => ⟨S50000x256, .i1⟩
  | 61 => ⟨S_, .f32⟩
  | 62 => ⟨S50000x256, .f32⟩
  | 63 => ⟨S50000x256, .f32⟩
  | 64 => ⟨S50000x256, .f32⟩
  | 65 => ⟨S50000x256, .f32⟩
  | 66 => ⟨S_, .f32⟩
  | 67 => ⟨S1000000, .f32⟩
  | 68 => ⟨S_, .f32⟩
  | 69 => ⟨S50000, .f32⟩
  | 70 => ⟨S1000000x1, .i32⟩
  | 71 => ⟨S50000, .f32⟩
  | 72 => ⟨S_, .f32⟩
  | 73 => ⟨S50000, .f32⟩
  | 74 => ⟨S50000, .f32⟩
  | 75 => ⟨S50000x1, .f32⟩
  | 76 => ⟨S_, .i32⟩
  | 77 => ⟨S1000000, .i32⟩
  | 78 => ⟨S1000000, .i1⟩
  | 79 => ⟨S_, .i32⟩
  | 80 => ⟨S1000000, .i32⟩
  | 81 => ⟨S1000000, .i32⟩
  | 82 => ⟨S1000000, .i32⟩
  | 83 => ⟨S1000000x1, .i32⟩
  | 84 => ⟨S1000000x256, .f32⟩
  | 85 => ⟨S_, .f32⟩
  | 86 => ⟨S50000x256, .f32⟩
  | 87 => ⟨S1000000x1, .i32⟩
  | 88 => ⟨S50000x256, .f32⟩
  | 89 => ⟨S50000x256, .f32⟩
  | 90 => ⟨S50000x256, .f32⟩
  | 91 => ⟨S_, .f32⟩
  | 92 => ⟨S50000x1, .f32⟩
  | 93 => ⟨S50000x1, .f32⟩
  | 94 => ⟨S_, .f32⟩
  | 95 => ⟨S50000x1, .f32⟩
  | 96 => ⟨S50000x1, .f32⟩
  | 97 => ⟨S50000x256, .f32⟩
  | 98 => ⟨S50000x256, .f32⟩
  | 99 => ⟨S50000x512, .f32⟩
  | 100 => ⟨S1x256x512, .f32⟩
  | 101 => ⟨S256x512, .f32⟩
  | 102 => ⟨S512x256, .f32⟩
  | 103 => ⟨S50000x256, .f32⟩
  | 104 => ⟨S1x256, .f32⟩
  | 105 => ⟨S256, .f32⟩
  | 106 => ⟨S1x256, .f32⟩
  | 107 => ⟨S50000x256, .f32⟩
  | 108 => ⟨S50000x256, .f32⟩
  | 109 => ⟨S_, .f32⟩
  | 110 => ⟨S_, .f32⟩
  | 111 => ⟨S50000x256, .f32⟩
  | 112 => ⟨S50000x256, .i1⟩
  | 113 => ⟨S_, .f32⟩
  | 114 => ⟨S50000x256, .f32⟩
  | 115 => ⟨S50000x256, .f32⟩
  | 116 => ⟨S50000x256, .f32⟩
  | 117 => ⟨S50000x256, .f32⟩
  | 118 => ⟨S_, .f32⟩
  | 119 => ⟨S50000, .f32⟩
  | 120 => ⟨S50000x1, .f32⟩
  | 121 => ⟨S50000x1, .f32⟩
  | 122 => ⟨S_, .f32⟩
  | 123 => ⟨S50000x1, .f32⟩
  | 124 => ⟨S50000x1, .f32⟩
  | 125 => ⟨S50000x256, .f32⟩
  | 126 => ⟨S50000x256, .f32⟩
  | 127 => ⟨S1x256x256, .f32⟩
  | _ => ⟨S50000, .i32⟩

abbrev hbmTy0_1 (i : Nat) : BufTy := match i % 128 with
  | 0 => ⟨S256x256, .f32⟩
  | 1 => ⟨S256x256, .f32⟩
  | 2 => ⟨S50000x256, .f32⟩
  | 3 => ⟨S1x256, .f32⟩
  | 4 => ⟨S256, .f32⟩
  | 5 => ⟨S1x256, .f32⟩
  | 6 => ⟨S50000x256, .f32⟩
  | 7 => ⟨S50000x256, .f32⟩
  | 8 => ⟨S_, .f32⟩
  | 9 => ⟨S_, .f32⟩
  | 10 => ⟨S50000x256, .f32⟩
  | 11 => ⟨S50000x256, .i1⟩
  | 12 => ⟨S_, .f32⟩
  | 13 => ⟨S50000x256, .f32⟩
  | 14 => ⟨S50000x256, .f32⟩
  | 15 => ⟨S50000x256, .f32⟩
  | 16 => ⟨S1x256x256, .f32⟩
  | 17 => ⟨S256x256, .f32⟩
  | 18 => ⟨S256x256, .f32⟩
  | 19 => ⟨S50000x256, .f32⟩
  | 20 => ⟨S1x256, .f32⟩
  | 21 => ⟨S256, .f32⟩
  | 22 => ⟨S1x256, .f32⟩
  | 23 => ⟨S50000x256, .f32⟩
  | 24 => ⟨S50000x256, .f32⟩
  | 25 => ⟨S_, .i32⟩
  | 26 => ⟨S1000000, .i32⟩
  | 27 => ⟨S1000000, .i1⟩
  | 28 => ⟨S_, .i32⟩
  | 29 => ⟨S1000000, .i32⟩
  | 30 => ⟨S1000000, .i32⟩
  | 31 => ⟨S1000000, .i32⟩
  | 32 => ⟨S1000000x1, .i32⟩
  | 33 => ⟨S1000000x256, .f32⟩
  | 34 => ⟨S_, .f32⟩
  | 35 => ⟨S50000x256, .f32⟩
  | 36 => ⟨S1000000x1, .i32⟩
  | 37 => ⟨S50000x256, .f32⟩
  | 38 => ⟨S50000x256, .f32⟩
  | 39 => ⟨S50000x256, .f32⟩
  | 40 => ⟨S_, .f32⟩
  | 41 => ⟨S50000x1, .f32⟩
  | 42 => ⟨S50000x1, .f32⟩
  | 43 => ⟨S_, .f32⟩
  | 44 => ⟨S50000x1, .f32⟩
  | 45 => ⟨S50000x1, .f32⟩
  | 46 => ⟨S50000x256, .f32⟩
  | 47 => ⟨S50000x256, .f32⟩
  | 48 => ⟨S50000x512, .f32⟩
  | 49 => ⟨S1x256x512, .f32⟩
  | 50 => ⟨S256x512, .f32⟩
  | 51 => ⟨S512x256, .f32⟩
  | 52 => ⟨S50000x256, .f32⟩
  | 53 => ⟨S1x256, .f32⟩
  | 54 => ⟨S256, .f32⟩
  | 55 => ⟨S1x256, .f32⟩
  | 56 => ⟨S50000x256, .f32⟩
  | 57 => ⟨S50000x256, .f32⟩
  | 58 => ⟨S_, .f32⟩
  | 59 => ⟨S_, .f32⟩
  | 60 => ⟨S50000x256, .f32⟩
  | 61 => ⟨S50000x256, .i1⟩
  | 62 => ⟨S_, .f32⟩
  | 63 => ⟨S50000x256, .f32⟩
  | 64 => ⟨S50000x256, .f32⟩
  | 65 => ⟨S50000x256, .f32⟩
  | 66 => ⟨S50000x256, .f32⟩
  | 67 => ⟨S_, .f32⟩
  | 68 => ⟨S50000, .f32⟩
  | 69 => ⟨S50000x1, .f32⟩
  | 70 => ⟨S50000x1, .f32⟩
  | 71 => ⟨S_, .f32⟩
  | 72 => ⟨S50000x1, .f32⟩
  | 73 => ⟨S50000x1, .f32⟩
  | 74 => ⟨S50000x256, .f32⟩
  | 75 => ⟨S50000x256, .f32⟩
  | 76 => ⟨S1x256x256, .f32⟩
  | 77 => ⟨S256x256, .f32⟩
  | 78 => ⟨S256x256, .f32⟩
  | 79 => ⟨S50000x256, .f32⟩
  | 80 => ⟨S1x256, .f32⟩
  | 81 => ⟨S256, .f32⟩
  | 82 => ⟨S1x256, .f32⟩
  | 83 => ⟨S50000x256, .f32⟩
  | 84 => ⟨S50000x256, .f32⟩
  | 85 => ⟨S_, .f32⟩
  | 86 => ⟨S_, .f32⟩
  | 87 => ⟨S50000x256, .f32⟩
  | 88 => ⟨S50000x256, .i1⟩
  | 89 => ⟨S_, .f32⟩
  | 90 => ⟨S50000x256, .f32⟩
  | 91 => ⟨S50000x256, .f32⟩
  | 92 => ⟨S50000x256, .f32⟩
  | 93 => ⟨S1x256x256, .f32⟩
  | 94 => ⟨S256x256, .f32⟩
  | 95 => ⟨S256x256, .f32⟩
  | 96 => ⟨S50000x256, .f32⟩
  | 97 => ⟨S1x256, .f32⟩
  | 98 => ⟨S256, .f32⟩
  | 99 => ⟨S1x256, .f32⟩
  | 100 => ⟨S50000x256, .f32⟩
  | 101 => ⟨S50000x256, .f32⟩
  | 102 => ⟨S_, .i32⟩
  | 103 => ⟨S1000000, .i32⟩
  | 104 => ⟨S1000000, .i1⟩
  | 105 => ⟨S_, .i32⟩
  | 106 => ⟨S1000000, .i32⟩
  | 107 => ⟨S1000000, .i32⟩
  | 108 => ⟨S1000000, .i32⟩
  | 109 => ⟨S1000000x1, .i32⟩
  | 110 => ⟨S1000000x256, .f32⟩
  | 111 => ⟨S_, .f32⟩
  | 112 => ⟨S50000x256, .f32⟩
  | 113 => ⟨S1000000x1, .i32⟩
  | 114 => ⟨S50000x256, .f32⟩
  | 115 => ⟨S50000x256, .f32⟩
  | 116 => ⟨S50000x256, .f32⟩
  | 117 => ⟨S_, .f32⟩
  | 118 => ⟨S50000x1, .f32⟩
  | 119 => ⟨S50000x1, .f32⟩
  | 120 => ⟨S_, .f32⟩
  | 121 => ⟨S50000x1, .f32⟩
  | 122 => ⟨S50000x1, .f32⟩
  | 123 => ⟨S50000x256, .f32⟩
  | 124 => ⟨S50000x256, .f32⟩
  | 125 => ⟨S50000x512, .f32⟩
  | 126 => ⟨S1x256x512, .f32⟩
  | 127 => ⟨S256x512, .f32⟩
  | _ => ⟨S50000, .i32⟩

abbrev hbmTy0_2 (i : Nat) : BufTy := match i % 128 with
  | 0 => ⟨S512x256, .f32⟩
  | 1 => ⟨S50000x256, .f32⟩
  | 2 => ⟨S1x256, .f32⟩
  | 3 => ⟨S256, .f32⟩
  | 4 => ⟨S1x256, .f32⟩
  | 5 => ⟨S50000x256, .f32⟩
  | 6 => ⟨S50000x256, .f32⟩
  | 7 => ⟨S50000x256, .f32⟩
  | 8 => ⟨S_, .f32⟩
  | 9 => ⟨S50000, .f32⟩
  | 10 => ⟨S50000x1, .f32⟩
  | 11 => ⟨S50000x1, .f32⟩
  | 12 => ⟨S_, .f32⟩
  | 13 => ⟨S50000x1, .f32⟩
  | 14 => ⟨S50000x1, .f32⟩
  | 15 => ⟨S50000x256, .f32⟩
  | 16 => ⟨S50000x256, .f32⟩
  | _ => ⟨S50000, .i32⟩

abbrev hbmTy (i : Nat) : BufTy := match i / 128 with
  | 0 => hbmTy0_0 i
  | 1 => hbmTy0_1 i
  | 2 => hbmTy0_2 i
  | _ => ⟨S50000, .i32⟩

abbrev bufTy : (tb : Table) → Fin (tcTables nBuf tb) → BufTy
  | .hbm, ⟨i, _⟩ => hbmTy i
  | _, _ => ⟨S50000, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_c : Ref sig .tc := ⟨.hbm, 17, rfl⟩
abbrev main_v0 : Ref sig .tc := ⟨.hbm, 18, rfl⟩
abbrev main_v1 : Ref sig .tc := ⟨.hbm, 19, rfl⟩
abbrev main_c_0 : Ref sig .tc := ⟨.hbm, 20, rfl⟩
abbrev main_v2 : Ref sig .tc := ⟨.hbm, 21, rfl⟩
abbrev main_v3 : Ref sig .tc := ⟨.hbm, 22, rfl⟩
abbrev main_v4 : Ref sig .tc := ⟨.hbm, 23, rfl⟩
abbrev main_v5 : Ref sig .tc := ⟨.hbm, 24, rfl⟩
abbrev main_v6 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_cst : Ref sig .tc := ⟨.hbm, 31, rfl⟩
abbrev main_call0_cst : Ref sig .tc := ⟨.hbm, 32, rfl⟩
abbrev main_call0_v0 : Ref sig .tc := ⟨.hbm, 33, rfl⟩
abbrev main_call0_v1 : Ref sig .tc := ⟨.hbm, 34, rfl⟩
abbrev main_call0_v2 : Ref sig .tc := ⟨.hbm, 35, rfl⟩
abbrev main_call0_v3 : Ref sig .tc := ⟨.hbm, 36, rfl⟩
abbrev main_call0_v4 : Ref sig .tc := ⟨.hbm, 37, rfl⟩
abbrev main_v12 : Ref sig .tc := ⟨.hbm, 38, rfl⟩
abbrev main_v13 : Ref sig .tc := ⟨.hbm, 39, rfl⟩
abbrev main_v14 : Ref sig .tc := ⟨.hbm, 40, rfl⟩
abbrev main_v15 : Ref sig .tc := ⟨.hbm, 41, rfl⟩
abbrev main_v16 : Ref sig .tc := ⟨.hbm, 42, rfl⟩
abbrev main_v17 : Ref sig .tc := ⟨.hbm, 43, rfl⟩
abbrev main_cst_1 : Ref sig .tc := ⟨.hbm, 44, rfl⟩
abbrev main_call1_cst : Ref sig .tc := ⟨.hbm, 45, rfl⟩
abbrev main_call1_v0 : Ref sig .tc := ⟨.hbm, 46, rfl⟩
abbrev main_call1_v1 : Ref sig .tc := ⟨.hbm, 47, rfl⟩
abbrev main_call1_v2 : Ref sig .tc := ⟨.hbm, 48, rfl⟩
abbrev main_call1_v3 : Ref sig .tc := ⟨.hbm, 49, rfl⟩
abbrev main_call1_v4 : Ref sig .tc := ⟨.hbm, 50, rfl⟩
abbrev main_v18 : Ref sig .tc := ⟨.hbm, 51, rfl⟩
abbrev main_v19 : Ref sig .tc := ⟨.hbm, 52, rfl⟩
abbrev main_v20 : Ref sig .tc := ⟨.hbm, 53, rfl⟩
abbrev main_v21 : Ref sig .tc := ⟨.hbm, 54, rfl⟩
abbrev main_v22 : Ref sig .tc := ⟨.hbm, 55, rfl⟩
abbrev main_v23 : Ref sig .tc := ⟨.hbm, 56, rfl⟩
abbrev main_cst_2 : Ref sig .tc := ⟨.hbm, 57, rfl⟩
abbrev main_call2_cst : Ref sig .tc := ⟨.hbm, 58, rfl⟩
abbrev main_call2_v0 : Ref sig .tc := ⟨.hbm, 59, rfl⟩
abbrev main_call2_v1 : Ref sig .tc := ⟨.hbm, 60, rfl⟩
abbrev main_call2_v2 : Ref sig .tc := ⟨.hbm, 61, rfl⟩
abbrev main_call2_v3 : Ref sig .tc := ⟨.hbm, 62, rfl⟩
abbrev main_call2_v4 : Ref sig .tc := ⟨.hbm, 63, rfl⟩
abbrev main_v24 : Ref sig .tc := ⟨.hbm, 64, rfl⟩
abbrev main_v25 : Ref sig .tc := ⟨.hbm, 65, rfl⟩
abbrev main_cst_3 : Ref sig .tc := ⟨.hbm, 66, rfl⟩
abbrev main_v26 : Ref sig .tc := ⟨.hbm, 67, rfl⟩
abbrev main_cst_4 : Ref sig .tc := ⟨.hbm, 68, rfl⟩
abbrev main_v27 : Ref sig .tc := ⟨.hbm, 69, rfl⟩
abbrev main_v28 : Ref sig .tc := ⟨.hbm, 70, rfl⟩
abbrev main_v29 : Ref sig .tc := ⟨.hbm, 71, rfl⟩
abbrev main_cst_5 : Ref sig .tc := ⟨.hbm, 72, rfl⟩
abbrev main_v30 : Ref sig .tc := ⟨.hbm, 73, rfl⟩
abbrev main_v31 : Ref sig .tc := ⟨.hbm, 74, rfl⟩
abbrev main_v32 : Ref sig .tc := ⟨.hbm, 75, rfl⟩
abbrev main_c_6 : Ref sig .tc := ⟨.hbm, 76, rfl⟩
abbrev main_v33 : Ref sig .tc := ⟨.hbm, 77, rfl⟩
abbrev main_v34 : Ref sig .tc := ⟨.hbm, 78, rfl⟩
abbrev main_c_7 : Ref sig .tc := ⟨.hbm, 79, rfl⟩
abbrev main_v35 : Ref sig .tc := ⟨.hbm, 80, rfl⟩
abbrev main_v36 : Ref sig .tc := ⟨.hbm, 81, rfl⟩
abbrev main_v37 : Ref sig .tc := ⟨.hbm, 82, rfl⟩
abbrev main_v38 : Ref sig .tc := ⟨.hbm, 83, rfl⟩
abbrev main_v39 : Ref sig .tc := ⟨.hbm, 84, rfl⟩
abbrev main_cst_8 : Ref sig .tc := ⟨.hbm, 85, rfl⟩
abbrev main_v40 : Ref sig .tc := ⟨.hbm, 86, rfl⟩
abbrev main_v41 : Ref sig .tc := ⟨.hbm, 87, rfl⟩
abbrev main_v42 : Ref sig .tc := ⟨.hbm, 88, rfl⟩
abbrev main_v43 : Ref sig .tc := ⟨.hbm, 89, rfl⟩
abbrev main_v44 : Ref sig .tc := ⟨.hbm, 90, rfl⟩
abbrev main_cst_9 : Ref sig .tc := ⟨.hbm, 91, rfl⟩
abbrev main_v45 : Ref sig .tc := ⟨.hbm, 92, rfl⟩
abbrev main_v46 : Ref sig .tc := ⟨.hbm, 93, rfl⟩
abbrev main_cst_10 : Ref sig .tc := ⟨.hbm, 94, rfl⟩
abbrev main_v47 : Ref sig .tc := ⟨.hbm, 95, rfl⟩
abbrev main_v48 : Ref sig .tc := ⟨.hbm, 96, rfl⟩
abbrev main_v49 : Ref sig .tc := ⟨.hbm, 97, rfl⟩
abbrev main_v50 : Ref sig .tc := ⟨.hbm, 98, rfl⟩
abbrev main_v51 : Ref sig .tc := ⟨.hbm, 99, rfl⟩
abbrev main_v52 : Ref sig .tc := ⟨.hbm, 100, rfl⟩
abbrev main_v53 : Ref sig .tc := ⟨.hbm, 101, rfl⟩
abbrev main_v54 : Ref sig .tc := ⟨.hbm, 102, rfl⟩
abbrev main_v55 : Ref sig .tc := ⟨.hbm, 103, rfl⟩
abbrev main_v56 : Ref sig .tc := ⟨.hbm, 104, rfl⟩
abbrev main_v57 : Ref sig .tc := ⟨.hbm, 105, rfl⟩
abbrev main_v58 : Ref sig .tc := ⟨.hbm, 106, rfl⟩
abbrev main_v59 : Ref sig .tc := ⟨.hbm, 107, rfl⟩
abbrev main_v60 : Ref sig .tc := ⟨.hbm, 108, rfl⟩
abbrev main_cst_11 : Ref sig .tc := ⟨.hbm, 109, rfl⟩
abbrev main_call3_cst : Ref sig .tc := ⟨.hbm, 110, rfl⟩
abbrev main_call3_v0 : Ref sig .tc := ⟨.hbm, 111, rfl⟩
abbrev main_call3_v1 : Ref sig .tc := ⟨.hbm, 112, rfl⟩
abbrev main_call3_v2 : Ref sig .tc := ⟨.hbm, 113, rfl⟩
abbrev main_call3_v3 : Ref sig .tc := ⟨.hbm, 114, rfl⟩
abbrev main_call3_v4 : Ref sig .tc := ⟨.hbm, 115, rfl⟩
abbrev main_v61 : Ref sig .tc := ⟨.hbm, 116, rfl⟩
abbrev main_call4_v0 : Ref sig .tc := ⟨.hbm, 117, rfl⟩
abbrev main_call4_cst : Ref sig .tc := ⟨.hbm, 118, rfl⟩
abbrev main_call4_v1 : Ref sig .tc := ⟨.hbm, 119, rfl⟩
abbrev main_call4_v2 : Ref sig .tc := ⟨.hbm, 120, rfl⟩
abbrev main_v62 : Ref sig .tc := ⟨.hbm, 121, rfl⟩
abbrev main_cst_12 : Ref sig .tc := ⟨.hbm, 122, rfl⟩
abbrev main_v63 : Ref sig .tc := ⟨.hbm, 123, rfl⟩
abbrev main_v64 : Ref sig .tc := ⟨.hbm, 124, rfl⟩
abbrev main_v65 : Ref sig .tc := ⟨.hbm, 125, rfl⟩
abbrev main_v66 : Ref sig .tc := ⟨.hbm, 126, rfl⟩
abbrev main_v67 : Ref sig .tc := ⟨.hbm, 127, rfl⟩
abbrev main_v68 : Ref sig .tc := ⟨.hbm, 128, rfl⟩
abbrev main_v69 : Ref sig .tc := ⟨.hbm, 129, rfl⟩
abbrev main_v70 : Ref sig .tc := ⟨.hbm, 130, rfl⟩
abbrev main_v71 : Ref sig .tc := ⟨.hbm, 131, rfl⟩
abbrev main_v72 : Ref sig .tc := ⟨.hbm, 132, rfl⟩
abbrev main_v73 : Ref sig .tc := ⟨.hbm, 133, rfl⟩
abbrev main_v74 : Ref sig .tc := ⟨.hbm, 134, rfl⟩
abbrev main_v75 : Ref sig .tc := ⟨.hbm, 135, rfl⟩
abbrev main_cst_13 : Ref sig .tc := ⟨.hbm, 136, rfl⟩
abbrev main_call5_cst : Ref sig .tc := ⟨.hbm, 137, rfl⟩
abbrev main_call5_v0 : Ref sig .tc := ⟨.hbm, 138, rfl⟩
abbrev main_call5_v1 : Ref sig .tc := ⟨.hbm, 139, rfl⟩
abbrev main_call5_v2 : Ref sig .tc := ⟨.hbm, 140, rfl⟩
abbrev main_call5_v3 : Ref sig .tc := ⟨.hbm, 141, rfl⟩
abbrev main_call5_v4 : Ref sig .tc := ⟨.hbm, 142, rfl⟩
abbrev main_v76 : Ref sig .tc := ⟨.hbm, 143, rfl⟩
abbrev main_v77 : Ref sig .tc := ⟨.hbm, 144, rfl⟩
abbrev main_v78 : Ref sig .tc := ⟨.hbm, 145, rfl⟩
abbrev main_v79 : Ref sig .tc := ⟨.hbm, 146, rfl⟩
abbrev main_v80 : Ref sig .tc := ⟨.hbm, 147, rfl⟩
abbrev main_v81 : Ref sig .tc := ⟨.hbm, 148, rfl⟩
abbrev main_v82 : Ref sig .tc := ⟨.hbm, 149, rfl⟩
abbrev main_v83 : Ref sig .tc := ⟨.hbm, 150, rfl⟩
abbrev main_v84 : Ref sig .tc := ⟨.hbm, 151, rfl⟩
abbrev main_v85 : Ref sig .tc := ⟨.hbm, 152, rfl⟩
abbrev main_c_14 : Ref sig .tc := ⟨.hbm, 153, rfl⟩
abbrev main_v86 : Ref sig .tc := ⟨.hbm, 154, rfl⟩
abbrev main_v87 : Ref sig .tc := ⟨.hbm, 155, rfl⟩
abbrev main_c_15 : Ref sig .tc := ⟨.hbm, 156, rfl⟩
abbrev main_v88 : Ref sig .tc := ⟨.hbm, 157, rfl⟩
abbrev main_v89 : Ref sig .tc := ⟨.hbm, 158, rfl⟩
abbrev main_v90 : Ref sig .tc := ⟨.hbm, 159, rfl⟩
abbrev main_v91 : Ref sig .tc := ⟨.hbm, 160, rfl⟩
abbrev main_v92 : Ref sig .tc := ⟨.hbm, 161, rfl⟩
abbrev main_cst_16 : Ref sig .tc := ⟨.hbm, 162, rfl⟩
abbrev main_v93 : Ref sig .tc := ⟨.hbm, 163, rfl⟩
abbrev main_v94 : Ref sig .tc := ⟨.hbm, 164, rfl⟩
abbrev main_v95 : Ref sig .tc := ⟨.hbm, 165, rfl⟩
abbrev main_v96 : Ref sig .tc := ⟨.hbm, 166, rfl⟩
abbrev main_v97 : Ref sig .tc := ⟨.hbm, 167, rfl⟩
abbrev main_cst_17 : Ref sig .tc := ⟨.hbm, 168, rfl⟩
abbrev main_v98 : Ref sig .tc := ⟨.hbm, 169, rfl⟩
abbrev main_v99 : Ref sig .tc := ⟨.hbm, 170, rfl⟩
abbrev main_cst_18 : Ref sig .tc := ⟨.hbm, 171, rfl⟩
abbrev main_v100 : Ref sig .tc := ⟨.hbm, 172, rfl⟩
abbrev main_v101 : Ref sig .tc := ⟨.hbm, 173, rfl⟩
abbrev main_v102 : Ref sig .tc := ⟨.hbm, 174, rfl⟩
abbrev main_v103 : Ref sig .tc := ⟨.hbm, 175, rfl⟩
abbrev main_v104 : Ref sig .tc := ⟨.hbm, 176, rfl⟩
abbrev main_v105 : Ref sig .tc := ⟨.hbm, 177, rfl⟩
abbrev main_v106 : Ref sig .tc := ⟨.hbm, 178, rfl⟩
abbrev main_v107 : Ref sig .tc := ⟨.hbm, 179, rfl⟩
abbrev main_v108 : Ref sig .tc := ⟨.hbm, 180, rfl⟩
abbrev main_v109 : Ref sig .tc := ⟨.hbm, 181, rfl⟩
abbrev main_v110 : Ref sig .tc := ⟨.hbm, 182, rfl⟩
abbrev main_v111 : Ref sig .tc := ⟨.hbm, 183, rfl⟩
abbrev main_v112 : Ref sig .tc := ⟨.hbm, 184, rfl⟩
abbrev main_v113 : Ref sig .tc := ⟨.hbm, 185, rfl⟩
abbrev main_cst_19 : Ref sig .tc := ⟨.hbm, 186, rfl⟩
abbrev main_call6_cst : Ref sig .tc := ⟨.hbm, 187, rfl⟩
abbrev main_call6_v0 : Ref sig .tc := ⟨.hbm, 188, rfl⟩
abbrev main_call6_v1 : Ref sig .tc := ⟨.hbm, 189, rfl⟩
abbrev main_call6_v2 : Ref sig .tc := ⟨.hbm, 190, rfl⟩
abbrev main_call6_v3 : Ref sig .tc := ⟨.hbm, 191, rfl⟩
abbrev main_call6_v4 : Ref sig .tc := ⟨.hbm, 192, rfl⟩
abbrev main_v114 : Ref sig .tc := ⟨.hbm, 193, rfl⟩
abbrev main_call7_v0 : Ref sig .tc := ⟨.hbm, 194, rfl⟩
abbrev main_call7_cst : Ref sig .tc := ⟨.hbm, 195, rfl⟩
abbrev main_call7_v1 : Ref sig .tc := ⟨.hbm, 196, rfl⟩
abbrev main_call7_v2 : Ref sig .tc := ⟨.hbm, 197, rfl⟩
abbrev main_v115 : Ref sig .tc := ⟨.hbm, 198, rfl⟩
abbrev main_cst_20 : Ref sig .tc := ⟨.hbm, 199, rfl⟩
abbrev main_v116 : Ref sig .tc := ⟨.hbm, 200, rfl⟩
abbrev main_v117 : Ref sig .tc := ⟨.hbm, 201, rfl⟩
abbrev main_v118 : Ref sig .tc := ⟨.hbm, 202, rfl⟩
abbrev main_v119 : Ref sig .tc := ⟨.hbm, 203, rfl⟩
abbrev main_v120 : Ref sig .tc := ⟨.hbm, 204, rfl⟩
abbrev main_v121 : Ref sig .tc := ⟨.hbm, 205, rfl⟩
abbrev main_v122 : Ref sig .tc := ⟨.hbm, 206, rfl⟩
abbrev main_v123 : Ref sig .tc := ⟨.hbm, 207, rfl⟩
abbrev main_v124 : Ref sig .tc := ⟨.hbm, 208, rfl⟩
abbrev main_v125 : Ref sig .tc := ⟨.hbm, 209, rfl⟩
abbrev main_v126 : Ref sig .tc := ⟨.hbm, 210, rfl⟩
abbrev main_v127 : Ref sig .tc := ⟨.hbm, 211, rfl⟩
abbrev main_v128 : Ref sig .tc := ⟨.hbm, 212, rfl⟩
abbrev main_cst_21 : Ref sig .tc := ⟨.hbm, 213, rfl⟩
abbrev main_call8_cst : Ref sig .tc := ⟨.hbm, 214, rfl⟩
abbrev main_call8_v0 : Ref sig .tc := ⟨.hbm, 215, rfl⟩
abbrev main_call8_v1 : Ref sig .tc := ⟨.hbm, 216, rfl⟩
abbrev main_call8_v2 : Ref sig .tc := ⟨.hbm, 217, rfl⟩
abbrev main_call8_v3 : Ref sig .tc := ⟨.hbm, 218, rfl⟩
abbrev main_call8_v4 : Ref sig .tc := ⟨.hbm, 219, rfl⟩
abbrev main_v129 : Ref sig .tc := ⟨.hbm, 220, rfl⟩
abbrev main_v130 : Ref sig .tc := ⟨.hbm, 221, rfl⟩
abbrev main_v131 : Ref sig .tc := ⟨.hbm, 222, rfl⟩
abbrev main_v132 : Ref sig .tc := ⟨.hbm, 223, rfl⟩
abbrev main_v133 : Ref sig .tc := ⟨.hbm, 224, rfl⟩
abbrev main_v134 : Ref sig .tc := ⟨.hbm, 225, rfl⟩
abbrev main_v135 : Ref sig .tc := ⟨.hbm, 226, rfl⟩
abbrev main_v136 : Ref sig .tc := ⟨.hbm, 227, rfl⟩
abbrev main_v137 : Ref sig .tc := ⟨.hbm, 228, rfl⟩
abbrev main_v138 : Ref sig .tc := ⟨.hbm, 229, rfl⟩
abbrev main_c_22 : Ref sig .tc := ⟨.hbm, 230, rfl⟩
abbrev main_v139 : Ref sig .tc := ⟨.hbm, 231, rfl⟩
abbrev main_v140 : Ref sig .tc := ⟨.hbm, 232, rfl⟩
abbrev main_c_23 : Ref sig .tc := ⟨.hbm, 233, rfl⟩
abbrev main_v141 : Ref sig .tc := ⟨.hbm, 234, rfl⟩
abbrev main_v142 : Ref sig .tc := ⟨.hbm, 235, rfl⟩
abbrev main_v143 : Ref sig .tc := ⟨.hbm, 236, rfl⟩
abbrev main_v144 : Ref sig .tc := ⟨.hbm, 237, rfl⟩
abbrev main_v145 : Ref sig .tc := ⟨.hbm, 238, rfl⟩
abbrev main_cst_24 : Ref sig .tc := ⟨.hbm, 239, rfl⟩
abbrev main_v146 : Ref sig .tc := ⟨.hbm, 240, rfl⟩
abbrev main_v147 : Ref sig .tc := ⟨.hbm, 241, rfl⟩
abbrev main_v148 : Ref sig .tc := ⟨.hbm, 242, rfl⟩
abbrev main_v149 : Ref sig .tc := ⟨.hbm, 243, rfl⟩
abbrev main_v150 : Ref sig .tc := ⟨.hbm, 244, rfl⟩
abbrev main_cst_25 : Ref sig .tc := ⟨.hbm, 245, rfl⟩
abbrev main_v151 : Ref sig .tc := ⟨.hbm, 246, rfl⟩
abbrev main_v152 : Ref sig .tc := ⟨.hbm, 247, rfl⟩
abbrev main_cst_26 : Ref sig .tc := ⟨.hbm, 248, rfl⟩
abbrev main_v153 : Ref sig .tc := ⟨.hbm, 249, rfl⟩
abbrev main_v154 : Ref sig .tc := ⟨.hbm, 250, rfl⟩
abbrev main_v155 : Ref sig .tc := ⟨.hbm, 251, rfl⟩
abbrev main_v156 : Ref sig .tc := ⟨.hbm, 252, rfl⟩
abbrev main_v157 : Ref sig .tc := ⟨.hbm, 253, rfl⟩
abbrev main_v158 : Ref sig .tc := ⟨.hbm, 254, rfl⟩
abbrev main_v159 : Ref sig .tc := ⟨.hbm, 255, rfl⟩
abbrev main_v160 : Ref sig .tc := ⟨.hbm, 256, rfl⟩
abbrev main_v161 : Ref sig .tc := ⟨.hbm, 257, rfl⟩
abbrev main_v162 : Ref sig .tc := ⟨.hbm, 258, rfl⟩
abbrev main_v163 : Ref sig .tc := ⟨.hbm, 259, rfl⟩
abbrev main_v164 : Ref sig .tc := ⟨.hbm, 260, rfl⟩
abbrev main_v165 : Ref sig .tc := ⟨.hbm, 261, rfl⟩
abbrev main_v166 : Ref sig .tc := ⟨.hbm, 262, rfl⟩
abbrev main_call9_v0 : Ref sig .tc := ⟨.hbm, 263, rfl⟩
abbrev main_call9_cst : Ref sig .tc := ⟨.hbm, 264, rfl⟩
abbrev main_call9_v1 : Ref sig .tc := ⟨.hbm, 265, rfl⟩
abbrev main_call9_v2 : Ref sig .tc := ⟨.hbm, 266, rfl⟩
abbrev main_v167 : Ref sig .tc := ⟨.hbm, 267, rfl⟩
abbrev main_cst_27 : Ref sig .tc := ⟨.hbm, 268, rfl⟩
abbrev main_v168 : Ref sig .tc := ⟨.hbm, 269, rfl⟩
abbrev main_v169 : Ref sig .tc := ⟨.hbm, 270, rfl⟩
abbrev main_v170 : Ref sig .tc := ⟨.hbm, 271, rfl⟩
abbrev main_v171 : Ref sig .tc := ⟨.hbm, 272, rfl⟩

abbrev nD : Nat := 1
abbrev τ : Topo := Topo.v7x

variable {F : FTy → Type} [FloatOps F]

class Facts₀ : Prop where
  bcast_S_S50000 : S_.BroadcastsInDim S50000 (![] : Fin 0 → Fin S50000.rank)
  bcast_S50000_S50000x1_0 : S50000.BroadcastsInDim S50000x1 (![0] : Fin 1 → Fin S50000x1.rank)
  transposes_S256x64_S64x256_1_0 : S256x64.Transposes [1, 0] S64x256
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  bcast_S_S50000x256 : S_.BroadcastsInDim S50000x256 (![] : Fin 0 → Fin S50000x256.rank)
  transposes_S300x300_S300x300_1_0 : S300x300.Transposes [1, 0] S300x300
  bcast_S300_S1x300_1 : S300.BroadcastsInDim S1x300 (![1] : Fin 1 → Fin S1x300.rank)
  bcast_S1x300_S50000x300_0_1 : S1x300.BroadcastsInDim S50000x300 (![0, 1] : Fin 2 → Fin S50000x300.rank)
  bcast_S_S50000x300 : S_.BroadcastsInDim S50000x300 (![] : Fin 0 → Fin S50000x300.rank)
  transposes_S256x300_S300x256_1_0 : S256x300.Transposes [1, 0] S300x256
  bcast_S_S1000000 : S_.BroadcastsInDim S1000000 (![] : Fin 0 → Fin S1000000.rank)
  bcast_S1000000_S1000000x1_0 : S1000000.BroadcastsInDim S1000000x1 (![0] : Fin 1 → Fin S1000000x1.rank)
  bcast_S_S50000x1 : S_.BroadcastsInDim S50000x1 (![] : Fin 0 → Fin S50000x1.rank)
  bcast_S50000x1_S50000x256_0_1 : S50000x1.BroadcastsInDim S50000x256 (![0, 1] : Fin 2 → Fin S50000x256.rank)
  concatenates_S50000x256_S50000x256_S50000x512_d1 : Shape.Concatenates [S50000x256, S50000x256] S50000x512 1
  slices_S3x256x512_S1x256x512_0_0_0 : S3x256x512.Slices ![0, 0, 0] S1x256x512
  shapeCasts_S1x256x512_S256x512 : S1x256x512.ShapeCasts S256x512
  transposes_S256x512_S512x256_1_0 : S256x512.Transposes [1, 0] S512x256
  slices_S3x256_S1x256_0_0 : S3x256.Slices ![0, 0] S1x256
  shapeCasts_S1x256_S256 : S1x256.ShapeCasts S256
  reducesTo_S50000x256_S50000_d1 : S50000x256.ReducesTo [1] S50000
  h_S_ : 0 < S_.numel
  slices_S2x256x256_S1x256x256_0_0_0 : S2x256x256.Slices ![0, 0, 0] S1x256x256
  shapeCasts_S1x256x256_S256x256 : S1x256x256.ShapeCasts S256x256
  transposes_S256x256_S256x256_1_0 : S256x256.Transposes [1, 0] S256x256
  slices_S2x256_S1x256_0_0 : S2x256.Slices ![0, 0] S1x256
  slices_S3x256x512_S1x256x512_1_0_0 : S3x256x512.Slices ![1, 0, 0] S1x256x512
  slices_S3x256_S1x256_1_0 : S3x256.Slices ![1, 0] S1x256
  slices_S2x256x256_S1x256x256_1_0_0 : S2x256x256.Slices ![1, 0, 0] S1x256x256
  slices_S2x256_S1x256_1_0 : S2x256.Slices ![1, 0] S1x256
  slices_S3x256x512_S1x256x512_2_0_0 : S3x256x512.Slices ![2, 0, 0] S1x256x512
  slices_S3x256_S1x256_2_0 : S3x256.Slices ![2, 0] S1x256
  gather_S50001x64_S50000x1_S50000x64_1_0_n_n_0_1_164_wf : GatherDims.WF S50001x64 S50000x1 S50000x64 [1] [0] [] [0] [] 1 ![1, 64]
  dot_S50000x64_S64x256_S50000x256_1_0_0_1_n_n_wf : DotDims.WF S50000x64 S64x256 S50000x256 [1] [0] [0] [1] [] []
  dot_S50000x300_S300x300_S50000x300_1_0_0_1_n_n_wf : DotDims.WF S50000x300 S300x300 S50000x300 [1] [0] [0] [1] [] []
  dot_S50000x300_S300x256_S50000x256_1_0_0_1_n_n_wf : DotDims.WF S50000x300 S300x256 S50000x256 [1] [0] [0] [1] [] []
  scatter_S50000_S1000000x1_S1000000_n_0_0_1_wf : ScatterDims.WF S50000 S1000000x1 S1000000 [] [0] [0] 1
  gather_S50000x256_S1000000x1_S1000000x256_1_0_n_n_0_1_1256_wf : GatherDims.WF S50000x256 S1000000x1 S1000000x256 [1] [0] [] [0] [] 1 ![1, 256]
  scatter_S50000x256_S1000000x1_S1000000x256_1_0_0_1_wf : ScatterDims.WF S50000x256 S1000000x1 S1000000x256 [1] [0] [0] 1
  dot_S50000x512_S512x256_S50000x256_1_0_0_1_n_n_wf : DotDims.WF S50000x512 S512x256 S50000x256 [1] [0] [0] [1] [] []
  dot_S50000x256_S256x256_S50000x256_1_0_0_1_n_n_wf : DotDims.WF S50000x256 S256x256 S50000x256 [1] [0] [0] [1] [] []

variable [Facts₀]

def gather_S50001x64_S50000x1_S50000x64_1_0_n_n_0_1_164 : GatherDims S50001x64 S50000x1 S50000x64 where
  offsetDims := [1]
  collapsedSliceDims := [0]
  operandBatchingDims := []
  startIndicesBatchingDims := []
  startIndexMap := [0]
  indexVectorDim := 1
  sliceSizes := ![1, 64]
  wf := gather_S50001x64_S50000x1_S50000x64_1_0_n_n_0_1_164_wf
def dot_S50000x64_S64x256_S50000x256_1_0_0_1_n_n : DotDims S50000x64 S64x256 S50000x256 where
  lhsContracting := [1]
  rhsContracting := [0]
  lhsNonContracting := [0]
  rhsNonContracting := [1]
  lhsBatch := []
  rhsBatch := []
  wf := dot_S50000x64_S64x256_S50000x256_1_0_0_1_n_n_wf
def dot_S50000x300_S300x300_S50000x300_1_0_0_1_n_n : DotDims S50000x300 S300x300 S50000x300 where
  lhsContracting := [1]
  rhsContracting := [0]
  lhsNonContracting := [0]
  rhsNonContracting := [1]
  lhsBatch := []
  rhsBatch := []
  wf := dot_S50000x300_S300x300_S50000x300_1_0_0_1_n_n_wf
def dot_S50000x300_S300x256_S50000x256_1_0_0_1_n_n : DotDims S50000x300 S300x256 S50000x256 where
  lhsContracting := [1]
  rhsContracting := [0]
  lhsNonContracting := [0]
  rhsNonContracting := [1]
  lhsBatch := []
  rhsBatch := []
  wf := dot_S50000x300_S300x256_S50000x256_1_0_0_1_n_n_wf
def scatter_S50000_S1000000x1_S1000000_n_0_0_1 : ScatterDims S50000 S1000000x1 S1000000 where
  updateWindowDims := []
  insertedWindowDims := [0]
  scatterDimsToOperandDims := [0]
  indexVectorDim := 1
  wf := scatter_S50000_S1000000x1_S1000000_n_0_0_1_wf
def gather_S50000x256_S1000000x1_S1000000x256_1_0_n_n_0_1_1256 : GatherDims S50000x256 S1000000x1 S1000000x256 where
  offsetDims := [1]
  collapsedSliceDims := [0]
  operandBatchingDims := []
  startIndicesBatchingDims := []
  startIndexMap := [0]
  indexVectorDim := 1
  sliceSizes := ![1, 256]
  wf := gather_S50000x256_S1000000x1_S1000000x256_1_0_n_n_0_1_1256_wf
def scatter_S50000x256_S1000000x1_S1000000x256_1_0_0_1 : ScatterDims S50000x256 S1000000x1 S1000000x256 where
  updateWindowDims := [1]
  insertedWindowDims := [0]
  scatterDimsToOperandDims := [0]
  indexVectorDim := 1
  wf := scatter_S50000x256_S1000000x1_S1000000x256_1_0_0_1_wf
def dot_S50000x512_S512x256_S50000x256_1_0_0_1_n_n : DotDims S50000x512 S512x256 S50000x256 where
  lhsContracting := [1]
  rhsContracting := [0]
  lhsNonContracting := [0]
  rhsNonContracting := [1]
  lhsBatch := []
  rhsBatch := []
  wf := dot_S50000x512_S512x256_S50000x256_1_0_0_1_n_n_wf
def dot_S50000x256_S256x256_S50000x256_1_0_0_1_n_n : DotDims S50000x256 S256x256 S50000x256 where
  lhsContracting := [1]
  rhsContracting := [0]
  lhsNonContracting := [0]
  rhsNonContracting := [1]
  lhsBatch := []
  rhsBatch := []
  wf := dot_S50000x256_S256x256_S50000x256_1_0_0_1_n_n_wf

class Facts : Prop extends Facts₀ where

variable [Facts]
-- ==== Proof.KRun.lean ====
/-
  The idealized kernel's run with its result named. From any memory with zero counters every weakly fair execution of
  the program ends, nothing faulting, with the argument arrays as launched and the result array at the contents the
  last region's write-backs leave: the fold of the four host stretches and the four regions over the launch memory.
-/
import proofs.«167175_j43568148251366_1_alg».proof.Proof.Gen.KernelIdeal.Frame

set_option maxRecDepth 16384

noncomputable section

namespace Cert.KernelIdeal.KRun

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution terminates with the result array at the last boundary's contents and the arguments
    unchanged. -/
theorem run : θ_run defs (onTc (τ := τ) (main (F := F))) ⟨m, fun _ => 0, ρ⟩ (fun r => ∀ c : Dev nD,
      r.2.mem ((c.tc : Thread nD τ).loc main_v110) = Gen.W8 m ρ c (Proc.devRef .tc main_v110)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h c =>
      ⟨h c _ (mem_uc main_v110 (by decide)),
       (h c _ (mem_uc main_arg0 (by decide))).trans (W8_main_arg0 m ρ c),
       (h c _ (mem_uc main_arg1 (by decide))).trans (W8_main_arg1 m ρ c),
       (h c _ (mem_uc main_arg2 (by decide))).trans (W8_main_arg2 m ρ c),
       (h c _ (mem_uc main_arg3 (by decide))).trans (W8_main_arg3 m ρ c),
       (h c _ (mem_uc main_arg4 (by decide))).trans (W8_main_arg4 m ρ c),
       (h c _ (mem_uc main_arg5 (by decide))).trans (W8_main_arg5 m ρ c),
       (h c _ (mem_uc main_arg6 (by decide))).trans (W8_main_arg6 m ρ c),
       (h c _ (mem_uc main_arg7 (by decide))).trans (W8_main_arg7 m ρ c),
       (h c _ (mem_uc main_arg8 (by decide))).trans (W8_main_arg8 m ρ c),
       (h c _ (mem_uc main_arg9 (by decide))).trans (W8_main_arg9 m ρ c),
       (h c _ (mem_uc main_arg10 (by decide))).trans (W8_main_arg10 m ρ c),
       (h c _ (mem_uc main_arg11 (by decide))).trans (W8_main_arg11 m ρ c),
       (h c _ (mem_uc main_arg12 (by decide))).trans (W8_main_arg12 m ρ c),
       (h c _ (mem_uc main_arg13 (by decide))).trans (W8_main_arg13 m ρ c),
       (h c _ (mem_uc main_arg14 (by decide))).trans (W8_main_arg14 m ρ c),
       (h c _ (mem_uc main_arg15 (by decide))).trans (W8_main_arg15 m ρ c),
       (h c _ (mem_uc main_arg16 (by decide))).trans (W8_main_arg16 m ρ c)⟩)

end Cert.KernelIdeal.KRun

end
-- ==== Proof.LibMatmulRead.lean ====
/-
  A matrix product read at an entry, for ANY contraction record of the "rows by columns" form.

  A record that contracts the left operand's second axis with the right operand's first and has no batch axis
  describes the textbook product of an `a × K` by a `K × b` array. At the ideal instance the product accumulated
  into an all-zero block has, at entry `(p, q)`, the value `Σ_k lhs[p, k] · rhs[k, q]` with `k` over `Fin K`:
  the accumulator's zero is the additive identity, and the record's contraction index set is `Fin K`.
  The record is a variable here, so one proof serves every product of this form in a program.
-/
import Idealize.ShloMosaic.Lib.ValueIdx
import Idealize.ShloMosaic.PureOps.Ideal.Laws

noncomputable section

namespace Idealize.ShloMosaic.MatmulRead

open Idealize.ShloMosaic Idealize.ShloMosaic.ValueIdx
open scoped BigOperators

variable {a K b : ℕ} (D : DotDims (⟨2, ![a, K]⟩ : Shape) (⟨2, ![K, b]⟩ : Shape) (⟨2, ![a, b]⟩ : Shape))

/-- "Rows by columns": the left operand's second axis is contracted with the right operand's first, each operand's
    other axis survives, and there is no batch axis. -/
structure RowsByCols : Prop where
  lc : D.lhsContracting = [1]
  rc : D.rhsContracting = [0]
  ln : D.lhsNonContracting = [0]
  rn : D.rhsNonContracting = [1]
  lb : D.lhsBatch = []
  rb : D.rhsBatch = []

/-- An index read at two equal positions gives equal coordinates. -/
private theorem val_congr {s : Shape} (j : s.Idx) (u v : Nat) (hu : u < s.rank) (hv : v < s.rank) (h : u = v) :
    (j ⟨u, hu⟩).val = (j ⟨v, hv⟩).val := by subst h; rfl

variable {D}

/-- The left operand is read in the result's row. -/
theorem lhsIdx_row (h : RowsByCols D) (j : (⟨2, ![a, b]⟩ : Shape).Idx) (κ : D.contr.Idx) :
    (D.lhsIdx j κ 0).val = (j 0).val := by
  have hb : (0 : Fin (⟨2, ![a, K]⟩ : Shape).rank) ∉ D.lhsBatch := by rw [h.lb]; exact List.not_mem_nil
  have hn : (0 : Fin (⟨2, ![a, K]⟩ : Shape).rank) ∈ D.lhsNonContracting := by rw [h.ln]; exact List.mem_singleton.mpr rfl
  unfold DotDims.lhsIdx
  rw [dif_neg hb, dif_pos hn]
  simp only [Fin.val_cast]
  exact val_congr j _ _ _ _ (by simp [h.lb, h.ln])

/-- The right operand is read in the result's column. -/
theorem rhsIdx_col (h : RowsByCols D) (j : (⟨2, ![a, b]⟩ : Shape).Idx) (κ : D.contr.Idx) :
    (D.rhsIdx j κ 1).val = (j 1).val := by
  have hb : (1 : Fin (⟨2, ![K, b]⟩ : Shape).rank) ∉ D.rhsBatch := by rw [h.rb]; exact List.not_mem_nil
  have hn : (1 : Fin (⟨2, ![K, b]⟩ : Shape).rank) ∈ D.rhsNonContracting := by rw [h.rn]; exact List.mem_singleton.mpr rfl
  unfold DotDims.rhsIdx
  rw [dif_neg hb, dif_pos hn]
  simp only [Fin.val_cast]
  exact val_congr j _ _ _ _ (by simp [h.lb, h.ln, h.rn])

/-- Into a zero accumulator, entry `(p, q)` of the product is `Σ_k lhs[p, k] · rhs[k, q]`. -/
theorem matmul_zero_ix2 (h : RowsByCols D) (hr : D.contr.rank = 1) (hs : D.contr.size ⟨0, by omega⟩ = K)
    (prec : Option ContractPrecision) {φ₁ φ₂ : FTy} (lhs : FVec Ideal (⟨2, ![a, K]⟩ : Shape) φ₁)
    (rhs : FVec Ideal (⟨2, ![K, b]⟩ : Shape) φ₂) (p : Fin a) (q : Fin b) :
    FloatOps.matmul D prec lhs rhs (constant (⟨2, ![a, b]⟩ : Shape) .f32 0x00000000#32) (ix2 p q)
      = ∑ k : Fin K, lhs (ix2 p k) * rhs (ix2 k q) := by
  rw [Ideal.matmul_constant_zero_apply, ← Equiv.sum_comp (contrEquiv1 D K hr hs).symm]
  refine Finset.sum_congr rfl fun k _ => ?_
  have hk := contrEquiv1_symm_val D K hr hs k
  have el : D.lhsIdx (ix2 p q) ((contrEquiv1 D K hr hs).symm k) = ix2 p k := funext fun ax => Fin.ext (by
    match ax with
    | ⟨0, _⟩ => exact lhsIdx_row h _ _
    | ⟨1, _⟩ => exact (D.lhsIdx_val_of_single h.lc _ _).trans hk)
  have er : D.rhsIdx (ix2 p q) ((contrEquiv1 D K hr hs).symm k) = ix2 k q := funext fun ax => Fin.ext (by
    match ax with
    | ⟨0, _⟩ => exact (D.rhsIdx_val_of_single h.rc _ _).trans hk
    | ⟨1, _⟩ => exact rhsIdx_col h _ _)
  rw [el, er]

end Idealize.ShloMosaic.MatmulRead
-- ==== Proof.Spec.lean ====
/-
  The network both programs compute, entry by entry, over the extended reals.

  A node's first representation is  lrelu(e·Wₑ + bₑ) + lrelu(lrelu(x·W₁ + b₁)·W₂ + b₂)  for its embedding row e and
  content row x. A message-passing layer takes the node rows H and the neighbour means HA, forms
  H·W₁ + HA·W₂ + b  (the two halves of one 512-wide product), and divides each row by its Euclidean norm, floored at a
  small positive constant; the inner layers apply the leaky rectifier before the norm and two more dense maps after it.
  Everything is stated at one row `p` and one column `q`, with sums over `Fin k`, so that a blockwise evaluation and a
  whole-array evaluation can both be read against it.
-/
import Idealize.ShloMosaic.Lib.ValueIdx
import Idealize.ShloMosaic.PureOps.Ideal

noncomputable section

namespace Cert.Spec

open Idealize.ShloMosaic Idealize.ShloMosaic.ValueIdx
open scoped BigOperators

/-- An `a × b` array of extended reals, indexed as the programs index it. -/
abbrev Mat (a b : ℕ) : Type := (⟨2, ![a, b]⟩ : Shape).Idx → EReal

/-- The rectifier's slope on the negative side (the binary value nearest one tenth). -/
def slope : EReal := Ideal.ofBits .f32 0x3DCCCCCD#32

/-- The floor under a row's norm (the binary value nearest one millionth). -/
def normFloor : EReal := Ideal.ofBits .f32 0x358637BD#32

/-- The leaky rectifier: the identity on the positive side, the slope times the argument elsewhere. -/
def lrelu (x : EReal) : EReal := if 0 < x then x else slope * x

/-- Entry `(p, q)` of `a·w + b`, the bias a one-row array. -/
def dense {n k m : ℕ} (a : Mat n k) (w : Mat k m) (b : Mat 1 m) (p : Fin n) (q : Fin m) : EReal :=
  (∑ j : Fin k, a (ix2 p j) * w (ix2 j q)) + b (ix2 (0 : Fin 1) q)

/-- A node's first representation. -/
def enc {n : ℕ} (E : Mat n 64) (X : Mat n 300) (We : Mat 64 256) (be : Mat 1 256) (W1 : Mat 300 300) (b1 : Mat 1 300)
    (W2 : Mat 300 256) (b2 : Mat 1 256) (p : Fin n) (q : Fin 256) : EReal :=
  lrelu (dense E We be p q)
    + lrelu ((∑ j : Fin 300, lrelu (dense X W1 b1 p j) * W2 (ix2 j q)) + b2 (ix2 (0 : Fin 1) q))

/-- The layer's affine map of a node's row and its neighbour mean. -/
def conv {n : ℕ} (H HA : Mat n 256) (W1 W2 : Mat 256 256) (bc : Mat 1 256) (p : Fin n) (q : Fin 256) : EReal :=
  ((∑ j : Fin 256, H (ix2 p j) * W1 (ix2 j q)) + (∑ j : Fin 256, HA (ix2 p j) * W2 (ix2 j q))) + bc (ix2 (0 : Fin 1) q)

/-- A row's Euclidean norm, floored. -/
def rowNorm (x : Fin 256 → EReal) : EReal := max (Ideal.sqrt (∑ j : Fin 256, x j * x j)) normFloor

/-- A row divided by its floored norm. -/
def unitRow (x : Fin 256 → EReal) (q : Fin 256) : EReal := Ideal.div (x q) (rowNorm x)

/-- The last layer: the affine map, then the row normalised. -/
def layerB {n : ℕ} (H HA : Mat n 256) (W1 W2 : Mat 256 256) (bc : Mat 1 256) (p : Fin n) (q : Fin 256) : EReal :=
  unitRow (fun l => conv H HA W1 W2 bc p l) q

/-- An inner layer: the affine map, the rectifier, the row normalised, then two dense maps with the rectifier between. -/
def layerA {n : ℕ} (H HA : Mat n 256) (W1 W2 : Mat 256 256) (bc : Mat 1 256) (Wo1 : Mat 256 256) (bo1 : Mat 1 256)
    (Wo2 : Mat 256 256) (bo2 : Mat 1 256) (p : Fin n) (q : Fin 256) : EReal :=
  (∑ j : Fin 256,
      lrelu ((∑ i : Fin 256, unitRow (fun l => lrelu (conv H HA W1 W2 bc p l)) i * Wo1 (ix2 i j)) + bo1 (ix2 (0 : Fin 1) j))
        * Wo2 (ix2 j q))
    + bo2 (ix2 (0 : Fin 1) q)

end Cert.Spec

end
-- ==== Proof.EncPayload.lean ====
/-
  One block of the encoder, entry by entry.

  The body of the first kernel takes a block of 1000 embedding rows and 1000 content rows, together with the six
  weight arrays, and stores one 1000 × 256 block. Read at row `y` and column `q`, over the extended reals, that
  block is the node's first representation: the rectified dense map of the embedding row plus the rectified
  two-layer map of the content row. Each matrix product accumulates into zeros and so is the plain sum over the
  contracted axis; a change of float format is the identity; the comparison with zero and the select are the
  rectifier's case split; the one-row bias is read in its only row.
-/
import Idealize.ShloMosaic.Lib.ValueLayout
import proofs.«167175_j43568148251366_1_alg».proof.Proof.Gen.KernelIdeal.Frame
import proofs.«167175_j43568148251366_1_alg».proof.Proof.LibMatmulRead
import proofs.«167175_j43568148251366_1_alg».proof.Proof.Spec

noncomputable section

namespace Cert.KernelIdeal.EncPayload

open Idealize.ShloMosaic Idealize.ShloMosaic.ValueIdx Idealize.ShloMosaic.MatmulRead
open Cert.KernelIdeal Cert.KernelIdeal.Gen
open scoped BigOperators

/-- The comparison with zero, the product with the slope and the select are the leaky rectifier of the element. -/
theorem lrelu_elt (x : EReal) :
    Scalar.select (Ideal.cmp .ogt x (Ideal.ofBits .f32 0x00000000#32)) x (Ideal.ofBits .f32 0x3DCCCCCD#32 * x)
      = Cert.Spec.lrelu x := by
  unfold Cert.Spec.lrelu Cert.Spec.slope Scalar.select Ideal.cmp
  rw [Ideal.ofBits_zero_f32]
  by_cases h : (0 : EReal) < x
  · simp [h]
  · simp [h]

/-- The same over a whole array, read at an index. -/
theorem lrelu_vec {s : Shape} (v : FVec Ideal s .f32) (i : s.Idx) :
    select (cmpf .ogt v (broadcast s (Scalar.ofBits (F := Ideal) .f32 0x00000000#32))) v
        (mulf (broadcast s (Scalar.ofBits (F := Ideal) .f32 0x3DCCCCCD#32)) v) i
      = Cert.Spec.lrelu (v i) :=
  lrelu_elt (v i)

/-- The three products of the body are of the rows-by-columns form. -/
theorem rbc_e : RowsByCols dot_S1000x64_S64x256_S1000x256_1_0_0_1_n_n := ⟨rfl, rfl, rfl, rfl, rfl, rfl⟩
theorem rbc_1 : RowsByCols dot_S1000x300_S300x300_S1000x300_1_0_0_1_n_n := ⟨rfl, rfl, rfl, rfl, rfl, rfl⟩
theorem rbc_2 : RowsByCols dot_S1000x300_S300x256_S1000x256_1_0_0_1_n_n := ⟨rfl, rfl, rfl, rfl, rfl, rfl⟩

/-- A product into zeros plus a one-row bias, read at an entry: the dense map's sum and the bias's only row. -/
theorem dense_read {n k m : ℕ} (D : DotDims (⟨2, ![n, k]⟩ : Shape) (⟨2, ![k, m]⟩ : Shape) (⟨2, ![n, m]⟩ : Shape))
    (h : RowsByCols D) (hr : D.contr.rank = 1) (hs : D.contr.size ⟨0, by omega⟩ = k)
    (a : FVec Ideal (⟨2, ![n, k]⟩ : Shape) .f32) (w : FVec Ideal (⟨2, ![k, m]⟩ : Shape) .f32)
    (b : FVec Ideal (⟨2, ![1, m]⟩ : Shape) .f32)
    (hc : (⟨2, ![1, m]⟩ : Shape).ShapeCasts (⟨2, ![1, m]⟩ : Shape))
    (hb : (⟨2, ![1, m]⟩ : Shape).Broadcasts (⟨2, ![n, m]⟩ : Shape)) (y : Fin n) (q : Fin m) :
    addf (matmul D none (truncf .bf16 a bitsLt_bf16_f32) (truncf .bf16 w bitsLt_bf16_f32)
            (constant (F := Ideal) (⟨2, ![n, m]⟩ : Shape) .f32 0x00000000#32))
        (broadcastTo (⟨2, ![n, m]⟩ : Shape) (shapeCast (⟨2, ![1, m]⟩ : Shape) b hc) hb) (ix2 y q)
      = (∑ j : Fin k, a (ix2 y j) * w (ix2 j q)) + b (ix2 (0 : Fin 1) q) := by
  rw [shapeCast_self]
  show FloatOps.matmul D none (truncf .bf16 a bitsLt_bf16_f32) (truncf .bf16 w bitsLt_bf16_f32)
        (constant (F := Ideal) (⟨2, ![n, m]⟩ : Shape) .f32 0x00000000#32) (ix2 y q)
      + broadcastTo (⟨2, ![n, m]⟩ : Shape) b hb (ix2 y q) = _
  rw [matmul_zero_ix2 h hr hs, broadcastTo_1b_ab_apply]
  rfl

/-- The embedding half: the rectified dense map of the block's embedding rows. -/
theorem pay2_apply (v0 : Vec Ideal S1000x64 .f32) (v3 : Vec Ideal S64x256 .f32) (v7 : Vec Ideal S1x256 .f32)
    (y : Fin 1000) (q : Fin 256) :
    k0_pay2 (F := Ideal) v0 v3 v7 (ix2 y q) = Cert.Spec.lrelu (Cert.Spec.dense v0 v3 v7 y q) := by
  unfold k0_pay2
  refine (lrelu_vec _ _).trans (congrArg Cert.Spec.lrelu ?_)
  have e0 : shapeCast S1000x64 v0 shapeCasts_S1000x64_S1000x64 = v0 := shapeCast_self _ _
  have e3 : shapeCast S64x256 v3 shapeCasts_S64x256_S64x256 = v3 := shapeCast_self _ _
  rw [e0, e3]
  exact dense_read dot_S1000x64_S64x256_S1000x256_1_0_0_1_n_n rbc_e rfl rfl v0 v3 v7 _ _ y q

/-- The content half before its last rectifier: the rectified first layer, then the second product. -/
theorem pay3_apply (v16 : Vec Ideal S1000x300 .f32) (v18 : Vec Ideal S300x300 .f32) (v22 : Vec Ideal S1x300 .f32)
    (v32 : Vec Ideal S300x256 .f32) (y : Fin 1000) (q : Fin 256) :
    k0_pay3 (F := Ideal) v16 v18 v22 v32 (ix2 y q)
      = ∑ j : Fin 300, Cert.Spec.lrelu (Cert.Spec.dense v16 v18 v22 y j) * v32 (ix2 j q) := by
  unfold k0_pay3
  have e18 : shapeCast S300x300 v18 shapeCasts_S300x300_S300x300 = v18 := shapeCast_self _ _
  have e32 : shapeCast S300x256 v32 shapeCasts_S300x256_S300x256 = v32 := shapeCast_self _ _
  rw [e18, e32]
  refine (matmul_zero_ix2 rbc_2 rfl rfl none _ _ y q).trans ?_
  refine Finset.sum_congr rfl fun j _ => ?_
  refine congrArg (· * v32 (ix2 j q)) ?_
  refine (lrelu_vec _ _).trans (congrArg Cert.Spec.lrelu ?_)
  exact dense_read dot_S1000x300_S300x300_S1000x300_1_0_0_1_n_n rbc_1 rfl rfl v16 v18 v22 _ _ y j

/-- The stored block: the embedding half plus the rectified content half with its bias. -/
theorem pay1_apply (v15 v35 : FVec Ideal S1000x256 .f32) (v36 : Vec Ideal S1x256 .f32) (y : Fin 1000) (q : Fin 256) :
    k0_pay1 (F := Ideal) v15 v35 v36 (ix2 y q)
      = v15 (ix2 y q) + Cert.Spec.lrelu (v35 (ix2 y q) + v36 (ix2 (0 : Fin 1) q)) := by
  unfold k0_pay1
  show v15 (ix2 y q) + _ = _
  refine congrArg (v15 (ix2 y q) + ·) ?_
  refine (lrelu_vec _ _).trans (congrArg Cert.Spec.lrelu ?_)
  show v35 (ix2 y q) + _ = _
  refine congrArg (v35 (ix2 y q) + ·) ?_
  rw [shapeCast_self]
  exact broadcastTo_1b_ab_apply v36 _ y q

theorem hz : (![0, 0] : Fin 2 → Nat) = fun _ => 0 := funext fun a => by fin_cases a <;> rfl

/-- What the body leaves in the output block, at row `y` and column `q`: the node's first representation, computed
    from the block's rows and the whole weight arrays. -/
theorem out_apply (x0 : Vec Ideal S1000x64 .f32) (x1 : Vec Ideal S1000x300 .f32) (x2 : Vec Ideal S64x256 .f32)
    (x3 : Vec Ideal S1x256 .f32) (x4 : Vec Ideal S300x300 .f32) (x5 : Vec Ideal S1x300 .f32)
    (x6 : Vec Ideal S300x256 .f32) (x7 : Vec Ideal S1x256 .f32) (y : Fin 1000) (q : Fin 256) :
    out0_8 (F := Ideal) x0 x1 x2 x3 x4 x5 x6 x7 (ix2 y q) = Cert.Spec.enc x0 x1 x2 x3 x4 x5 x6 x7 y q := by
  unfold out0_8
  rw [View.canon_unit_zero hz]
  simp only [View.ld_unit_zero (S := S1000x64) hz, View.ld_unit_zero (S := S1000x300) hz,
    View.ld_unit_zero (S := S64x256) hz, View.ld_unit_zero (S := S1x256) hz, View.ld_unit_zero (S := S300x300) hz,
    View.ld_unit_zero (S := S1x300) hz, View.ld_unit_zero (S := S300x256) hz]
  rw [pay1_apply, pay2_apply, pay3_apply]
  rfl

end Cert.KernelIdeal.EncPayload

end
-- ==== Proof.EncValue.lean ====
/-
  From blocks to the array: the encoder's output as one function of the arrays it reads.

  The first kernel runs over fifty grid points. Point `t` stages rows `1000·t … 1000·t + 999` of the embedding rows
  and of the content rows, the six weight arrays whole, computes one 1000 × 256 block from them, and writes it back
  as rows `1000·t … 1000·t + 999` of the output. A node's first representation depends on that node's own two rows
  and on the weights only, so the block computed from the staged rows is the same rows of the whole-array function,
  and since row `r` lies in the block of point `r / 1000`, the fifty blocks cover the output: the array ends
  holding the whole-array function everywhere.
-/
import Idealize.ShloMosaic.Lib.Pipeline.Value
import proofs.«167175_j43568148251366_1_alg».proof.Proof.EncPayload

noncomputable section

namespace Cert.KernelIdeal.EncValue

open Idealize.ShloMosaic Idealize.ShloMosaic.TcCoe Idealize.ShloMosaic.ValueIdx Idealize.SL.Sem
open Idealize.ShloMosaic.Pipeline (Dat)
open Cert.KernelIdeal Cert.KernelIdeal.Gen
open scoped BigOperators

variable (V : (c : Dev nD) → (b : Ref sig .tc) → Buf (Elt Ideal) ((c : Thread nD τ).loc b))

/-- The node's first representation depends on the node's own two rows only: two pairs of arrays that agree on
    a row give the same entry there. -/
theorem enc_congr_rows {n n' : ℕ} (E : Cert.Spec.Mat n 64) (X : Cert.Spec.Mat n 300) (E' : Cert.Spec.Mat n' 64)
    (X' : Cert.Spec.Mat n' 300) (We : Cert.Spec.Mat 64 256) (be : Cert.Spec.Mat 1 256) (W1 : Cert.Spec.Mat 300 300)
    (b1 : Cert.Spec.Mat 1 300) (W2 : Cert.Spec.Mat 300 256) (b2 : Cert.Spec.Mat 1 256) (p : Fin n) (p' : Fin n')
    (hE : ∀ k : Fin 64, E (ix2 p k) = E' (ix2 p' k)) (hX : ∀ k : Fin 300, X (ix2 p k) = X' (ix2 p' k)) (q : Fin 256) :
    Cert.Spec.enc E X We be W1 b1 W2 b2 p q = Cert.Spec.enc E' X' We be W1 b1 W2 b2 p' q := by
  unfold Cert.Spec.enc Cert.Spec.dense
  simp only [hE, hX]

/-- The output array as one function of the arrays the region finds: entry `(r, q)` is the first representation of
    node `r` at column `q`. -/
def G (c : Dev nD) : S50000x256.Idx → EReal := fun i =>
  Cert.Spec.enc (V c main_v6 : S50000x64.Idx → EReal) (V c main_arg1 : S50000x300.Idx → EReal)
    (V c main_v7 : S64x256.Idx → EReal) (V c main_v10 : S1x256.Idx → EReal) (V c main_v8 : S300x300.Idx → EReal)
    (V c main_v11 : S1x300.Idx → EReal) (V c main_v9 : S300x256.Idx → EReal) (V c main_v12 : S1x256.Idx → EReal)
    (i 0) (i 1)

/-- The index maps over the grid: the two row-blocked inputs and the output move one block of rows per point, the
    weights stay at their one block. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0
    ∧ win0_8.index t (0 : Fin 2) = t.val ∧ win0_8.index t (1 : Fin 2) = 0 :=
  (by decide +kernel : ∀ t : Fin grid0.N, _)

/-- The embedding block at point `t` is rows `1000·t …` of the embedding rows. -/
theorem iblk_rows_e (c : Dev nD) (t : Fin cfg0.N) (y : Fin 1000) (k : Fin 64) (r : Fin 50000)
    (hr : r.val = t.val * 1000 + y.val) :
    (iblk0 (F := Ideal) V c 0 t : Vec Ideal S1000x64 .f32) (ix2 y k) = (V c main_v6 : S50000x64.Idx → EReal) (ix2 r k) := by
  obtain ⟨e0, e1, -⟩ := idx_facts t
  unfold iblk0
  rw [View.read_apply]
  show V c main_v6 _ = V c main_v6 _
  congr 1
  funext a
  apply Fin.ext
  match a with
  | ⟨0, _⟩ => show win0_0.index t (0 : Fin 2) * 1000 + 1 * y.val = r.val; rw [e0, hr]; omega
  | ⟨1, _⟩ => show win0_0.index t (1 : Fin 2) * 64 + 1 * k.val = k.val; rw [e1]; omega

/-- The content block at point `t` is rows `1000·t …` of the content rows. -/
theorem iblk_rows_x (c : Dev nD) (t : Fin cfg0.N) (y : Fin 1000) (k : Fin 300) (r : Fin 50000)
    (hr : r.val = t.val * 1000 + y.val) :
    (iblk0 (F := Ideal) V c 1 t : Vec Ideal S1000x300 .f32) (ix2 y k) = (V c main_arg1 : S50000x300.Idx → EReal) (ix2 r k) := by
  have e0 : win0_1.index t (0 : Fin 2) = t.val := (idx_facts t).2.2.1
  have e1 : win0_1.index t (1 : Fin 2) = 0 := (idx_facts t).2.2.2.1
  unfold iblk0
  rw [View.read_apply]
  show V c main_arg1 _ = V c main_arg1 _
  congr 1
  funext a
  apply Fin.ext
  match a with
  | ⟨0, _⟩ => show win0_1.index t (0 : Fin 2) * 1000 + 1 * y.val = r.val; rw [e0, hr]; omega
  | ⟨1, _⟩ => show win0_1.index t (1 : Fin 2) * 300 + 1 * k.val = k.val; rw [e1]; omega

/-- Each weight window's one block is the whole array: the embedding weights … -/
theorem iblk_We (c : Dev nD) (t : Fin cfg0.N) :
    (iblk0 (F := Ideal) V c 2 t : Vec Ideal S64x256 .f32) = (V c main_v7 : S64x256.Idx → EReal) := by
  have e0 : win0_2.index t (0 : Fin 2) = 0 := (idx_facts t).2.2.2.2.1
  have e1 : win0_2.index t (1 : Fin 2) = 0 := (idx_facts t).2.2.2.2.2.1
  funext j
  unfold iblk0
  rw [View.read_apply]
  show V c main_v7 _ = V c main_v7 j
  congr 1
  funext a
  apply Fin.ext
  match a with
  | ⟨0, _⟩ => show win0_2.index t (0 : Fin 2) * 64 + 1 * (j 0).val = (j 0).val; rw [e0]; omega
  | ⟨1, _⟩ => show win0_2.index t (1 : Fin 2) * 256 + 1 * (j 1).val = (j 1).val; rw [e1]; omega

/-- … the embedding bias … -/
theorem iblk_be (c : Dev nD) (t : Fin cfg0.N) :
    (iblk0 (F := Ideal) V c 3 t : Vec Ideal S1x256 .f32) = (V c main_v10 : S1x256.Idx → EReal) := by
  have e0 : win0_3.index t (0 : Fin 2) = 0 := (idx_facts t).2.2.2.2.2.2.1
  have e1 : win0_3.index t (1 : Fin 2) = 0 := (idx_facts t).2.2.2.2.2.2.2.1
  funext j
  unfold iblk0
  rw [View.read_apply]
  show V c main_v10 _ = V c main_v10 j
  congr 1
  funext a
  apply Fin.ext
  match a with
  | ⟨0, _⟩ => show win0_3.index t (0 : Fin 2) * 1 + 1 * (j 0).val = (j 0).val; rw [e0]; omega
  | ⟨1, _⟩ => show win0_3.index t (1 : Fin 2) * 256 + 1 * (j 1).val = (j 1).val; rw [e1]; omega

/-- … the first content weights … -/
theorem iblk_W1 (c : Dev nD) (t : Fin cfg0.N) :
    (iblk0 (F := Ideal) V c 4 t : Vec Ideal S300x300 .f32) = (V c main_v8 : S300x300.Idx → EReal) := by
  have e0 : win0_4.index t (0 : Fin 2) = 0 := (idx_facts t).2.2.2.2.2.2.2.2.1
  have e1 : win0_4.index t (1 : Fin 2) = 0 := (idx_facts t).2.2.2.2.2.2.2.2.2.1
  funext j
  unfold iblk0
  rw [View.read_apply]
  show V c main_v8 _ = V c main_v8 j
  congr 1
  funext a
  apply Fin.ext
  match a with
  | ⟨0, _⟩ => show win0_4.index t (0 : Fin 2) * 300 + 1 * (j 0).val = (j 0).val; rw [e0]; omega
  | ⟨1, _⟩ => show win0_4.index t (1 : Fin 2) * 300 + 1 * (j 1).val = (j 1).val; rw [e1]; omega

/-- … the first content bias … -/
theorem iblk_b1 (c : Dev nD) (t : Fin cfg0.N) :
    (iblk0 (F := Ideal) V c 5 t : Vec Ideal S1x300 .f32) = (V c main_v11 : S1x300.Idx → EReal) := by
  have e0 : win0_5.index t (0 : Fin 2) = 0 := (idx_facts t).2.2.2.2.2.2.2.2.2.2.1
  have e1 : win0_5.index t (1 : Fin 2) = 0 := (idx_facts t).2.2.2.2.2.2.2.2.2.2.2.1
  funext j
  unfold iblk0
  rw [View.read_apply]
  show V c main_v11 _ = V c main_v11 j
  congr 1
  funext a
  apply Fin.ext
  match a with
  | ⟨0, _⟩ => show win0_5.index t (0 : Fin 2) * 1 + 1 * (j 0).val = (j 0).val; rw [e0]; omega
  | ⟨1, _⟩ => show win0_5.index t (1 : Fin 2) * 300 + 1 * (j 1).val = (j 1).val; rw [e1]; omega

/-- … the second content weights … -/
theorem iblk_W2 (c : Dev nD) (t : Fin cfg0.N) :
    (iblk0 (F := Ideal) V c 6 t : Vec Ideal S300x256 .f32) = (V c main_v9 : S300x256.Idx → EReal) := by
  have e0 : win0_6.index t (0 : Fin 2) = 0 := (idx_facts t).2.2.2.2.2.2.2.2.2.2.2.2.1
  have e1 : win0_6.index t (1 : Fin 2) = 0 := (idx_facts t).2.2.2.2.2.2.2.2.2.2.2.2.2.1
  funext j
  unfold iblk0
  rw [View.read_apply]
  show V c main_v9 _ = V c main_v9 j
  congr 1
  funext a
  apply Fin.ext
  match a with
  | ⟨0, _⟩ => show win0_6.index t (0 : Fin 2) * 300 + 1 * (j 0).val = (j 0).val; rw [e0]; omega
  | ⟨1, _⟩ => show win0_6.index t (1 : Fin 2) * 256 + 1 * (j 1).val = (j 1).val; rw [e1]; omega

/-- … and the second content bias. -/
theorem iblk_b2 (c : Dev nD) (t : Fin cfg0.N) :
    (iblk0 (F := Ideal) V c 7 t : Vec Ideal S1x256 .f32) = (V c main_v12 : S1x256.Idx → EReal) := by
  have e0 : win0_7.index t (0 : Fin 2) = 0 := (idx_facts t).2.2.2.2.2.2.2.2.2.2.2.2.2.2.1
  have e1 : win0_7.index t (1 : Fin 2) = 0 := (idx_facts t).2.2.2.2.2.2.2.2.2.2.2.2.2.2.2.1
  funext j
  unfold iblk0
  rw [View.read_apply]
  show V c main_v12 _ = V c main_v12 j
  congr 1
  funext a
  apply Fin.ext
  match a with
  | ⟨0, _⟩ => show win0_7.index t (0 : Fin 2) * 1 + 1 * (j 0).val = (j 0).val; rw [e0]; omega
  | ⟨1, _⟩ => show win0_7.index t (1 : Fin 2) * 256 + 1 * (j 1).val = (j 1).val; rw [e1]; omega

/-- What point `t` leaves in the output block, at an entry, is the whole-array function at the row the block's
    entry lands on. -/
theorem block_pt (c : Dev nD) (t : Fin cfg0.N) (j : S1000x256.Idx) :
    out0_8 (F := Ideal) (iblk0 V c 0 t) (iblk0 V c 1 t) (iblk0 V c 2 t) (iblk0 V c 3 t) (iblk0 V c 4 t) (iblk0 V c 5 t)
        (iblk0 V c 6 t) (iblk0 V c 7 t) j
      = G V c (((cfg0.win 8).blk t).view.emb j) := by
  obtain ⟨y, q, rfl⟩ : ∃ (y : Fin 1000) (q : Fin 256), j = ix2 y q := ⟨j 0, j 1, eq_ix2 j⟩
  have hN : cfg0.N = 50 := N_0
  have ht : t.val < cfg0.N := t.isLt
  obtain ⟨r, hr⟩ : ∃ r : Fin 50000, r.val = t.val * 1000 + y.val := ⟨⟨t.val * 1000 + y.val, by omega⟩, rfl⟩
  have e0 : win0_8.index t (0 : Fin 2) = t.val := (idx_facts t).2.2.2.2.2.2.2.2.2.2.2.2.2.2.2.2.1
  have e1 : win0_8.index t (1 : Fin 2) = 0 := (idx_facts t).2.2.2.2.2.2.2.2.2.2.2.2.2.2.2.2.2
  have hemb : ((cfg0.win 8).blk t).view.emb (ix2 y q) = (ix2 r q : S50000x256.Idx) := by
    funext a
    apply Fin.ext
    match a with
    | ⟨0, _⟩ => show win0_8.index t (0 : Fin 2) * 1000 + 1 * y.val = r.val; rw [e0, hr]; omega
    | ⟨1, _⟩ => show win0_8.index t (1 : Fin 2) * 256 + 1 * q.val = q.val; rw [e1]; omega
  rw [hemb, iblk_We V c t, iblk_be V c t, iblk_W1 V c t, iblk_b1 V c t, iblk_W2 V c t, iblk_b2 V c t]
  refine (EncPayload.out_apply _ _ _ _ _ _ _ _ y q).trans ?_
  exact enc_congr_rows _ _ _ _ _ _ _ _ _ _ y r (fun k => iblk_rows_e V c t y k r hr) (fun k => iblk_rows_x V c t y k r hr) q

/-- What point `t` writes back is block `t` of the whole-array function. -/
theorem flushed_eq (c : Dev nD) (t : Fin cfg0.N) :
    (dat0 (F := Ideal) V c).flushed 8 t = ((cfg0.win 8).blk t).view.read (Elt Ideal) (G V c) := by
  show (cfg0.win 8).cut (grid0.coords t) ((dat0 (F := Ideal) V c).after 8 t) = _
  rw [after0_8]
  funext j
  exact block_pt V c t j

/-- A row and column of the output are in point `t`'s block iff each lies in the block's range on its axis. -/
theorem mem_blk (t : Fin cfg0.N) (i : S50000x256.Idx) :
    i ∈ ((cfg0.win 8).blk t).view.set ↔ ∀ a : Fin 2, win0_8.index t a * S1000x256.size a ≤ (i a).val ∧ (i a).val < win0_8.index t a * S1000x256.size a + S1000x256.size a := by
  show i ∈ ((View.whole main_v13).slice (win0_8.rect t)).set ↔ _
  rw [View.set_slice_whole, Rect.mem_set_unit]
  exact Iff.rfl

/-- Row `r` lies in the block of point `r / 1000`: the fifty blocks cover the output. -/
theorem cover (i : S50000x256.Idx) :
    ∃ t : Fin cfg0.N, (cfg0.win 8).flush t = true ∧ i ∈ ((cfg0.win 8).blk t).view.set := by
  have hN : cfg0.N = 50 := N_0
  have hi0 : (i 0).val < 50000 := idx2_lt0 i
  have hi1 : (i 1).val < 256 := idx2_lt1 i
  refine ⟨⟨(i 0).val / 1000, by omega⟩, flush0_8 _, ?_⟩
  rw [mem_blk]
  obtain ⟨-, -, -, -, -, -, -, -, -, -, -, -, -, -, -, -, e0, e1⟩ := idx_facts ⟨(i 0).val / 1000, by omega⟩
  intro a
  match a with
  | ⟨0, _⟩ => show win0_8.index _ (0 : Fin 2) * 1000 ≤ (i 0).val ∧ (i 0).val < win0_8.index _ (0 : Fin 2) * 1000 + 1000; rw [e0]; show (i 0).val / 1000 * 1000 ≤ (i 0).val ∧ (i 0).val < (i 0).val / 1000 * 1000 + 1000; omega
  | ⟨1, _⟩ => show win0_8.index _ (1 : Fin 2) * 256 ≤ (i 1).val ∧ (i 1).val < win0_8.index _ (1 : Fin 2) * 256 + 256; rw [e1]; omega

/-- The output array after the region is the whole-array function. -/
theorem final_fun (c : Dev nD) : (dat0 (F := Ideal) V c).arrAt 8 cfg0.N = G V c :=
  (dat0 (F := Ideal) V c).arrAt_eq_of_cover 8 (G V c) (fun t _ => flushed_eq V c t) (cover)

/-- Entry `(p, q)` of the output array after the region: the first representation of node `p` at column `q`. -/
theorem final (c : Dev nD) (p : Fin 50000) (q : Fin 256) :
    (dat0 (F := Ideal) V c).arrAt 8 cfg0.N (ix2 p q)
      = Cert.Spec.enc (V c main_v6 : S50000x64.Idx → EReal) (V c main_arg1 : S50000x300.Idx → EReal)
          (V c main_v7 : S64x256.Idx → EReal) (V c main_v10 : S1x256.Idx → EReal) (V c main_v8 : S300x300.Idx → EReal)
          (V c main_v11 : S1x300.Idx → EReal) (V c main_v9 : S300x256.Idx → EReal) (V c main_v12 : S1x256.Idx → EReal) p q := by
  rw [final_fun V c]
  rfl

end Cert.KernelIdeal.EncValue

end
-- ==== Proof.LibKeepdims.lean ====
/-
  Keepdims column forms read at an index, at the exact values: a lane sum [a, b] → [a] is the finite sum over the row;
  the cast of the vector of sums [a] → [a, 1] keeps each entry in its row; the broadcast of a column [a, 1] over the
  lanes [a, b] repeats the row's entry on every lane. With the row broadcast [1, b] → [a, b] these are all a row-wise
  normalization needs.
-/
import Idealize.ShloMosaic.Lib.ValueIdx
import Idealize.ShloMosaic.Lib.ValueLayout
import Idealize.ShloMosaic.PureOps.Ideal.Laws

namespace Cert.LibKeepdims

open Idealize.ShloMosaic Idealize.ShloMosaic.ValueIdx

variable {α : Type}

/-- An `[a]` array cast to the column `[a, 1]` reads, at `(p, u)`, the operand at `p`. -/
theorem shapeCast_a_a1_apply {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- A column `[a, 1]` broadcast over `b` lanes reads, at `(p, q)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (q : Fin b) : broadcastTo ⟨2, ![a, b]⟩ v h (ix2 p q) = v (ix2 p (0 : Fin 1)) := by
  refine broadcastTo_apply v h (ix2 p q) (ix2 p (0 : Fin 1)) fun ax => ?_
  match ax with
  | ⟨0, _⟩ =>
    show p.val = if a = 1 then 0 else p.val
    split
    · have := p.isLt; omega
    · rfl
  | ⟨1, _⟩ => rfl

/-- The lane sum of an `[a, b]` array, at row `p`: the sum over the row's `b` entries. -/
theorem laneSum_apply {a b : ℕ} (src : FVec Ideal ⟨2, ![a, b]⟩ .f32) (h : (⟨2, ![a, b]⟩ : Shape).Reduces [1] ⟨1, ![a]⟩)
    (hφ : FKind.Formats .f32) (hacc : (0x00000000#32 : BitVec 32) = 0x00000000#32) (p : Fin a) :
    multiReduction .add [1] ⟨1, ![a]⟩ src 0x00000000#32 h hφ hacc (ix1 p) = ∑ k : Fin b, src (ix2 p k) :=
  (Ideal.multiReduction_add_single src 0x00000000#32 h hφ hacc (ix1 p)).trans
    (Finset.sum_congr rfl fun k _ => congrArg src (funext fun c => by
      match c with
      | ⟨0, _⟩ => exact Fin.ext rfl
      | ⟨1, _⟩ => exact Fin.ext rfl))

end Cert.LibKeepdims
-- ==== Proof.LayerCommon.lean ====
/-
  The pieces a message-passing layer's block is made of, each read at one entry over the extended reals, for any
  number of rows: the leaky rectifier written as a comparison with zero and a selection; a one-row bias repeated on
  every row; a dense map (a product with a weight matrix plus the bias); the affine map of a node's row and its
  neighbour mean; and a row divided by its floored Euclidean norm (the squares summed along the row, the root, the
  floor, the quotient).
-/
import proofs.«167175_j43568148251366_1_alg».proof.Proof.Spec
import proofs.«167175_j43568148251366_1_alg».proof.Proof.LibMatmulRead
import proofs.«167175_j43568148251366_1_alg».proof.Proof.LibKeepdims
import Idealize.ShloMosaic.Lib.ValueLayout

noncomputable section

namespace Cert.KernelIdeal.LayerCommon

open Idealize.ShloMosaic Idealize.ShloMosaic.ValueIdx
open scoped BigOperators

/-- The rectifier as the programs write it — compare with zero, keep the value or take the slope times it — is
    `lrelu` of the entry. -/
theorem lrelu_read {s : Shape} (u : FVec Ideal s .f32) (i : s.Idx) :
    select (cmpf .ogt u (broadcast s (Scalar.ofBits (F := Ideal) .f32 0x00000000#32))) u
        (mulf (broadcast s (Scalar.ofBits (F := Ideal) .f32 0x3DCCCCCD#32)) u) i
      = Cert.Spec.lrelu (u i) := by
  show Scalar.select (Ideal.cmp .ogt (u i) (Ideal.ofBits .f32 0x00000000#32)) (u i)
      (Ideal.ofBits .f32 0x3DCCCCCD#32 * u i) = _
  rw [Ideal.ofBits_zero_f32]
  unfold Cert.Spec.lrelu Cert.Spec.slope Scalar.select Ideal.cmp
  by_cases h : (0 : EReal) < u i
  · simp [h]
  · simp [h]

/-- A one-row array repeated on every row reads, at `(p, q)`, the row's entry `q`. -/
theorem bias_read {a b : ℕ} (x : FVec Ideal ⟨2, ![1, b]⟩ .f32) (h1 : (⟨2, ![1, b]⟩ : Shape).ShapeCasts ⟨2, ![1, b]⟩)
    (h2 : (⟨2, ![1, b]⟩ : Shape).Broadcasts ⟨2, ![a, b]⟩) (p : Fin a) (q : Fin b) :
    broadcastTo ⟨2, ![a, b]⟩ (shapeCast ⟨2, ![1, b]⟩ x h1) h2 (ix2 p q) = x (ix2 (0 : Fin 1) q) :=
  (broadcastTo_1b_ab_apply _ h2 p q).trans (congrFun (shapeCast_self x h1) _)

open Idealize.ShloMosaic.MatmulRead in
/-- A product of the rows-by-columns form into a zero block, both operands passed through the change of format (the
    identity on extended reals), the weight also through a cast to its own shape: entry `(p, q)` is
    `Σ_k u[p, k] · w[k, q]`. -/
theorem prod_read {a K b : ℕ} (D : DotDims (⟨2, ![a, K]⟩ : Shape) (⟨2, ![K, b]⟩ : Shape) (⟨2, ![a, b]⟩ : Shape))
    (h : RowsByCols D) (hr : D.contr.rank = 1) (hs : D.contr.size ⟨0, by omega⟩ = K)
    (u : FVec Ideal ⟨2, ![a, K]⟩ .f32) (w : FVec Ideal ⟨2, ![K, b]⟩ .f32)
    (hw : (⟨2, ![K, b]⟩ : Shape).ShapeCasts ⟨2, ![K, b]⟩) (hlt : FTy.bits .bf16 < FTy.bits .f32) (p : Fin a) (q : Fin b) :
    FloatOps.matmul D none (truncf .bf16 u hlt) (truncf .bf16 (shapeCast ⟨2, ![K, b]⟩ w hw) hlt)
        (constant (⟨2, ![a, b]⟩ : Shape) .f32 0x00000000#32) (ix2 p q)
      = ∑ k : Fin K, u (ix2 p k) * w (ix2 k q) :=
  (matmul_zero_ix2 h hr hs none _ _ p q).trans
    (Finset.sum_congr rfl fun k _ => congrArg (fun t => u (ix2 p k) * t) (congrFun (shapeCast_self w hw) (ix2 k q)))

open Idealize.ShloMosaic.MatmulRead in
/-- A dense map: the product plus the bias row. -/
theorem dense_read {a K b : ℕ} (D : DotDims (⟨2, ![a, K]⟩ : Shape) (⟨2, ![K, b]⟩ : Shape) (⟨2, ![a, b]⟩ : Shape))
    (h : RowsByCols D) (hr : D.contr.rank = 1) (hs : D.contr.size ⟨0, by omega⟩ = K)
    (u : FVec Ideal ⟨2, ![a, K]⟩ .f32) (w : FVec Ideal ⟨2, ![K, b]⟩ .f32) (bias : FVec Ideal ⟨2, ![1, b]⟩ .f32)
    (hw : (⟨2, ![K, b]⟩ : Shape).ShapeCasts ⟨2, ![K, b]⟩) (hlt : FTy.bits .bf16 < FTy.bits .f32)
    (h1 : (⟨2, ![1, b]⟩ : Shape).ShapeCasts ⟨2, ![1, b]⟩) (h2 : (⟨2, ![1, b]⟩ : Shape).Broadcasts ⟨2, ![a, b]⟩)
    (p : Fin a) (q : Fin b) :
    addf (FloatOps.matmul D none (truncf .bf16 u hlt) (truncf .bf16 (shapeCast ⟨2, ![K, b]⟩ w hw) hlt)
          (constant (⟨2, ![a, b]⟩ : Shape) .f32 0x00000000#32))
        (broadcastTo ⟨2, ![a, b]⟩ (shapeCast ⟨2, ![1, b]⟩ bias h1) h2) (ix2 p q)
      = (∑ k : Fin K, u (ix2 p k) * w (ix2 k q)) + bias (ix2 (0 : Fin 1) q) :=
  congrArg₂ (· + ·) (prod_read D h hr hs u w hw hlt p q) (bias_read bias h1 h2 p q)

open Idealize.ShloMosaic.MatmulRead in
/-- The layer's affine map: the node rows times one weight matrix, plus the neighbour means times the other, plus the
    bias row. -/
theorem affine_read {a : ℕ} (D : DotDims (⟨2, ![a, 256]⟩ : Shape) (⟨2, ![256, 256]⟩ : Shape) (⟨2, ![a, 256]⟩ : Shape))
    (h : RowsByCols D) (hr : D.contr.rank = 1) (hs : D.contr.size ⟨0, by omega⟩ = 256)
    (x0 x1 : FVec Ideal ⟨2, ![a, 256]⟩ .f32) (x2 x3 : FVec Ideal ⟨2, ![256, 256]⟩ .f32) (x4 : FVec Ideal ⟨2, ![1, 256]⟩ .f32)
    (hx : (⟨2, ![a, 256]⟩ : Shape).ShapeCasts ⟨2, ![a, 256]⟩)
    (hw : (⟨2, ![256, 256]⟩ : Shape).ShapeCasts ⟨2, ![256, 256]⟩) (hlt : FTy.bits .bf16 < FTy.bits .f32)
    (h1 : (⟨2, ![1, 256]⟩ : Shape).ShapeCasts ⟨2, ![1, 256]⟩) (h2 : (⟨2, ![1, 256]⟩ : Shape).Broadcasts ⟨2, ![a, 256]⟩)
    (p : Fin a) (q : Fin 256) :
    addf (addf (FloatOps.matmul D none (truncf .bf16 (shapeCast ⟨2, ![a, 256]⟩ x0 hx) hlt)
                  (truncf .bf16 (shapeCast ⟨2, ![256, 256]⟩ x2 hw) hlt) (constant (⟨2, ![a, 256]⟩ : Shape) .f32 0x00000000#32))
               (FloatOps.matmul D none (truncf .bf16 (shapeCast ⟨2, ![a, 256]⟩ x1 hx) hlt)
                  (truncf .bf16 (shapeCast ⟨2, ![256, 256]⟩ x3 hw) hlt) (constant (⟨2, ![a, 256]⟩ : Shape) .f32 0x00000000#32)))
        (broadcastTo ⟨2, ![a, 256]⟩ (shapeCast ⟨2, ![1, 256]⟩ x4 h1) h2) (ix2 p q)
      = Cert.Spec.conv x0 x1 x2 x3 x4 p q := by
  have e0 : shapeCast ⟨2, ![a, 256]⟩ x0 hx = x0 := shapeCast_self x0 hx
  have e1 : shapeCast ⟨2, ![a, 256]⟩ x1 hx = x1 := shapeCast_self x1 hx
  rw [e0, e1]
  exact congrArg₂ (· + ·)
    (congrArg₂ (· + ·) (prod_read D h hr hs x0 x2 hw hlt p q) (prod_read D h hr hs x1 x3 hw hlt p q))
    (bias_read x4 h1 h2 p q)

/-- A row divided by its floored Euclidean norm: the squares summed along the row, the root, the floor, the quotient. -/
theorem unit_read {a : ℕ} (r : FVec Ideal ⟨2, ![a, 256]⟩ .f32)
    (hred : (⟨2, ![a, 256]⟩ : Shape).Reduces [1] ⟨1, ![a]⟩) (hφ : FKind.Formats .f32)
    (hacc : (0x00000000#32 : BitVec 32) = 0x00000000#32)
    (hsc : (⟨1, ![a]⟩ : Shape).ShapeCasts ⟨2, ![a, 1]⟩) (hbc : (⟨2, ![a, 1]⟩ : Shape).Broadcasts ⟨2, ![a, 256]⟩)
    (p : Fin a) (q : Fin 256) :
    divf r (broadcastTo ⟨2, ![a, 256]⟩
        (maximumf (sqrt (shapeCast ⟨2, ![a, 1]⟩ (multiReduction .add [1] ⟨1, ![a]⟩ (mulf r r) 0x00000000#32 hred hφ hacc) hsc))
          (broadcast ⟨2, ![a, 1]⟩ (Scalar.ofBits (F := Ideal) .f32 0x358637BD#32))) hbc) (ix2 p q)
      = Cert.Spec.unitRow (fun l => r (ix2 p l)) q := by
  show Ideal.div (r (ix2 p q)) _ = Ideal.div (r (ix2 p q)) _
  refine congrArg (Ideal.div (r (ix2 p q))) ?_
  refine (Cert.LibKeepdims.broadcastTo_a1_ab_apply _ hbc p q).trans ?_
  show max (Ideal.sqrt (shapeCast ⟨2, ![a, 1]⟩ _ hsc (ix2 p (0 : Fin 1)))) (Ideal.ofBits .f32 0x358637BD#32) = _
  unfold Cert.Spec.rowNorm Cert.Spec.normFloor
  refine congrArg (fun t => max (Ideal.sqrt t) (Ideal.ofBits .f32 0x358637BD#32)) ?_
  refine (Cert.LibKeepdims.shapeCast_a_a1_apply _ hsc p (0 : Fin 1)).trans ?_
  exact Cert.LibKeepdims.laneSum_apply (mulf r r) hred hφ hacc p

end Cert.KernelIdeal.LayerCommon

end
-- ==== Proof.LayerPayload1.lean ====
/-
  One block of the inner message-passing layer, entry by entry.

  The body of the layer's kernel reads a block of 1000 node rows, the same rows of the neighbour means and the seven
  weight arrays whole, and stores one block of 1000 result rows. Read at row `y` and column `q`, over the extended
  reals, what it stores is the layer of the specification applied to the block: the affine map of the two row blocks,
  the rectifier, the row divided by its floored norm, then two dense maps with the rectifier between them.
-/
import proofs.«167175_j43568148251366_1_alg».proof.Proof.Gen.KernelIdeal.Frame
import proofs.«167175_j43568148251366_1_alg».proof.Proof.LayerCommon

noncomputable section

namespace Cert.KernelIdeal.LayerPayload1

open Idealize.ShloMosaic Idealize.ShloMosaic.ValueIdx
open Cert.KernelIdeal Cert.KernelIdeal.Gen
open scoped BigOperators

/-- The zero offsets of a whole-buffer access, as a constant function. -/
theorem hz : (![0, 0] : Fin 2 → Nat) = fun _ => 0 := funext fun a => by fin_cases a <;> rfl

/-- The contraction record of every product in the body is of the rows-by-columns form, over 256 terms. -/
theorem dims_form : MatmulRead.RowsByCols dot_S1000x256_S256x256_S1000x256_1_0_0_1_n_n := ⟨rfl, rfl, rfl, rfl, rfl, rfl⟩
theorem dims_rank : dot_S1000x256_S256x256_S1000x256_1_0_0_1_n_n.contr.rank = 1 := rfl
theorem dims_size : dot_S1000x256_S256x256_S1000x256_1_0_0_1_n_n.contr.size ⟨0, by rw [dims_rank]; exact Nat.one_pos⟩ = 256 := rfl

/-- The first half of the body — the affine map, the rectifier, the normalised row, the first product — at row `y` and
    column `j`: the normalised rectified row of the affine map, times column `j` of the first output weight. -/
theorem first_half (x0 x1 : Vec Ideal S1000x256 .f32) (x2 x3 : Vec Ideal S256x256 .f32) (x4 : Vec Ideal S1x256 .f32)
    (x5 : Vec Ideal S256x256 .f32) (y : Fin 1000) (j : Fin 256) :
    Gen.k1_pay2 (F := Ideal) x0 x1 x2 x3 x4 x5 (ix2 y j)
      = ∑ i : Fin 256, Cert.Spec.unitRow (fun l => Cert.Spec.lrelu (Cert.Spec.conv x0 x1 x2 x3 x4 y l)) i * x5 (ix2 i j) := by
  unfold Gen.k1_pay2
  refine (LayerCommon.prod_read _ dims_form dims_rank dims_size _ x5 _ _ y j).trans ?_
  refine Finset.sum_congr rfl fun i _ => congrArg (· * x5 (ix2 i j)) ?_
  refine (LayerCommon.unit_read _ _ _ _ _ _ y i).trans ?_
  refine congrArg (fun f => Cert.Spec.unitRow f i) (funext fun l => ?_)
  refine (LayerCommon.lrelu_read _ (ix2 y l)).trans (congrArg Cert.Spec.lrelu ?_)
  exact LayerCommon.affine_read _ dims_form dims_rank dims_size x0 x1 x2 x3 x4 _ _ _ _ _ y l

/-- The second half — the first output bias, the rectifier, the second dense map — at row `y` and column `q`, from the
    first half's result `v`. -/
theorem second_half (v : FVec Ideal S1000x256 .f32) (x6 : Vec Ideal S1x256 .f32) (x7 : Vec Ideal S256x256 .f32)
    (x8 : Vec Ideal S1x256 .f32) (y : Fin 1000) (q : Fin 256) :
    Gen.k1_pay1 (F := Ideal) v x6 x7 x8 (ix2 y q)
      = (∑ j : Fin 256, Cert.Spec.lrelu (v (ix2 y j) + x6 (ix2 (0 : Fin 1) j)) * x7 (ix2 j q)) + x8 (ix2 (0 : Fin 1) q) := by
  unfold Gen.k1_pay1
  refine (LayerCommon.dense_read _ dims_form dims_rank dims_size _ x7 x8 _ _ _ _ y q).trans ?_
  refine congrArg (· + x8 (ix2 (0 : Fin 1) q)) (Finset.sum_congr rfl fun j _ => congrArg (· * x7 (ix2 j q)) ?_)
  refine (LayerCommon.lrelu_read _ (ix2 y j)).trans (congrArg Cert.Spec.lrelu ?_)
  exact congrArg (v (ix2 y j) + ·) (LayerCommon.bias_read x6 _ _ y j)

/-- WHAT THE BODY LEAVES IN THE OUTPUT BLOCK, at row `y` and column `q`: the specification's inner layer of the input
    blocks. -/
theorem block_value (x0 x1 : Vec Ideal S1000x256 .f32) (x2 x3 : Vec Ideal S256x256 .f32) (x4 : Vec Ideal S1x256 .f32)
    (x5 : Vec Ideal S256x256 .f32) (x6 : Vec Ideal S1x256 .f32) (x7 : Vec Ideal S256x256 .f32) (x8 : Vec Ideal S1x256 .f32)
    (y : Fin 1000) (q : Fin 256) :
    Gen.out1_9 (F := Ideal) x0 x1 x2 x3 x4 x5 x6 x7 x8 (ix2 y q)
      = Cert.Spec.layerA x0 x1 x2 x3 x4 x5 x6 x7 x8 y q := by
  unfold Gen.out1_9
  rw [View.canon_unit_zero hz]
  simp only [View.ld_unit_zero (S := S1000x256) hz, View.ld_unit_zero (S := S256x256) hz, View.ld_unit_zero (S := S1x256) hz]
  refine (second_half _ x6 x7 x8 y q).trans ?_
  unfold Cert.Spec.layerA
  refine congrArg (· + x8 (ix2 (0 : Fin 1) q)) (Finset.sum_congr rfl fun j _ => congrArg (· * x7 (ix2 j q)) ?_)
  exact congrArg (fun t => Cert.Spec.lrelu (t + x6 (ix2 (0 : Fin 1) j))) (first_half x0 x1 x2 x3 x4 x5 y j)

end Cert.KernelIdeal.LayerPayload1

end
-- ==== Proof.LayerValue1.lean ====
/-
  The inner message-passing layer's result array, entry by entry.

  The layer's kernel runs over 50 grid points; point `t` reads rows `1000 t … 1000 t + 999` of the node rows and of
  the neighbour means, reads the seven weight arrays whole, and writes rows `1000 t … 1000 t + 999` of the result.
  Its body's block is the specification's inner layer of the input blocks, and that layer's row `p` depends only on
  row `p` of the two row arrays; so what point `t` writes back is block `t` of ONE whole-array function, the inner
  layer of the arrays the region finds. The 50 blocks cover the 50000 rows (row `r` lies in block `r / 1000`), so the
  result array ends holding that function.
-/
import proofs.«167175_j43568148251366_1_alg».proof.Proof.LayerPayload1
import Idealize.ShloMosaic.Lib.Pipeline.Value
import Idealize.ShloMosaic.Lib.Tactic

noncomputable section

namespace Cert.KernelIdeal.LayerValue1

open Idealize.ShloMosaic Idealize.ShloMosaic.TcCoe Idealize.ShloMosaic.ValueIdx Idealize.SL.Sem
open Idealize.ShloMosaic.Pipeline (Dat)
open Cert.KernelIdeal Cert.KernelIdeal.Gen
open scoped BigOperators

variable (V : (c : Dev nD) → (b : Ref sig .tc) → Buf (Elt Ideal) ((c : Thread nD τ).loc b))

/-- The specification's inner layer reads only row `p` of its two row arrays: two pairs of row arrays, of any heights,
    that agree on one row each give the same entry there. -/
theorem layerA_of_rows {n N : ℕ} (H HA : Cert.Spec.Mat n 256) (H' HA' : Cert.Spec.Mat N 256)
    (W1 W2 : Cert.Spec.Mat 256 256) (bc : Cert.Spec.Mat 1 256) (Wo1 : Cert.Spec.Mat 256 256) (bo1 : Cert.Spec.Mat 1 256)
    (Wo2 : Cert.Spec.Mat 256 256) (bo2 : Cert.Spec.Mat 1 256) (p : Fin n) (p' : Fin N)
    (hH : ∀ l, H (ix2 p l) = H' (ix2 p' l)) (hHA : ∀ l, HA (ix2 p l) = HA' (ix2 p' l)) (q : Fin 256) :
    Cert.Spec.layerA H HA W1 W2 bc Wo1 bo1 Wo2 bo2 p q = Cert.Spec.layerA H' HA' W1 W2 bc Wo1 bo1 Wo2 bo2 p' q := by
  unfold Cert.Spec.layerA Cert.Spec.conv
  simp only [hH, hHA]

/-- The result array as ONE function of the arrays the region finds: the inner layer, entry by entry. -/
def G (c : Dev nD) : S50000x256.Idx → EReal := fun i =>
  Cert.Spec.layerA (V c main_v13 : S50000x256.Idx → EReal) (V c main_v32 : S50000x256.Idx → EReal)
    (V c main_v36 : S256x256.Idx → EReal) (V c main_v38 : S256x256.Idx → EReal) (V c main_v51 : S1x256.Idx → EReal)
    (V c main_v43 : S256x256.Idx → EReal) (V c main_v52 : S1x256.Idx → EReal) (V c main_v48 : S256x256.Idx → EReal)
    (V c main_v53 : S1x256.Idx → EReal) (i 0) (i 1)

/-- The printed index maps, decided over the grid: the two row windows and the output window are at block `(t, 0)` at
    point `t`; every weight window is at block `(0, 0)`. -/
theorem index_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = 0 ∧ win1_6.index t (1 : Fin 2) = 0
    ∧ win1_7.index t (0 : Fin 2) = 0 ∧ win1_7.index t (1 : Fin 2) = 0
    ∧ win1_8.index t (0 : Fin 2) = 0 ∧ win1_8.index t (1 : Fin 2) = 0
    ∧ win1_9.index t (0 : Fin 2) = t.val ∧ win1_9.index t (1 : Fin 2) = 0 :=
  (by decide +kernel : ∀ t : Fin grid1.N, _)

/-- The node rows' block at point `t`, at `(y, l)`, is the array at row `1000 t + y`. -/
theorem rows0_read (c : Dev nD) (t : Fin cfg1.N) (y : Fin 1000) (l : Fin 256) (r : Fin 50000)
    (hr : r.val = t.val * 1000 + y.val) :
    (Gen.iblk1 (F := Ideal) V c 0 t : S1000x256.Idx → EReal) (ix2 y l) = (V c main_v13 : S50000x256.Idx → EReal) (ix2 r l) := by
  obtain ⟨a0, a1, b0, b1, c20, c21, c30, c31, c40, c41, c50, c51, c60, c61, c70, c71, c80, c81, z0, z1⟩ := index_facts t
  unfold Gen.iblk1
  rw [View.read_apply]
  show V c main_v13 (((cfg1.win 0).blk t).view.emb (ix2 y l)) = V c main_v13 (ix2 r l)
  congr 1
  funext a
  apply Fin.ext
  match a with
  | ⟨0, _⟩ => show win1_0.index t (0 : Fin 2) * 1000 + 1 * y.val = r.val; omega
  | ⟨1, _⟩ => show win1_0.index t (1 : Fin 2) * 256 + 1 * l.val = l.val; omega

/-- The neighbour means' block at point `t`, at `(y, l)`, is the array at row `1000 t + y`. -/
theorem rows1_read (c : Dev nD) (t : Fin cfg1.N) (y : Fin 1000) (l : Fin 256) (r : Fin 50000)
    (hr : r.val = t.val * 1000 + y.val) :
    (Gen.iblk1 (F := Ideal) V c 1 t : S1000x256.Idx → EReal) (ix2 y l) = (V c main_v32 : S50000x256.Idx → EReal) (ix2 r l) := by
  obtain ⟨a0, a1, b0, b1, c20, c21, c30, c31, c40, c41, c50, c51, c60, c61, c70, c71, c80, c81, z0, z1⟩ := index_facts t
  unfold Gen.iblk1
  rw [View.read_apply]
  show V c main_v32 (((cfg1.win 1).blk t).view.emb (ix2 y l)) = V c main_v32 (ix2 r l)
  congr 1
  funext a
  apply Fin.ext
  match a with
  | ⟨0, _⟩ => show win1_1.index t (0 : Fin 2) * 1000 + 1 * y.val = r.val; omega
  | ⟨1, _⟩ => show win1_1.index t (1 : Fin 2) * 256 + 1 * l.val = l.val; omega

/-- Window 2's block at every point is its whole array. -/
theorem whole2_read (c : Dev nD) (t : Fin cfg1.N) :
    (Gen.iblk1 (F := Ideal) V c 2 t : S256x256.Idx → EReal) = (V c main_v36 : S256x256.Idx → EReal) := by
  obtain ⟨a0, a1, b0, b1, c20, c21, c30, c31, c40, c41, c50, c51, c60, c61, c70, c71, c80, c81, z0, z1⟩ := index_facts t
  funext j
  unfold Gen.iblk1
  rw [View.read_apply]
  show V c main_v36 (((cfg1.win 2).blk t).view.emb j) = V c main_v36 j
  congr 1
  funext a
  apply Fin.ext
  match a with
  | ⟨0, _⟩ => show win1_2.index t (0 : Fin 2) * 256 + 1 * (j 0).val = (j 0).val; omega
  | ⟨1, _⟩ => show win1_2.index t (1 : Fin 2) * 256 + 1 * (j 1).val = (j 1).val; omega

/-- Window 3's block at every point is its whole array. -/
theorem whole3_read (c : Dev nD) (t : Fin cfg1.N) :
    (Gen.iblk1 (F := Ideal) V c 3 t : S256x256.Idx → EReal) = (V c main_v38 : S256x256.Idx → EReal) := by
  obtain ⟨a0, a1, b0, b1, c20, c21, c30, c31, c40, c41, c50, c51, c60, c61, c70, c71, c80, c81, z0, z1⟩ := index_facts t
  funext j
  unfold Gen.iblk1
  rw [View.read_apply]
  show V c main_v38 (((cfg1.win 3).blk t).view.emb j) = V c main_v38 j
  congr 1
  funext a
  apply Fin.ext
  match a with
  | ⟨0, _⟩ => show win1_3.index t (0 : Fin 2) * 256 + 1 * (j 0).val = (j 0).val; omega
  | ⟨1, _⟩ => show win1_3.index t (1 : Fin 2) * 256 + 1 * (j 1).val = (j 1).val; omega

/-- Window 4's block at every point is its whole array. -/
theorem whole4_read (c : Dev nD) (t : Fin cfg1.N) :
    (Gen.iblk1 (F := Ideal) V c 4 t : S1x256.Idx → EReal) = (V c main_v51 : S1x256.Idx → EReal) := by
  obtain ⟨a0, a1, b0, b1, c20, c21, c30, c31, c40, c41, c50, c51, c60, c61, c70, c71, c80, c81, z0, z1⟩ := index_facts t
  funext j
  unfold Gen.iblk1
  rw [View.read_apply]
  show V c main_v51 (((cfg1.win 4).blk t).view.emb j) = V c main_v51 j
  congr 1
  funext a
  apply Fin.ext
  match a with
  | ⟨0, _⟩ => show win1_4.index t (0 : Fin 2) * 1 + 1 * (j 0).val = (j 0).val; omega
  | ⟨1, _⟩ => show win1_4.index t (1 : Fin 2) * 256 + 1 * (j 1).val = (j 1).val; omega

/-- Window 5's block at every point is its whole array. -/
theorem whole5_read (c : Dev nD) (t : Fin cfg1.N) :
    (Gen.iblk1 (F := Ideal) V c 5 t : S256x256.Idx → EReal) = (V c main_v43 : S256x256.Idx → EReal) := by
  obtain ⟨a0, a1, b0, b1, c20, c21, c30, c31, c40, c41, c50, c51, c60, c61, c70, c71, c80, c81, z0, z1⟩ := index_facts t
  funext j
  unfold Gen.iblk1
  rw [View.read_apply]
  show V c main_v43 (((cfg1.win 5).blk t).view.emb j) = V c main_v43 j
  congr 1
  funext a
  apply Fin.ext
  match a with
  | ⟨0, _⟩ => show win1_5.index t (0 : Fin 2) * 256 + 1 * (j 0).val = (j 0).val; omega
  | ⟨1, _⟩ => show win1_5.index t (1 : Fin 2) * 256 + 1 * (j 1).val = (j 1).val; omega

/-- Window 6's block at every point is its whole array. -/
theorem whole6_read (c : Dev nD) (t : Fin cfg1.N) :
    (Gen.iblk1 (F := Ideal) V c 6 t : S1x256.Idx → EReal) = (V c main_v52 : S1x256.Idx → EReal) := by
  obtain ⟨a0, a1, b0, b1, c20, c21, c30, c31, c40, c41, c50, c51, c60, c61, c70, c71, c80, c81, z0, z1⟩ := index_facts t
  funext j
  unfold Gen.iblk1
  rw [View.read_apply]
  show V c main_v52 (((cfg1.win 6).blk t).view.emb j) = V c main_v52 j
  congr 1
  funext a
  apply Fin.ext
  match a with
  | ⟨0, _⟩ => show win1_6.index t (0 : Fin 2) * 1 + 1 * (j 0).val = (j 0).val; omega
  | ⟨1, _⟩ => show win1_6.index t (1 : Fin 2) * 256 + 1 * (j 1).val = (j 1).val; omega

/-- Window 7's block at every point is its whole array. -/
theorem whole7_read (c : Dev nD) (t : Fin cfg1.N) :
    (Gen.iblk1 (F := Ideal) V c 7 t : S256x256.Idx → EReal) = (V c main_v48 : S256x256.Idx → EReal) := by
  obtain ⟨a0, a1, b0, b1, c20, c21, c30, c31, c40, c41, c50, c51, c60, c61, c70, c71, c80, c81, z0, z1⟩ := index_facts t
  funext j
  unfold Gen.iblk1
  rw [View.read_apply]
  show V c main_v48 (((cfg1.win 7).blk t).view.emb j) = V c main_v48 j
  congr 1
  funext a
  apply Fin.ext
  match a with
  | ⟨0, _⟩ => show win1_7.index t (0 : Fin 2) * 256 + 1 * (j 0).val = (j 0).val; omega
  | ⟨1, _⟩ => show win1_7.index t (1 : Fin 2) * 256 + 1 * (j 1).val = (j 1).val; omega

/-- Window 8's block at every point is its whole array. -/
theorem whole8_read (c : Dev nD) (t : Fin cfg1.N) :
    (Gen.iblk1 (F := Ideal) V c 8 t : S1x256.Idx → EReal) = (V c main_v53 : S1x256.Idx → EReal) := by
  obtain ⟨a0, a1, b0, b1, c20, c21, c30, c31, c40, c41, c50, c51, c60, c61, c70, c71, c80, c81, z0, z1⟩ := index_facts t
  funext j
  unfold Gen.iblk1
  rw [View.read_apply]
  show V c main_v53 (((cfg1.win 8).blk t).view.emb j) = V c main_v53 j
  congr 1
  funext a
  apply Fin.ext
  match a with
  | ⟨0, _⟩ => show win1_8.index t (0 : Fin 2) * 1 + 1 * (j 0).val = (j 0).val; omega
  | ⟨1, _⟩ => show win1_8.index t (1 : Fin 2) * 256 + 1 * (j 1).val = (j 1).val; omega

/-- WHAT POINT `t` WRITES BACK is block `t` of `G`. -/
theorem flushed_eq (c : Dev nD) (t : Fin cfg1.N) :
    (Gen.dat1 (F := Ideal) V c).flushed 9 t = ((cfg1.win 9).blk t).view.read (Elt Ideal) (G V c) := by
  show (cfg1.win 9).cut (grid1.coords t) ((Gen.dat1 (F := Ideal) V c).after 9 t) = _
  rw [Gen.after1_9]
  have hN : cfg1.N = 50 := Gen.N_1
  have ht : t.val < 50 := by have := t.isLt; omega
  obtain ⟨a0, a1, b0, b1, c20, c21, c30, c31, c40, c41, c50, c51, c60, c61, c70, c71, c80, c81, z0, z1⟩ := index_facts t
  funext j
  obtain ⟨y, q, rfl⟩ : ∃ (y : Fin 1000) (q : Fin 256), j = ix2 y q := ⟨j 0, j 1, eq_ix2 j⟩
  have hy : y.val < 1000 := y.isLt
  rw [View.read_apply]
  show Gen.out1_9 (F := Ideal) (Gen.iblk1 V c 0 t) (Gen.iblk1 V c 1 t) (Gen.iblk1 V c 2 t) (Gen.iblk1 V c 3 t)
      (Gen.iblk1 V c 4 t) (Gen.iblk1 V c 5 t) (Gen.iblk1 V c 6 t) (Gen.iblk1 V c 7 t) (Gen.iblk1 V c 8 t) (ix2 y q)
    = G V c (((cfg1.win 9).blk t).view.emb (ix2 y q))
  have he : ((cfg1.win 9).blk t).view.emb (ix2 y q) = ix2 (⟨t.val * 1000 + y.val, by omega⟩ : Fin 50000) q := by
    funext a
    apply Fin.ext
    match a with
    | ⟨0, _⟩ => show win1_9.index t (0 : Fin 2) * 1000 + 1 * y.val = t.val * 1000 + y.val; omega
    | ⟨1, _⟩ => show win1_9.index t (1 : Fin 2) * 256 + 1 * q.val = q.val; omega
  rw [he]
  refine (LayerPayload1.block_value (Gen.iblk1 V c 0 t) (Gen.iblk1 V c 1 t) (Gen.iblk1 V c 2 t) (Gen.iblk1 V c 3 t)
      (Gen.iblk1 V c 4 t) (Gen.iblk1 V c 5 t) (Gen.iblk1 V c 6 t) (Gen.iblk1 V c 7 t) (Gen.iblk1 V c 8 t) y q).trans ?_
  rw [whole2_read V c t, whole3_read V c t, whole4_read V c t, whole5_read V c t, whole6_read V c t, whole7_read V c t,
    whole8_read V c t]
  exact layerA_of_rows _ _ _ _ _ _ _ _ _ _ _ y ⟨t.val * 1000 + y.val, by omega⟩
    (fun l => rows0_read V c t y l _ rfl) (fun l => rows1_read V c t y l _ rfl) q

/-- An index of the array is in point `t`'s block iff each coordinate is in the block's range on its axis. -/
theorem mem_blk (t : Fin cfg1.N) (i : S50000x256.Idx) :
    i ∈ ((cfg1.win 9).blk t).view.set ↔ ∀ a : Fin 2, win1_9.index t a * S1000x256.size a ≤ (i a).val
      ∧ (i a).val < win1_9.index t a * S1000x256.size a + S1000x256.size a := by
  show i ∈ ((View.whole main_v54).slice (win1_9.rect t)).set ↔ _
  rw [View.set_slice_whole, Rect.mem_set_unit]
  exact Iff.rfl

/-- Every row is in some point's block: row `r` in block `r / 1000`. -/
theorem cover (i : S50000x256.Idx) :
    ∃ t : Fin cfg1.N, (cfg1.win 9).flush t = true ∧ i ∈ ((cfg1.win 9).blk t).view.set := by
  have hN : cfg1.N = 50 := Gen.N_1
  have hi0 : (i 0).val < 50000 := (i 0).isLt
  have hi1 : (i 1).val < 256 := (i 1).isLt
  have hlt : (i 0).val / 1000 < cfg1.N := by rw [hN]; omega
  obtain ⟨a0, a1, b0, b1, c20, c21, c30, c31, c40, c41, c50, c51, c60, c61, c70, c71, c80, c81, z0, z1⟩ := index_facts ⟨(i 0).val / 1000, hlt⟩
  refine ⟨⟨(i 0).val / 1000, hlt⟩, Gen.flush1_9 _, ?_⟩
  rw [mem_blk]
  intro a
  match a with
  | ⟨0, _⟩ =>
    show win1_9.index ⟨(i 0).val / 1000, hlt⟩ (0 : Fin 2) * 1000 ≤ (i 0).val
      ∧ (i 0).val < win1_9.index ⟨(i 0).val / 1000, hlt⟩ (0 : Fin 2) * 1000 + 1000
    rw [z0]
    show (i 0).val / 1000 * 1000 ≤ (i 0).val ∧ (i 0).val < (i 0).val / 1000 * 1000 + 1000
    omega
  | ⟨1, _⟩ =>
    show win1_9.index ⟨(i 0).val / 1000, hlt⟩ (1 : Fin 2) * 256 ≤ (i 1).val
      ∧ (i 1).val < win1_9.index ⟨(i 0).val / 1000, hlt⟩ (1 : Fin 2) * 256 + 256
    omega

/-- THE ARRAY after the region: the inner layer of the arrays the region finds. -/
theorem final_array (c : Dev nD) : (Gen.dat1 (F := Ideal) V c).arrAt 9 cfg1.N = G V c :=
  (Gen.dat1 (F := Ideal) V c).arrAt_eq_of_cover 9 (G V c) (fun t _ => flushed_eq V c t) cover

/-- … and entry by entry. -/
theorem final (c : Dev nD) (p : Fin 50000) (q : Fin 256) :
    (Gen.dat1 (F := Ideal) V c).arrAt 9 cfg1.N (ix2 p q)
      = Cert.Spec.layerA (V c main_v13 : S50000x256.Idx → EReal) (V c main_v32 : S50000x256.Idx → EReal)
          (V c main_v36 : S256x256.Idx → EReal) (V c main_v38 : S256x256.Idx → EReal) (V c main_v51 : S1x256.Idx → EReal)
          (V c main_v43 : S256x256.Idx → EReal) (V c main_v52 : S1x256.Idx → EReal) (V c main_v48 : S256x256.Idx → EReal)
          (V c main_v53 : S1x256.Idx → EReal) p q :=
  congrFun (final_array V c) (ix2 p q)

end Cert.KernelIdeal.LayerValue1

end
-- ==== Proof.LayerPayload2.lean ====
/-
  One block of the inner message-passing layer, entry by entry.

  The body of the layer's kernel reads a block of 1000 node rows, the same rows of the neighbour means and the seven
  weight arrays whole, and stores one block of 1000 result rows. Read at row `y` and column `q`, over the extended
  reals, what it stores is the layer of the specification applied to the block: the affine map of the two row blocks,
  the rectifier, the row divided by its floored norm, then two dense maps with the rectifier between them.
-/
import proofs.«167175_j43568148251366_1_alg».proof.Proof.Gen.KernelIdeal.Frame
import proofs.«167175_j43568148251366_1_alg».proof.Proof.LayerCommon

noncomputable section

namespace Cert.KernelIdeal.LayerPayload2

open Idealize.ShloMosaic Idealize.ShloMosaic.ValueIdx
open Cert.KernelIdeal Cert.KernelIdeal.Gen
open scoped BigOperators

/-- The zero offsets of a whole-buffer access, as a constant function. -/
theorem hz : (![0, 0] : Fin 2 → Nat) = fun _ => 0 := funext fun a => by fin_cases a <;> rfl

/-- The contraction record of every product in the body is of the rows-by-columns form, over 256 terms. -/
theorem dims_form : MatmulRead.RowsByCols dot_S1000x256_S256x256_S1000x256_1_0_0_1_n_n := ⟨rfl, rfl, rfl, rfl, rfl, rfl⟩
theorem dims_rank : dot_S1000x256_S256x256_S1000x256_1_0_0_1_n_n.contr.rank = 1 := rfl
theorem dims_size : dot_S1000x256_S256x256_S1000x256_1_0_0_1_n_n.contr.size ⟨0, by rw [dims_rank]; exact Nat.one_pos⟩ = 256 := rfl

/-- The first half of the body — the affine map, the rectifier, the normalised row, the first product — at row `y` and
    column `j`: the normalised rectified row of the affine map, times column `j` of the first output weight. -/
theorem first_half (x0 x1 : Vec Ideal S1000x256 .f32) (x2 x3 : Vec Ideal S256x256 .f32) (x4 : Vec Ideal S1x256 .f32)
    (x5 : Vec Ideal S256x256 .f32) (y : Fin 1000) (j : Fin 256) :
    Gen.k2_pay2 (F := Ideal) x0 x1 x2 x3 x4 x5 (ix2 y j)
      = ∑ i : Fin 256, Cert.Spec.unitRow (fun l => Cert.Spec.lrelu (Cert.Spec.conv x0 x1 x2 x3 x4 y l)) i * x5 (ix2 i j) := by
  unfold Gen.k2_pay2
  refine (LayerCommon.prod_read _ dims_form dims_rank dims_size _ x5 _ _ y j).trans ?_
  refine Finset.sum_congr rfl fun i _ => congrArg (· * x5 (ix2 i j)) ?_
  refine (LayerCommon.unit_read _ _ _ _ _ _ y i).trans ?_
  refine congrArg (fun f => Cert.Spec.unitRow f i) (funext fun l => ?_)
  refine (LayerCommon.lrelu_read _ (ix2 y l)).trans (congrArg Cert.Spec.lrelu ?_)
  exact LayerCommon.affine_read _ dims_form dims_rank dims_size x0 x1 x2 x3 x4 _ _ _ _ _ y l

/-- The second half — the first output bias, the rectifier, the second dense map — at row `y` and column `q`, from the
    first half's result `v`. -/
theorem second_half (v : FVec Ideal S1000x256 .f32) (x6 : Vec Ideal S1x256 .f32) (x7 : Vec Ideal S256x256 .f32)
    (x8 : Vec Ideal S1x256 .f32) (y : Fin 1000) (q : Fin 256) :
    Gen.k2_pay1 (F := Ideal) v x6 x7 x8 (ix2 y q)
      = (∑ j : Fin 256, Cert.Spec.lrelu (v (ix2 y j) + x6 (ix2 (0 : Fin 1) j)) * x7 (ix2 j q)) + x8 (ix2 (0 : Fin 1) q) := by
  unfold Gen.k2_pay1
  refine (LayerCommon.dense_read _ dims_form dims_rank dims_size _ x7 x8 _ _ _ _ y q).trans ?_
  refine congrArg (· + x8 (ix2 (0 : Fin 1) q)) (Finset.sum_congr rfl fun j _ => congrArg (· * x7 (ix2 j q)) ?_)
  refine (LayerCommon.lrelu_read _ (ix2 y j)).trans (congrArg Cert.Spec.lrelu ?_)
  exact congrArg (v (ix2 y j) + ·) (LayerCommon.bias_read x6 _ _ y j)

/-- WHAT THE BODY LEAVES IN THE OUTPUT BLOCK, at row `y` and column `q`: the specification's inner layer of the input
    blocks. -/
theorem block_value (x0 x1 : Vec Ideal S1000x256 .f32) (x2 x3 : Vec Ideal S256x256 .f32) (x4 : Vec Ideal S1x256 .f32)
    (x5 : Vec Ideal S256x256 .f32) (x6 : Vec Ideal S1x256 .f32) (x7 : Vec Ideal S256x256 .f32) (x8 : Vec Ideal S1x256 .f32)
    (y : Fin 1000) (q : Fin 256) :
    Gen.out2_9 (F := Ideal) x0 x1 x2 x3 x4 x5 x6 x7 x8 (ix2 y q)
      = Cert.Spec.layerA x0 x1 x2 x3 x4 x5 x6 x7 x8 y q := by
  unfold Gen.out2_9
  rw [View.canon_unit_zero hz]
  simp only [View.ld_unit_zero (S := S1000x256) hz, View.ld_unit_zero (S := S256x256) hz, View.ld_unit_zero (S := S1x256) hz]
  refine (second_half _ x6 x7 x8 y q).trans ?_
  unfold Cert.Spec.layerA
  refine congrArg (· + x8 (ix2 (0 : Fin 1) q)) (Finset.sum_congr rfl fun j _ => congrArg (· * x7 (ix2 j q)) ?_)
  exact congrArg (fun t => Cert.Spec.lrelu (t + x6 (ix2 (0 : Fin 1) j))) (first_half x0 x1 x2 x3 x4 x5 y j)

end Cert.KernelIdeal.LayerPayload2

end
-- ==== Proof.LayerValue2.lean ====
/-
  The inner message-passing layer's result array, entry by entry.

  The layer's kernel runs over 50 grid points; point `t` reads rows `1000 t … 1000 t + 999` of the node rows and of
  the neighbour means, reads the seven weight arrays whole, and writes rows `1000 t … 1000 t + 999` of the result.
  Its body's block is the specification's inner layer of the input blocks, and that layer's row `p` depends only on
  row `p` of the two row arrays; so what point `t` writes back is block `t` of ONE whole-array function, the inner
  layer of the arrays the region finds. The 50 blocks cover the 50000 rows (row `r` lies in block `r / 1000`), so the
  result array ends holding that function.
-/
import proofs.«167175_j43568148251366_1_alg».proof.Proof.LayerPayload2
import Idealize.ShloMosaic.Lib.Pipeline.Value
import Idealize.ShloMosaic.Lib.Tactic

noncomputable section

namespace Cert.KernelIdeal.LayerValue2

open Idealize.ShloMosaic Idealize.ShloMosaic.TcCoe Idealize.ShloMosaic.ValueIdx Idealize.SL.Sem
open Idealize.ShloMosaic.Pipeline (Dat)
open Cert.KernelIdeal Cert.KernelIdeal.Gen
open scoped BigOperators

variable (V : (c : Dev nD) → (b : Ref sig .tc) → Buf (Elt Ideal) ((c : Thread nD τ).loc b))

/-- The specification's inner layer reads only row `p` of its two row arrays: two pairs of row arrays, of any heights,
    that agree on one row each give the same entry there. -/
theorem layerA_of_rows {n N : ℕ} (H HA : Cert.Spec.Mat n 256) (H' HA' : Cert.Spec.Mat N 256)
    (W1 W2 : Cert.Spec.Mat 256 256) (bc : Cert.Spec.Mat 1 256) (Wo1 : Cert.Spec.Mat 256 256) (bo1 : Cert.Spec.Mat 1 256)
    (Wo2 : Cert.Spec.Mat 256 256) (bo2 : Cert.Spec.Mat 1 256) (p : Fin n) (p' : Fin N)
    (hH : ∀ l, H (ix2 p l) = H' (ix2 p' l)) (hHA : ∀ l, HA (ix2 p l) = HA' (ix2 p' l)) (q : Fin 256) :
    Cert.Spec.layerA H HA W1 W2 bc Wo1 bo1 Wo2 bo2 p q = Cert.Spec.layerA H' HA' W1 W2 bc Wo1 bo1 Wo2 bo2 p' q := by
  unfold Cert.Spec.layerA Cert.Spec.conv
  simp only [hH, hHA]

/-- The result array as ONE function of the arrays the region finds: the inner layer, entry by entry. -/
def G (c : Dev nD) : S50000x256.Idx → EReal := fun i =>
  Cert.Spec.layerA (V c main_v54 : S50000x256.Idx → EReal) (V c main_v66 : S50000x256.Idx → EReal)
    (V c main_v70 : S256x256.Idx → EReal) (V c main_v72 : S256x256.Idx → EReal) (V c main_v85 : S1x256.Idx → EReal)
    (V c main_v77 : S256x256.Idx → EReal) (V c main_v86 : S1x256.Idx → EReal) (V c main_v82 : S256x256.Idx → EReal)
    (V c main_v87 : S1x256.Idx → EReal) (i 0) (i 1)

/-- The printed index maps, decided over the grid: the two row windows and the output window are at block `(t, 0)` at
    point `t`; every weight window is at block `(0, 0)`. -/
theorem index_facts : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = 0 ∧ win2_5.index t (1 : Fin 2) = 0
    ∧ win2_6.index t (0 : Fin 2) = 0 ∧ win2_6.index t (1 : Fin 2) = 0
    ∧ win2_7.index t (0 : Fin 2) = 0 ∧ win2_7.index t (1 : Fin 2) = 0
    ∧ win2_8.index t (0 : Fin 2) = 0 ∧ win2_8.index t (1 : Fin 2) = 0
    ∧ win2_9.index t (0 : Fin 2) = t.val ∧ win2_9.index t (1 : Fin 2) = 0 :=
  (by decide +kernel : ∀ t : Fin grid2.N, _)

/-- The node rows' block at point `t`, at `(y, l)`, is the array at row `1000 t + y`. -/
theorem rows0_read (c : Dev nD) (t : Fin cfg2.N) (y : Fin 1000) (l : Fin 256) (r : Fin 50000)
    (hr : r.val = t.val * 1000 + y.val) :
    (Gen.iblk2 (F := Ideal) V c 0 t : S1000x256.Idx → EReal) (ix2 y l) = (V c main_v54 : S50000x256.Idx → EReal) (ix2 r l) := by
  obtain ⟨a0, a1, b0, b1, c20, c21, c30, c31, c40, c41, c50, c51, c60, c61, c70, c71, c80, c81, z0, z1⟩ := index_facts t
  unfold Gen.iblk2
  rw [View.read_apply]
  show V c main_v54 (((cfg2.win 0).blk t).view.emb (ix2 y l)) = V c main_v54 (ix2 r l)
  congr 1
  funext a
  apply Fin.ext
  match a with
  | ⟨0, _⟩ => show win2_0.index t (0 : Fin 2) * 1000 + 1 * y.val = r.val; omega
  | ⟨1, _⟩ => show win2_0.index t (1 : Fin 2) * 256 + 1 * l.val = l.val; omega

/-- The neighbour means' block at point `t`, at `(y, l)`, is the array at row `1000 t + y`. -/
theorem rows1_read (c : Dev nD) (t : Fin cfg2.N) (y : Fin 1000) (l : Fin 256) (r : Fin 50000)
    (hr : r.val = t.val * 1000 + y.val) :
    (Gen.iblk2 (F := Ideal) V c 1 t : S1000x256.Idx → EReal) (ix2 y l) = (V c main_v66 : S50000x256.Idx → EReal) (ix2 r l) := by
  obtain ⟨a0, a1, b0, b1, c20, c21, c30, c31, c40, c41, c50, c51, c60, c61, c70, c71, c80, c81, z0, z1⟩ := index_facts t
  unfold Gen.iblk2
  rw [View.read_apply]
  show V c main_v66 (((cfg2.win 1).blk t).view.emb (ix2 y l)) = V c main_v66 (ix2 r l)
  congr 1
  funext a
  apply Fin.ext
  match a with
  | ⟨0, _⟩ => show win2_1.index t (0 : Fin 2) * 1000 + 1 * y.val = r.val; omega
  | ⟨1, _⟩ => show win2_1.index t (1 : Fin 2) * 256 + 1 * l.val = l.val; omega

/-- Window 2's block at every point is its whole array. -/
theorem whole2_read (c : Dev nD) (t : Fin cfg2.N) :
    (Gen.iblk2 (F := Ideal) V c 2 t : S256x256.Idx → EReal) = (V c main_v70 : S256x256.Idx → EReal) := by
  obtain ⟨a0, a1, b0, b1, c20, c21, c30, c31, c40, c41, c50, c51, c60, c61, c70, c71, c80, c81, z0, z1⟩ := index_facts t
  funext j
  unfold Gen.iblk2
  rw [View.read_apply]
  show V c main_v70 (((cfg2.win 2).blk t).view.emb j) = V c main_v70 j
  congr 1
  funext a
  apply Fin.ext
  match a with
  | ⟨0, _⟩ => show win2_2.index t (0 : Fin 2) * 256 + 1 * (j 0).val = (j 0).val; omega
  | ⟨1, _⟩ => show win2_2.index t (1 : Fin 2) * 256 + 1 * (j 1).val = (j 1).val; omega

/-- Window 3's block at every point is its whole array. -/
theorem whole3_read (c : Dev nD) (t : Fin cfg2.N) :
    (Gen.iblk2 (F := Ideal) V c 3 t : S256x256.Idx → EReal) = (V c main_v72 : S256x256.Idx → EReal) := by
  obtain ⟨a0, a1, b0, b1, c20, c21, c30, c31, c40, c41, c50, c51, c60, c61, c70, c71, c80, c81, z0, z1⟩ := index_facts t
  funext j
  unfold Gen.iblk2
  rw [View.read_apply]
  show V c main_v72 (((cfg2.win 3).blk t).view.emb j) = V c main_v72 j
  congr 1
  funext a
  apply Fin.ext
  match a with
  | ⟨0, _⟩ => show win2_3.index t (0 : Fin 2) * 256 + 1 * (j 0).val = (j 0).val; omega
  | ⟨1, _⟩ => show win2_3.index t (1 : Fin 2) * 256 + 1 * (j 1).val = (j 1).val; omega

/-- Window 4's block at every point is its whole array. -/
theorem whole4_read (c : Dev nD) (t : Fin cfg2.N) :
    (Gen.iblk2 (F := Ideal) V c 4 t : S1x256.Idx → EReal) = (V c main_v85 : S1x256.Idx → EReal) := by
  obtain ⟨a0, a1, b0, b1, c20, c21, c30, c31, c40, c41, c50, c51, c60, c61, c70, c71, c80, c81, z0, z1⟩ := index_facts t
  funext j
  unfold Gen.iblk2
  rw [View.read_apply]
  show V c main_v85 (((cfg2.win 4).blk t).view.emb j) = V c main_v85 j
  congr 1
  funext a
  apply Fin.ext
  match a with
  | ⟨0, _⟩ => show win2_4.index t (0 : Fin 2) * 1 + 1 * (j 0).val = (j 0).val; omega
  | ⟨1, _⟩ => show win2_4.index t (1 : Fin 2) * 256 + 1 * (j 1).val = (j 1).val; omega

/-- Window 5's block at every point is its whole array. -/
theorem whole5_read (c : Dev nD) (t : Fin cfg2.N) :
    (Gen.iblk2 (F := Ideal) V c 5 t : S256x256.Idx → EReal) = (V c main_v77 : S256x256.Idx → EReal) := by
  obtain ⟨a0, a1, b0, b1, c20, c21, c30, c31, c40, c41, c50, c51, c60, c61, c70, c71, c80, c81, z0, z1⟩ := index_facts t
  funext j
  unfold Gen.iblk2
  rw [View.read_apply]
  show V c main_v77 (((cfg2.win 5).blk t).view.emb j) = V c main_v77 j
  congr 1
  funext a
  apply Fin.ext
  match a with
  | ⟨0, _⟩ => show win2_5.index t (0 : Fin 2) * 256 + 1 * (j 0).val = (j 0).val; omega
  | ⟨1, _⟩ => show win2_5.index t (1 : Fin 2) * 256 + 1 * (j 1).val = (j 1).val; omega

/-- Window 6's block at every point is its whole array. -/
theorem whole6_read (c : Dev nD) (t : Fin cfg2.N) :
    (Gen.iblk2 (F := Ideal) V c 6 t : S1x256.Idx → EReal) = (V c main_v86 : S1x256.Idx → EReal) := by
  obtain ⟨a0, a1, b0, b1, c20, c21, c30, c31, c40, c41, c50, c51, c60, c61, c70, c71, c80, c81, z0, z1⟩ := index_facts t
  funext j
  unfold Gen.iblk2
  rw [View.read_apply]
  show V c main_v86 (((cfg2.win 6).blk t).view.emb j) = V c main_v86 j
  congr 1
  funext a
  apply Fin.ext
  match a with
  | ⟨0, _⟩ => show win2_6.index t (0 : Fin 2) * 1 + 1 * (j 0).val = (j 0).val; omega
  | ⟨1, _⟩ => show win2_6.index t (1 : Fin 2) * 256 + 1 * (j 1).val = (j 1).val; omega

/-- Window 7's block at every point is its whole array. -/
theorem whole7_read (c : Dev nD) (t : Fin cfg2.N) :
    (Gen.iblk2 (F := Ideal) V c 7 t : S256x256.Idx → EReal) = (V c main_v82 : S256x256.Idx → EReal) := by
  obtain ⟨a0, a1, b0, b1, c20, c21, c30, c31, c40, c41, c50, c51, c60, c61, c70, c71, c80, c81, z0, z1⟩ := index_facts t
  funext j
  unfold Gen.iblk2
  rw [View.read_apply]
  show V c main_v82 (((cfg2.win 7).blk t).view.emb j) = V c main_v82 j
  congr 1
  funext a
  apply Fin.ext
  match a with
  | ⟨0, _⟩ => show win2_7.index t (0 : Fin 2) * 256 + 1 * (j 0).val = (j 0).val; omega
  | ⟨1, _⟩ => show win2_7.index t (1 : Fin 2) * 256 + 1 * (j 1).val = (j 1).val; omega

/-- Window 8's block at every point is its whole array. -/
theorem whole8_read (c : Dev nD) (t : Fin cfg2.N) :
    (Gen.iblk2 (F := Ideal) V c 8 t : S1x256.Idx → EReal) = (V c main_v87 : S1x256.Idx → EReal) := by
  obtain ⟨a0, a1, b0, b1, c20, c21, c30, c31, c40, c41, c50, c51, c60, c61, c70, c71, c80, c81, z0, z1⟩ := index_facts t
  funext j
  unfold Gen.iblk2
  rw [View.read_apply]
  show V c main_v87 (((cfg2.win 8).blk t).view.emb j) = V c main_v87 j
  congr 1
  funext a
  apply Fin.ext
  match a with
  | ⟨0, _⟩ => show win2_8.index t (0 : Fin 2) * 1 + 1 * (j 0).val = (j 0).val; omega
  | ⟨1, _⟩ => show win2_8.index t (1 : Fin 2) * 256 + 1 * (j 1).val = (j 1).val; omega

/-- WHAT POINT `t` WRITES BACK is block `t` of `G`. -/
theorem flushed_eq (c : Dev nD) (t : Fin cfg2.N) :
    (Gen.dat2 (F := Ideal) V c).flushed 9 t = ((cfg2.win 9).blk t).view.read (Elt Ideal) (G V c) := by
  show (cfg2.win 9).cut (grid2.coords t) ((Gen.dat2 (F := Ideal) V c).after 9 t) = _
  rw [Gen.after2_9]
  have hN : cfg2.N = 50 := Gen.N_2
  have ht : t.val < 50 := by have := t.isLt; omega
  obtain ⟨a0, a1, b0, b1, c20, c21, c30, c31, c40, c41, c50, c51, c60, c61, c70, c71, c80, c81, z0, z1⟩ := index_facts t
  funext j
  obtain ⟨y, q, rfl⟩ : ∃ (y : Fin 1000) (q : Fin 256), j = ix2 y q := ⟨j 0, j 1, eq_ix2 j⟩
  have hy : y.val < 1000 := y.isLt
  rw [View.read_apply]
  show Gen.out2_9 (F := Ideal) (Gen.iblk2 V c 0 t) (Gen.iblk2 V c 1 t) (Gen.iblk2 V c 2 t) (Gen.iblk2 V c 3 t)
      (Gen.iblk2 V c 4 t) (Gen.iblk2 V c 5 t) (Gen.iblk2 V c 6 t) (Gen.iblk2 V c 7 t) (Gen.iblk2 V c 8 t) (ix2 y q)
    = G V c (((cfg2.win 9).blk t).view.emb (ix2 y q))
  have he : ((cfg2.win 9).blk t).view.emb (ix2 y q) = ix2 (⟨t.val * 1000 + y.val, by omega⟩ : Fin 50000) q := by
    funext a
    apply Fin.ext
    match a with
    | ⟨0, _⟩ => show win2_9.index t (0 : Fin 2) * 1000 + 1 * y.val = t.val * 1000 + y.val; omega
    | ⟨1, _⟩ => show win2_9.index t (1 : Fin 2) * 256 + 1 * q.val = q.val; omega
  rw [he]
  refine (LayerPayload2.block_value (Gen.iblk2 V c 0 t) (Gen.iblk2 V c 1 t) (Gen.iblk2 V c 2 t) (Gen.iblk2 V c 3 t)
      (Gen.iblk2 V c 4 t) (Gen.iblk2 V c 5 t) (Gen.iblk2 V c 6 t) (Gen.iblk2 V c 7 t) (Gen.iblk2 V c 8 t) y q).trans ?_
  rw [whole2_read V c t, whole3_read V c t, whole4_read V c t, whole5_read V c t, whole6_read V c t, whole7_read V c t,
    whole8_read V c t]
  exact layerA_of_rows _ _ _ _ _ _ _ _ _ _ _ y ⟨t.val * 1000 + y.val, by omega⟩
    (fun l => rows0_read V c t y l _ rfl) (fun l => rows1_read V c t y l _ rfl) q

/-- An index of the array is in point `t`'s block iff each coordinate is in the block's range on its axis. -/
theorem mem_blk (t : Fin cfg2.N) (i : S50000x256.Idx) :
    i ∈ ((cfg2.win 9).blk t).view.set ↔ ∀ a : Fin 2, win2_9.index t a * S1000x256.size a ≤ (i a).val
      ∧ (i a).val < win2_9.index t a * S1000x256.size a + S1000x256.size a := by
  show i ∈ ((View.whole main_v88).slice (win2_9.rect t)).set ↔ _
  rw [View.set_slice_whole, Rect.mem_set_unit]
  exact Iff.rfl

/-- Every row is in some point's block: row `r` in block `r / 1000`. -/
theorem cover (i : S50000x256.Idx) :
    ∃ t : Fin cfg2.N, (cfg2.win 9).flush t = true ∧ i ∈ ((cfg2.win 9).blk t).view.set := by
  have hN : cfg2.N = 50 := Gen.N_2
  have hi0 : (i 0).val < 50000 := (i 0).isLt
  have hi1 : (i 1).val < 256 := (i 1).isLt
  have hlt : (i 0).val / 1000 < cfg2.N := by rw [hN]; omega
  obtain ⟨a0, a1, b0, b1, c20, c21, c30, c31, c40, c41, c50, c51, c60, c61, c70, c71, c80, c81, z0, z1⟩ := index_facts ⟨(i 0).val / 1000, hlt⟩
  refine ⟨⟨(i 0).val / 1000, hlt⟩, Gen.flush2_9 _, ?_⟩
  rw [mem_blk]
  intro a
  match a with
  | ⟨0, _⟩ =>
    show win2_9.index ⟨(i 0).val / 1000, hlt⟩ (0 : Fin 2) * 1000 ≤ (i 0).val
      ∧ (i 0).val < win2_9.index ⟨(i 0).val / 1000, hlt⟩ (0 : Fin 2) * 1000 + 1000
    rw [z0]
    show (i 0).val / 1000 * 1000 ≤ (i 0).val ∧ (i 0).val < (i 0).val / 1000 * 1000 + 1000
    omega
  | ⟨1, _⟩ =>
    show win2_9.index ⟨(i 0).val / 1000, hlt⟩ (1 : Fin 2) * 256 ≤ (i 1).val
      ∧ (i 1).val < win2_9.index ⟨(i 0).val / 1000, hlt⟩ (1 : Fin 2) * 256 + 256
    omega

/-- THE ARRAY after the region: the inner layer of the arrays the region finds. -/
theorem final_array (c : Dev nD) : (Gen.dat2 (F := Ideal) V c).arrAt 9 cfg2.N = G V c :=
  (Gen.dat2 (F := Ideal) V c).arrAt_eq_of_cover 9 (G V c) (fun t _ => flushed_eq V c t) cover

/-- … and entry by entry. -/
theorem final (c : Dev nD) (p : Fin 50000) (q : Fin 256) :
    (Gen.dat2 (F := Ideal) V c).arrAt 9 cfg2.N (ix2 p q)
      = Cert.Spec.layerA (V c main_v54 : S50000x256.Idx → EReal) (V c main_v66 : S50000x256.Idx → EReal)
          (V c main_v70 : S256x256.Idx → EReal) (V c main_v72 : S256x256.Idx → EReal) (V c main_v85 : S1x256.Idx → EReal)
          (V c main_v77 : S256x256.Idx → EReal) (V c main_v86 : S1x256.Idx → EReal) (V c main_v82 : S256x256.Idx → EReal)
          (V c main_v87 : S1x256.Idx → EReal) p q :=
  congrFun (final_array V c) (ix2 p q)

end Cert.KernelIdeal.LayerValue2

end
-- ==== Proof.LayerPayload3.lean ====
/-
  One block of the last message-passing layer, entry by entry.

  The body of the last layer's kernel reads a block of 1000 node rows, the same rows of the neighbour means and the
  three weight arrays whole, and stores one block of 1000 result rows. Read at row `y` and column `q`, over the
  extended reals, what it stores is the last layer of the specification applied to the block: the affine map of the
  two row blocks, then the row divided by its floored norm.
-/
import proofs.«167175_j43568148251366_1_alg».proof.Proof.Gen.KernelIdeal.Frame
import proofs.«167175_j43568148251366_1_alg».proof.Proof.LayerCommon

noncomputable section

namespace Cert.KernelIdeal.LayerPayload3

open Idealize.ShloMosaic Idealize.ShloMosaic.ValueIdx
open Cert.KernelIdeal Cert.KernelIdeal.Gen
open scoped BigOperators

/-- The zero offsets of a whole-buffer access, as a constant function. -/
theorem hz : (![0, 0] : Fin 2 → Nat) = fun _ => 0 := funext fun a => by fin_cases a <;> rfl

/-- The contraction record of both products in the body is of the rows-by-columns form, over 256 terms. -/
theorem dims_form : MatmulRead.RowsByCols dot_S1000x256_S256x256_S1000x256_1_0_0_1_n_n := ⟨rfl, rfl, rfl, rfl, rfl, rfl⟩
theorem dims_rank : dot_S1000x256_S256x256_S1000x256_1_0_0_1_n_n.contr.rank = 1 := rfl
theorem dims_size : dot_S1000x256_S256x256_S1000x256_1_0_0_1_n_n.contr.size ⟨0, by rw [dims_rank]; exact Nat.one_pos⟩ = 256 := rfl

/-- The body's one stored value at row `y` and column `q`: the affine map's row, divided by its floored norm. -/
theorem payload_value (x0 x1 : Vec Ideal S1000x256 .f32) (x2 x3 : Vec Ideal S256x256 .f32) (x4 : Vec Ideal S1x256 .f32)
    (y : Fin 1000) (q : Fin 256) :
    Gen.k3_pay1 (F := Ideal) x0 x1 x2 x3 x4 (ix2 y q) = Cert.Spec.layerB x0 x1 x2 x3 x4 y q := by
  unfold Gen.k3_pay1
  refine (LayerCommon.unit_read _ _ _ _ _ _ y q).trans ?_
  unfold Cert.Spec.layerB
  refine congrArg (fun f => Cert.Spec.unitRow f q) (funext fun l => ?_)
  exact LayerCommon.affine_read _ dims_form dims_rank dims_size x0 x1 x2 x3 x4 _ _ _ _ _ y l

/-- WHAT THE BODY LEAVES IN THE OUTPUT BLOCK, at row `y` and column `q`: the specification's last layer of the input
    blocks. -/
theorem block_value (x0 x1 : Vec Ideal S1000x256 .f32) (x2 x3 : Vec Ideal S256x256 .f32) (x4 : Vec Ideal S1x256 .f32)
    (y : Fin 1000) (q : Fin 256) :
    Gen.out3_5 (F := Ideal) x0 x1 x2 x3 x4 (ix2 y q) = Cert.Spec.layerB x0 x1 x2 x3 x4 y q := by
  unfold Gen.out3_5
  rw [View.canon_unit_zero hz]
  simp only [View.ld_unit_zero (S := S1000x256) hz, View.ld_unit_zero (S := S256x256) hz, View.ld_unit_zero (S := S1x256) hz]
  exact payload_value x0 x1 x2 x3 x4 y q

end Cert.KernelIdeal.LayerPayload3

end
-- ==== Proof.LayerValue3.lean ====
/-
  The last message-passing layer's result array, entry by entry.

  The layer's kernel runs over 50 grid points; point `t` reads rows `1000 t … 1000 t + 999` of the node rows and of
  the neighbour means, reads the three weight arrays whole, and writes rows `1000 t … 1000 t + 999` of the result.
  Its body's block is the specification's last layer of the input blocks, and that layer's row `p` depends only on
  row `p` of the two row arrays; so what point `t` writes back is block `t` of ONE whole-array function, the last
  layer of the arrays the region finds. The 50 blocks cover the 50000 rows (row `r` lies in block `r / 1000`), so the
  result array ends holding that function.
-/
import proofs.«167175_j43568148251366_1_alg».proof.Proof.LayerPayload3
import Idealize.ShloMosaic.Lib.Pipeline.Value
import Idealize.ShloMosaic.Lib.Tactic

noncomputable section

namespace Cert.KernelIdeal.LayerValue3

open Idealize.ShloMosaic Idealize.ShloMosaic.TcCoe Idealize.ShloMosaic.ValueIdx Idealize.SL.Sem
open Idealize.ShloMosaic.Pipeline (Dat)
open Cert.KernelIdeal Cert.KernelIdeal.Gen
open scoped BigOperators

variable (V : (c : Dev nD) → (b : Ref sig .tc) → Buf (Elt Ideal) ((c : Thread nD τ).loc b))

/-- The specification's last layer reads only row `p` of its two row arrays: two pairs of row arrays, of any heights,
    that agree on one row each give the same entry there. -/
theorem layerB_of_rows {n N : ℕ} (H HA : Cert.Spec.Mat n 256) (H' HA' : Cert.Spec.Mat N 256)
    (W1 W2 : Cert.Spec.Mat 256 256) (bc : Cert.Spec.Mat 1 256) (p : Fin n) (p' : Fin N)
    (hH : ∀ l, H (ix2 p l) = H' (ix2 p' l)) (hHA : ∀ l, HA (ix2 p l) = HA' (ix2 p' l)) (q : Fin 256) :
    Cert.Spec.layerB H HA W1 W2 bc p q = Cert.Spec.layerB H' HA' W1 W2 bc p' q := by
  unfold Cert.Spec.layerB Cert.Spec.conv
  simp only [hH, hHA]

/-- The result array as ONE function of the arrays the region finds: the last layer, entry by entry. -/
def G (c : Dev nD) : S50000x256.Idx → EReal := fun i =>
  Cert.Spec.layerB (V c main_v88 : S50000x256.Idx → EReal) (V c main_v100 : S50000x256.Idx → EReal)
    (V c main_v104 : S256x256.Idx → EReal) (V c main_v106 : S256x256.Idx → EReal) (V c main_v109 : S1x256.Idx → EReal) (i 0) (i 1)

/-- The printed index maps, decided over the grid: the two row windows and the output window are at block `(t, 0)` at
    point `t`; every weight window is at block `(0, 0)`. -/
theorem index_facts : ∀ t : Fin cfg3.N,
    win3_0.index t (0 : Fin 2) = t.val ∧ win3_0.index t (1 : Fin 2) = 0
    ∧ win3_1.index t (0 : Fin 2) = t.val ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0
    ∧ win3_5.index t (0 : Fin 2) = t.val ∧ win3_5.index t (1 : Fin 2) = 0 :=
  (by decide +kernel : ∀ t : Fin grid3.N, _)

/-- The node rows' block at point `t`, at `(y, l)`, is the array at row `1000 t + y`. -/
theorem rows0_read (c : Dev nD) (t : Fin cfg3.N) (y : Fin 1000) (l : Fin 256) (r : Fin 50000)
    (hr : r.val = t.val * 1000 + y.val) :
    (Gen.iblk3 (F := Ideal) V c 0 t : S1000x256.Idx → EReal) (ix2 y l) = (V c main_v88 : S50000x256.Idx → EReal) (ix2 r l) := by
  obtain ⟨a0, a1, b0, b1, c20, c21, c30, c31, c40, c41, z0, z1⟩ := index_facts t
  unfold Gen.iblk3
  rw [View.read_apply]
  show V c main_v88 (((cfg3.win 0).blk t).view.emb (ix2 y l)) = V c main_v88 (ix2 r l)
  congr 1
  funext a
  apply Fin.ext
  match a with
  | ⟨0, _⟩ => show win3_0.index t (0 : Fin 2) * 1000 + 1 * y.val = r.val; omega
  | ⟨1, _⟩ => show win3_0.index t (1 : Fin 2) * 256 + 1 * l.val = l.val; omega

/-- The neighbour means' block at point `t`, at `(y, l)`, is the array at row `1000 t + y`. -/
theorem rows1_read (c : Dev nD) (t : Fin cfg3.N) (y : Fin 1000) (l : Fin 256) (r : Fin 50000)
    (hr : r.val = t.val * 1000 + y.val) :
    (Gen.iblk3 (F := Ideal) V c 1 t : S1000x256.Idx → EReal) (ix2 y l) = (V c main_v100 : S50000x256.Idx → EReal) (ix2 r l) := by
  obtain ⟨a0, a1, b0, b1, c20, c21, c30, c31, c40, c41, z0, z1⟩ := index_facts t
  unfold Gen.iblk3
  rw [View.read_apply]
  show V c main_v100 (((cfg3.win 1).blk t).view.emb (ix2 y l)) = V c main_v100 (ix2 r l)
  congr 1
  funext a
  apply Fin.ext
  match a with
  | ⟨0, _⟩ => show win3_1.index t (0 : Fin 2) * 1000 + 1 * y.val = r.val; omega
  | ⟨1, _⟩ => show win3_1.index t (1 : Fin 2) * 256 + 1 * l.val = l.val; omega

/-- Window 2's block at every point is its whole array. -/
theorem whole2_read (c : Dev nD) (t : Fin cfg3.N) :
    (Gen.iblk3 (F := Ideal) V c 2 t : S256x256.Idx → EReal) = (V c main_v104 : S256x256.Idx → EReal) := by
  obtain ⟨a0, a1, b0, b1, c20, c21, c30, c31, c40, c41, z0, z1⟩ := index_facts t
  funext j
  unfold Gen.iblk3
  rw [View.read_apply]
  show V c main_v104 (((cfg3.win 2).blk t).view.emb j) = V c main_v104 j
  congr 1
  funext a
  apply Fin.ext
  match a with
  | ⟨0, _⟩ => show win3_2.index t (0 : Fin 2) * 256 + 1 * (j 0).val = (j 0).val; omega
  | ⟨1, _⟩ => show win3_2.index t (1 : Fin 2) * 256 + 1 * (j 1).val = (j 1).val; omega

/-- Window 3's block at every point is its whole array. -/
theorem whole3_read (c : Dev nD) (t : Fin cfg3.N) :
    (Gen.iblk3 (F := Ideal) V c 3 t : S256x256.Idx → EReal) = (V c main_v106 : S256x256.Idx → EReal) := by
  obtain ⟨a0, a1, b0, b1, c20, c21, c30, c31, c40, c41, z0, z1⟩ := index_facts t
  funext j
  unfold Gen.iblk3
  rw [View.read_apply]
  show V c main_v106 (((cfg3.win 3).blk t).view.emb j) = V c main_v106 j
  congr 1
  funext a
  apply Fin.ext
  match a with
  | ⟨0, _⟩ => show win3_3.index t (0 : Fin 2) * 256 + 1 * (j 0).val = (j 0).val; omega
  | ⟨1, _⟩ => show win3_3.index t (1 : Fin 2) * 256 + 1 * (j 1).val = (j 1).val; omega

/-- Window 4's block at every point is its whole array. -/
theorem whole4_read (c : Dev nD) (t : Fin cfg3.N) :
    (Gen.iblk3 (F := Ideal) V c 4 t : S1x256.Idx → EReal) = (V c main_v109 : S1x256.Idx → EReal) := by
  obtain ⟨a0, a1, b0, b1, c20, c21, c30, c31, c40, c41, z0, z1⟩ := index_facts t
  funext j
  unfold Gen.iblk3
  rw [View.read_apply]
  show V c main_v109 (((cfg3.win 4).blk t).view.emb j) = V c main_v109 j
  congr 1
  funext a
  apply Fin.ext
  match a with
  | ⟨0, _⟩ => show win3_4.index t (0 : Fin 2) * 1 + 1 * (j 0).val = (j 0).val; omega
  | ⟨1, _⟩ => show win3_4.index t (1 : Fin 2) * 256 + 1 * (j 1).val = (j 1).val; omega

/-- WHAT POINT `t` WRITES BACK is block `t` of `G`. -/
theorem flushed_eq (c : Dev nD) (t : Fin cfg3.N) :
    (Gen.dat3 (F := Ideal) V c).flushed 5 t = ((cfg3.win 5).blk t).view.read (Elt Ideal) (G V c) := by
  show (cfg3.win 5).cut (grid3.coords t) ((Gen.dat3 (F := Ideal) V c).after 5 t) = _
  rw [Gen.after3_5]
  have hN : cfg3.N = 50 := Gen.N_3
  have ht : t.val < 50 := by have := t.isLt; omega
  obtain ⟨a0, a1, b0, b1, c20, c21, c30, c31, c40, c41, z0, z1⟩ := index_facts t
  funext j
  obtain ⟨y, q, rfl⟩ : ∃ (y : Fin 1000) (q : Fin 256), j = ix2 y q := ⟨j 0, j 1, eq_ix2 j⟩
  have hy : y.val < 1000 := y.isLt
  rw [View.read_apply]
  show Gen.out3_5 (F := Ideal) (Gen.iblk3 V c 0 t) (Gen.iblk3 V c 1 t) (Gen.iblk3 V c 2 t) (Gen.iblk3 V c 3 t)
      (Gen.iblk3 V c 4 t) (ix2 y q)
    = G V c (((cfg3.win 5).blk t).view.emb (ix2 y q))
  have he : ((cfg3.win 5).blk t).view.emb (ix2 y q) = ix2 (⟨t.val * 1000 + y.val, by omega⟩ : Fin 50000) q := by
    funext a
    apply Fin.ext
    match a with
    | ⟨0, _⟩ => show win3_5.index t (0 : Fin 2) * 1000 + 1 * y.val = t.val * 1000 + y.val; omega
    | ⟨1, _⟩ => show win3_5.index t (1 : Fin 2) * 256 + 1 * q.val = q.val; omega
  rw [he]
  refine (LayerPayload3.block_value (Gen.iblk3 V c 0 t) (Gen.iblk3 V c 1 t) (Gen.iblk3 V c 2 t) (Gen.iblk3 V c 3 t)
      (Gen.iblk3 V c 4 t) y q).trans ?_
  rw [whole2_read V c t, whole3_read V c t, whole4_read V c t]
  exact layerB_of_rows _ _ _ _ _ _ _ y ⟨t.val * 1000 + y.val, by omega⟩
    (fun l => rows0_read V c t y l _ rfl) (fun l => rows1_read V c t y l _ rfl) q

/-- An index of the array is in point `t`'s block iff each coordinate is in the block's range on its axis. -/
theorem mem_blk (t : Fin cfg3.N) (i : S50000x256.Idx) :
    i ∈ ((cfg3.win 5).blk t).view.set ↔ ∀ a : Fin 2, win3_5.index t a * S1000x256.size a ≤ (i a).val
      ∧ (i a).val < win3_5.index t a * S1000x256.size a + S1000x256.size a := by
  show i ∈ ((View.whole main_v110).slice (win3_5.rect t)).set ↔ _
  rw [View.set_slice_whole, Rect.mem_set_unit]
  exact Iff.rfl

/-- Every row is in some point's block: row `r` in block `r / 1000`. -/
theorem cover (i : S50000x256.Idx) :
    ∃ t : Fin cfg3.N, (cfg3.win 5).flush t = true ∧ i ∈ ((cfg3.win 5).blk t).view.set := by
  have hN : cfg3.N = 50 := Gen.N_3
  have hi0 : (i 0).val < 50000 := (i 0).isLt
  have hi1 : (i 1).val < 256 := (i 1).isLt
  have hlt : (i 0).val / 1000 < cfg3.N := by rw [hN]; omega
  obtain ⟨a0, a1, b0, b1, c20, c21, c30, c31, c40, c41, z0, z1⟩ := index_facts ⟨(i 0).val / 1000, hlt⟩
  refine ⟨⟨(i 0).val / 1000, hlt⟩, Gen.flush3_5 _, ?_⟩
  rw [mem_blk]
  intro a
  match a with
  | ⟨0, _⟩ =>
    show win3_5.index ⟨(i 0).val / 1000, hlt⟩ (0 : Fin 2) * 1000 ≤ (i 0).val
      ∧ (i 0).val < win3_5.index ⟨(i 0).val / 1000, hlt⟩ (0 : Fin 2) * 1000 + 1000
    rw [z0]
    show (i 0).val / 1000 * 1000 ≤ (i 0).val ∧ (i 0).val < (i 0).val / 1000 * 1000 + 1000
    omega
  | ⟨1, _⟩ =>
    show win3_5.index ⟨(i 0).val / 1000, hlt⟩ (1 : Fin 2) * 256 ≤ (i 1).val
      ∧ (i 1).val < win3_5.index ⟨(i 0).val / 1000, hlt⟩ (1 : Fin 2) * 256 + 256
    omega

/-- THE ARRAY after the region: the last layer of the arrays the region finds. -/
theorem final_array (c : Dev nD) : (Gen.dat3 (F := Ideal) V c).arrAt 5 cfg3.N = G V c :=
  (Gen.dat3 (F := Ideal) V c).arrAt_eq_of_cover 5 (G V c) (fun t _ => flushed_eq V c t) cover

/-- … and entry by entry. -/
theorem final (c : Dev nD) (p : Fin 50000) (q : Fin 256) :
    (Gen.dat3 (F := Ideal) V c).arrAt 5 cfg3.N (ix2 p q)
      = Cert.Spec.layerB (V c main_v88 : S50000x256.Idx → EReal) (V c main_v100 : S50000x256.Idx → EReal)
          (V c main_v104 : S256x256.Idx → EReal) (V c main_v106 : S256x256.Idx → EReal) (V c main_v109 : S1x256.Idx → EReal) p q :=
  congrFun (final_array V c) (ix2 p q)

end Cert.KernelIdeal.LayerValue3

end
-- ==== Proof.KCarry.lean ====
/-
  What the idealized kernel's host stretches and regions leave alone. An argument array is written by no host operation
  and no region, so at every boundary of the program it still holds the launch contents; a region's output array is
  not written by the host stretch that follows it; and the column of denominators computed before the first layer is
  not written again.
-/
import proofs.«167175_j43568148251366_1_alg».proof.Proof.Gen.KernelIdeal.Frame
import Idealize.ShloMosaic.Lib.StableHlo.Run
import Idealize.ShloMosaic.PureOps.Ideal
import Idealize.ShloMosaic.Lib.ValueIdx

set_option maxRecDepth 16384

noncomputable section

namespace Cert.KernelIdeal.KCarry

open Idealize.ShloMosaic Idealize.ShloMosaic.TcCoe Idealize.ShloMosaic.Tactic Idealize.ShloMosaic.ValueIdx
open Idealize.SL Idealize.SL.Sem
open Cert.KernelIdeal Cert.KernelIdeal.Gen

variable (m : (ℓ : Loc nD τ sig) → Buf (Elt Ideal) ℓ) (ρ : Dev nD → PrngReg) (c : Dev nD)

theorem W1_main_arg1 : W1 m ρ c (Proc.devRef .tc main_arg1) = m ((c : Thread nD τ).loc main_arg1) :=
  (StableHlo.after_of_forall_not_mem _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide))) : W1 m ρ c (Proc.devRef .tc main_arg1) = W0 m ρ c (Proc.devRef .tc main_arg1))
theorem W1_main_arg2 : W1 m ρ c (Proc.devRef .tc main_arg2) = m ((c : Thread nD τ).loc main_arg2) :=
  (StableHlo.after_of_forall_not_mem _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide))) : W1 m ρ c (Proc.devRef .tc main_arg2) = W0 m ρ c (Proc.devRef .tc main_arg2))
theorem W2_main_arg2 : W2 m ρ c (Proc.devRef .tc main_arg2) = m ((c : Thread nD τ).loc main_arg2) :=
  (W2_of_ne m ρ c main_arg2 (by decide)).trans (W1_main_arg2 m ρ c)
theorem W3_main_arg2 : W3 m ρ c (Proc.devRef .tc main_arg2) = m ((c : Thread nD τ).loc main_arg2) :=
  (StableHlo.after_of_forall_not_mem _ _ (List.forall_iff_forall_mem.mp (by
    simp only [hostOps1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide))) : W3 m ρ c (Proc.devRef .tc main_arg2) = W2 m ρ c (Proc.devRef .tc main_arg2)).trans (W2_main_arg2 m ρ c)
theorem W4_main_arg2 : W4 m ρ c (Proc.devRef .tc main_arg2) = m ((c : Thread nD τ).loc main_arg2) :=
  (W4_of_ne m ρ c main_arg2 (by decide)).trans (W3_main_arg2 m ρ c)
theorem W5_main_arg2 : W5 m ρ c (Proc.devRef .tc main_arg2) = m ((c : Thread nD τ).loc main_arg2) :=
  (StableHlo.after_of_forall_not_mem _ _ (List.forall_iff_forall_mem.mp (by
    simp only [hostOps2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide))) : W5 m ρ c (Proc.devRef .tc main_arg2) = W4 m ρ c (Proc.devRef .tc main_arg2)).trans (W4_main_arg2 m ρ c)
theorem W6_main_arg2 : W6 m ρ c (Proc.devRef .tc main_arg2) = m ((c : Thread nD τ).loc main_arg2) :=
  (W6_of_ne m ρ c main_arg2 (by decide)).trans (W5_main_arg2 m ρ c)
theorem W1_main_arg3 : W1 m ρ c (Proc.devRef .tc main_arg3) = m ((c : Thread nD τ).loc main_arg3) :=
  (StableHlo.after_of_forall_not_mem _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide))) : W1 m ρ c (Proc.devRef .tc main_arg3) = W0 m ρ c (Proc.devRef .tc main_arg3))
theorem W2_main_arg3 : W2 m ρ c (Proc.devRef .tc main_arg3) = m ((c : Thread nD τ).loc main_arg3) :=
  (W2_of_ne m ρ c main_arg3 (by decide)).trans (W1_main_arg3 m ρ c)
theorem W3_main_arg3 : W3 m ρ c (Proc.devRef .tc main_arg3) = m ((c : Thread nD τ).loc main_arg3) :=
  (StableHlo.after_of_forall_not_mem _ _ (List.forall_iff_forall_mem.mp (by
    simp only [hostOps1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide))) : W3 m ρ c (Proc.devRef .tc main_arg3) = W2 m ρ c (Proc.devRef .tc main_arg3)).trans (W2_main_arg3 m ρ c)
theorem W4_main_arg3 : W4 m ρ c (Proc.devRef .tc main_arg3) = m ((c : Thread nD τ).loc main_arg3) :=
  (W4_of_ne m ρ c main_arg3 (by decide)).trans (W3_main_arg3 m ρ c)
theorem W5_main_arg3 : W5 m ρ c (Proc.devRef .tc main_arg3) = m ((c : Thread nD τ).loc main_arg3) :=
  (StableHlo.after_of_forall_not_mem _ _ (List.forall_iff_forall_mem.mp (by
    simp only [hostOps2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide))) : W5 m ρ c (Proc.devRef .tc main_arg3) = W4 m ρ c (Proc.devRef .tc main_arg3)).trans (W4_main_arg3 m ρ c)
theorem W6_main_arg3 : W6 m ρ c (Proc.devRef .tc main_arg3) = m ((c : Thread nD τ).loc main_arg3) :=
  (W6_of_ne m ρ c main_arg3 (by decide)).trans (W5_main_arg3 m ρ c)
theorem W1_main_arg11 : W1 m ρ c (Proc.devRef .tc main_arg11) = m ((c : Thread nD τ).loc main_arg11) :=
  (StableHlo.after_of_forall_not_mem _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide))) : W1 m ρ c (Proc.devRef .tc main_arg11) = W0 m ρ c (Proc.devRef .tc main_arg11))
theorem W2_main_arg11 : W2 m ρ c (Proc.devRef .tc main_arg11) = m ((c : Thread nD τ).loc main_arg11) :=
  (W2_of_ne m ρ c main_arg11 (by decide)).trans (W1_main_arg11 m ρ c)
theorem W3_main_arg11 : W3 m ρ c (Proc.devRef .tc main_arg11) = m ((c : Thread nD τ).loc main_arg11) :=
  (StableHlo.after_of_forall_not_mem _ _ (List.forall_iff_forall_mem.mp (by
    simp only [hostOps1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide))) : W3 m ρ c (Proc.devRef .tc main_arg11) = W2 m ρ c (Proc.devRef .tc main_arg11)).trans (W2_main_arg11 m ρ c)
theorem W4_main_arg11 : W4 m ρ c (Proc.devRef .tc main_arg11) = m ((c : Thread nD τ).loc main_arg11) :=
  (W4_of_ne m ρ c main_arg11 (by decide)).trans (W3_main_arg11 m ρ c)
theorem W5_main_arg11 : W5 m ρ c (Proc.devRef .tc main_arg11) = m ((c : Thread nD τ).loc main_arg11) :=
  (StableHlo.after_of_forall_not_mem _ _ (List.forall_iff_forall_mem.mp (by
    simp only [hostOps2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide))) : W5 m ρ c (Proc.devRef .tc main_arg11) = W4 m ρ c (Proc.devRef .tc main_arg11)).trans (W4_main_arg11 m ρ c)
theorem W6_main_arg11 : W6 m ρ c (Proc.devRef .tc main_arg11) = m ((c : Thread nD τ).loc main_arg11) :=
  (W6_of_ne m ρ c main_arg11 (by decide)).trans (W5_main_arg11 m ρ c)
theorem W1_main_arg12 : W1 m ρ c (Proc.devRef .tc main_arg12) = m ((c : Thread nD τ).loc main_arg12) :=
  (StableHlo.after_of_forall_not_mem _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide))) : W1 m ρ c (Proc.devRef .tc main_arg12) = W0 m ρ c (Proc.devRef .tc main_arg12))
theorem W2_main_arg12 : W2 m ρ c (Proc.devRef .tc main_arg12) = m ((c : Thread nD τ).loc main_arg12) :=
  (W2_of_ne m ρ c main_arg12 (by decide)).trans (W1_main_arg12 m ρ c)
theorem W3_main_arg12 : W3 m ρ c (Proc.devRef .tc main_arg12) = m ((c : Thread nD τ).loc main_arg12) :=
  (StableHlo.after_of_forall_not_mem _ _ (List.forall_iff_forall_mem.mp (by
    simp only [hostOps1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide))) : W3 m ρ c (Proc.devRef .tc main_arg12) = W2 m ρ c (Proc.devRef .tc main_arg12)).trans (W2_main_arg12 m ρ c)
theorem W4_main_arg12 : W4 m ρ c (Proc.devRef .tc main_arg12) = m ((c : Thread nD τ).loc main_arg12) :=
  (W4_of_ne m ρ c main_arg12 (by decide)).trans (W3_main_arg12 m ρ c)
theorem W5_main_arg12 : W5 m ρ c (Proc.devRef .tc main_arg12) = m ((c : Thread nD τ).loc main_arg12) :=
  (StableHlo.after_of_forall_not_mem _ _ (List.forall_iff_forall_mem.mp (by
    simp only [hostOps2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide))) : W5 m ρ c (Proc.devRef .tc main_arg12) = W4 m ρ c (Proc.devRef .tc main_arg12)).trans (W4_main_arg12 m ρ c)
theorem W6_main_arg12 : W6 m ρ c (Proc.devRef .tc main_arg12) = m ((c : Thread nD τ).loc main_arg12) :=
  (W6_of_ne m ρ c main_arg12 (by decide)).trans (W5_main_arg12 m ρ c)
theorem W1_main_arg13 : W1 m ρ c (Proc.devRef .tc main_arg13) = m ((c : Thread nD τ).loc main_arg13) :=
  (StableHlo.after_of_forall_not_mem _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide))) : W1 m ρ c (Proc.devRef .tc main_arg13) = W0 m ρ c (Proc.devRef .tc main_arg13))
theorem W2_main_arg13 : W2 m ρ c (Proc.devRef .tc main_arg13) = m ((c : Thread nD τ).loc main_arg13) :=
  (W2_of_ne m ρ c main_arg13 (by decide)).trans (W1_main_arg13 m ρ c)
theorem W3_main_arg13 : W3 m ρ c (Proc.devRef .tc main_arg13) = m ((c : Thread nD τ).loc main_arg13) :=
  (StableHlo.after_of_forall_not_mem _ _ (List.forall_iff_forall_mem.mp (by
    simp only [hostOps1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide))) : W3 m ρ c (Proc.devRef .tc main_arg13) = W2 m ρ c (Proc.devRef .tc main_arg13)).trans (W2_main_arg13 m ρ c)
theorem W4_main_arg13 : W4 m ρ c (Proc.devRef .tc main_arg13) = m ((c : Thread nD τ).loc main_arg13) :=
  (W4_of_ne m ρ c main_arg13 (by decide)).trans (W3_main_arg13 m ρ c)
theorem W5_main_arg13 : W5 m ρ c (Proc.devRef .tc main_arg13) = m ((c : Thread nD τ).loc main_arg13) :=
  (StableHlo.after_of_forall_not_mem _ _ (List.forall_iff_forall_mem.mp (by
    simp only [hostOps2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide))) : W5 m ρ c (Proc.devRef .tc main_arg13) = W4 m ρ c (Proc.devRef .tc main_arg13)).trans (W4_main_arg13 m ρ c)
theorem W6_main_arg13 : W6 m ρ c (Proc.devRef .tc main_arg13) = m ((c : Thread nD τ).loc main_arg13) :=
  (W6_of_ne m ρ c main_arg13 (by decide)).trans (W5_main_arg13 m ρ c)
theorem W1_main_arg14 : W1 m ρ c (Proc.devRef .tc main_arg14) = m ((c : Thread nD τ).loc main_arg14) :=
  (StableHlo.after_of_forall_not_mem _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide))) : W1 m ρ c (Proc.devRef .tc main_arg14) = W0 m ρ c (Proc.devRef .tc main_arg14))
theorem W2_main_arg14 : W2 m ρ c (Proc.devRef .tc main_arg14) = m ((c : Thread nD τ).loc main_arg14) :=
  (W2_of_ne m ρ c main_arg14 (by decide)).trans (W1_main_arg14 m ρ c)
theorem W3_main_arg14 : W3 m ρ c (Proc.devRef .tc main_arg14) = m ((c : Thread nD τ).loc main_arg14) :=
  (StableHlo.after_of_forall_not_mem _ _ (List.forall_iff_forall_mem.mp (by
    simp only [hostOps1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide))) : W3 m ρ c (Proc.devRef .tc main_arg14) = W2 m ρ c (Proc.devRef .tc main_arg14)).trans (W2_main_arg14 m ρ c)
theorem W4_main_arg14 : W4 m ρ c (Proc.devRef .tc main_arg14) = m ((c : Thread nD τ).loc main_arg14) :=
  (W4_of_ne m ρ c main_arg14 (by decide)).trans (W3_main_arg14 m ρ c)
theorem W5_main_arg14 : W5 m ρ c (Proc.devRef .tc main_arg14) = m ((c : Thread nD τ).loc main_arg14) :=
  (StableHlo.after_of_forall_not_mem _ _ (List.forall_iff_forall_mem.mp (by
    simp only [hostOps2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide))) : W5 m ρ c (Proc.devRef .tc main_arg14) = W4 m ρ c (Proc.devRef .tc main_arg14)).trans (W4_main_arg14 m ρ c)
theorem W6_main_arg14 : W6 m ρ c (Proc.devRef .tc main_arg14) = m ((c : Thread nD τ).loc main_arg14) :=
  (W6_of_ne m ρ c main_arg14 (by decide)).trans (W5_main_arg14 m ρ c)
theorem W1_main_arg15 : W1 m ρ c (Proc.devRef .tc main_arg15) = m ((c : Thread nD τ).loc main_arg15) :=
  (StableHlo.after_of_forall_not_mem _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide))) : W1 m ρ c (Proc.devRef .tc main_arg15) = W0 m ρ c (Proc.devRef .tc main_arg15))
theorem W2_main_arg15 : W2 m ρ c (Proc.devRef .tc main_arg15) = m ((c : Thread nD τ).loc main_arg15) :=
  (W2_of_ne m ρ c main_arg15 (by decide)).trans (W1_main_arg15 m ρ c)
theorem W3_main_arg15 : W3 m ρ c (Proc.devRef .tc main_arg15) = m ((c : Thread nD τ).loc main_arg15) :=
  (StableHlo.after_of_forall_not_mem _ _ (List.forall_iff_forall_mem.mp (by
    simp only [hostOps1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide))) : W3 m ρ c (Proc.devRef .tc main_arg15) = W2 m ρ c (Proc.devRef .tc main_arg15)).trans (W2_main_arg15 m ρ c)
theorem W4_main_arg15 : W4 m ρ c (Proc.devRef .tc main_arg15) = m ((c : Thread nD τ).loc main_arg15) :=
  (W4_of_ne m ρ c main_arg15 (by decide)).trans (W3_main_arg15 m ρ c)
theorem W5_main_arg15 : W5 m ρ c (Proc.devRef .tc main_arg15) = m ((c : Thread nD τ).loc main_arg15) :=
  (StableHlo.after_of_forall_not_mem _ _ (List.forall_iff_forall_mem.mp (by
    simp only [hostOps2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide))) : W5 m ρ c (Proc.devRef .tc main_arg15) = W4 m ρ c (Proc.devRef .tc main_arg15)).trans (W4_main_arg15 m ρ c)
theorem W6_main_arg15 : W6 m ρ c (Proc.devRef .tc main_arg15) = m ((c : Thread nD τ).loc main_arg15) :=
  (W6_of_ne m ρ c main_arg15 (by decide)).trans (W5_main_arg15 m ρ c)
theorem W1_main_arg16 : W1 m ρ c (Proc.devRef .tc main_arg16) = m ((c : Thread nD τ).loc main_arg16) :=
  (StableHlo.after_of_forall_not_mem _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide))) : W1 m ρ c (Proc.devRef .tc main_arg16) = W0 m ρ c (Proc.devRef .tc main_arg16))
theorem W2_main_arg16 : W2 m ρ c (Proc.devRef .tc main_arg16) = m ((c : Thread nD τ).loc main_arg16) :=
  (W2_of_ne m ρ c main_arg16 (by decide)).trans (W1_main_arg16 m ρ c)
theorem W3_main_arg16 : W3 m ρ c (Proc.devRef .tc main_arg16) = m ((c : Thread nD τ).loc main_arg16) :=
  (StableHlo.after_of_forall_not_mem _ _ (List.forall_iff_forall_mem.mp (by
    simp only [hostOps1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide))) : W3 m ρ c (Proc.devRef .tc main_arg16) = W2 m ρ c (Proc.devRef .tc main_arg16)).trans (W2_main_arg16 m ρ c)
theorem W4_main_arg16 : W4 m ρ c (Proc.devRef .tc main_arg16) = m ((c : Thread nD τ).loc main_arg16) :=
  (W4_of_ne m ρ c main_arg16 (by decide)).trans (W3_main_arg16 m ρ c)
theorem W5_main_arg16 : W5 m ρ c (Proc.devRef .tc main_arg16) = m ((c : Thread nD τ).loc main_arg16) :=
  (StableHlo.after_of_forall_not_mem _ _ (List.forall_iff_forall_mem.mp (by
    simp only [hostOps2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide))) : W5 m ρ c (Proc.devRef .tc main_arg16) = W4 m ρ c (Proc.devRef .tc main_arg16)).trans (W4_main_arg16 m ρ c)
theorem W6_main_arg16 : W6 m ρ c (Proc.devRef .tc main_arg16) = m ((c : Thread nD τ).loc main_arg16) :=
  (W6_of_ne m ρ c main_arg16 (by decide)).trans (W5_main_arg16 m ρ c)

/-- The denominators' column, computed before the first layer, is still there at the later layers. -/
theorem W4_main_v20 : W4 m ρ c (Proc.devRef .tc main_v20) = W3 m ρ c (Proc.devRef .tc main_v20) := W4_of_ne m ρ c main_v20 (by decide)
theorem W5_main_v20 : W5 m ρ c (Proc.devRef .tc main_v20) = W3 m ρ c (Proc.devRef .tc main_v20) :=
  (StableHlo.after_of_forall_not_mem _ _ (List.forall_iff_forall_mem.mp (by
    simp only [hostOps2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide))) : W5 m ρ c (Proc.devRef .tc main_v20) = W4 m ρ c (Proc.devRef .tc main_v20)).trans (W4_main_v20 m ρ c)
theorem W6_main_v20 : W6 m ρ c (Proc.devRef .tc main_v20) = W3 m ρ c (Proc.devRef .tc main_v20) :=
  (W6_of_ne m ρ c main_v20 (by decide)).trans (W5_main_v20 m ρ c)
/-- A region's output array is untouched by the host stretch after it. -/
theorem W3_main_v13 : W3 m ρ c (Proc.devRef .tc main_v13) = W2 m ρ c (Proc.devRef .tc main_v13) := StableHlo.after_of_forall_not_mem _ _ (List.forall_iff_forall_mem.mp (by
    simp only [hostOps1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem W5_main_v54 : W5 m ρ c (Proc.devRef .tc main_v54) = W4 m ρ c (Proc.devRef .tc main_v54) := StableHlo.after_of_forall_not_mem _ _ (List.forall_iff_forall_mem.mp (by
    simp only [hostOps2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem W7_main_v88 : W7 m ρ c (Proc.devRef .tc main_v88) = W6 m ρ c (Proc.devRef .tc main_v88) := StableHlo.after_of_forall_not_mem _ _ (List.forall_iff_forall_mem.mp (by
    simp only [hostOps3, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

end Cert.KernelIdeal.KCarry

end
-- ==== Proof.RefTerm.lean ====
/-
  The reference's result as one term of its seventeen argument arrays.

  The printed reference is a straight line of array operations. Read by data flow it has nine stages: the embedding rows
  gathered by node id; the first node representation (two dense branches through the leaky rectifier, added); one plus
  the in-degree of every node, as a column; three times the mean of the neighbours' rows followed by a message-passing
  layer — two inner layers and a last one. Each stage is the composition of its operations, in the printed order, as a
  function of the arrays it reads; the operations of the functions the program calls (the leaky rectifier, the row norm)
  are small definitions of their own. Everything is stated for any float values `F`.
-/
import proofs.«167175_j43568148251366_1_alg».proof.ReferenceIdeal

noncomputable section

namespace Cert.ReferenceIdeal.RefTerm

open Idealize.ShloMosaic Cert.ReferenceIdeal
open Cert.ReferenceIdeal.Facts₀ Cert.ReferenceIdeal.Facts

variable {F : FTy → Type} [FloatOps F] [Facts]

/-- An array of shape `S` and element type `e`, as the program's buffers hold it. -/
abbrev Arr (F : FTy → Type) (S : Shape) (e : EltTy) : Type := (⟨S, e⟩ : BufTy).Contents (Elt F)

/-! ## The called functions -/

/-- The leaky rectifier on a 50000 × 256 array: `x` where `x ≥ 0`, the slope times `x` elsewhere. -/
def lrelu256 (x : Arr F S50000x256 .f32) (s : Arr F S_ .f32) : Arr F S50000x256 .f32 :=
  select (cmpf .oge x (broadcastInDim S50000x256 ![] bcast_S_S50000x256 (constant S_ .f32 0x00000000#32)))
    x (mulf (broadcastInDim S50000x256 ![] bcast_S_S50000x256 (id s)) x)

/-- The leaky rectifier on a 50000 × 300 array. -/
def lrelu300 (x : Arr F S50000x300 .f32) (s : Arr F S_ .f32) : Arr F S50000x300 .f32 :=
  select (cmpf .oge x (broadcastInDim S50000x300 ![] bcast_S_S50000x300 (constant S_ .f32 0x00000000#32)))
    x (mulf (broadcastInDim S50000x300 ![] bcast_S_S50000x300 (id s)) x)

/-- The Euclidean norm of every row, as a column: the square root of the row's sum of squares. -/
def rowNorm (x : Arr F S50000x256 .f32) : Arr F S50000x1 .f32 :=
  Host.sqrt (broadcastInDim S50000x1 ![0] bcast_S50000_S50000x1_0
    (Host.reduceAdd (mulf x x) (constant S_ .f32 0x00000000#32) reducesTo_S50000x256_S50000_d1 h_S_))

/-! ## Pieces the stages share -/

/-- The rectifier's slope, the scalar the program passes to every call of it. -/
def slopeC : Arr F S_ .f32 := constant S_ .f32 0x3DCCCCCD#32

/-- A 256-vector repeated down 50000 rows (through a one-row array, as the program does it). -/
def biasRows256 (b : Arr F S256 .f32) : Arr F S50000x256 .f32 :=
  broadcastInDim S50000x256 ![0, 1] bcast_S1x256_S50000x256_0_1 (broadcastInDim S1x256 ![1] bcast_S256_S1x256_1 b)

/-- A 300-vector repeated down 50000 rows. -/
def biasRows300 (b : Arr F S300 .f32) : Arr F S50000x300 .f32 :=
  broadcastInDim S50000x300 ![0, 1] bcast_S1x300_S50000x300_0_1 (broadcastInDim S1x300 ![1] bcast_S300_S1x300_1 b)

/-- Negative indices wrapped once by `n`, as a column of a million start indices. -/
def wrapIdx (i : Arr F S1000000 .i32) (n : BitVec 32) : Arr F S1000000x1 .i32 :=
  broadcastInDim S1000000x1 ![0] bcast_S1000000_S1000000x1_0
    (select (cmpi .slt i (broadcastInDim S1000000 ![] bcast_S_S1000000 (constantI S_ 32 0#32)))
      (addi i (broadcastInDim S1000000 ![] bcast_S_S1000000 (constantI S_ 32 n))) i)

/-- Every row divided by its norm, the norm floored at a small positive constant. -/
def unitRows (x : Arr F S50000x256 .f32) : Arr F S50000x256 .f32 :=
  Host.divf x (broadcastInDim S50000x256 ![0, 1] bcast_S50000x1_S50000x256_0_1
    (maximumf (rowNorm x) (broadcastInDim S50000x1 ![] bcast_S_S50000x1 (constant S_ .f32 0x358637BD#32))))

/-- A layer's affine map: the node rows and the neighbour means side by side (512 columns) times the transposed
    256 × 512 weight slab, plus the bias row. -/
def mix (h a : Arr F S50000x256 .f32) (w : Arr F S1x256x512 .f32) (b : Arr F S1x256 .f32) : Arr F S50000x256 .f32 :=
  addf
    (Host.dotGeneral dot_S50000x512_S512x256_S50000x256_1_0_0_1_n_n none
      (concatenate S50000x512 1 [⟨S50000x256, h⟩, ⟨S50000x256, a⟩] concatenates_S50000x256_S50000x256_S50000x512_d1)
      (transpose S512x256 [1, 0] (shapeCast S256x512 w shapeCasts_S1x256x512_S256x512) transposes_S256x512_S512x256_1_0))
    (biasRows256 (shapeCast S256 b shapeCasts_S1x256_S256))

/-- A dense map of 256-wide rows: times the transposed 256 × 256 weight slab, plus the bias row. -/
def dense256 (x : Arr F S50000x256 .f32) (w : Arr F S1x256x256 .f32) (b : Arr F S1x256 .f32) : Arr F S50000x256 .f32 :=
  addf
    (Host.dotGeneral dot_S50000x256_S256x256_S50000x256_1_0_0_1_n_n none x
      (transpose S256x256 [1, 0] (shapeCast S256x256 w shapeCasts_S1x256x256_S256x256) transposes_S256x256_S256x256_1_0))
    (biasRows256 (shapeCast S256 b shapeCasts_S1x256_S256))

/-! ## The stages -/

/-- `%6`: the embedding table's rows at the node ids (a negative id wrapped once by the table's length). -/
def embRows (a0 : Arr F S50000 .i32) (a4 : Arr F S50001x64 .f32) : Arr F S50000x64 .f32 :=
  Host.gather gather_S50001x64_S50000x1_S50000x64_1_0_n_n_0_1_164 a4
    (broadcastInDim S50000x1 ![0] bcast_S50000_S50000x1_0
      (select (cmpi .slt a0 (broadcastInDim S50000 ![] bcast_S_S50000 (constantI S_ 32 0#32)))
        (addi a0 (broadcastInDim S50000 ![] bcast_S_S50000 (constantI S_ 32 50001#32))) a0))

/-- `%25`: the first node representation: the rectified dense map of the embedding rows plus the rectified dense map of
    the rectified dense map of the content rows. -/
def enc (e : Arr F S50000x64 .f32) (a1 : Arr F S50000x300 .f32) (a5 : Arr F S256x64 .f32) (a6 : Arr F S256 .f32)
    (a7 : Arr F S300x300 .f32) (a8 : Arr F S300 .f32) (a9 : Arr F S256x300 .f32) (a10 : Arr F S256 .f32) :
    Arr F S50000x256 .f32 :=
  addf
    (lrelu256
      (addf (Host.dotGeneral dot_S50000x64_S64x256_S50000x256_1_0_0_1_n_n none e
          (transpose S64x256 [1, 0] a5 transposes_S256x64_S64x256_1_0))
        (biasRows256 a6))
      slopeC)
    (lrelu256
      (addf (Host.dotGeneral dot_S50000x300_S300x256_S50000x256_1_0_0_1_n_n none
          (lrelu300
            (addf (Host.dotGeneral dot_S50000x300_S300x300_S50000x300_1_0_0_1_n_n none a1
                (transpose S300x300 [1, 0] a7 transposes_S300x300_S300x300_1_0))
              (biasRows300 a8))
            slopeC)
          (transpose S300x256 [1, 0] a9 transposes_S256x300_S300x256_1_0))
        (biasRows256 a10))
      slopeC)

/-- `%32`: one plus the number of edges arriving at every node, as a column. -/
def degPlus (a3 : Arr F S1000000 .i32) : Arr F S50000x1 .f32 :=
  broadcastInDim S50000x1 ![0] bcast_S50000_S50000x1_0
    (addf
      (Host.scatterAdd scatter_S50000_S1000000x1_S1000000_n_0_0_1
        (broadcastInDim S50000 ![] bcast_S_S50000 (constant S_ .f32 0x00000000#32))
        (broadcastInDim S1000000x1 ![0] bcast_S1000000_S1000000x1_0 a3)
        (broadcastInDim S1000000 ![] bcast_S_S1000000 (constant S_ .f32 0x3F800000#32)))
      (broadcastInDim S50000 ![] bcast_S_S50000 (constant S_ .f32 0x3F800000#32)))

/-- `%50`, `%103`, `%156`: the mean of the neighbours' rows: the source rows of the edges summed at their targets (plus the
    node's own row and minus it again, as the program does), over the degree floored at one. -/
def nbrMean (h : Arr F S50000x256 .f32) (dp : Arr F S50000x1 .f32) (a2 a3 : Arr F S1000000 .i32) :
    Arr F S50000x256 .f32 :=
  Host.divf
    (subf
      (addf
        (Host.scatterAdd scatter_S50000x256_S1000000x1_S1000000x256_1_0_0_1
          (broadcastInDim S50000x256 ![] bcast_S_S50000x256 (constant S_ .f32 0x00000000#32))
          (broadcastInDim S1000000x1 ![0] bcast_S1000000_S1000000x1_0 a3)
          (Host.gather gather_S50000x256_S1000000x1_S1000000x256_1_0_n_n_0_1_1256 h (wrapIdx a2 50000#32)))
        h)
      h)
    (broadcastInDim S50000x256 ![0, 1] bcast_S50000x1_S50000x256_0_1
      (maximumf (subf dp (broadcastInDim S50000x1 ![] bcast_S_S50000x1 (constant S_ .f32 0x3F800000#32)))
        (broadcastInDim S50000x1 ![] bcast_S_S50000x1 (constant S_ .f32 0x3F800000#32))))

/-- An inner layer over its own slabs of the weights: the affine map, the rectifier, the rows normalised, then two dense
    maps with the rectifier between them. -/
def layerA (h a : Arr F S50000x256 .f32) (w : Arr F S1x256x512 .f32) (b : Arr F S1x256 .f32)
    (w1 : Arr F S1x256x256 .f32) (b1 : Arr F S1x256 .f32) (w2 : Arr F S1x256x256 .f32) (b2 : Arr F S1x256 .f32) :
    Arr F S50000x256 .f32 :=
  dense256 (lrelu256 (dense256 (unitRows (lrelu256 (mix h a w b) slopeC)) w1 b1) slopeC) w2 b2

/-- `%85`: the first inner layer, over slab 0 of every weight array. -/
def layerA0 (h a : Arr F S50000x256 .f32) (a11 : Arr F S3x256x512 .f32) (a12 : Arr F S3x256 .f32)
    (a13 : Arr F S2x256x256 .f32) (a14 : Arr F S2x256 .f32) (a15 : Arr F S2x256x256 .f32) (a16 : Arr F S2x256 .f32) :
    Arr F S50000x256 .f32 :=
  layerA h a
    (extractStridedSlice S1x256x512 ![0, 0, 0] a11 slices_S3x256x512_S1x256x512_0_0_0)
    (extractStridedSlice S1x256 ![0, 0] a12 slices_S3x256_S1x256_0_0)
    (extractStridedSlice S1x256x256 ![0, 0, 0] a13 slices_S2x256x256_S1x256x256_0_0_0)
    (extractStridedSlice S1x256 ![0, 0] a14 slices_S2x256_S1x256_0_0)
    (extractStridedSlice S1x256x256 ![0, 0, 0] a15 slices_S2x256x256_S1x256x256_0_0_0)
    (extractStridedSlice S1x256 ![0, 0] a16 slices_S2x256_S1x256_0_0)

/-- `%138`: the second inner layer, over slab 1 of every weight array. -/
def layerA1 (h a : Arr F S50000x256 .f32) (a11 : Arr F S3x256x512 .f32) (a12 : Arr F S3x256 .f32)
    (a13 : Arr F S2x256x256 .f32) (a14 : Arr F S2x256 .f32) (a15 : Arr F S2x256x256 .f32) (a16 : Arr F S2x256 .f32) :
    Arr F S50000x256 .f32 :=
  layerA h a
    (extractStridedSlice S1x256x512 ![1, 0, 0] a11 slices_S3x256x512_S1x256x512_1_0_0)
    (extractStridedSlice S1x256 ![1, 0] a12 slices_S3x256_S1x256_1_0)
    (extractStridedSlice S1x256x256 ![1, 0, 0] a13 slices_S2x256x256_S1x256x256_1_0_0)
    (extractStridedSlice S1x256 ![1, 0] a14 slices_S2x256_S1x256_1_0)
    (extractStridedSlice S1x256x256 ![1, 0, 0] a15 slices_S2x256x256_S1x256x256_1_0_0)
    (extractStridedSlice S1x256 ![1, 0] a16 slices_S2x256_S1x256_1_0)

/-- `%171`: the last layer, over slab 2: the affine map, then the rows normalised. -/
def layerB (h a : Arr F S50000x256 .f32) (a11 : Arr F S3x256x512 .f32) (a12 : Arr F S3x256 .f32) :
    Arr F S50000x256 .f32 :=
  unitRows (mix h a
    (extractStridedSlice S1x256x512 ![2, 0, 0] a11 slices_S3x256x512_S1x256x512_2_0_0)
    (extractStridedSlice S1x256 ![2, 0] a12 slices_S3x256_S1x256_2_0))

/-- The reference's result: the stages composed. -/
def result (a0 : Arr F S50000 .i32) (a1 : Arr F S50000x300 .f32) (a2 a3 : Arr F S1000000 .i32)
    (a4 : Arr F S50001x64 .f32) (a5 : Arr F S256x64 .f32) (a6 : Arr F S256 .f32) (a7 : Arr F S300x300 .f32)
    (a8 : Arr F S300 .f32) (a9 : Arr F S256x300 .f32) (a10 : Arr F S256 .f32) (a11 : Arr F S3x256x512 .f32)
    (a12 : Arr F S3x256 .f32) (a13 : Arr F S2x256x256 .f32) (a14 : Arr F S2x256 .f32) (a15 : Arr F S2x256x256 .f32)
    (a16 : Arr F S2x256 .f32) : Arr F S50000x256 .f32 :=
  let h0 := enc (embRows a0 a4) a1 a5 a6 a7 a8 a9 a10
  let dp := degPlus a3
  let h1 := layerA0 h0 (nbrMean h0 dp a2 a3) a11 a12 a13 a14 a15 a16
  let h2 := layerA1 h1 (nbrMean h1 dp a2 a3) a11 a12 a13 a14 a15 a16
  layerB h2 (nbrMean h2 dp a2 a3) a11 a12

end Cert.ReferenceIdeal.RefTerm

end
-- ==== Proof.Canon.lean ====
/-
  The weight arrays as the network's formulas read them.

  Both programs keep a layer's weights as slabs of three-axis arrays and reach the entries the formulas need through
  slices, reshapes and transposes. Here are those entries named once: the two 256-column halves of a 256 × 512 slab
  read transposed, a 256 × 256 slab read transposed, and a vector seen as a one-row array.
-/
import proofs.«167175_j43568148251366_1_alg».proof.Proof.Spec

noncomputable section

namespace Cert.Canon

open Idealize.ShloMosaic Idealize.ShloMosaic.ValueIdx Cert.Spec

/-- A vector seen as a one-row array. -/
def rowOf {k : ℕ} (b : (⟨1, ![k]⟩ : Shape).Idx → EReal) : Mat 1 k := fun i => b (ix1 (i 1))

/-- The left half of a 256 × 512 slab, transposed: entry (j, q) is the slab's (q, j). -/
def halfL (w : (⟨3, ![1, 256, 512]⟩ : Shape).Idx → EReal) : Mat 256 256 :=
  fun i => w (ix3 (0 : Fin 1) (i 1) (Fin.castAdd 256 (i 0)))

/-- The right half of a 256 × 512 slab, transposed: entry (j, q) is the slab's (q, 256 + j). -/
def halfR (w : (⟨3, ![1, 256, 512]⟩ : Shape).Idx → EReal) : Mat 256 256 :=
  fun i => w (ix3 (0 : Fin 1) (i 1) (Fin.natAdd 256 (i 0)))

/-- A 256 × 256 slab, transposed. -/
def slabT (w : (⟨3, ![1, 256, 256]⟩ : Shape).Idx → EReal) : Mat 256 256 :=
  fun i => w (ix3 (0 : Fin 1) (i 1) (i 0))

/-- A matrix transposed. -/
def tr {a b : ℕ} (w : Mat a b) : Mat b a := fun i => w (ix2 (i 1) (i 0))

theorem rowOf_apply {k : ℕ} (b : (⟨1, ![k]⟩ : Shape).Idx → EReal) (u : Fin 1) (q : Fin k) : rowOf b (ix2 u q) = b (ix1 q) := rfl
theorem halfL_apply (w : (⟨3, ![1, 256, 512]⟩ : Shape).Idx → EReal) (j q : Fin 256) :
    halfL w (ix2 j q) = w (ix3 (0 : Fin 1) q (Fin.castAdd 256 j)) := rfl
theorem halfR_apply (w : (⟨3, ![1, 256, 512]⟩ : Shape).Idx → EReal) (j q : Fin 256) :
    halfR w (ix2 j q) = w (ix3 (0 : Fin 1) q (Fin.natAdd 256 j)) := rfl
theorem slabT_apply (w : (⟨3, ![1, 256, 256]⟩ : Shape).Idx → EReal) (j q : Fin 256) :
    slabT w (ix2 j q) = w (ix3 (0 : Fin 1) q j) := rfl
theorem tr_apply {a b : ℕ} (w : Mat a b) (j : Fin b) (i : Fin a) : tr w (ix2 j i) = w (ix2 i j) := rfl

end Cert.Canon

end
-- ==== Proof.KHost0.lean ====
/-
  The arrays the idealized kernel's first region reads, as functions of the program's arguments: the embedding rows
  gathered by node id, the three weight matrices transposed, and the three bias vectors as one-row arrays. The content
  rows are the argument itself.
-/
import proofs.«167175_j43568148251366_1_alg».proof.Proof.Gen.KernelIdeal.Frame
import proofs.«167175_j43568148251366_1_alg».proof.Proof.KCarry
import proofs.«167175_j43568148251366_1_alg».proof.Proof.RefTerm
import proofs.«167175_j43568148251366_1_alg».proof.Proof.Canon
import Idealize.ShloMosaic.Lib.StableHlo.Run
import Idealize.ShloMosaic.PureOps.Ideal
import Idealize.ShloMosaic.Lib.ValueIdx
import Idealize.ShloMosaic.Lib.ValueLayout
import Idealize.ShloMosaic.Lib.Pipeline.Value

set_option maxRecDepth 16384

noncomputable section

namespace Cert.KernelIdeal.KHost0

open Idealize.ShloMosaic Idealize.ShloMosaic.TcCoe Idealize.ShloMosaic.Tactic Idealize.ShloMosaic.ValueIdx
open Idealize.SL Idealize.SL.Sem
open Cert.KernelIdeal Cert.KernelIdeal.Gen

variable (m : (ℓ : Loc nD τ sig) → Buf (Elt Ideal) ℓ) (ρ : Dev nD → PrngReg) (c : Dev nD)

open Cert.KernelIdeal.KCarry
variable [Cert.ReferenceIdeal.Facts]

theorem v6 : W1 m ρ c (Proc.devRef .tc main_v6)
    = Cert.ReferenceIdeal.RefTerm.embRows (F := Ideal) (m ((c : Thread nD τ).loc main_arg0)) (m ((c : Thread nD τ).loc main_arg4)) := by
  dsimp only [Gen.W1, Gen.W0, Gen.hostOps0]
  after_results
  rfl

theorem v7 : W1 m ρ c (Proc.devRef .tc main_v7) = transpose S64x256 [1, 0] (m ((c : Thread nD τ).loc main_arg5)) transposes_S256x64_S64x256_1_0 := by
  dsimp only [Gen.W1, Gen.W0, Gen.hostOps0]
  after_results <;> rfl

theorem v8 : W1 m ρ c (Proc.devRef .tc main_v8) = transpose S300x300 [1, 0] (m ((c : Thread nD τ).loc main_arg7)) transposes_S300x300_S300x300_1_0 := by
  dsimp only [Gen.W1, Gen.W0, Gen.hostOps0]
  after_results <;> rfl

theorem v9 : W1 m ρ c (Proc.devRef .tc main_v9) = transpose S300x256 [1, 0] (m ((c : Thread nD τ).loc main_arg9)) transposes_S256x300_S300x256_1_0 := by
  dsimp only [Gen.W1, Gen.W0, Gen.hostOps0]
  after_results <;> rfl

theorem v10 : W1 m ρ c (Proc.devRef .tc main_v10) = shapeCast S1x256 (m ((c : Thread nD τ).loc main_arg6)) shapeCasts_S256_S1x256 := by
  dsimp only [Gen.W1, Gen.W0, Gen.hostOps0]
  after_results <;> rfl

theorem v11 : W1 m ρ c (Proc.devRef .tc main_v11) = shapeCast S1x300 (m ((c : Thread nD τ).loc main_arg8)) shapeCasts_S300_S1x300 := by
  dsimp only [Gen.W1, Gen.W0, Gen.hostOps0]
  after_results <;> rfl

theorem v12 : W1 m ρ c (Proc.devRef .tc main_v12) = shapeCast S1x256 (m ((c : Thread nD τ).loc main_arg10)) shapeCasts_S256_S1x256 := by
  dsimp only [Gen.W1, Gen.W0, Gen.hostOps0]
  after_results <;> rfl

/-- A vector reshaped to one row is the vector seen as a one-row array. -/
theorem rowCast256 (b : FVec Ideal S256 .f32) : shapeCast S1x256 b shapeCasts_S256_S1x256 = Cert.Canon.rowOf b := by
  funext i
  rw [eq_ix2 i]
  exact shapeCast_a_1a_apply b _ _ _

theorem rowCast300 (b : FVec Ideal S300 .f32) : shapeCast S1x300 b shapeCasts_S300_S1x300 = Cert.Canon.rowOf b := by
  funext i
  rw [eq_ix2 i]
  exact shapeCast_a_1a_apply b _ _ _

end Cert.KernelIdeal.KHost0

end
-- ==== Proof.MeanForm.lean ====
/-
  The neighbour mean in its plain form: the source rows of the edges summed at their targets, over the in-degree
  floored at one. (The reference reaches the same value by adding the node's own row and taking it away again, and by
  adding one to the degree and taking it away again.)
-/
import proofs.«167175_j43568148251366_1_alg».proof.Proof.RefTerm

noncomputable section

namespace Cert.ReferenceIdeal.MeanForm

open Idealize.ShloMosaic Cert.ReferenceIdeal Cert.ReferenceIdeal.RefTerm
open Cert.ReferenceIdeal.Facts₀ Cert.ReferenceIdeal.Facts

variable {F : FTy → Type} [FloatOps F] [Facts]

/-- The in-degree of every node floored at one, as a column. -/
def den (a3 : Arr F S1000000 .i32) : Arr F S50000x1 .f32 :=
  broadcastInDim S50000x1 ![0] bcast_S50000_S50000x1_0
    (maximumf
      (Host.scatterAdd scatter_S50000_S1000000x1_S1000000_n_0_0_1
        (broadcastInDim S50000 ![] bcast_S_S50000 (constant S_ .f32 0x00000000#32))
        (broadcastInDim S1000000x1 ![0] bcast_S1000000_S1000000x1_0 a3)
        (broadcastInDim S1000000 ![] bcast_S_S1000000 (constant S_ .f32 0x3F800000#32)))
      (broadcastInDim S50000 ![] bcast_S_S50000 (constant S_ .f32 0x3F800000#32)))

/-- The mean of the neighbours' rows: the edges' source rows summed at their targets, over the floored degree. -/
def mean (h : Arr F S50000x256 .f32) (a2 a3 : Arr F S1000000 .i32) : Arr F S50000x256 .f32 :=
  Host.divf
    (Host.scatterAdd scatter_S50000x256_S1000000x1_S1000000x256_1_0_0_1
      (broadcastInDim S50000x256 ![] bcast_S_S50000x256 (constant S_ .f32 0x00000000#32))
      (broadcastInDim S1000000x1 ![0] bcast_S1000000_S1000000x1_0 a3)
      (Host.gather gather_S50000x256_S1000000x1_S1000000x256_1_0_n_n_0_1_1256 h (wrapIdx a2 50000#32)))
    (broadcastInDim S50000x256 ![0, 1] bcast_S50000x1_S50000x256_0_1 (den a3))

end Cert.ReferenceIdeal.MeanForm

end
-- ==== Proof.CanonRead.lean ====
/-
  The layout chains that reach a layer's weights, read as the named entries: a 256 × 512 slab reshaped, cut to one of
  its 256-column halves and transposed; a 256 × 256 slab reshaped and transposed; a one-row bias flattened to a vector
  and made a row again.
-/
import Idealize.ShloMosaic.Lib.ValueLayout
import Idealize.ShloMosaic.Lib.Pipeline.Value
import proofs.«167175_j43568148251366_1_alg».proof.Proof.Canon

noncomputable section

namespace Cert.Canon

open Idealize.ShloMosaic Idealize.ShloMosaic.ValueIdx Cert.Spec

theorem halfL_read (w : (⟨3, ![1, 256, 512]⟩ : Shape).Idx → EReal)
    (hc : (⟨3, ![1, 256, 512]⟩ : Shape).ShapeCasts ⟨2, ![256, 512]⟩)
    (hs : (⟨2, ![256, 512]⟩ : Shape).Slices ![0, 0] ⟨2, ![256, 256]⟩)
    (ht : (⟨2, ![256, 256]⟩ : Shape).Transposes [1, 0] ⟨2, ![256, 256]⟩) :
    transpose ⟨2, ![256, 256]⟩ [1, 0] (extractStridedSlice ⟨2, ![256, 256]⟩ ![0, 0] (shapeCast ⟨2, ![256, 512]⟩ w hc) hs) ht
      = halfL w := by
  funext i
  obtain ⟨j, q, rfl⟩ : ∃ (j q : Fin 256), i = ix2 j q := ⟨i 0, i 1, eq_ix2 i⟩
  rw [transpose_ix2_apply, slice2_axis1_apply 0 _ hs q j (Fin.castAdd 256 j) (Nat.zero_add _).symm,
    shapeCast_1ab_ab_apply, halfL_apply]

theorem halfR_read (w : (⟨3, ![1, 256, 512]⟩ : Shape).Idx → EReal)
    (hc : (⟨3, ![1, 256, 512]⟩ : Shape).ShapeCasts ⟨2, ![256, 512]⟩)
    (hs : (⟨2, ![256, 512]⟩ : Shape).Slices ![0, 256] ⟨2, ![256, 256]⟩)
    (ht : (⟨2, ![256, 256]⟩ : Shape).Transposes [1, 0] ⟨2, ![256, 256]⟩) :
    transpose ⟨2, ![256, 256]⟩ [1, 0] (extractStridedSlice ⟨2, ![256, 256]⟩ ![0, 256] (shapeCast ⟨2, ![256, 512]⟩ w hc) hs) ht
      = halfR w := by
  funext i
  obtain ⟨j, q, rfl⟩ : ∃ (j q : Fin 256), i = ix2 j q := ⟨i 0, i 1, eq_ix2 i⟩
  rw [transpose_ix2_apply, slice2_axis1_apply 256 _ hs q j (Fin.natAdd 256 j) rfl,
    shapeCast_1ab_ab_apply, halfR_apply]

theorem slabT_read (w : (⟨3, ![1, 256, 256]⟩ : Shape).Idx → EReal)
    (hc : (⟨3, ![1, 256, 256]⟩ : Shape).ShapeCasts ⟨2, ![256, 256]⟩)
    (ht : (⟨2, ![256, 256]⟩ : Shape).Transposes [1, 0] ⟨2, ![256, 256]⟩) :
    transpose ⟨2, ![256, 256]⟩ [1, 0] (shapeCast ⟨2, ![256, 256]⟩ w hc) ht = slabT w := by
  funext i
  obtain ⟨j, q, rfl⟩ : ∃ (j q : Fin 256), i = ix2 j q := ⟨i 0, i 1, eq_ix2 i⟩
  rw [transpose_ix2_apply, shapeCast_1ab_ab_apply, slabT_apply]

theorem row_round (b : (⟨2, ![1, 256]⟩ : Shape).Idx → EReal)
    (h1 : (⟨2, ![1, 256]⟩ : Shape).ShapeCasts ⟨1, ![256]⟩) (h2 : (⟨1, ![256]⟩ : Shape).ShapeCasts ⟨2, ![1, 256]⟩) :
    shapeCast ⟨2, ![1, 256]⟩ (shapeCast ⟨1, ![256]⟩ b h1) h2 = b := by
  funext i
  obtain ⟨u, q, rfl⟩ : ∃ (u : Fin 1) (q : Fin 256), i = ix2 u q := ⟨i 0, i 1, eq_ix2 i⟩
  rw [shapeCast_a_1a_apply, shapeCast_1a_a_apply]
  exact congrArg (fun v => b (ix2 v q)) (Subsingleton.elim 0 u)

end Cert.Canon

end
-- ==== Proof.KHost1.lean ====
/-
  The arrays the idealized kernel's region 1 reads, as functions of the program's arguments and of the previous
  region's result: the neighbour means in their plain form, and the layer's weights as the named entries of slab 0.
-/
import proofs.«167175_j43568148251366_1_alg».proof.Proof.Gen.KernelIdeal.Frame
import proofs.«167175_j43568148251366_1_alg».proof.Proof.KCarry
import proofs.«167175_j43568148251366_1_alg».proof.Proof.RefTerm
import proofs.«167175_j43568148251366_1_alg».proof.Proof.Canon
import Idealize.ShloMosaic.Lib.StableHlo.Run
import Idealize.ShloMosaic.PureOps.Ideal
import Idealize.ShloMosaic.Lib.ValueIdx
import Idealize.ShloMosaic.Lib.ValueLayout
import Idealize.ShloMosaic.Lib.Pipeline.Value
import proofs.«167175_j43568148251366_1_alg».proof.Proof.MeanForm
import proofs.«167175_j43568148251366_1_alg».proof.Proof.CanonRead

set_option maxRecDepth 16384

noncomputable section

namespace Cert.KernelIdeal.KHost1

open Idealize.ShloMosaic Idealize.ShloMosaic.TcCoe Idealize.ShloMosaic.Tactic Idealize.ShloMosaic.ValueIdx
open Idealize.SL Idealize.SL.Sem
open Cert.KernelIdeal Cert.KernelIdeal.Gen

variable (m : (ℓ : Loc nD τ sig) → Buf (Elt Ideal) ℓ) (ρ : Dev nD → PrngReg) (c : Dev nD)

open Cert.KernelIdeal.KCarry
variable [Cert.ReferenceIdeal.Facts]

/-- The denominators' column: the in-degree floored at one. -/
theorem den : W3 m ρ c (Proc.devRef .tc main_v20) = Cert.ReferenceIdeal.MeanForm.den (F := Ideal) (m ((c : Thread nD τ).loc main_arg3)) := by
  dsimp only [Gen.W3, Gen.hostOps1]
  after_results_simp
  rw [W2_main_arg3 m ρ c]
  rfl

/-- The neighbour means the region reads: the plain mean of the previous stage's rows. -/
theorem ha : W3 m ρ c (Proc.devRef .tc main_v32)
    = Cert.ReferenceIdeal.MeanForm.mean (F := Ideal) (W2 m ρ c (Proc.devRef .tc main_v13)) (m ((c : Thread nD τ).loc main_arg2)) (m ((c : Thread nD τ).loc main_arg3)) := by
  dsimp only [Gen.W3, Gen.hostOps1]
  after_results_simp
  rw [W2_main_arg2 m ρ c, W2_main_arg3 m ρ c]
  rfl

theorem wc1 : W3 m ρ c (Proc.devRef .tc main_v36) = Cert.Canon.halfL (extractStridedSlice S1x256x512 ![0, 0, 0] (m ((c : Thread nD τ).loc main_arg11)) slices_S3x256x512_S1x256x512_0_0_0) := by
  dsimp only [Gen.W3, Gen.hostOps1]
  after_results_simp
  rw [W2_main_arg11 m ρ c]
  exact Cert.Canon.halfL_read _ _ _ _

theorem wc2 : W3 m ρ c (Proc.devRef .tc main_v38) = Cert.Canon.halfR (extractStridedSlice S1x256x512 ![0, 0, 0] (m ((c : Thread nD τ).loc main_arg11)) slices_S3x256x512_S1x256x512_0_0_0) := by
  dsimp only [Gen.W3, Gen.hostOps1]
  after_results_simp
  rw [W2_main_arg11 m ρ c]
  exact Cert.Canon.halfR_read _ _ _ _

theorem bc : W3 m ρ c (Proc.devRef .tc main_v51) = (extractStridedSlice S1x256 ![0, 0] (m ((c : Thread nD τ).loc main_arg12)) slices_S3x256_S1x256_0_0) := by
  dsimp only [Gen.W3, Gen.hostOps1]
  after_results_simp
  rw [W2_main_arg12 m ρ c]
  exact Cert.Canon.row_round _ _ _

theorem wo1 : W3 m ρ c (Proc.devRef .tc main_v43) = Cert.Canon.slabT (extractStridedSlice S1x256x256 ![0, 0, 0] (m ((c : Thread nD τ).loc main_arg13)) slices_S2x256x256_S1x256x256_0_0_0) := by
  dsimp only [Gen.W3, Gen.hostOps1]
  after_results_simp
  rw [W2_main_arg13 m ρ c]
  exact Cert.Canon.slabT_read _ _ _

theorem bo1 : W3 m ρ c (Proc.devRef .tc main_v52) = (extractStridedSlice S1x256 ![0, 0] (m ((c : Thread nD τ).loc main_arg14)) slices_S2x256_S1x256_0_0) := by
  dsimp only [Gen.W3, Gen.hostOps1]
  after_results_simp
  rw [W2_main_arg14 m ρ c]
  exact Cert.Canon.row_round _ _ _

theorem wo2 : W3 m ρ c (Proc.devRef .tc main_v48) = Cert.Canon.slabT (extractStridedSlice S1x256x256 ![0, 0, 0] (m ((c : Thread nD τ).loc main_arg15)) slices_S2x256x256_S1x256x256_0_0_0) := by
  dsimp only [Gen.W3, Gen.hostOps1]
  after_results_simp
  rw [W2_main_arg15 m ρ c]
  exact Cert.Canon.slabT_read _ _ _

theorem bo2 : W3 m ρ c (Proc.devRef .tc main_v53) = (extractStridedSlice S1x256 ![0, 0] (m ((c : Thread nD τ).loc main_arg16)) slices_S2x256_S1x256_0_0) := by
  dsimp only [Gen.W3, Gen.hostOps1]
  after_results_simp
  rw [W2_main_arg16 m ρ c]
  exact Cert.Canon.row_round _ _ _

end Cert.KernelIdeal.KHost1

end
-- ==== Proof.KHost2.lean ====
/-
  The arrays the idealized kernel's region 2 reads, as functions of the program's arguments and of the previous
  region's result: the neighbour means in their plain form, and the layer's weights as the named entries of slab 1.
-/
import proofs.«167175_j43568148251366_1_alg».proof.Proof.Gen.KernelIdeal.Frame
import proofs.«167175_j43568148251366_1_alg».proof.Proof.KCarry
import proofs.«167175_j43568148251366_1_alg».proof.Proof.RefTerm
import proofs.«167175_j43568148251366_1_alg».proof.Proof.Canon
import Idealize.ShloMosaic.Lib.StableHlo.Run
import Idealize.ShloMosaic.PureOps.Ideal
import Idealize.ShloMosaic.Lib.ValueIdx
import Idealize.ShloMosaic.Lib.ValueLayout
import Idealize.ShloMosaic.Lib.Pipeline.Value
import proofs.«167175_j43568148251366_1_alg».proof.Proof.MeanForm
import proofs.«167175_j43568148251366_1_alg».proof.Proof.CanonRead
import proofs.«167175_j43568148251366_1_alg».proof.Proof.KHost1

set_option maxRecDepth 16384

noncomputable section

namespace Cert.KernelIdeal.KHost2

open Idealize.ShloMosaic Idealize.ShloMosaic.TcCoe Idealize.ShloMosaic.Tactic Idealize.ShloMosaic.ValueIdx
open Idealize.SL Idealize.SL.Sem
open Cert.KernelIdeal Cert.KernelIdeal.Gen

variable (m : (ℓ : Loc nD τ sig) → Buf (Elt Ideal) ℓ) (ρ : Dev nD → PrngReg) (c : Dev nD)

open Cert.KernelIdeal.KCarry
variable [Cert.ReferenceIdeal.Facts]

/-- The neighbour means the region reads: the plain mean of the previous stage's rows. -/
theorem ha : W5 m ρ c (Proc.devRef .tc main_v66)
    = Cert.ReferenceIdeal.MeanForm.mean (F := Ideal) (W4 m ρ c (Proc.devRef .tc main_v54)) (m ((c : Thread nD τ).loc main_arg2)) (m ((c : Thread nD τ).loc main_arg3)) := by
  dsimp only [Gen.W5, Gen.hostOps2]
  after_results_simp
  rw [W4_main_v20 m ρ c, KHost1.den m ρ c, W4_main_arg2 m ρ c, W4_main_arg3 m ρ c]
  rfl

theorem wc1 : W5 m ρ c (Proc.devRef .tc main_v70) = Cert.Canon.halfL (extractStridedSlice S1x256x512 ![1, 0, 0] (m ((c : Thread nD τ).loc main_arg11)) slices_S3x256x512_S1x256x512_1_0_0) := by
  dsimp only [Gen.W5, Gen.hostOps2]
  after_results_simp
  rw [W4_main_arg11 m ρ c]
  exact Cert.Canon.halfL_read _ _ _ _

theorem wc2 : W5 m ρ c (Proc.devRef .tc main_v72) = Cert.Canon.halfR (extractStridedSlice S1x256x512 ![1, 0, 0] (m ((c : Thread nD τ).loc main_arg11)) slices_S3x256x512_S1x256x512_1_0_0) := by
  dsimp only [Gen.W5, Gen.hostOps2]
  after_results_simp
  rw [W4_main_arg11 m ρ c]
  exact Cert.Canon.halfR_read _ _ _ _

theorem bc : W5 m ρ c (Proc.devRef .tc main_v85) = (extractStridedSlice S1x256 ![1, 0] (m ((c : Thread nD τ).loc main_arg12)) slices_S3x256_S1x256_1_0) := by
  dsimp only [Gen.W5, Gen.hostOps2]
  after_results_simp
  rw [W4_main_arg12 m ρ c]
  exact Cert.Canon.row_round _ _ _

theorem wo1 : W5 m ρ c (Proc.devRef .tc main_v77) = Cert.Canon.slabT (extractStridedSlice S1x256x256 ![1, 0, 0] (m ((c : Thread nD τ).loc main_arg13)) slices_S2x256x256_S1x256x256_1_0_0) := by
  dsimp only [Gen.W5, Gen.hostOps2]
  after_results_simp
  rw [W4_main_arg13 m ρ c]
  exact Cert.Canon.slabT_read _ _ _

theorem bo1 : W5 m ρ c (Proc.devRef .tc main_v86) = (extractStridedSlice S1x256 ![1, 0] (m ((c : Thread nD τ).loc main_arg14)) slices_S2x256_S1x256_1_0) := by
  dsimp only [Gen.W5, Gen.hostOps2]
  after_results_simp
  rw [W4_main_arg14 m ρ c]
  exact Cert.Canon.row_round _ _ _

theorem wo2 : W5 m ρ c (Proc.devRef .tc main_v82) = Cert.Canon.slabT (extractStridedSlice S1x256x256 ![1, 0, 0] (m ((c : Thread nD τ).loc main_arg15)) slices_S2x256x256_S1x256x256_1_0_0) := by
  dsimp only [Gen.W5, Gen.hostOps2]
  after_results_simp
  rw [W4_main_arg15 m ρ c]
  exact Cert.Canon.slabT_read _ _ _

theorem bo2 : W5 m ρ c (Proc.devRef .tc main_v87) = (extractStridedSlice S1x256 ![1, 0] (m ((c : Thread nD τ).loc main_arg16)) slices_S2x256_S1x256_1_0) := by
  dsimp only [Gen.W5, Gen.hostOps2]
  after_results_simp
  rw [W4_main_arg16 m ρ c]
  exact Cert.Canon.row_round _ _ _

end Cert.KernelIdeal.KHost2

end
-- ==== Proof.KHost3.lean ====
/-
  The arrays the idealized kernel's region 3 reads, as functions of the program's arguments and of the previous
  region's result: the neighbour means in their plain form, and the layer's weights as the named entries of slab 2.
-/
import proofs.«167175_j43568148251366_1_alg».proof.Proof.Gen.KernelIdeal.Frame
import proofs.«167175_j43568148251366_1_alg».proof.Proof.KCarry
import proofs.«167175_j43568148251366_1_alg».proof.Proof.RefTerm
import proofs.«167175_j43568148251366_1_alg».proof.Proof.Canon
import Idealize.ShloMosaic.Lib.StableHlo.Run
import Idealize.ShloMosaic.PureOps.Ideal
import Idealize.ShloMosaic.Lib.ValueIdx
import Idealize.ShloMosaic.Lib.ValueLayout
import Idealize.ShloMosaic.Lib.Pipeline.Value
import proofs.«167175_j43568148251366_1_alg».proof.Proof.MeanForm
import proofs.«167175_j43568148251366_1_alg».proof.Proof.CanonRead
import proofs.«167175_j43568148251366_1_alg».proof.Proof.KHost1

set_option maxRecDepth 16384

noncomputable section

namespace Cert.KernelIdeal.KHost3

open Idealize.ShloMosaic Idealize.ShloMosaic.TcCoe Idealize.ShloMosaic.Tactic Idealize.ShloMosaic.ValueIdx
open Idealize.SL Idealize.SL.Sem
open Cert.KernelIdeal Cert.KernelIdeal.Gen

variable (m : (ℓ : Loc nD τ sig) → Buf (Elt Ideal) ℓ) (ρ : Dev nD → PrngReg) (c : Dev nD)

open Cert.KernelIdeal.KCarry
variable [Cert.ReferenceIdeal.Facts]

/-- The neighbour means the region reads: the plain mean of the previous stage's rows. -/
theorem ha : W7 m ρ c (Proc.devRef .tc main_v100)
    = Cert.ReferenceIdeal.MeanForm.mean (F := Ideal) (W6 m ρ c (Proc.devRef .tc main_v88)) (m ((c : Thread nD τ).loc main_arg2)) (m ((c : Thread nD τ).loc main_arg3)) := by
  dsimp only [Gen.W7, Gen.hostOps3]
  after_results_simp
  rw [W6_main_v20 m ρ c, KHost1.den m ρ c, W6_main_arg2 m ρ c, W6_main_arg3 m ρ c]
  rfl

theorem wc1 : W7 m ρ c (Proc.devRef .tc main_v104) = Cert.Canon.halfL (extractStridedSlice S1x256x512 ![2, 0, 0] (m ((c : Thread nD τ).loc main_arg11)) slices_S3x256x512_S1x256x512_2_0_0) := by
  dsimp only [Gen.W7, Gen.hostOps3]
  after_results_simp
  rw [W6_main_arg11 m ρ c]
  exact Cert.Canon.halfL_read _ _ _ _

theorem wc2 : W7 m ρ c (Proc.devRef .tc main_v106) = Cert.Canon.halfR (extractStridedSlice S1x256x512 ![2, 0, 0] (m ((c : Thread nD τ).loc main_arg11)) slices_S3x256x512_S1x256x512_2_0_0) := by
  dsimp only [Gen.W7, Gen.hostOps3]
  after_results_simp
  rw [W6_main_arg11 m ρ c]
  exact Cert.Canon.halfR_read _ _ _ _

theorem bc : W7 m ρ c (Proc.devRef .tc main_v109) = (extractStridedSlice S1x256 ![2, 0] (m ((c : Thread nD τ).loc main_arg12)) slices_S3x256_S1x256_2_0) := by
  dsimp only [Gen.W7, Gen.hostOps3]
  after_results_simp
  rw [W6_main_arg12 m ρ c]
  exact Cert.Canon.row_round _ _ _

end Cert.KernelIdeal.KHost3

end
-- ==== Proof.KChain.lean ====
/-
  The idealized kernel's four regions chained: each region's result array as the specification's layer of the program's
  arguments and of the previous region's result.

  Region 0 leaves every node's first representation; each of the two inner regions leaves the inner layer of the
  previous result and of the mean of its neighbours' rows, with the weights of its own slab; the last region leaves
  the last layer likewise. Each step puts together three facts: a region's result array is what its write-backs
  leave; that is the specification's layer of the arrays the region finds; and those arrays are the previous result
  (untouched by the host operations between the regions), its neighbour mean, and the named entries of the weight
  slabs.
-/
import proofs.«167175_j43568148251366_1_alg».proof.Proof.EncValue
import proofs.«167175_j43568148251366_1_alg».proof.Proof.LayerValue1
import proofs.«167175_j43568148251366_1_alg».proof.Proof.LayerValue2
import proofs.«167175_j43568148251366_1_alg».proof.Proof.LayerValue3
import proofs.«167175_j43568148251366_1_alg».proof.Proof.KCarry
import proofs.«167175_j43568148251366_1_alg».proof.Proof.KHost0
import proofs.«167175_j43568148251366_1_alg».proof.Proof.KHost1
import proofs.«167175_j43568148251366_1_alg».proof.Proof.KHost2
import proofs.«167175_j43568148251366_1_alg».proof.Proof.KHost3

set_option maxRecDepth 16384

noncomputable section

namespace Cert.KernelIdeal.KChain

open Idealize.ShloMosaic Idealize.ShloMosaic.TcCoe Idealize.ShloMosaic.ValueIdx
open Idealize.SL Idealize.SL.Sem
open Cert.KernelIdeal Cert.KernelIdeal.Gen
open Cert.Spec (Mat)

/-! ## Equal arrays give equal entries -/

theorem enc_congr {n : ℕ} {E E' : Mat n 64} {X X' : Mat n 300} {We We' : Mat 64 256} {be be' : Mat 1 256}
    {W1 W1' : Mat 300 300} {b1 b1' : Mat 1 300} {W2 W2' : Mat 300 256} {b2 b2' : Mat 1 256}
    (h1 : E = E') (h2 : X = X') (h3 : We = We') (h4 : be = be') (h5 : W1 = W1') (h6 : b1 = b1') (h7 : W2 = W2')
    (h8 : b2 = b2') (p : Fin n) (q : Fin 256) :
    Cert.Spec.enc E X We be W1 b1 W2 b2 p q = Cert.Spec.enc E' X' We' be' W1' b1' W2' b2' p q := by
  subst h1 h2 h3 h4 h5 h6 h7 h8; rfl

theorem layerA_congr {n : ℕ} {H H' HA HA' : Mat n 256} {W1 W1' W2 W2' : Mat 256 256} {bc bc' : Mat 1 256}
    {Wo1 Wo1' : Mat 256 256} {bo1 bo1' : Mat 1 256} {Wo2 Wo2' : Mat 256 256} {bo2 bo2' : Mat 1 256}
    (h1 : H = H') (h2 : HA = HA') (h3 : W1 = W1') (h4 : W2 = W2') (h5 : bc = bc') (h6 : Wo1 = Wo1') (h7 : bo1 = bo1')
    (h8 : Wo2 = Wo2') (h9 : bo2 = bo2') (p : Fin n) (q : Fin 256) :
    Cert.Spec.layerA H HA W1 W2 bc Wo1 bo1 Wo2 bo2 p q = Cert.Spec.layerA H' HA' W1' W2' bc' Wo1' bo1' Wo2' bo2' p q := by
  subst h1 h2 h3 h4 h5 h6 h7 h8 h9; rfl

theorem layerB_congr {n : ℕ} {H H' HA HA' : Mat n 256} {W1 W1' W2 W2' : Mat 256 256} {bc bc' : Mat 1 256}
    (h1 : H = H') (h2 : HA = HA') (h3 : W1 = W1') (h4 : W2 = W2') (h5 : bc = bc') (p : Fin n) (q : Fin 256) :
    Cert.Spec.layerB H HA W1 W2 bc p q = Cert.Spec.layerB H' HA' W1' W2' bc' p q := by
  subst h1 h2 h3 h4 h5; rfl

/-! ## The four results -/

variable (m : (ℓ : Loc nD τ sig) → Buf (Elt Ideal) ℓ) (ρ : Dev nD → PrngReg) (c : Dev nD) [Cert.ReferenceIdeal.Facts]

/-- Region 0's result array, as the run leaves it. -/
abbrev K0 : S50000x256.Idx → EReal := W2 m ρ c (Proc.devRef .tc main_v13)
/-- Region 1's result array. -/
abbrev K1 : S50000x256.Idx → EReal := W4 m ρ c (Proc.devRef .tc main_v54)
/-- Region 2's result array. -/
abbrev K2 : S50000x256.Idx → EReal := W6 m ρ c (Proc.devRef .tc main_v88)
/-- Region 3's result array: the program's result. -/
abbrev KR : S50000x256.Idx → EReal := W8 m ρ c (Proc.devRef .tc main_v110)

/-- Region 0 leaves every node's first representation. -/
theorem K0_apply (p : Fin 50000) (q : Fin 256) :
    K0 m ρ c (ix2 p q)
      = Cert.Spec.enc (Cert.ReferenceIdeal.RefTerm.embRows (F := Ideal) (m ((c : Thread nD τ).loc main_arg0)) (m ((c : Thread nD τ).loc main_arg4))) (m ((c : Thread nD τ).loc main_arg1))
          (transpose S64x256 [1, 0] (m ((c : Thread nD τ).loc main_arg5)) transposes_S256x64_S64x256_1_0) (Cert.Canon.rowOf (m ((c : Thread nD τ).loc main_arg6)))
          (transpose S300x300 [1, 0] (m ((c : Thread nD τ).loc main_arg7)) transposes_S300x300_S300x300_1_0) (Cert.Canon.rowOf (m ((c : Thread nD τ).loc main_arg8)))
          (transpose S300x256 [1, 0] (m ((c : Thread nD τ).loc main_arg9)) transposes_S256x300_S300x256_1_0) (Cert.Canon.rowOf (m ((c : Thread nD τ).loc main_arg10))) p q :=
  (congrFun (W2_arr m ρ c 8) (ix2 p q)).trans <|
    (EncValue.final (V1 m ρ) c p q).trans <|
      enc_congr (KHost0.v6 m ρ c) (KCarry.W1_main_arg1 m ρ c) (KHost0.v7 m ρ c)
        ((KHost0.v10 m ρ c).trans (KHost0.rowCast256 _)) (KHost0.v8 m ρ c)
        ((KHost0.v11 m ρ c).trans (KHost0.rowCast300 _)) (KHost0.v9 m ρ c)
        ((KHost0.v12 m ρ c).trans (KHost0.rowCast256 _)) p q

/-- Region 1 leaves the inner layer of region 0's result, with the weights of slab 0. -/
theorem K1_apply (p : Fin 50000) (q : Fin 256) :
    K1 m ρ c (ix2 p q)
      = Cert.Spec.layerA (K0 m ρ c) (Cert.ReferenceIdeal.MeanForm.mean (F := Ideal) (K0 m ρ c) (m ((c : Thread nD τ).loc main_arg2)) (m ((c : Thread nD τ).loc main_arg3)))
        (Cert.Canon.halfL (extractStridedSlice S1x256x512 ![0, 0, 0] (m ((c : Thread nD τ).loc main_arg11)) slices_S3x256x512_S1x256x512_0_0_0))
        (Cert.Canon.halfR (extractStridedSlice S1x256x512 ![0, 0, 0] (m ((c : Thread nD τ).loc main_arg11)) slices_S3x256x512_S1x256x512_0_0_0))
        (extractStridedSlice S1x256 ![0, 0] (m ((c : Thread nD τ).loc main_arg12)) slices_S3x256_S1x256_0_0)
        (Cert.Canon.slabT (extractStridedSlice S1x256x256 ![0, 0, 0] (m ((c : Thread nD τ).loc main_arg13)) slices_S2x256x256_S1x256x256_0_0_0))
        (extractStridedSlice S1x256 ![0, 0] (m ((c : Thread nD τ).loc main_arg14)) slices_S2x256_S1x256_0_0)
        (Cert.Canon.slabT (extractStridedSlice S1x256x256 ![0, 0, 0] (m ((c : Thread nD τ).loc main_arg15)) slices_S2x256x256_S1x256x256_0_0_0))
        (extractStridedSlice S1x256 ![0, 0] (m ((c : Thread nD τ).loc main_arg16)) slices_S2x256_S1x256_0_0) p q :=
  (congrFun (W4_arr m ρ c 9) (ix2 p q)).trans <|
    (LayerValue1.final (V3 m ρ) c p q).trans <|
      layerA_congr (KCarry.W3_main_v13 m ρ c) (KHost1.ha m ρ c) (KHost1.wc1 m ρ c) (KHost1.wc2 m ρ c) (KHost1.bc m ρ c)
        (KHost1.wo1 m ρ c) (KHost1.bo1 m ρ c) (KHost1.wo2 m ρ c) (KHost1.bo2 m ρ c) p q

/-- Region 2 leaves the inner layer of region 1's result, with the weights of slab 1. -/
theorem K2_apply (p : Fin 50000) (q : Fin 256) :
    K2 m ρ c (ix2 p q)
      = Cert.Spec.layerA (K1 m ρ c) (Cert.ReferenceIdeal.MeanForm.mean (F := Ideal) (K1 m ρ c) (m ((c : Thread nD τ).loc main_arg2)) (m ((c : Thread nD τ).loc main_arg3)))
        (Cert.Canon.halfL (extractStridedSlice S1x256x512 ![1, 0, 0] (m ((c : Thread nD τ).loc main_arg11)) slices_S3x256x512_S1x256x512_1_0_0))
        (Cert.Canon.halfR (extractStridedSlice S1x256x512 ![1, 0, 0] (m ((c : Thread nD τ).loc main_arg11)) slices_S3x256x512_S1x256x512_1_0_0))
        (extractStridedSlice S1x256 ![1, 0] (m ((c : Thread nD τ).loc main_arg12)) slices_S3x256_S1x256_1_0)
        (Cert.Canon.slabT (extractStridedSlice S1x256x256 ![1, 0, 0] (m ((c : Thread nD τ).loc main_arg13)) slices_S2x256x256_S1x256x256_1_0_0))
        (extractStridedSlice S1x256 ![1, 0] (m ((c : Thread nD τ).loc main_arg14)) slices_S2x256_S1x256_1_0)
        (Cert.Canon.slabT (extractStridedSlice S1x256x256 ![1, 0, 0] (m ((c : Thread nD τ).loc main_arg15)) slices_S2x256x256_S1x256x256_1_0_0))
        (extractStridedSlice S1x256 ![1, 0] (m ((c : Thread nD τ).loc main_arg16)) slices_S2x256_S1x256_1_0) p q :=
  (congrFun (W6_arr m ρ c 9) (ix2 p q)).trans <|
    (LayerValue2.final (V5 m ρ) c p q).trans <|
      layerA_congr (KCarry.W5_main_v54 m ρ c) (KHost2.ha m ρ c) (KHost2.wc1 m ρ c) (KHost2.wc2 m ρ c) (KHost2.bc m ρ c)
        (KHost2.wo1 m ρ c) (KHost2.bo1 m ρ c) (KHost2.wo2 m ρ c) (KHost2.bo2 m ρ c) p q

/-- Region 3 leaves the last layer of region 2's result, with the weights of slab 2. -/
theorem KR_apply (p : Fin 50000) (q : Fin 256) :
    KR m ρ c (ix2 p q)
      = Cert.Spec.layerB (K2 m ρ c) (Cert.ReferenceIdeal.MeanForm.mean (F := Ideal) (K2 m ρ c) (m ((c : Thread nD τ).loc main_arg2)) (m ((c : Thread nD τ).loc main_arg3)))
        (Cert.Canon.halfL (extractStridedSlice S1x256x512 ![2, 0, 0] (m ((c : Thread nD τ).loc main_arg11)) slices_S3x256x512_S1x256x512_2_0_0))
        (Cert.Canon.halfR (extractStridedSlice S1x256x512 ![2, 0, 0] (m ((c : Thread nD τ).loc main_arg11)) slices_S3x256x512_S1x256x512_2_0_0))
        (extractStridedSlice S1x256 ![2, 0] (m ((c : Thread nD τ).loc main_arg12)) slices_S3x256_S1x256_2_0) p q :=
  (congrFun (W8_arr m ρ c 5) (ix2 p q)).trans <|
    (LayerValue3.final (V7 m ρ) c p q).trans <|
      layerB_congr (KCarry.W7_main_v88 m ρ c) (KHost3.ha m ρ c) (KHost3.wc1 m ρ c) (KHost3.wc2 m ρ c) (KHost3.bc m ρ c) p q

end Cert.KernelIdeal.KChain

end
-- ==== Proof.RefRun0.lean ====
/-
  The reference's host program as lists of its operations.

  The printed program is 256 operations in a straight line once the functions it calls are unfolded at their calls (a
  call of the leaky rectifier is seven operations over the call's own buffers, a call of the row norm five). They are
  listed here in the printed order, cut where the data flow has its stages — and once more where a printed window of the
  program ends inside a stage —, together with the buffers each list writes.
-/
import proofs.«167175_j43568148251366_1_alg».proof.ReferenceIdeal
import Idealize.ShloMosaic.Lib.StableHlo.Run

noncomputable section

namespace Cert.ReferenceIdeal.RefRun

open Cert.ReferenceIdeal Idealize.ShloMosaic Idealize.ShloMosaic.StableHlo Idealize.SL.Sem
open Cert.ReferenceIdeal.Facts₀ Cert.ReferenceIdeal.Facts

variable {F : FTy → Type} [FloatOps F] [Facts]

/-- The embedding rows gathered by node id: `%c` … `%6`. -/
abbrev opsEmb : List (HloOp τ sig (Elt F)) :=
  [ StableHlo.nullary main_c (constantI S_ 32 0#32),
    StableHlo.unary main_c main_v0 (broadcastInDim S50000 ![] bcast_S_S50000 : (⟨S_, .i32⟩ : BufTy).Contents (Elt F) → (⟨S50000, .i32⟩ : BufTy).Contents (Elt F)),
    StableHlo.binary main_arg0 main_v0 main_v1 (cmpi .slt : (⟨S50000, .i32⟩ : BufTy).Contents (Elt F) → (⟨S50000, .i32⟩ : BufTy).Contents (Elt F) → (⟨S50000, .i1⟩ : BufTy).Contents (Elt F)),
    StableHlo.nullary main_c_0 (constantI S_ 32 50001#32),
    StableHlo.unary main_c_0 main_v2 (broadcastInDim S50000 ![] bcast_S_S50000 : (⟨S_, .i32⟩ : BufTy).Contents (Elt F) → (⟨S50000, .i32⟩ : BufTy).Contents (Elt F)),
    StableHlo.binary main_arg0 main_v2 main_v3 (addi : (⟨S50000, .i32⟩ : BufTy).Contents (Elt F) → (⟨S50000, .i32⟩ : BufTy).Contents (Elt F) → (⟨S50000, .i32⟩ : BufTy).Contents (Elt F)),
    StableHlo.ternary main_v1 main_v3 main_arg0 main_v4 (select : (⟨S50000, .i1⟩ : BufTy).Contents (Elt F) → (⟨S50000, .i32⟩ : BufTy).Contents (Elt F) → (⟨S50000, .i32⟩ : BufTy).Contents (Elt F) → (⟨S50000, .i32⟩ : BufTy).Contents (Elt F)),
    StableHlo.unary main_v4 main_v5 (broadcastInDim S50000x1 ![0] bcast_S50000_S50000x1_0 : (⟨S50000, .i32⟩ : BufTy).Contents (Elt F) → (⟨S50000x1, .i32⟩ : BufTy).Contents (Elt F)),
    StableHlo.binary main_arg4 main_v5 main_v6 ((fun x i => Host.gather gather_S50001x64_S50000x1_S50000x64_1_0_n_n_0_1_164 x i) : (⟨S50001x64, .f32⟩ : BufTy).Contents (Elt F) → (⟨S50000x1, .i32⟩ : BufTy).Contents (Elt F) → (⟨S50000x64, .f32⟩ : BufTy).Contents (Elt F)) ]

/-- The buffers those operations write. -/
abbrev opsEmb_W : List (Ref sig .tc) :=
  [main_c, main_v0, main_v1, main_c_0, main_v2, main_v3, main_v4, main_v5, main_v6]

/-- The first node representation: `%7` … `%25`, the three calls of the leaky rectifier unfolded. -/
abbrev opsEnc : List (HloOp τ sig (Elt F)) :=
  [ StableHlo.unary main_arg5 main_v7 ((transpose S64x256 [1, 0] · transposes_S256x64_S64x256_1_0) : (⟨S256x64, .f32⟩ : BufTy).Contents (Elt F) → (⟨S64x256, .f32⟩ : BufTy).Contents (Elt F)),
    StableHlo.binary main_v6 main_v7 main_v8 ((fun l r => Host.dotGeneral dot_S50000x64_S64x256_S50000x256_1_0_0_1_n_n none l r) : (⟨S50000x64, .f32⟩ : BufTy).Contents (Elt F) → (⟨S64x256, .f32⟩ : BufTy).Contents (Elt F) → (⟨S50000x256, .f32⟩ : BufTy).Contents (Elt F)),
    StableHlo.unary main_arg6 main_v9 (broadcastInDim S1x256 ![1] bcast_S256_S1x256_1 : (⟨S256, .f32⟩ : BufTy).Contents (Elt F) → (⟨S1x256, .f32⟩ : BufTy).Contents (Elt F)),
    StableHlo.unary main_v9 main_v10 (broadcastInDim S50000x256 ![0, 1] bcast_S1x256_S50000x256_0_1 : (⟨S1x256, .f32⟩ : BufTy).Contents (Elt F) → (⟨S50000x256, .f32⟩ : BufTy).Contents (Elt F)),
    StableHlo.binary main_v8 main_v10 main_v11 (addf : (⟨S50000x256, .f32⟩ : BufTy).Contents (Elt F) → (⟨S50000x256, .f32⟩ : BufTy).Contents (Elt F) → (⟨S50000x256, .f32⟩ : BufTy).Contents (Elt F)),
    StableHlo.nullary main_cst (constant S_ .f32 0x3DCCCCCD#32),
    TRef.nullary main_call0.cst (constant S_ .f32 0x00000000#32),
    TRef.unary main_call0.cst main_call0.v0 (broadcastInDim S50000x256 ![] bcast_S_S50000x256),
    TRef.binary (.of main_v11 : TRef sig ⟨S50000x256, .f32⟩) main_call0.v0 main_call0.v1 (cmpf .oge),
    TRef.unary (.of main_cst : TRef sig ⟨S_, .f32⟩) main_call0.v2 id,
    TRef.unary main_call0.v2 main_call0.v3 (broadcastInDim S50000x256 ![] bcast_S_S50000x256),
    TRef.binary main_call0.v3 (.of main_v11 : TRef sig ⟨S50000x256, .f32⟩) main_call0.v4 mulf,
    TRef.ternary main_call0.v1 (.of main_v11 : TRef sig ⟨S50000x256, .f32⟩) main_call0.v4 main_call0.call0.v0 select,
    StableHlo.unary main_arg7 main_v13 ((transpose S300x300 [1, 0] · transposes_S300x300_S300x300_1_0) : (⟨S300x300, .f32⟩ : BufTy).Contents (Elt F) → (⟨S300x300, .f32⟩ : BufTy).Contents (Elt F)),
    StableHlo.binary main_arg1 main_v13 main_v14 ((fun l r => Host.dotGeneral dot_S50000x300_S300x300_S50000x300_1_0_0_1_n_n none l r) : (⟨S50000x300, .f32⟩ : BufTy).Contents (Elt F) → (⟨S300x300, .f32⟩ : BufTy).Contents (Elt F) → (⟨S50000x300, .f32⟩ : BufTy).Contents (Elt F)),
    StableHlo.unary main_arg8 main_v15 (broadcastInDim S1x300 ![1] bcast_S300_S1x300_1 : (⟨S300, .f32⟩ : BufTy).Contents (Elt F) → (⟨S1x300, .f32⟩ : BufTy).Contents (Elt F)),
    StableHlo.unary main_v15 main_v16 (broadcastInDim S50000x300 ![0, 1] bcast_S1x300_S50000x300_0_1 : (⟨S1x300, .f32⟩ : BufTy).Contents (Elt F) → (⟨S50000x300, .f32⟩ : BufTy).Contents (Elt F)),
    StableHlo.binary main_v14 main_v16 main_v17 (addf : (⟨S50000x300, .f32⟩ : BufTy).Contents (Elt F) → (⟨S50000x300, .f32⟩ : BufTy).Contents (Elt F) → (⟨S50000x300, .f32⟩ : BufTy).Contents (Elt F)),
    StableHlo.nullary main_cst_1 (constant S_ .f32 0x3DCCCCCD#32),
    TRef.nullary main_call1.cst (constant S_ .f32 0x00000000#32),
    TRef.unary main_call1.cst main_call1.v0 (broadcastInDim S50000x300 ![] bcast_S_S50000x300),
    TRef.binary (.of main_v17 : TRef sig ⟨S50000x300, .f32⟩) main_call1.v0 main_call1.v1 (cmpf .oge),
    TRef.unary (.of main_cst_1 : TRef sig ⟨S_, .f32⟩) main_call1.v2 id,
    TRef.unary main_call1.v2 main_call1.v3 (broadcastInDim S50000x300 ![] bcast_S_S50000x300),
    TRef.binary main_call1.v3 (.of main_v17 : TRef sig ⟨S50000x300, .f32⟩) main_call1.v4 mulf,
    TRef.ternary main_call1.v1 (.of main_v17 : TRef sig ⟨S50000x300, .f32⟩) main_call1.v4 main_call1.call0.v0 select,
    StableHlo.unary main_arg9 main_v19 ((transpose S300x256 [1, 0] · transposes_S256x300_S300x256_1_0) : (⟨S256x300, .f32⟩ : BufTy).Contents (Elt F) → (⟨S300x256, .f32⟩ : BufTy).Contents (Elt F)),
    StableHlo.binary main_v18 main_v19 main_v20 ((fun l r => Host.dotGeneral dot_S50000x300_S300x256_S50000x256_1_0_0_1_n_n none l r) : (⟨S50000x300, .f32⟩ : BufTy).Contents (Elt F) → (⟨S300x256, .f32⟩ : BufTy).Contents (Elt F) → (⟨S50000x256, .f32⟩ : BufTy).Contents (Elt F)),
    StableHlo.unary main_arg10 main_v21 (broadcastInDim S1x256 ![1] bcast_S256_S1x256_1 : (⟨S256, .f32⟩ : BufTy).Contents (Elt F) → (⟨S1x256, .f32⟩ : BufTy).Contents (Elt F)),
    StableHlo.unary main_v21 main_v22 (broadcastInDim S50000x256 ![0, 1] bcast_S1x256_S50000x256_0_1 : (⟨S1x256, .f32⟩ : BufTy).Contents (Elt F) → (⟨S50000x256, .f32⟩ : BufTy).Contents (Elt F)),
    StableHlo.binary main_v20 main_v22 main_v23 (addf : (⟨S50000x256, .f32⟩ : BufTy).Contents (Elt F) → (⟨S50000x256, .f32⟩ : BufTy).Contents (Elt F) → (⟨S50000x256, .f32⟩ : BufTy).Contents (Elt F)),
    StableHlo.nullary main_cst_2 (constant S_ .f32 0x3DCCCCCD#32),
    TRef.nullary main_call2.cst (constant S_ .f32 0x00000000#32),
    TRef.unary main_call2.cst main_call2.v0 (broadcastInDim S50000x256 ![] bcast_S_S50000x256),
    TRef.binary (.of main_v23 : TRef sig ⟨S50000x256, .f32⟩) main_call2.v0 main_call2.v1 (cmpf .oge),
    TRef.unary (.of main_cst_2 : TRef sig ⟨S_, .f32⟩) main_call2.v2 id,
    TRef.unary main_call2.v2 main_call2.v3 (broadcastInDim S50000x256 ![] bcast_S_S50000x256),
    TRef.binary main_call2.v3 (.of main_v23 : TRef sig ⟨S50000x256, .f32⟩) main_call2.v4 mulf,
    TRef.ternary main_call2.v1 (.of main_v23 : TRef sig ⟨S50000x256, .f32⟩) main_call2.v4 main_call2.call0.v0 select,
    StableHlo.binary main_v12 main_v24 main_v25 (addf : (⟨S50000x256, .f32⟩ : BufTy).Contents (Elt F) → (⟨S50000x256, .f32⟩ : BufTy).Contents (Elt F) → (⟨S50000x256, .f32⟩ : BufTy).Contents (Elt F)) ]

/-- The buffers those operations write. -/
abbrev opsEnc_W : List (Ref sig .tc) :=
  [main_v7, main_v8, main_v9, main_v10, main_v11, main_cst, main_call0_cst, main_call0_v0, main_call0_v1, main_call0_v2, main_call0_v3, main_call0_v4, main_v12, main_v13, main_v14, main_v15, main_v16, main_v17, main_cst_1, main_call1_cst, main_call1_v0, main_call1_v1, main_call1_v2, main_call1_v3, main_call1_v4, main_v18, main_v19, main_v20, main_v21, main_v22, main_v23, main_cst_2, main_call2_cst, main_call2_v0, main_call2_v1, main_call2_v2, main_call2_v3, main_call2_v4, main_v24, main_v25]

/-- One plus the in-degree, as a column: `%cst_3` … `%32`. -/
abbrev opsDeg : List (HloOp τ sig (Elt F)) :=
  [ StableHlo.nullary main_cst_3 (constant S_ .f32 0x3F800000#32),
    StableHlo.unary main_cst_3 main_v26 (broadcastInDim S1000000 ![] bcast_S_S1000000 : (⟨S_, .f32⟩ : BufTy).Contents (Elt F) → (⟨S1000000, .f32⟩ : BufTy).Contents (Elt F)),
    StableHlo.nullary main_cst_4 (constant S_ .f32 0x00000000#32),
    StableHlo.unary main_cst_4 main_v27 (broadcastInDim S50000 ![] bcast_S_S50000 : (⟨S_, .f32⟩ : BufTy).Contents (Elt F) → (⟨S50000, .f32⟩ : BufTy).Contents (Elt F)),
    StableHlo.unary main_arg3 main_v28 (broadcastInDim S1000000x1 ![0] bcast_S1000000_S1000000x1_0 : (⟨S1000000, .i32⟩ : BufTy).Contents (Elt F) → (⟨S1000000x1, .i32⟩ : BufTy).Contents (Elt F)),
    StableHlo.ternary main_v27 main_v28 main_v26 main_v29 ((fun x i u => Host.scatterAdd scatter_S50000_S1000000x1_S1000000_n_0_0_1 x i u) : (⟨S50000, .f32⟩ : BufTy).Contents (Elt F) → (⟨S1000000x1, .i32⟩ : BufTy).Contents (Elt F) → (⟨S1000000, .f32⟩ : BufTy).Contents (Elt F) → (⟨S50000, .f32⟩ : BufTy).Contents (Elt F)),
    StableHlo.nullary main_cst_5 (constant S_ .f32 0x3F800000#32),
    StableHlo.unary main_cst_5 main_v30 (broadcastInDim S50000 ![] bcast_S_S50000 : (⟨S_, .f32⟩ : BufTy).Contents (Elt F) → (⟨S50000, .f32⟩ : BufTy).Contents (Elt F)),
    StableHlo.binary main_v29 main_v30 main_v31 (addf : (⟨S50000, .f32⟩ : BufTy).Contents (Elt F) → (⟨S50000, .f32⟩ : BufTy).Contents (Elt F) → (⟨S50000, .f32⟩ : BufTy).Contents (Elt F)),
    StableHlo.unary main_v31 main_v32 (broadcastInDim S50000x1 ![0] bcast_S50000_S50000x1_0 : (⟨S50000, .f32⟩ : BufTy).Contents (Elt F) → (⟨S50000x1, .f32⟩ : BufTy).Contents (Elt F)) ]

/-- The buffers those operations write. -/
abbrev opsDeg_W : List (Ref sig .tc) :=
  [main_cst_3, main_v26, main_cst_4, main_v27, main_v28, main_v29, main_cst_5, main_v30, main_v31, main_v32]

/-- The first neighbour mean, up to the end of the program's first window: `%c_6` … `%cst_10`. -/
abbrev opsNbr0a : List (HloOp τ sig (Elt F)) :=
  [ StableHlo.nullary main_c_6 (constantI S_ 32 0#32),
    StableHlo.unary main_c_6 main_v33 (broadcastInDim S1000000 ![] bcast_S_S1000000 : (⟨S_, .i32⟩ : BufTy).Contents (Elt F) → (⟨S1000000, .i32⟩ : BufTy).Contents (Elt F)),
    StableHlo.binary main_arg2 main_v33 main_v34 (cmpi .slt : (⟨S1000000, .i32⟩ : BufTy).Contents (Elt F) → (⟨S1000000, .i32⟩ : BufTy).Contents (Elt F) → (⟨S1000000, .i1⟩ : BufTy).Contents (Elt F)),
    StableHlo.nullary main_c_7 (constantI S_ 32 50000#32),
    StableHlo.unary main_c_7 main_v35 (broadcastInDim S1000000 ![] bcast_S_S1000000 : (⟨S_, .i32⟩ : BufTy).Contents (Elt F) → (⟨S1000000, .i32⟩ : BufTy).Contents (Elt F)),
    StableHlo.binary main_arg2 main_v35 main_v36 (addi : (⟨S1000000, .i32⟩ : BufTy).Contents (Elt F) → (⟨S1000000, .i32⟩ : BufTy).Contents (Elt F) → (⟨S1000000, .i32⟩ : BufTy).Contents (Elt F)),
    StableHlo.ternary main_v34 main_v36 main_arg2 main_v37 (select : (⟨S1000000, .i1⟩ : BufTy).Contents (Elt F) → (⟨S1000000, .i32⟩ : BufTy).Contents (Elt F) → (⟨S1000000, .i32⟩ : BufTy).Contents (Elt F) → (⟨S1000000, .i32⟩ : BufTy).Contents (Elt F)),
    StableHlo.unary main_v37 main_v38 (broadcastInDim S1000000x1 ![0] bcast_S1000000_S1000000x1_0 : (⟨S1000000, .i32⟩ : BufTy).Contents (Elt F) → (⟨S1000000x1, .i32⟩ : BufTy).Contents (Elt F)),
    StableHlo.binary main_v25 main_v38 main_v39 ((fun x i => Host.gather gather_S50000x256_S1000000x1_S1000000x256_1_0_n_n_0_1_1256 x i) : (⟨S50000x256, .f32⟩ : BufTy).Contents (Elt F) → (⟨S1000000x1, .i32⟩ : BufTy).Contents (Elt F) → (⟨S1000000x256, .f32⟩ : BufTy).Contents (Elt F)),
    StableHlo.nullary main_cst_8 (constant S_ .f32 0x00000000#32),
    StableHlo.unary main_cst_8 main_v40 (broadcastInDim S50000x256 ![] bcast_S_S50000x256 : (⟨S_, .f32⟩ : BufTy).Contents (Elt F) → (⟨S50000x256, .f32⟩ : BufTy).Contents (Elt F)),
    StableHlo.unary main_arg3 main_v41 (broadcastInDim S1000000x1 ![0] bcast_S1000000_S1000000x1_0 : (⟨S1000000, .i32⟩ : BufTy).Contents (Elt F) → (⟨S1000000x1, .i32⟩ : BufTy).Contents (Elt F)),
    StableHlo.ternary main_v40 main_v41 main_v39 main_v42 ((fun x i u => Host.scatterAdd scatter_S50000x256_S1000000x1_S1000000x256_1_0_0_1 x i u) : (⟨S50000x256, .f32⟩ : BufTy).Contents (Elt F) → (⟨S1000000x1, .i32⟩ : BufTy).Contents (Elt F) → (⟨S1000000x256, .f32⟩ : BufTy).Contents (Elt F) → (⟨S50000x256, .f32⟩ : BufTy).Contents (Elt F)),
    StableHlo.binary main_v42 main_v25 main_v43 (addf : (⟨S50000x256, .f32⟩ : BufTy).Contents (Elt F) → (⟨S50000x256, .f32⟩ : BufTy).Contents (Elt F) → (⟨S50000x256, .f32⟩ : BufTy).Contents (Elt F)),
    StableHlo.binary main_v43 main_v25 main_v44 (subf : (⟨S50000x256, .f32⟩ : BufTy).Contents (Elt F) → (⟨S50000x256, .f32⟩ : BufTy).Contents (Elt F) → (⟨S50000x256, .f32⟩ : BufTy).Contents (Elt F)),
    StableHlo.nullary main_cst_9 (constant S_ .f32 0x3F800000#32),
    StableHlo.unary main_cst_9 main_v45 (broadcastInDim S50000x1 ![] bcast_S_S50000x1 : (⟨S_, .f32⟩ : BufTy).Contents (Elt F) → (⟨S50000x1, .f32⟩ : BufTy).Contents (Elt F)),
    StableHlo.binary main_v32 main_v45 main_v46 (subf : (⟨S50000x1, .f32⟩ : BufTy).Contents (Elt F) → (⟨S50000x1, .f32⟩ : BufTy).Contents (Elt F) → (⟨S50000x1, .f32⟩ : BufTy).Contents (Elt F)),
    StableHlo.nullary main_cst_10 (constant S_ .f32 0x3F800000#32) ]

/-- The buffers those operations write. -/
abbrev opsNbr0a_W : List (Ref sig .tc) :=
  [main_c_6, main_v33, main_v34, main_c_7, main_v35, main_v36, main_v37, main_v38, main_v39, main_cst_8, main_v40, main_v41, main_v42, main_v43, main_v44, main_cst_9, main_v45, main_v46, main_cst_10]

/-- The first neighbour mean, the rest: `%47` … `%50`. -/
abbrev opsNbr0b : List (HloOp τ sig (Elt F)) :=
  [ StableHlo.unary main_cst_10 main_v47 (broadcastInDim S50000x1 ![] bcast_S_S50000x1 : (⟨S_, .f32⟩ : BufTy).Contents (Elt F) → (⟨S50000x1, .f32⟩ : BufTy).Contents (Elt F)),
    StableHlo.binary main_v46 main_v47 main_v48 (maximumf : (⟨S50000x1, .f32⟩ : BufTy).Contents (Elt F) → (⟨S50000x1, .f32⟩ : BufTy).Contents (Elt F) → (⟨S50000x1, .f32⟩ : BufTy).Contents (Elt F)),
    StableHlo.unary main_v48 main_v49 (broadcastInDim S50000x256 ![0, 1] bcast_S50000x1_S50000x256_0_1 : (⟨S50000x1, .f32⟩ : BufTy).Contents (Elt F) → (⟨S50000x256, .f32⟩ : BufTy).Contents (Elt F)),
    StableHlo.binary main_v44 main_v49 main_v50 (Host.divf : (⟨S50000x256, .f32⟩ : BufTy).Contents (Elt F) → (⟨S50000x256, .f32⟩ : BufTy).Contents (Elt F) → (⟨S50000x256, .f32⟩ : BufTy).Contents (Elt F)) ]

/-- The buffers those operations write. -/
abbrev opsNbr0b_W : List (Ref sig .tc) :=
  [main_v47, main_v48, main_v49, main_v50]

/-- The first inner layer: `%51` … `%85`, its calls of the leaky rectifier and of the row norm unfolded. -/
abbrev opsA0 : List (HloOp τ sig (Elt F)) :=
  [ StableHlo.binary main_v25 main_v50 main_v51 ((fun a b => concatenate S50000x512 1 [⟨S50000x256, a⟩, ⟨S50000x256, b⟩] concatenates_S50000x256_S50000x256_S50000x512_d1) : (⟨S50000x256, .f32⟩ : BufTy).Contents (Elt F) → (⟨S50000x256, .f32⟩ : BufTy).Contents (Elt F) → (⟨S50000x512, .f32⟩ : BufTy).Contents (Elt F)),
    StableHlo.unary main_arg11 main_v52 ((extractStridedSlice S1x256x512 ![0, 0, 0] · slices_S3x256x512_S1x256x512_0_0_0) : (⟨S3x256x512, .f32⟩ : BufTy).Contents (Elt F) → (⟨S1x256x512, .f32⟩ : BufTy).Contents (Elt F)),
    StableHlo.reshape main_v52 main_v53 rfl shapeCasts_S1x256x512_S256x512,
    StableHlo.unary main_v53 main_v54 ((transpose S512x256 [1, 0] · transposes_S256x512_S512x256_1_0) : (⟨S256x512, .f32⟩ : BufTy).Contents (Elt F) → (⟨S512x256, .f32⟩ : BufTy).Contents (Elt F)),
    StableHlo.binary main_v51 main_v54 main_v55 ((fun l r => Host.dotGeneral dot_S50000x512_S512x256_S50000x256_1_0_0_1_n_n none l r) : (⟨S50000x512, .f32⟩ : BufTy).Contents (Elt F) → (⟨S512x256, .f32⟩ : BufTy).Contents (Elt F) → (⟨S50000x256, .f32⟩ : BufTy).Contents (Elt F)),
    StableHlo.unary main_arg12 main_v56 ((extractStridedSlice S1x256 ![0, 0] · slices_S3x256_S1x256_0_0) : (⟨S3x256, .f32⟩ : BufTy).Contents (Elt F) → (⟨S1x256, .f32⟩ : BufTy).Contents (Elt F)),
    StableHlo.reshape main_v56 main_v57 rfl shapeCasts_S1x256_S256,
    StableHlo.unary main_v57 main_v58 (broadcastInDim S1x256 ![1] bcast_S256_S1x256_1 : (⟨S256, .f32⟩ : BufTy).Contents (Elt F) → (⟨S1x256, .f32⟩ : BufTy).Contents (Elt F)),
    StableHlo.unary main_v58 main_v59 (broadcastInDim S50000x256 ![0, 1] bcast_S1x256_S50000x256_0_1 : (⟨S1x256, .f32⟩ : BufTy).Contents (Elt F) → (⟨S50000x256, .f32⟩ : BufTy).Contents (Elt F)),
    StableHlo.binary main_v55 main_v59 main_v60 (addf : (⟨S50000x256, .f32⟩ : BufTy).Contents (Elt F) → (⟨S50000x256, .f32⟩ : BufTy).Contents (Elt F) → (⟨S50000x256, .f32⟩ : BufTy).Contents (Elt F)),
    StableHlo.nullary main_cst_11 (constant S_ .f32 0x3DCCCCCD#32),
    TRef.nullary main_call3.cst (constant S_ .f32 0x00000000#32),
    TRef.unary main_call3.cst main_call3.v0 (broadcastInDim S50000x256 ![] bcast_S_S50000x256),
    TRef.binary (.of main_v60 : TRef sig ⟨S50000x256, .f32⟩) main_call3.v0 main_call3.v1 (cmpf .oge),
    TRef.unary (.of main_cst_11 : TRef sig ⟨S_, .f32⟩) main_call3.v2 id,
    TRef.unary main_call3.v2 main_call3.v3 (broadcastInDim S50000x256 ![] bcast_S_S50000x256),
    TRef.binary main_call3.v3 (.of main_v60 : TRef sig ⟨S50000x256, .f32⟩) main_call3.v4 mulf,
    TRef.ternary main_call3.v1 (.of main_v60 : TRef sig ⟨S50000x256, .f32⟩) main_call3.v4 main_call3.call0.v0 select,
    TRef.binary (.of main_v61 : TRef sig ⟨S50000x256, .f32⟩) (.of main_v61 : TRef sig ⟨S50000x256, .f32⟩) main_call4.v0 mulf,
    TRef.nullary main_call4.cst (constant S_ .f32 0x00000000#32),
    TRef.binary main_call4.v0 main_call4.cst main_call4.v1 (fun x v => Host.reduceAdd x v reducesTo_S50000x256_S50000_d1 h_S_),
    TRef.unary main_call4.v1 main_call4.v2 (broadcastInDim S50000x1 ![0] bcast_S50000_S50000x1_0),
    TRef.unary main_call4.v2 main_call4.v3 Host.sqrt,
    StableHlo.nullary main_cst_12 (constant S_ .f32 0x358637BD#32),
    StableHlo.unary main_cst_12 main_v63 (broadcastInDim S50000x1 ![] bcast_S_S50000x1 : (⟨S_, .f32⟩ : BufTy).Contents (Elt F) → (⟨S50000x1, .f32⟩ : BufTy).Contents (Elt F)),
    StableHlo.binary main_v62 main_v63 main_v64 (maximumf : (⟨S50000x1, .f32⟩ : BufTy).Contents (Elt F) → (⟨S50000x1, .f32⟩ : BufTy).Contents (Elt F) → (⟨S50000x1, .f32⟩ : BufTy).Contents (Elt F)),
    StableHlo.unary main_v64 main_v65 (broadcastInDim S50000x256 ![0, 1] bcast_S50000x1_S50000x256_0_1 : (⟨S50000x1, .f32⟩ : BufTy).Contents (Elt F) → (⟨S50000x256, .f32⟩ : BufTy).Contents (Elt F)),
    StableHlo.binary main_v61 main_v65 main_v66 (Host.divf : (⟨S50000x256, .f32⟩ : BufTy).Contents (Elt F) → (⟨S50000x256, .f32⟩ : BufTy).Contents (Elt F) → (⟨S50000x256, .f32⟩ : BufTy).Contents (Elt F)),
    StableHlo.unary main_arg13 main_v67 ((extractStridedSlice S1x256x256 ![0, 0, 0] · slices_S2x256x256_S1x256x256_0_0_0) : (⟨S2x256x256, .f32⟩ : BufTy).Contents (Elt F) → (⟨S1x256x256, .f32⟩ : BufTy).Contents (Elt F)),
    StableHlo.reshape main_v67 main_v68 rfl shapeCasts_S1x256x256_S256x256,
    StableHlo.unary main_v68 main_v69 ((transpose S256x256 [1, 0] · transposes_S256x256_S256x256_1_0) : (⟨S256x256, .f32⟩ : BufTy).Contents (Elt F) → (⟨S256x256, .f32⟩ : BufTy).Contents (Elt F)),
    StableHlo.binary main_v66 main_v69 main_v70 ((fun l r => Host.dotGeneral dot_S50000x256_S256x256_S50000x256_1_0_0_1_n_n none l r) : (⟨S50000x256, .f32⟩ : BufTy).Contents (Elt F) → (⟨S256x256, .f32⟩ : BufTy).Contents (Elt F) → (⟨S50000x256, .f32⟩ : BufTy).Contents (Elt F)),
    StableHlo.unary main_arg14 main_v71 ((extractStridedSlice S1x256 ![0, 0] · slices_S2x256_S1x256_0_0) : (⟨S2x256, .f32⟩ : BufTy).Contents (Elt F) → (⟨S1x256, .f32⟩ : BufTy).Contents (Elt F)),
    StableHlo.reshape main_v71 main_v72 rfl shapeCasts_S1x256_S256,
    StableHlo.unary main_v72 main_v73 (broadcastInDim S1x256 ![1] bcast_S256_S1x256_1 : (⟨S256, .f32⟩ : BufTy).Contents (Elt F) → (⟨S1x256, .f32⟩ : BufTy).Contents (Elt F)),
    StableHlo.unary main_v73 main_v74 (broadcastInDim S50000x256 ![0, 1] bcast_S1x256_S50000x256_0_1 : (⟨S1x256, .f32⟩ : BufTy).Contents (Elt F) → (⟨S50000x256, .f32⟩ : BufTy).Contents (Elt F)),
    StableHlo.binary main_v70 main_v74 main_v75 (addf : (⟨S50000x256, .f32⟩ : BufTy).Contents (Elt F) → (⟨S50000x256, .f32⟩ : BufTy).Contents (Elt F) → (⟨S50000x256, .f32⟩ : BufTy).Contents (Elt F)),
    StableHlo.nullary main_cst_13 (constant S_ .f32 0x3DCCCCCD#32),
    TRef.nullary main_call5.cst (constant S_ .f32 0x00000000#32),
    TRef.unary main_call5.cst main_call5.v0 (broadcastInDim S50000x256 ![] bcast_S_S50000x256),
    TRef.binary (.of main_v75 : TRef sig ⟨S50000x256, .f32⟩) main_call5.v0 main_call5.v1 (cmpf .oge),
    TRef.unary (.of main_cst_13 : TRef sig ⟨S_, .f32⟩) main_call5.v2 id,
    TRef.unary main_call5.v2 main_call5.v3 (broadcastInDim S50000x256 ![] bcast_S_S50000x256),
    TRef.binary main_call5.v3 (.of main_v75 : TRef sig ⟨S50000x256, .f32⟩) main_call5.v4 mulf,
    TRef.ternary main_call5.v1 (.of main_v75 : TRef sig ⟨S50000x256, .f32⟩) main_call5.v4 main_call5.call0.v0 select,
    StableHlo.unary main_arg15 main_v77 ((extractStridedSlice S1x256x256 ![0, 0, 0] · slices_S2x256x256_S1x256x256_0_0_0) : (⟨S2x256x256, .f32⟩ : BufTy).Contents (Elt F) → (⟨S1x256x256, .f32⟩ : BufTy).Contents (Elt F)),
    StableHlo.reshape main_v77 main_v78 rfl shapeCasts_S1x256x256_S256x256,
    StableHlo.unary main_v78 main_v79 ((transpose S256x256 [1, 0] · transposes_S256x256_S256x256_1_0) : (⟨S256x256, .f32⟩ : BufTy).Contents (Elt F) → (⟨S256x256, .f32⟩ : BufTy).Contents (Elt F)),
    StableHlo.binary main_v76 main_v79 main_v80 ((fun l r => Host.dotGeneral dot_S50000x256_S256x256_S50000x256_1_0_0_1_n_n none l r) : (⟨S50000x256, .f32⟩ : BufTy).Contents (Elt F) → (⟨S256x256, .f32⟩ : BufTy).Contents (Elt F) → (⟨S50000x256, .f32⟩ : BufTy).Contents (Elt F)),
    StableHlo.unary main_arg16 main_v81 ((extractStridedSlice S1x256 ![0, 0] · slices_S2x256_S1x256_0_0) : (⟨S2x256, .f32⟩ : BufTy).Contents (Elt F) → (⟨S1x256, .f32⟩ : BufTy).Contents (Elt F)),
    StableHlo.reshape main_v81 main_v82 rfl shapeCasts_S1x256_S256,
    StableHlo.unary main_v82 main_v83 (broadcastInDim S1x256 ![1] bcast_S256_S1x256_1 : (⟨S256, .f32⟩ : BufTy).Contents (Elt F) → (⟨S1x256, .f32⟩ : BufTy).Contents (Elt F)),
    StableHlo.unary main_v83 main_v84 (broadcastInDim S50000x256 ![0, 1] bcast_S1x256_S50000x256_0_1 : (⟨S1x256, .f32⟩ : BufTy).Contents (Elt F) → (⟨S50000x256, .f32⟩ : BufTy).Contents (Elt F)),
    StableHlo.binary main_v80 main_v84 main_v85 (addf : (⟨S50000x256, .f32⟩ : BufTy).Contents (Elt F) → (⟨S50000x256, .f32⟩ : BufTy).Contents (Elt F) → (⟨S50000x256, .f32⟩ : BufTy).Contents (Elt F)) ]

/-- The buffers those operations write. -/
abbrev opsA0_W : List (Ref sig .tc) :=
  [main_v51, main_v52, main_v53, main_v54, main_v55, main_v56, main_v57, main_v58, main_v59, main_v60, main_cst_11, main_call3_cst, main_call3_v0, main_call3_v1, main_call3_v2, main_call3_v3, main_call3_v4, main_v61, main_call4_v0, main_call4_cst, main_call4_v1, main_call4_v2, main_v62, main_cst_12, main_v63, main_v64, main_v65, main_v66, main_v67, main_v68, main_v69, main_v70, main_v71, main_v72, main_v73, main_v74, main_v75, main_cst_13, main_call5_cst, main_call5_v0, main_call5_v1, main_call5_v2, main_call5_v3, main_call5_v4, main_v76, main_v77, main_v78, main_v79, main_v80, main_v81, main_v82, main_v83, main_v84, main_v85]

/-- The second neighbour mean, up to the end of the second window: `%c_14` … `%99`. -/
abbrev opsNbr1a : List (HloOp τ sig (Elt F)) :=
  [ StableHlo.nullary main_c_14 (constantI S_ 32 0#32),
    StableHlo.unary main_c_14 main_v86 (broadcastInDim S1000000 ![] bcast_S_S1000000 : (⟨S_, .i32⟩ : BufTy).Contents (Elt F) → (⟨S1000000, .i32⟩ : BufTy).Contents (Elt F)),
    StableHlo.binary main_arg2 main_v86 main_v87 (cmpi .slt : (⟨S1000000, .i32⟩ : BufTy).Contents (Elt F) → (⟨S1000000, .i32⟩ : BufTy).Contents (Elt F) → (⟨S1000000, .i1⟩ : BufTy).Contents (Elt F)),
    StableHlo.nullary main_c_15 (constantI S_ 32 50000#32),
    StableHlo.unary main_c_15 main_v88 (broadcastInDim S1000000 ![] bcast_S_S1000000 : (⟨S_, .i32⟩ : BufTy).Contents (Elt F) → (⟨S1000000, .i32⟩ : BufTy).Contents (Elt F)),
    StableHlo.binary main_arg2 main_v88 main_v89 (addi : (⟨S1000000, .i32⟩ : BufTy).Contents (Elt F) → (⟨S1000000, .i32⟩ : BufTy).Contents (Elt F) → (⟨S1000000, .i32⟩ : BufTy).Contents (Elt F)),
    StableHlo.ternary main_v87 main_v89 main_arg2 main_v90 (select : (⟨S1000000, .i1⟩ : BufTy).Contents (Elt F) → (⟨S1000000, .i32⟩ : BufTy).Contents (Elt F) → (⟨S1000000, .i32⟩ : BufTy).Contents (Elt F) → (⟨S1000000, .i32⟩ : BufTy).Contents (Elt F)),
    StableHlo.unary main_v90 main_v91 (broadcastInDim S1000000x1 ![0] bcast_S1000000_S1000000x1_0 : (⟨S1000000, .i32⟩ : BufTy).Contents (Elt F) → (⟨S1000000x1, .i32⟩ : BufTy).Contents (Elt F)),
    StableHlo.binary main_v85 main_v91 main_v92 ((fun x i => Host.gather gather_S50000x256_S1000000x1_S1000000x256_1_0_n_n_0_1_1256 x i) : (⟨S50000x256, .f32⟩ : BufTy).Contents (Elt F) → (⟨S1000000x1, .i32⟩ : BufTy).Contents (Elt F) → (⟨S1000000x256, .f32⟩ : BufTy).Contents (Elt F)),
    StableHlo.nullary main_cst_16 (constant S_ .f32 0x00000000#32),
    StableHlo.unary main_cst_16 main_v93 (broadcastInDim S50000x256 ![] bcast_S_S50000x256 : (⟨S_, .f32⟩ : BufTy).Contents (Elt F) → (⟨S50000x256, .f32⟩ : BufTy).Contents (Elt F)),
    StableHlo.unary main_arg3 main_v94 (broadcastInDim S1000000x1 ![0] bcast_S1000000_S1000000x1_0 : (⟨S1000000, .i32⟩ : BufTy).Contents (Elt F) → (⟨S1000000x1, .i32⟩ : BufTy).Contents (Elt F)),
    StableHlo.ternary main_v93 main_v94 main_v92 main_v95 ((fun x i u => Host.scatterAdd scatter_S50000x256_S1000000x1_S1000000x256_1_0_0_1 x i u) : (⟨S50000x256, .f32⟩ : BufTy).Contents (Elt F) → (⟨S1000000x1, .i32⟩ : BufTy).Contents (Elt F) → (⟨S1000000x256, .f32⟩ : BufTy).Contents (Elt F) → (⟨S50000x256, .f32⟩ : BufTy).Contents (Elt F)),
    StableHlo.binary main_v95 main_v85 main_v96 (addf : (⟨S50000x256, .f32⟩ : BufTy).Contents (Elt F) → (⟨S50000x256, .f32⟩ : BufTy).Contents (Elt F) → (⟨S50000x256, .f32⟩ : BufTy).Contents (Elt F)),
    StableHlo.binary main_v96 main_v85 main_v97 (subf : (⟨S50000x256, .f32⟩ : BufTy).Contents (Elt F) → (⟨S50000x256, .f32⟩ : BufTy).Contents (Elt F) → (⟨S50000x256, .f32⟩ : BufTy).Contents (Elt F)),
    StableHlo.nullary main_cst_17 (constant S_ .f32 0x3F800000#32),
    StableHlo.unary main_cst_17 main_v98 (broadcastInDim S50000x1 ![] bcast_S_S50000x1 : (⟨S_, .f32⟩ : BufTy).Contents (Elt F) → (⟨S50000x1, .f32⟩ : BufTy).Contents (Elt F)),
    StableHlo.binary main_v32 main_v98 main_v99 (subf : (⟨S50000x1, .f32⟩ : BufTy).Contents (Elt F) → (⟨S50000x1, .f32⟩ : BufTy).Contents (Elt F) → (⟨S50000x1, .f32⟩ : BufTy).Contents (Elt F)) ]

/-- The buffers those operations write. -/
abbrev opsNbr1a_W : List (Ref sig .tc) :=
  [main_c_14, main_v86, main_v87, main_c_15, main_v88, main_v89, main_v90, main_v91, main_v92, main_cst_16, main_v93, main_v94, main_v95, main_v96, main_v97, main_cst_17, main_v98, main_v99]

/-- The second neighbour mean, the rest: `%cst_18` … `%103`. -/
abbrev opsNbr1b : List (HloOp τ sig (Elt F)) :=
  [ StableHlo.nullary main_cst_18 (constant S_ .f32 0x3F800000#32),
    StableHlo.unary main_cst_18 main_v100 (broadcastInDim S50000x1 ![] bcast_S_S50000x1 : (⟨S_, .f32⟩ : BufTy).Contents (Elt F) → (⟨S50000x1, .f32⟩ : BufTy).Contents (Elt F)),
    StableHlo.binary main_v99 main_v100 main_v101 (maximumf : (⟨S50000x1, .f32⟩ : BufTy).Contents (Elt F) → (⟨S50000x1, .f32⟩ : BufTy).Contents (Elt F) → (⟨S50000x1, .f32⟩ : BufTy).Contents (Elt F)),
    StableHlo.unary main_v101 main_v102 (broadcastInDim S50000x256 ![0, 1] bcast_S50000x1_S50000x256_0_1 : (⟨S50000x1, .f32⟩ : BufTy).Contents (Elt F) → (⟨S50000x256, .f32⟩ : BufTy).Contents (Elt F)),
    StableHlo.binary main_v97 main_v102 main_v103 (Host.divf : (⟨S50000x256, .f32⟩ : BufTy).Contents (Elt F) → (⟨S50000x256, .f32⟩ : BufTy).Contents (Elt F) → (⟨S50000x256, .f32⟩ : BufTy).Contents (Elt F)) ]

/-- The buffers those operations write. -/
abbrev opsNbr1b_W : List (Ref sig .tc) :=
  [main_cst_18, main_v100, main_v101, main_v102, main_v103]

/-- The second inner layer: `%104` … `%138`, its calls unfolded. -/
abbrev opsA1 : List (HloOp τ sig (Elt F)) :=
  [ StableHlo.binary main_v85 main_v103 main_v104 ((fun a b => concatenate S50000x512 1 [⟨S50000x256, a⟩, ⟨S50000x256, b⟩] concatenates_S50000x256_S50000x256_S50000x512_d1) : (⟨S50000x256, .f32⟩ : BufTy).Contents (Elt F) → (⟨S50000x256, .f32⟩ : BufTy).Contents (Elt F) → (⟨S50000x512, .f32⟩ : BufTy).Contents (Elt F)),
    StableHlo.unary main_arg11 main_v105 ((extractStridedSlice S1x256x512 ![1, 0, 0] · slices_S3x256x512_S1x256x512_1_0_0) : (⟨S3x256x512, .f32⟩ : BufTy).Contents (Elt F) → (⟨S1x256x512, .f32⟩ : BufTy).Contents (Elt F)),
    StableHlo.reshape main_v105 main_v106 rfl shapeCasts_S1x256x512_S256x512,
    StableHlo.unary main_v106 main_v107 ((transpose S512x256 [1, 0] · transposes_S256x512_S512x256_1_0) : (⟨S256x512, .f32⟩ : BufTy).Contents (Elt F) → (⟨S512x256, .f32⟩ : BufTy).Contents (Elt F)),
    StableHlo.binary main_v104 main_v107 main_v108 ((fun l r => Host.dotGeneral dot_S50000x512_S512x256_S50000x256_1_0_0_1_n_n none l r) : (⟨S50000x512, .f32⟩ : BufTy).Contents (Elt F) → (⟨S512x256, .f32⟩ : BufTy).Contents (Elt F) → (⟨S50000x256, .f32⟩ : BufTy).Contents (Elt F)),
    StableHlo.unary main_arg12 main_v109 ((extractStridedSlice S1x256 ![1, 0] · slices_S3x256_S1x256_1_0) : (⟨S3x256, .f32⟩ : BufTy).Contents (Elt F) → (⟨S1x256, .f32⟩ : BufTy).Contents (Elt F)),
    StableHlo.reshape main_v109 main_v110 rfl shapeCasts_S1x256_S256,
    StableHlo.unary main_v110 main_v111 (broadcastInDim S1x256 ![1] bcast_S256_S1x256_1 : (⟨S256, .f32⟩ : BufTy).Contents (Elt F) → (⟨S1x256, .f32⟩ : BufTy).Contents (Elt F)),
    StableHlo.unary main_v111 main_v112 (broadcastInDim S50000x256 ![0, 1] bcast_S1x256_S50000x256_0_1 : (⟨S1x256, .f32⟩ : BufTy).Contents (Elt F) → (⟨S50000x256, .f32⟩ : BufTy).Contents (Elt F)),
    StableHlo.binary main_v108 main_v112 main_v113 (addf : (⟨S50000x256, .f32⟩ : BufTy).Contents (Elt F) → (⟨S50000x256, .f32⟩ : BufTy).Contents (Elt F) → (⟨S50000x256, .f32⟩ : BufTy).Contents (Elt F)),
    StableHlo.nullary main_cst_19 (constant S_ .f32 0x3DCCCCCD#32),
    TRef.nullary main_call6.cst (constant S_ .f32 0x00000000#32),
    TRef.unary main_call6.cst main_call6.v0 (broadcastInDim S50000x256 ![] bcast_S_S50000x256),
    TRef.binary (.of main_v113 : TRef sig ⟨S50000x256, .f32⟩) main_call6.v0 main_call6.v1 (cmpf .oge),
    TRef.unary (.of main_cst_19 : TRef sig ⟨S_, .f32⟩) main_call6.v2 id,
    TRef.unary main_call6.v2 main_call6.v3 (broadcastInDim S50000x256 ![] bcast_S_S50000x256),
    TRef.binary main_call6.v3 (.of main_v113 : TRef sig ⟨S50000x256, .f32⟩) main_call6.v4 mulf,
    TRef.ternary main_call6.v1 (.of main_v113 : TRef sig ⟨S50000x256, .f32⟩) main_call6.v4 main_call6.call0.v0 select,
    TRef.binary (.of main_v114 : TRef sig ⟨S50000x256, .f32⟩) (.of main_v114 : TRef sig ⟨S50000x256, .f32⟩) main_call7.v0 mulf,
    TRef.nullary main_call7.cst (constant S_ .f32 0x00000000#32),
    TRef.binary main_call7.v0 main_call7.cst main_call7.v1 (fun x v => Host.reduceAdd x v reducesTo_S50000x256_S50000_d1 h_S_),
    TRef.unary main_call7.v1 main_call7.v2 (broadcastInDim S50000x1 ![0] bcast_S50000_S50000x1_0),
    TRef.unary main_call7.v2 main_call7.v3 Host.sqrt,
    StableHlo.nullary main_cst_20 (constant S_ .f32 0x358637BD#32),
    StableHlo.unary main_cst_20 main_v116 (broadcastInDim S50000x1 ![] bcast_S_S50000x1 : (⟨S_, .f32⟩ : BufTy).Contents (Elt F) → (⟨S50000x1, .f32⟩ : BufTy).Contents (Elt F)),
    StableHlo.binary main_v115 main_v116 main_v117 (maximumf : (⟨S50000x1, .f32⟩ : BufTy).Contents (Elt F) → (⟨S50000x1, .f32⟩ : BufTy).Contents (Elt F) → (⟨S50000x1, .f32⟩ : BufTy).Contents (Elt F)),
    StableHlo.unary main_v117 main_v118 (broadcastInDim S50000x256 ![0, 1] bcast_S50000x1_S50000x256_0_1 : (⟨S50000x1, .f32⟩ : BufTy).Contents (Elt F) → (⟨S50000x256, .f32⟩ : BufTy).Contents (Elt F)),
    StableHlo.binary main_v114 main_v118 main_v119 (Host.divf : (⟨S50000x256, .f32⟩ : BufTy).Contents (Elt F) → (⟨S50000x256, .f32⟩ : BufTy).Contents (Elt F) → (⟨S50000x256, .f32⟩ : BufTy).Contents (Elt F)),
    StableHlo.unary main_arg13 main_v120 ((extractStridedSlice S1x256x256 ![1, 0, 0] · slices_S2x256x256_S1x256x256_1_0_0) : (⟨S2x256x256, .f32⟩ : BufTy).Contents (Elt F) → (⟨S1x256x256, .f32⟩ : BufTy).Contents (Elt F)),
    StableHlo.reshape main_v120 main_v121 rfl shapeCasts_S1x256x256_S256x256,
    StableHlo.unary main_v121 main_v122 ((transpose S256x256 [1, 0] · transposes_S256x256_S256x256_1_0) : (⟨S256x256, .f32⟩ : BufTy).Contents (Elt F) → (⟨S256x256, .f32⟩ : BufTy).Contents (Elt F)),
    StableHlo.binary main_v119 main_v122 main_v123 ((fun l r => Host.dotGeneral dot_S50000x256_S256x256_S50000x256_1_0_0_1_n_n none l r) : (⟨S50000x256, .f32⟩ : BufTy).Contents (Elt F) → (⟨S256x256, .f32⟩ : BufTy).Contents (Elt F) → (⟨S50000x256, .f32⟩ : BufTy).Contents (Elt F)),
    StableHlo.unary main_arg14 main_v124 ((extractStridedSlice S1x256 ![1, 0] · slices_S2x256_S1x256_1_0) : (⟨S2x256, .f32⟩ : BufTy).Contents (Elt F) → (⟨S1x256, .f32⟩ : BufTy).Contents (Elt F)),
    StableHlo.reshape main_v124 main_v125 rfl shapeCasts_S1x256_S256,
    StableHlo.unary main_v125 main_v126 (broadcastInDim S1x256 ![1] bcast_S256_S1x256_1 : (⟨S256, .f32⟩ : BufTy).Contents (Elt F) → (⟨S1x256, .f32⟩ : BufTy).Contents (Elt F)),
    StableHlo.unary main_v126 main_v127 (broadcastInDim S50000x256 ![0, 1] bcast_S1x256_S50000x256_0_1 : (⟨S1x256, .f32⟩ : BufTy).Contents (Elt F) → (⟨S50000x256, .f32⟩ : BufTy).Contents (Elt F)),
    StableHlo.binary main_v123 main_v127 main_v128 (addf : (⟨S50000x256, .f32⟩ : BufTy).Contents (Elt F) → (⟨S50000x256, .f32⟩ : BufTy).Contents (Elt F) → (⟨S50000x256, .f32⟩ : BufTy).Contents (Elt F)),
    StableHlo.nullary main_cst_21 (constant S_ .f32 0x3DCCCCCD#32),
    TRef.nullary main_call8.cst (constant S_ .f32 0x00000000#32),
    TRef.unary main_call8.cst main_call8.v0 (broadcastInDim S50000x256 ![] bcast_S_S50000x256),
    TRef.binary (.of main_v128 : TRef sig ⟨S50000x256, .f32⟩) main_call8.v0 main_call8.v1 (cmpf .oge),
    TRef.unary (.of main_cst_21 : TRef sig ⟨S_, .f32⟩) main_call8.v2 id,
    TRef.unary main_call8.v2 main_call8.v3 (broadcastInDim S50000x256 ![] bcast_S_S50000x256),
    TRef.binary main_call8.v3 (.of main_v128 : TRef sig ⟨S50000x256, .f32⟩) main_call8.v4 mulf,
    TRef.ternary main_call8.v1 (.of main_v128 : TRef sig ⟨S50000x256, .f32⟩) main_call8.v4 main_call8.call0.v0 select,
    StableHlo.unary main_arg15 main_v130 ((extractStridedSlice S1x256x256 ![1, 0, 0] · slices_S2x256x256_S1x256x256_1_0_0) : (⟨S2x256x256, .f32⟩ : BufTy).Contents (Elt F) → (⟨S1x256x256, .f32⟩ : BufTy).Contents (Elt F)),
    StableHlo.reshape main_v130 main_v131 rfl shapeCasts_S1x256x256_S256x256,
    StableHlo.unary main_v131 main_v132 ((transpose S256x256 [1, 0] · transposes_S256x256_S256x256_1_0) : (⟨S256x256, .f32⟩ : BufTy).Contents (Elt F) → (⟨S256x256, .f32⟩ : BufTy).Contents (Elt F)),
    StableHlo.binary main_v129 main_v132 main_v133 ((fun l r => Host.dotGeneral dot_S50000x256_S256x256_S50000x256_1_0_0_1_n_n none l r) : (⟨S50000x256, .f32⟩ : BufTy).Contents (Elt F) → (⟨S256x256, .f32⟩ : BufTy).Contents (Elt F) → (⟨S50000x256, .f32⟩ : BufTy).Contents (Elt F)),
    StableHlo.unary main_arg16 main_v134 ((extractStridedSlice S1x256 ![1, 0] · slices_S2x256_S1x256_1_0) : (⟨S2x256, .f32⟩ : BufTy).Contents (Elt F) → (⟨S1x256, .f32⟩ : BufTy).Contents (Elt F)),
    StableHlo.reshape main_v134 main_v135 rfl shapeCasts_S1x256_S256,
    StableHlo.unary main_v135 main_v136 (broadcastInDim S1x256 ![1] bcast_S256_S1x256_1 : (⟨S256, .f32⟩ : BufTy).Contents (Elt F) → (⟨S1x256, .f32⟩ : BufTy).Contents (Elt F)),
    StableHlo.unary main_v136 main_v137 (broadcastInDim S50000x256 ![0, 1] bcast_S1x256_S50000x256_0_1 : (⟨S1x256, .f32⟩ : BufTy).Contents (Elt F) → (⟨S50000x256, .f32⟩ : BufTy).Contents (Elt F)),
    StableHlo.binary main_v133 main_v137 main_v138 (addf : (⟨S50000x256, .f32⟩ : BufTy).Contents (Elt F) → (⟨S50000x256, .f32⟩ : BufTy).Contents (Elt F) → (⟨S50000x256, .f32⟩ : BufTy).Contents (Elt F)) ]

/-- The buffers those operations write. -/
abbrev opsA1_W : List (Ref sig .tc) :=
  [main_v104, main_v105, main_v106, main_v107, main_v108, main_v109, main_v110, main_v111, main_v112, main_v113, main_cst_19, main_call6_cst, main_call6_v0, main_call6_v1, main_call6_v2, main_call6_v3, main_call6_v4, main_v114, main_call7_v0, main_call7_cst, main_call7_v1, main_call7_v2, main_v115, main_cst_20, main_v116, main_v117, main_v118, main_v119, main_v120, main_v121, main_v122, main_v123, main_v124, main_v125, main_v126, main_v127, main_v128, main_cst_21, main_call8_cst, main_call8_v0, main_call8_v1, main_call8_v2, main_call8_v3, main_call8_v4, main_v129, main_v130, main_v131, main_v132, main_v133, main_v134, main_v135, main_v136, main_v137, main_v138]

/-- The third neighbour mean, up to the end of the third window: `%c_22` … `%151`. -/
abbrev opsNbr2a : List (HloOp τ sig (Elt F)) :=
  [ StableHlo.nullary main_c_22 (constantI S_ 32 0#32),
    StableHlo.unary main_c_22 main_v139 (broadcastInDim S1000000 ![] bcast_S_S1000000 : (⟨S_, .i32⟩ : BufTy).Contents (Elt F) → (⟨S1000000, .i32⟩ : BufTy).Contents (Elt F)),
    StableHlo.binary main_arg2 main_v139 main_v140 (cmpi .slt : (⟨S1000000, .i32⟩ : BufTy).Contents (Elt F) → (⟨S1000000, .i32⟩ : BufTy).Contents (Elt F) → (⟨S1000000, .i1⟩ : BufTy).Contents (Elt F)),
    StableHlo.nullary main_c_23 (constantI S_ 32 50000#32),
    StableHlo.unary main_c_23 main_v141 (broadcastInDim S1000000 ![] bcast_S_S1000000 : (⟨S_, .i32⟩ : BufTy).Contents (Elt F) → (⟨S1000000, .i32⟩ : BufTy).Contents (Elt F)),
    StableHlo.binary main_arg2 main_v141 main_v142 (addi : (⟨S1000000, .i32⟩ : BufTy).Contents (Elt F) → (⟨S1000000, .i32⟩ : BufTy).Contents (Elt F) → (⟨S1000000, .i32⟩ : BufTy).Contents (Elt F)),
    StableHlo.ternary main_v140 main_v142 main_arg2 main_v143 (select : (⟨S1000000, .i1⟩ : BufTy).Contents (Elt F) → (⟨S1000000, .i32⟩ : BufTy).Contents (Elt F) → (⟨S1000000, .i32⟩ : BufTy).Contents (Elt F) → (⟨S1000000, .i32⟩ : BufTy).Contents (Elt F)),
    StableHlo.unary main_v143 main_v144 (broadcastInDim S1000000x1 ![0] bcast_S1000000_S1000000x1_0 : (⟨S1000000, .i32⟩ : BufTy).Contents (Elt F) → (⟨S1000000x1, .i32⟩ : BufTy).Contents (Elt F)),
    StableHlo.binary main_v138 main_v144 main_v145 ((fun x i => Host.gather gather_S50000x256_S1000000x1_S1000000x256_1_0_n_n_0_1_1256 x i) : (⟨S50000x256, .f32⟩ : BufTy).Contents (Elt F) → (⟨S1000000x1, .i32⟩ : BufTy).Contents (Elt F) → (⟨S1000000x256, .f32⟩ : BufTy).Contents (Elt F)),
    StableHlo.nullary main_cst_24 (constant S_ .f32 0x00000000#32),
    StableHlo.unary main_cst_24 main_v146 (broadcastInDim S50000x256 ![] bcast_S_S50000x256 : (⟨S_, .f32⟩ : BufTy).Contents (Elt F) → (⟨S50000x256, .f32⟩ : BufTy).Contents (Elt F)),
    StableHlo.unary main_arg3 main_v147 (broadcastInDim S1000000x1 ![0] bcast_S1000000_S1000000x1_0 : (⟨S1000000, .i32⟩ : BufTy).Contents (Elt F) → (⟨S1000000x1, .i32⟩ : BufTy).Contents (Elt F)),
    StableHlo.ternary main_v146 main_v147 main_v145 main_v148 ((fun x i u => Host.scatterAdd scatter_S50000x256_S1000000x1_S1000000x256_1_0_0_1 x i u) : (⟨S50000x256, .f32⟩ : BufTy).Contents (Elt F) → (⟨S1000000x1, .i32⟩ : BufTy).Contents (Elt F) → (⟨S1000000x256, .f32⟩ : BufTy).Contents (Elt F) → (⟨S50000x256, .f32⟩ : BufTy).Contents (Elt F)),
    StableHlo.binary main_v148 main_v138 main_v149 (addf : (⟨S50000x256, .f32⟩ : BufTy).Contents (Elt F) → (⟨S50000x256, .f32⟩ : BufTy).Contents (Elt F) → (⟨S50000x256, .f32⟩ : BufTy).Contents (Elt F)),
    StableHlo.binary main_v149 main_v138 main_v150 (subf : (⟨S50000x256, .f32⟩ : BufTy).Contents (Elt F) → (⟨S50000x256, .f32⟩ : BufTy).Contents (Elt F) → (⟨S50000x256, .f32⟩ : BufTy).Contents (Elt F)),
    StableHlo.nullary main_cst_25 (constant S_ .f32 0x3F800000#32),
    StableHlo.unary main_cst_25 main_v151 (broadcastInDim S50000x1 ![] bcast_S_S50000x1 : (⟨S_, .f32⟩ : BufTy).Contents (Elt F) → (⟨S50000x1, .f32⟩ : BufTy).Contents (Elt F)) ]

/-- The buffers those operations write. -/
abbrev opsNbr2a_W : List (Ref sig .tc) :=
  [main_c_22, main_v139, main_v140, main_c_23, main_v141, main_v142, main_v143, main_v144, main_v145, main_cst_24, main_v146, main_v147, main_v148, main_v149, main_v150, main_cst_25, main_v151]

/-- The third neighbour mean, the rest: `%152` … `%156`. -/
abbrev opsNbr2b : List (HloOp τ sig (Elt F)) :=
  [ StableHlo.binary main_v32 main_v151 main_v152 (subf : (⟨S50000x1, .f32⟩ : BufTy).Contents (Elt F) → (⟨S50000x1, .f32⟩ : BufTy).Contents (Elt F) → (⟨S50000x1, .f32⟩ : BufTy).Contents (Elt F)),
    StableHlo.nullary main_cst_26 (constant S_ .f32 0x3F800000#32),
    StableHlo.unary main_cst_26 main_v153 (broadcastInDim S50000x1 ![] bcast_S_S50000x1 : (⟨S_, .f32⟩ : BufTy).Contents (Elt F) → (⟨S50000x1, .f32⟩ : BufTy).Contents (Elt F)),
    StableHlo.binary main_v152 main_v153 main_v154 (maximumf : (⟨S50000x1, .f32⟩ : BufTy).Contents (Elt F) → (⟨S50000x1, .f32⟩ : BufTy).Contents (Elt F) → (⟨S50000x1, .f32⟩ : BufTy).Contents (Elt F)),
    StableHlo.unary main_v154 main_v155 (broadcastInDim S50000x256 ![0, 1] bcast_S50000x1_S50000x256_0_1 : (⟨S50000x1, .f32⟩ : BufTy).Contents (Elt F) → (⟨S50000x256, .f32⟩ : BufTy).Contents (Elt F)),
    StableHlo.binary main_v150 main_v155 main_v156 (Host.divf : (⟨S50000x256, .f32⟩ : BufTy).Contents (Elt F) → (⟨S50000x256, .f32⟩ : BufTy).Contents (Elt F) → (⟨S50000x256, .f32⟩ : BufTy).Contents (Elt F)) ]

/-- The buffers those operations write. -/
abbrev opsNbr2b_W : List (Ref sig .tc) :=
  [main_v152, main_cst_26, main_v153, main_v154, main_v155, main_v156]

/-- The last layer: `%157` … `%171`, its call of the row norm unfolded. -/
abbrev opsB : List (HloOp τ sig (Elt F)) :=
  [ StableHlo.binary main_v138 main_v156 main_v157 ((fun a b => concatenate S50000x512 1 [⟨S50000x256, a⟩, ⟨S50000x256, b⟩] concatenates_S50000x256_S50000x256_S50000x512_d1) : (⟨S50000x256, .f32⟩ : BufTy).Contents (Elt F) → (⟨S50000x256, .f32⟩ : BufTy).Contents (Elt F) → (⟨S50000x512, .f32⟩ : BufTy).Contents (Elt F)),
    StableHlo.unary main_arg11 main_v158 ((extractStridedSlice S1x256x512 ![2, 0, 0] · slices_S3x256x512_S1x256x512_2_0_0) : (⟨S3x256x512, .f32⟩ : BufTy).Contents (Elt F) → (⟨S1x256x512, .f32⟩ : BufTy).Contents (Elt F)),
    StableHlo.reshape main_v158 main_v159 rfl shapeCasts_S1x256x512_S256x512,
    StableHlo.unary main_v159 main_v160 ((transpose S512x256 [1, 0] · transposes_S256x512_S512x256_1_0) : (⟨S256x512, .f32⟩ : BufTy).Contents (Elt F) → (⟨S512x256, .f32⟩ : BufTy).Contents (Elt F)),
    StableHlo.binary main_v157 main_v160 main_v161 ((fun l r => Host.dotGeneral dot_S50000x512_S512x256_S50000x256_1_0_0_1_n_n none l r) : (⟨S50000x512, .f32⟩ : BufTy).Contents (Elt F) → (⟨S512x256, .f32⟩ : BufTy).Contents (Elt F) → (⟨S50000x256, .f32⟩ : BufTy).Contents (Elt F)),
    StableHlo.unary main_arg12 main_v162 ((extractStridedSlice S1x256 ![2, 0] · slices_S3x256_S1x256_2_0) : (⟨S3x256, .f32⟩ : BufTy).Contents (Elt F) → (⟨S1x256, .f32⟩ : BufTy).Contents (Elt F)),
    StableHlo.reshape main_v162 main_v163 rfl shapeCasts_S1x256_S256,
    StableHlo.unary main_v163 main_v164 (broadcastInDim S1x256 ![1] bcast_S256_S1x256_1 : (⟨S256, .f32⟩ : BufTy).Contents (Elt F) → (⟨S1x256, .f32⟩ : BufTy).Contents (Elt F)),
    StableHlo.unary main_v164 main_v165 (broadcastInDim S50000x256 ![0, 1] bcast_S1x256_S50000x256_0_1 : (⟨S1x256, .f32⟩ : BufTy).Contents (Elt F) → (⟨S50000x256, .f32⟩ : BufTy).Contents (Elt F)),
    StableHlo.binary main_v161 main_v165 main_v166 (addf : (⟨S50000x256, .f32⟩ : BufTy).Contents (Elt F) → (⟨S50000x256, .f32⟩ : BufTy).Contents (Elt F) → (⟨S50000x256, .f32⟩ : BufTy).Contents (Elt F)),
    TRef.binary (.of main_v166 : TRef sig ⟨S50000x256, .f32⟩) (.of main_v166 : TRef sig ⟨S50000x256, .f32⟩) main_call9.v0 mulf,
    TRef.nullary main_call9.cst (constant S_ .f32 0x00000000#32),
    TRef.binary main_call9.v0 main_call9.cst main_call9.v1 (fun x v => Host.reduceAdd x v reducesTo_S50000x256_S50000_d1 h_S_),
    TRef.unary main_call9.v1 main_call9.v2 (broadcastInDim S50000x1 ![0] bcast_S50000_S50000x1_0),
    TRef.unary main_call9.v2 main_call9.v3 Host.sqrt,
    StableHlo.nullary main_cst_27 (constant S_ .f32 0x358637BD#32),
    StableHlo.unary main_cst_27 main_v168 (broadcastInDim S50000x1 ![] bcast_S_S50000x1 : (⟨S_, .f32⟩ : BufTy).Contents (Elt F) → (⟨S50000x1, .f32⟩ : BufTy).Contents (Elt F)),
    StableHlo.binary main_v167 main_v168 main_v169 (maximumf : (⟨S50000x1, .f32⟩ : BufTy).Contents (Elt F) → (⟨S50000x1, .f32⟩ : BufTy).Contents (Elt F) → (⟨S50000x1, .f32⟩ : BufTy).Contents (Elt F)),
    StableHlo.unary main_v169 main_v170 (broadcastInDim S50000x256 ![0, 1] bcast_S50000x1_S50000x256_0_1 : (⟨S50000x1, .f32⟩ : BufTy).Contents (Elt F) → (⟨S50000x256, .f32⟩ : BufTy).Contents (Elt F)),
    StableHlo.binary main_v166 main_v170 main_v171 (Host.divf : (⟨S50000x256, .f32⟩ : BufTy).Contents (Elt F) → (⟨S50000x256, .f32⟩ : BufTy).Contents (Elt F) → (⟨S50000x256, .f32⟩ : BufTy).Contents (Elt F)) ]

/-- The buffers those operations write. -/
abbrev opsB_W : List (Ref sig .tc) :=
  [main_v157, main_v158, main_v159, main_v160, main_v161, main_v162, main_v163, main_v164, main_v165, main_v166, main_call9_v0, main_call9_cst, main_call9_v1, main_call9_v2, main_v167, main_cst_27, main_v168, main_v169, main_v170, main_v171]

/-- The operations of the program's four printed windows. -/
abbrev win0 : List (HloOp τ sig (Elt F)) := opsEmb ++ (opsEnc ++ (opsDeg ++ opsNbr0a))
abbrev win1 : List (HloOp τ sig (Elt F)) := opsNbr0b ++ (opsA0 ++ opsNbr1a)
abbrev win2 : List (HloOp τ sig (Elt F)) := opsNbr1b ++ (opsA1 ++ opsNbr2a)
abbrev win3 : List (HloOp τ sig (Elt F)) := opsNbr2b ++ opsB

/-- All 256 operations, in order. -/
abbrev ops : List (HloOp τ sig (Elt F)) := win0 ++ (win1 ++ (win2 ++ win3))

end Cert.ReferenceIdeal.RefRun

end
-- ==== Proof.RefRun1.lean ====
/-
  The first two printed windows of the reference's program are the straight lines of their operations.
-/
import proofs.«167175_j43568148251366_1_alg».proof.Proof.RefRun0

noncomputable section

namespace Cert.ReferenceIdeal.RefRun

open Cert.ReferenceIdeal Idealize.ShloMosaic Idealize.ShloMosaic.StableHlo Idealize.SL.Sem
open Cert.ReferenceIdeal.Facts₀ Cert.ReferenceIdeal.Facts

variable {F : FTy → Type} [FloatOps F] [Facts]

set_option maxRecDepth 8192 in
set_option maxHeartbeats 4000000 in
/-- The program's window 0 is the straight line of its operations: the called functions unfolded at their calls, the
    sequencing reassociated. -/
theorem main_part0_eq (c : Dev nD) : main_part0 (F := F) c = seq win0 := by
  simp only [main_part0, fn_leaky_relu.body, fn_leaky_relu_0.body, fn_where.body, fn_where_1.body, fn_norm.body, win0, opsEmb, opsEnc, opsDeg, opsNbr0a,
    List.cons_append, List.nil_append, seq, bind_assoc, pure_bind] <;> rfl

set_option maxRecDepth 8192 in
set_option maxHeartbeats 4000000 in
/-- The program's window 1 is the straight line of its operations: the called functions unfolded at their calls, the
    sequencing reassociated. -/
theorem main_part1_eq (c : Dev nD) : main_part1 (F := F) c = seq win1 := by
  simp only [main_part1, fn_leaky_relu.body, fn_leaky_relu_0.body, fn_where.body, fn_where_1.body, fn_norm.body, win1, opsNbr0b, opsA0, opsNbr1a,
    List.cons_append, List.nil_append, seq, bind_assoc, pure_bind] <;> rfl

end Cert.ReferenceIdeal.RefRun
end
-- ==== Proof.RefRun2.lean ====
/-
  The last two printed windows of the reference's program are the straight lines of their operations.
-/
import proofs.«167175_j43568148251366_1_alg».proof.Proof.RefRun0

noncomputable section

namespace Cert.ReferenceIdeal.RefRun

open Cert.ReferenceIdeal Idealize.ShloMosaic Idealize.ShloMosaic.StableHlo Idealize.SL.Sem
open Cert.ReferenceIdeal.Facts₀ Cert.ReferenceIdeal.Facts

variable {F : FTy → Type} [FloatOps F] [Facts]

set_option maxRecDepth 8192 in
set_option maxHeartbeats 4000000 in
/-- The program's window 2 is the straight line of its operations: the called functions unfolded at their calls, the
    sequencing reassociated. -/
theorem main_part2_eq (c : Dev nD) : main_part2 (F := F) c = seq win2 := by
  simp only [main_part2, fn_leaky_relu.body, fn_leaky_relu_0.body, fn_where.body, fn_where_1.body, fn_norm.body, win2, opsNbr1b, opsA1, opsNbr2a,
    List.cons_append, List.nil_append, seq, bind_assoc, pure_bind] <;> rfl

set_option maxRecDepth 8192 in
set_option maxHeartbeats 4000000 in
/-- The program's window 3 is the straight line of its operations: the called functions unfolded at their calls, the
    sequencing reassociated. -/
theorem main_part3_eq (c : Dev nD) : main_part3 (F := F) c = seq win3 := by
  simp only [main_part3, fn_leaky_relu.body, fn_leaky_relu_0.body, fn_where.body, fn_where_1.body, fn_norm.body, win3, opsNbr2b, opsB,
    List.cons_append, List.nil_append, seq, bind_assoc, pure_bind] <;> rfl

end Cert.ReferenceIdeal.RefRun
end
-- ==== Proof.RefRun3.lean ====
/-
  Every operation of the reference's program touches buffers of the TensorCore only, and the program's signature
  scopes no buffer and no semaphore: the two side conditions of the theorem that runs a straight line of operations.
-/
import proofs.«167175_j43568148251366_1_alg».proof.Proof.RefRun0

noncomputable section

namespace Cert.ReferenceIdeal.RefRun

open Cert.ReferenceIdeal Idealize.ShloMosaic Idealize.ShloMosaic.StableHlo Idealize.SL.Sem
open Cert.ReferenceIdeal.Facts₀ Cert.ReferenceIdeal.Facts

variable {F : FTy → Type} [FloatOps F] [Facts]

set_option maxRecDepth 8192 in
theorem opsEmb_sub : (opsEmb : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., binary_bufs_sub ..⟩

set_option maxRecDepth 8192 in
theorem opsEnc_sub : (opsEnc : List (HloOp τ sig (Elt F))).Forall fun op => op.bufs ⊆ tcRefs τ sig :=
  ⟨unary_bufs_sub .., binary_bufs_sub .., unary_bufs_sub .., unary_bufs_sub .., binary_bufs_sub .., nullary_bufs_sub .., nullary_bufs_sub .., unary_bufs_sub .., binary_bufs_sub .., unary_bufs_sub .., unary_bufs_sub .., binary_bufs_sub .., ternary_bufs_sub .., unary_bufs_sub .., binary_bufs_sub .., unary_bufs_sub .., unary_bufs_sub .., binary_bufs_sub .., nullary_bufs_sub .., nullary_bufs_sub .., unary_bufs_sub .., binary_bufs_sub .., unary_bufs_sub .., unary_bufs_sub .., binary_bufs_sub .., ternary_bufs_sub .., unary_bufs_sub .., binary_bufs_sub .., unary_bufs_sub .., unary_bufs_sub .., binary_bufs_sub .., nullary_bufs_sub .., nullary_bufs_sub .., unary_bufs_sub .., binary_bufs_sub .., unary_bufs_sub .., unary_bufs_sub .., binary_bufs_sub .., ternary_bufs_sub .., binary_bufs_sub ..⟩

set_option maxRecDepth 8192 in
theorem opsDeg_sub : (opsDeg : List (HloOp τ sig (Elt F))).Forall fun op => op.bufs ⊆ tcRefs τ sig :=
  ⟨nullary_bufs_sub .., unary_bufs_sub .., nullary_bufs_sub .., unary_bufs_sub .., unary_bufs_sub .., ternary_bufs_sub .., nullary_bufs_sub .., unary_bufs_sub .., binary_bufs_sub .., unary_bufs_sub ..⟩

set_option maxRecDepth 8192 in
theorem opsNbr0a_sub : (opsNbr0a : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub .., binary_bufs_sub .., binary_bufs_sub .., nullary_bufs_sub .., unary_bufs_sub .., binary_bufs_sub .., nullary_bufs_sub ..⟩

set_option maxRecDepth 8192 in
theorem opsNbr0b_sub : (opsNbr0b : List (HloOp τ sig (Elt F))).Forall fun op => op.bufs ⊆ tcRefs τ sig :=
  ⟨unary_bufs_sub .., binary_bufs_sub .., unary_bufs_sub .., binary_bufs_sub ..⟩

set_option maxRecDepth 8192 in
theorem opsA0_sub : (opsA0 : List (HloOp τ sig (Elt F))).Forall fun op => op.bufs ⊆ tcRefs τ sig :=
  ⟨binary_bufs_sub .., unary_bufs_sub .., reshape_bufs_sub .., unary_bufs_sub .., binary_bufs_sub .., unary_bufs_sub .., reshape_bufs_sub .., unary_bufs_sub .., unary_bufs_sub .., binary_bufs_sub .., nullary_bufs_sub .., nullary_bufs_sub .., unary_bufs_sub .., binary_bufs_sub .., unary_bufs_sub .., unary_bufs_sub .., binary_bufs_sub .., ternary_bufs_sub .., binary_bufs_sub .., nullary_bufs_sub .., binary_bufs_sub .., unary_bufs_sub .., unary_bufs_sub .., nullary_bufs_sub .., unary_bufs_sub .., binary_bufs_sub .., unary_bufs_sub .., binary_bufs_sub .., unary_bufs_sub .., reshape_bufs_sub .., unary_bufs_sub .., binary_bufs_sub .., unary_bufs_sub .., reshape_bufs_sub .., unary_bufs_sub .., unary_bufs_sub .., binary_bufs_sub .., nullary_bufs_sub .., nullary_bufs_sub .., unary_bufs_sub .., binary_bufs_sub .., unary_bufs_sub .., unary_bufs_sub .., binary_bufs_sub .., ternary_bufs_sub .., unary_bufs_sub .., reshape_bufs_sub .., unary_bufs_sub .., binary_bufs_sub .., unary_bufs_sub .., reshape_bufs_sub .., unary_bufs_sub .., unary_bufs_sub .., binary_bufs_sub ..⟩

set_option maxRecDepth 8192 in
theorem opsNbr1a_sub : (opsNbr1a : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub .., binary_bufs_sub .., binary_bufs_sub .., nullary_bufs_sub .., unary_bufs_sub .., binary_bufs_sub ..⟩

set_option maxRecDepth 8192 in
theorem opsNbr1b_sub : (opsNbr1b : List (HloOp τ sig (Elt F))).Forall fun op => op.bufs ⊆ tcRefs τ sig :=
  ⟨nullary_bufs_sub .., unary_bufs_sub .., binary_bufs_sub .., unary_bufs_sub .., binary_bufs_sub ..⟩

set_option maxRecDepth 8192 in
theorem opsA1_sub : (opsA1 : List (HloOp τ sig (Elt F))).Forall fun op => op.bufs ⊆ tcRefs τ sig :=
  ⟨binary_bufs_sub .., unary_bufs_sub .., reshape_bufs_sub .., unary_bufs_sub .., binary_bufs_sub .., unary_bufs_sub .., reshape_bufs_sub .., unary_bufs_sub .., unary_bufs_sub .., binary_bufs_sub .., nullary_bufs_sub .., nullary_bufs_sub .., unary_bufs_sub .., binary_bufs_sub .., unary_bufs_sub .., unary_bufs_sub .., binary_bufs_sub .., ternary_bufs_sub .., binary_bufs_sub .., nullary_bufs_sub .., binary_bufs_sub .., unary_bufs_sub .., unary_bufs_sub .., nullary_bufs_sub .., unary_bufs_sub .., binary_bufs_sub .., unary_bufs_sub .., binary_bufs_sub .., unary_bufs_sub .., reshape_bufs_sub .., unary_bufs_sub .., binary_bufs_sub .., unary_bufs_sub .., reshape_bufs_sub .., unary_bufs_sub .., unary_bufs_sub .., binary_bufs_sub .., nullary_bufs_sub .., nullary_bufs_sub .., unary_bufs_sub .., binary_bufs_sub .., unary_bufs_sub .., unary_bufs_sub .., binary_bufs_sub .., ternary_bufs_sub .., unary_bufs_sub .., reshape_bufs_sub .., unary_bufs_sub .., binary_bufs_sub .., unary_bufs_sub .., reshape_bufs_sub .., unary_bufs_sub .., unary_bufs_sub .., binary_bufs_sub ..⟩

set_option maxRecDepth 8192 in
theorem opsNbr2a_sub : (opsNbr2a : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub .., binary_bufs_sub .., binary_bufs_sub .., nullary_bufs_sub .., unary_bufs_sub ..⟩

set_option maxRecDepth 8192 in
theorem opsNbr2b_sub : (opsNbr2b : List (HloOp τ sig (Elt F))).Forall fun op => op.bufs ⊆ tcRefs τ sig :=
  ⟨binary_bufs_sub .., nullary_bufs_sub .., unary_bufs_sub .., binary_bufs_sub .., unary_bufs_sub .., binary_bufs_sub ..⟩

set_option maxRecDepth 8192 in
theorem opsB_sub : (opsB : List (HloOp τ sig (Elt F))).Forall fun op => op.bufs ⊆ tcRefs τ sig :=
  ⟨binary_bufs_sub .., unary_bufs_sub .., reshape_bufs_sub .., unary_bufs_sub .., binary_bufs_sub .., unary_bufs_sub .., reshape_bufs_sub .., unary_bufs_sub .., unary_bufs_sub .., binary_bufs_sub .., binary_bufs_sub .., nullary_bufs_sub .., binary_bufs_sub .., unary_bufs_sub .., unary_bufs_sub .., nullary_bufs_sub .., unary_bufs_sub .., binary_bufs_sub .., unary_bufs_sub .., binary_bufs_sub ..⟩

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  List.forall_iff_forall_mem.mpr fun op h => by
    simp only [ops, win0, win1, win2, win3, List.mem_append, or_assoc] at h
    rcases h with h | h | h | h | h | h | h | h | h | h | h | h
    exacts [List.forall_iff_forall_mem.mp opsEmb_sub op h,
      List.forall_iff_forall_mem.mp opsEnc_sub op h,
      List.forall_iff_forall_mem.mp opsDeg_sub op h,
      List.forall_iff_forall_mem.mp opsNbr0a_sub op h,
      List.forall_iff_forall_mem.mp opsNbr0b_sub op h,
      List.forall_iff_forall_mem.mp opsA0_sub op h,
      List.forall_iff_forall_mem.mp opsNbr1a_sub op h,
      List.forall_iff_forall_mem.mp opsNbr1b_sub op h,
      List.forall_iff_forall_mem.mp opsA1_sub op h,
      List.forall_iff_forall_mem.mp opsNbr2a_sub op h,
      List.forall_iff_forall_mem.mp opsNbr2b_sub op h,
      List.forall_iff_forall_mem.mp opsB_sub op h]

end Cert.ReferenceIdeal.RefRun
end
-- ==== Proof.LibHostLine.lean ====
/-
  A fact about the operations of a called function in a straight line of host operations.

  Such an operation carries its operands from their buffers' types to the values' types and its result back, along the
  equation between the two types. Carrying a value to a buffer's own type and back is the identity, whatever the buffer:
  with it the chain of intermediate values of a called function reads as the plain composition of its operations.
-/
import Idealize.ShloMosaic.Lib.StableHlo.Run

noncomputable section

namespace Cert.LibHostLine

open Idealize.ShloMosaic Idealize.ShloMosaic.StableHlo

variable {sig : RefSig} {Val : EltTy → Type}

/-- Contents carried to a buffer's own type and back are themselves. -/
theorem ofBuf_toBuf {T : BufTy} (x : TRef sig T) (v : T.Contents Val) : x.ofBuf (x.toBuf v) = v := by
  obtain ⟨r, rfl, _, _⟩ := x; rfl

end Cert.LibHostLine

end
-- ==== Proof.RefRun4.lean ====
/-
  What the buffers hold after a stage of the reference's program, from any contents before it: the stage's result buffer
  holds the stage's function (the composition of its operations) of the contents of the buffers the stage reads, and a
  buffer the stage does not write keeps its contents.
  Here: the embedding rows, the first node representation, the degree column.
-/
import proofs.«167175_j43568148251366_1_alg».proof.Proof.RefRun0
import proofs.«167175_j43568148251366_1_alg».proof.Proof.RefTerm
import proofs.«167175_j43568148251366_1_alg».proof.Proof.LibHostLine

noncomputable section

namespace Cert.ReferenceIdeal.RefRun

open Cert.ReferenceIdeal Idealize.ShloMosaic Idealize.ShloMosaic.StableHlo Idealize.SL.Sem
open Cert.ReferenceIdeal.Facts₀ Cert.ReferenceIdeal.Facts

variable {F : FTy → Type} [FloatOps F] [Facts]

set_option maxRecDepth 8192 in
/-- Each of those operations writes one buffer of the list. -/
theorem opsEmb_writes : (opsEmb : List (HloOp τ sig (Elt F))).Forall fun op =>
    op.writes ⊆ (opsEmb_W.map (Proc.devRef (τ := τ) .tc)).toFinset := by
  simp only [List.Forall]
  exact ⟨by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide)⟩

set_option maxRecDepth 8192 in
/-- Each of those operations writes one buffer of the list. -/
theorem opsEnc_writes : (opsEnc : List (HloOp τ sig (Elt F))).Forall fun op =>
    op.writes ⊆ (opsEnc_W.map (Proc.devRef (τ := τ) .tc)).toFinset := by
  simp only [List.Forall]
  exact ⟨by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide)⟩

set_option maxRecDepth 8192 in
/-- Each of those operations writes one buffer of the list. -/
theorem opsDeg_writes : (opsDeg : List (HloOp τ sig (Elt F))).Forall fun op =>
    op.writes ⊆ (opsDeg_W.map (Proc.devRef (τ := τ) .tc)).toFinset := by
  simp only [List.Forall]
  exact ⟨by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide)⟩

set_option maxRecDepth 8192 in
set_option maxHeartbeats 4000000 in
/-- After the first nine operations `%6` holds the embedding rows. -/
theorem emb_out (V : Valuation τ sig (Elt F)) :
    after opsEmb V (no_index (Proc.devRef .tc main_v6))
      = RefTerm.embRows (V (Proc.devRef .tc main_arg0)) (V (Proc.devRef .tc main_arg4)) := by
  simp only [opsEmb]
  after_results_simp
  rfl

set_option maxRecDepth 8192 in
set_option maxHeartbeats 4000000 in
/-- After the next forty `%25` holds the first node representation. -/
theorem enc_out (V : Valuation τ sig (Elt F)) :
    after opsEnc V (no_index (Proc.devRef .tc main_v25))
      = RefTerm.enc (V (Proc.devRef .tc main_v6)) (V (Proc.devRef .tc main_arg1)) (V (Proc.devRef .tc main_arg5)) (V (Proc.devRef .tc main_arg6)) (V (Proc.devRef .tc main_arg7)) (V (Proc.devRef .tc main_arg8)) (V (Proc.devRef .tc main_arg9)) (V (Proc.devRef .tc main_arg10)) := by
  simp only [opsEnc]
  after_results_simp
  simp only [Cert.LibHostLine.ofBuf_toBuf]
  rfl

set_option maxRecDepth 8192 in
set_option maxHeartbeats 4000000 in
/-- After the next ten `%32` holds one plus the in-degree. -/
theorem deg_out (V : Valuation τ sig (Elt F)) :
    after opsDeg V (no_index (Proc.devRef .tc main_v32))
      = RefTerm.degPlus (V (Proc.devRef .tc main_arg3)) := by
  simp only [opsDeg]
  after_results_simp
  rfl

end Cert.ReferenceIdeal.RefRun
end
-- ==== Proof.RefRun5.lean ====
/-
  What the buffers hold after a stage of the reference's program, from any contents before it: the stage's result buffer
  holds the stage's function (the composition of its operations) of the contents of the buffers the stage reads, and a
  buffer the stage does not write keeps its contents.
  Here: the three neighbour means, each the same function of the node rows before it.
-/
import proofs.«167175_j43568148251366_1_alg».proof.Proof.RefRun0
import proofs.«167175_j43568148251366_1_alg».proof.Proof.RefTerm

noncomputable section

namespace Cert.ReferenceIdeal.RefRun

open Cert.ReferenceIdeal Idealize.ShloMosaic Idealize.ShloMosaic.StableHlo Idealize.SL.Sem
open Cert.ReferenceIdeal.Facts₀ Cert.ReferenceIdeal.Facts

variable {F : FTy → Type} [FloatOps F] [Facts]

set_option maxRecDepth 8192 in
/-- Each of those operations writes one buffer of the list. -/
theorem opsNbr0a_writes : (opsNbr0a : List (HloOp τ sig (Elt F))).Forall fun op =>
    op.writes ⊆ (opsNbr0a_W.map (Proc.devRef (τ := τ) .tc)).toFinset := by
  simp only [List.Forall]
  exact ⟨by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide)⟩

set_option maxRecDepth 8192 in
/-- Each of those operations writes one buffer of the list. -/
theorem opsNbr0b_writes : (opsNbr0b : List (HloOp τ sig (Elt F))).Forall fun op =>
    op.writes ⊆ (opsNbr0b_W.map (Proc.devRef (τ := τ) .tc)).toFinset := by
  simp only [List.Forall]
  exact ⟨by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide)⟩

set_option maxRecDepth 8192 in
/-- Each of those operations writes one buffer of the list. -/
theorem opsNbr1a_writes : (opsNbr1a : List (HloOp τ sig (Elt F))).Forall fun op =>
    op.writes ⊆ (opsNbr1a_W.map (Proc.devRef (τ := τ) .tc)).toFinset := by
  simp only [List.Forall]
  exact ⟨by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide)⟩

set_option maxRecDepth 8192 in
/-- Each of those operations writes one buffer of the list. -/
theorem opsNbr1b_writes : (opsNbr1b : List (HloOp τ sig (Elt F))).Forall fun op =>
    op.writes ⊆ (opsNbr1b_W.map (Proc.devRef (τ := τ) .tc)).toFinset := by
  simp only [List.Forall]
  exact ⟨by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide)⟩

set_option maxRecDepth 8192 in
/-- Each of those operations writes one buffer of the list. -/
theorem opsNbr2a_writes : (opsNbr2a : List (HloOp τ sig (Elt F))).Forall fun op =>
    op.writes ⊆ (opsNbr2a_W.map (Proc.devRef (τ := τ) .tc)).toFinset := by
  simp only [List.Forall]
  exact ⟨by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide)⟩

set_option maxRecDepth 8192 in
/-- Each of those operations writes one buffer of the list. -/
theorem opsNbr2b_writes : (opsNbr2b : List (HloOp τ sig (Elt F))).Forall fun op =>
    op.writes ⊆ (opsNbr2b_W.map (Proc.devRef (τ := τ) .tc)).toFinset := by
  simp only [List.Forall]
  exact ⟨by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide)⟩

set_option maxRecDepth 8192 in
set_option maxHeartbeats 4000000 in
/-- The neighbour mean of `%25` is in `%50`. -/
theorem nbr0_out (V : Valuation τ sig (Elt F)) :
    after opsNbr0b (after opsNbr0a V) (no_index (Proc.devRef .tc main_v50))
      = RefTerm.nbrMean (V (Proc.devRef .tc main_v25)) (V (Proc.devRef .tc main_v32)) (V (Proc.devRef .tc main_arg2)) (V (Proc.devRef .tc main_arg3)) := by
  simp only [opsNbr0a, opsNbr0b]
  after_results_simp
  rfl

set_option maxRecDepth 8192 in
set_option maxHeartbeats 4000000 in
/-- The neighbour mean of `%85` is in `%103`. -/
theorem nbr1_out (V : Valuation τ sig (Elt F)) :
    after opsNbr1b (after opsNbr1a V) (no_index (Proc.devRef .tc main_v103))
      = RefTerm.nbrMean (V (Proc.devRef .tc main_v85)) (V (Proc.devRef .tc main_v32)) (V (Proc.devRef .tc main_arg2)) (V (Proc.devRef .tc main_arg3)) := by
  simp only [opsNbr1a, opsNbr1b]
  after_results_simp
  rfl

set_option maxRecDepth 8192 in
set_option maxHeartbeats 4000000 in
/-- The neighbour mean of `%138` is in `%156`. -/
theorem nbr2_out (V : Valuation τ sig (Elt F)) :
    after opsNbr2b (after opsNbr2a V) (no_index (Proc.devRef .tc main_v156))
      = RefTerm.nbrMean (V (Proc.devRef .tc main_v138)) (V (Proc.devRef .tc main_v32)) (V (Proc.devRef .tc main_arg2)) (V (Proc.devRef .tc main_arg3)) := by
  simp only [opsNbr2a, opsNbr2b]
  after_results_simp
  rfl

end Cert.ReferenceIdeal.RefRun
end
-- ==== Proof.RefRun6.lean ====
/-
  What the buffers hold after a stage of the reference's program, from any contents before it: the stage's result buffer
  holds the stage's function (the composition of its operations) of the contents of the buffers the stage reads, and a
  buffer the stage does not write keeps its contents.
  Here: the first inner layer.
-/
import proofs.«167175_j43568148251366_1_alg».proof.Proof.RefRun0
import proofs.«167175_j43568148251366_1_alg».proof.Proof.RefTerm
import proofs.«167175_j43568148251366_1_alg».proof.Proof.LibHostLine

noncomputable section

namespace Cert.ReferenceIdeal.RefRun

open Cert.ReferenceIdeal Idealize.ShloMosaic Idealize.ShloMosaic.StableHlo Idealize.SL.Sem
open Cert.ReferenceIdeal.Facts₀ Cert.ReferenceIdeal.Facts

variable {F : FTy → Type} [FloatOps F] [Facts]

set_option maxRecDepth 8192 in
/-- Each of those operations writes one buffer of the list. -/
theorem opsA0_writes : (opsA0 : List (HloOp τ sig (Elt F))).Forall fun op =>
    op.writes ⊆ (opsA0_W.map (Proc.devRef (τ := τ) .tc)).toFinset := by
  simp only [List.Forall]
  exact ⟨by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide)⟩

set_option maxRecDepth 8192 in
set_option maxHeartbeats 4000000 in
/-- After the first inner layer's fifty-four operations `%85` holds the layer's function of `%25`, `%50` and the weights. -/
theorem layerA0_out (V : Valuation τ sig (Elt F)) :
    after opsA0 V (no_index (Proc.devRef .tc main_v85))
      = RefTerm.layerA0 (V (Proc.devRef .tc main_v25)) (V (Proc.devRef .tc main_v50)) (V (Proc.devRef .tc main_arg11)) (V (Proc.devRef .tc main_arg12)) (V (Proc.devRef .tc main_arg13)) (V (Proc.devRef .tc main_arg14)) (V (Proc.devRef .tc main_arg15)) (V (Proc.devRef .tc main_arg16)) := by
  simp only [opsA0]
  after_results_simp
  simp only [Cert.LibHostLine.ofBuf_toBuf]
  rfl

end Cert.ReferenceIdeal.RefRun
end
-- ==== Proof.RefRun7.lean ====
/-
  What the buffers hold after a stage of the reference's program, from any contents before it: the stage's result buffer
  holds the stage's function (the composition of its operations) of the contents of the buffers the stage reads, and a
  buffer the stage does not write keeps its contents.
  Here: the second inner layer.
-/
import proofs.«167175_j43568148251366_1_alg».proof.Proof.RefRun0
import proofs.«167175_j43568148251366_1_alg».proof.Proof.RefTerm
import proofs.«167175_j43568148251366_1_alg».proof.Proof.LibHostLine

noncomputable section

namespace Cert.ReferenceIdeal.RefRun

open Cert.ReferenceIdeal Idealize.ShloMosaic Idealize.ShloMosaic.StableHlo Idealize.SL.Sem
open Cert.ReferenceIdeal.Facts₀ Cert.ReferenceIdeal.Facts

variable {F : FTy → Type} [FloatOps F] [Facts]

set_option maxRecDepth 8192 in
/-- Each of those operations writes one buffer of the list. -/
theorem opsA1_writes : (opsA1 : List (HloOp τ sig (Elt F))).Forall fun op =>
    op.writes ⊆ (opsA1_W.map (Proc.devRef (τ := τ) .tc)).toFinset := by
  simp only [List.Forall]
  exact ⟨by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide)⟩

set_option maxRecDepth 8192 in
set_option maxHeartbeats 4000000 in
/-- After the second inner layer's fifty-four operations `%138` holds the layer's function of `%85`, `%103` and the weights. -/
theorem layerA1_out (V : Valuation τ sig (Elt F)) :
    after opsA1 V (no_index (Proc.devRef .tc main_v138))
      = RefTerm.layerA1 (V (Proc.devRef .tc main_v85)) (V (Proc.devRef .tc main_v103)) (V (Proc.devRef .tc main_arg11)) (V (Proc.devRef .tc main_arg12)) (V (Proc.devRef .tc main_arg13)) (V (Proc.devRef .tc main_arg14)) (V (Proc.devRef .tc main_arg15)) (V (Proc.devRef .tc main_arg16)) := by
  simp only [opsA1]
  after_results_simp
  simp only [Cert.LibHostLine.ofBuf_toBuf]
  rfl

end Cert.ReferenceIdeal.RefRun
end
-- ==== Proof.RefRun8.lean ====
/-
  What the buffers hold after a stage of the reference's program, from any contents before it: the stage's result buffer
  holds the stage's function (the composition of its operations) of the contents of the buffers the stage reads, and a
  buffer the stage does not write keeps its contents.
  Here: the last layer.
-/
import proofs.«167175_j43568148251366_1_alg».proof.Proof.RefRun0
import proofs.«167175_j43568148251366_1_alg».proof.Proof.RefTerm
import proofs.«167175_j43568148251366_1_alg».proof.Proof.LibHostLine

noncomputable section

namespace Cert.ReferenceIdeal.RefRun

open Cert.ReferenceIdeal Idealize.ShloMosaic Idealize.ShloMosaic.StableHlo Idealize.SL.Sem
open Cert.ReferenceIdeal.Facts₀ Cert.ReferenceIdeal.Facts

variable {F : FTy → Type} [FloatOps F] [Facts]

set_option maxRecDepth 8192 in
/-- Each of those operations writes one buffer of the list. -/
theorem opsB_writes : (opsB : List (HloOp τ sig (Elt F))).Forall fun op =>
    op.writes ⊆ (opsB_W.map (Proc.devRef (τ := τ) .tc)).toFinset := by
  simp only [List.Forall]
  exact ⟨by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide)⟩

set_option maxRecDepth 8192 in
set_option maxHeartbeats 4000000 in
/-- After the last layer's twenty operations `%171` holds the layer's function of `%138`, `%156` and the weights. -/
theorem layerB_out (V : Valuation τ sig (Elt F)) :
    after opsB V (no_index (Proc.devRef .tc main_v171))
      = RefTerm.layerB (V (Proc.devRef .tc main_v138)) (V (Proc.devRef .tc main_v156)) (V (Proc.devRef .tc main_arg11)) (V (Proc.devRef .tc main_arg12)) := by
  simp only [opsB]
  after_results_simp
  simp only [Cert.LibHostLine.ofBuf_toBuf]
  rfl

end Cert.ReferenceIdeal.RefRun
end
-- ==== Proof.RefRun9.lean ====
/-
  The reference's program read stage by stage.

  From any contents `V` of the buffers, `valK V` is what they hold after the first `K` stages. An argument buffer is written
  by no operation and holds `V`'s contents throughout; a stage's result buffer holds, from the stage on, the stage's
  function of the earlier results — the terms `tN V` below, `N` the result's number in the program —; the last of them is
  the reference's result as the composition of the stages.
-/
import proofs.«167175_j43568148251366_1_alg».proof.Proof.RefRun0
import proofs.«167175_j43568148251366_1_alg».proof.Proof.RefTerm
import proofs.«167175_j43568148251366_1_alg».proof.Proof.RefRun4
import proofs.«167175_j43568148251366_1_alg».proof.Proof.RefRun5
import proofs.«167175_j43568148251366_1_alg».proof.Proof.RefRun6
import proofs.«167175_j43568148251366_1_alg».proof.Proof.RefRun7
import proofs.«167175_j43568148251366_1_alg».proof.Proof.RefRun8
import Idealize.ShloMosaic.Lib.Pipeline.Frame

noncomputable section

namespace Cert.ReferenceIdeal.RefRun

open Cert.ReferenceIdeal Idealize.ShloMosaic Idealize.ShloMosaic.StableHlo Idealize.SL.Sem
open Cert.ReferenceIdeal.Facts₀ Cert.ReferenceIdeal.Facts

variable {F : FTy → Type} [FloatOps F] [Facts]

variable (V : Valuation τ sig (Elt F))

/-! ## The stages' results as terms of the arguments -/

/-- `%6` as a term of the arguments' contents. -/
def t6 : RefTerm.Arr F S50000x64 .f32 :=
  RefTerm.embRows (V (Proc.devRef .tc main_arg0)) (V (Proc.devRef .tc main_arg4))

/-- `%25` as a term of the arguments' contents. -/
def t25 : RefTerm.Arr F S50000x256 .f32 :=
  RefTerm.enc (t6 V) (V (Proc.devRef .tc main_arg1)) (V (Proc.devRef .tc main_arg5)) (V (Proc.devRef .tc main_arg6)) (V (Proc.devRef .tc main_arg7)) (V (Proc.devRef .tc main_arg8)) (V (Proc.devRef .tc main_arg9)) (V (Proc.devRef .tc main_arg10))

/-- `%32` as a term of the arguments' contents. -/
def t32 : RefTerm.Arr F S50000x1 .f32 :=
  RefTerm.degPlus (V (Proc.devRef .tc main_arg3))

/-- `%50` as a term of the arguments' contents. -/
def t50 : RefTerm.Arr F S50000x256 .f32 :=
  RefTerm.nbrMean (t25 V) (t32 V) (V (Proc.devRef .tc main_arg2)) (V (Proc.devRef .tc main_arg3))

/-- `%85` as a term of the arguments' contents. -/
def t85 : RefTerm.Arr F S50000x256 .f32 :=
  RefTerm.layerA0 (t25 V) (t50 V) (V (Proc.devRef .tc main_arg11)) (V (Proc.devRef .tc main_arg12)) (V (Proc.devRef .tc main_arg13)) (V (Proc.devRef .tc main_arg14)) (V (Proc.devRef .tc main_arg15)) (V (Proc.devRef .tc main_arg16))

/-- `%103` as a term of the arguments' contents. -/
def t103 : RefTerm.Arr F S50000x256 .f32 :=
  RefTerm.nbrMean (t85 V) (t32 V) (V (Proc.devRef .tc main_arg2)) (V (Proc.devRef .tc main_arg3))

/-- `%138` as a term of the arguments' contents. -/
def t138 : RefTerm.Arr F S50000x256 .f32 :=
  RefTerm.layerA1 (t85 V) (t103 V) (V (Proc.devRef .tc main_arg11)) (V (Proc.devRef .tc main_arg12)) (V (Proc.devRef .tc main_arg13)) (V (Proc.devRef .tc main_arg14)) (V (Proc.devRef .tc main_arg15)) (V (Proc.devRef .tc main_arg16))

/-- `%156` as a term of the arguments' contents. -/
def t156 : RefTerm.Arr F S50000x256 .f32 :=
  RefTerm.nbrMean (t138 V) (t32 V) (V (Proc.devRef .tc main_arg2)) (V (Proc.devRef .tc main_arg3))

/-- `%171` as a term of the arguments' contents. -/
def t171 : RefTerm.Arr F S50000x256 .f32 :=
  RefTerm.layerB (t138 V) (t156 V) (V (Proc.devRef .tc main_arg11)) (V (Proc.devRef .tc main_arg12))

/-- The last stage's term is the reference's result. -/
theorem t171_eq : t171 V = RefTerm.result (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) (V (Proc.devRef .tc main_arg13)) (V (Proc.devRef .tc main_arg14)) (V (Proc.devRef .tc main_arg15)) (V (Proc.devRef .tc main_arg16)) := rfl

/-! ## The contents after each stage -/

/-- The contents before the first stage. -/
def val0 : Valuation τ sig (Elt F) := V
theorem val0_main_arg0 : val0 V (no_index (Proc.devRef .tc main_arg0)) = V (Proc.devRef .tc main_arg0) := rfl
theorem val0_main_arg1 : val0 V (no_index (Proc.devRef .tc main_arg1)) = V (Proc.devRef .tc main_arg1) := rfl
theorem val0_main_arg2 : val0 V (no_index (Proc.devRef .tc main_arg2)) = V (Proc.devRef .tc main_arg2) := rfl
theorem val0_main_arg3 : val0 V (no_index (Proc.devRef .tc main_arg3)) = V (Proc.devRef .tc main_arg3) := rfl
theorem val0_main_arg4 : val0 V (no_index (Proc.devRef .tc main_arg4)) = V (Proc.devRef .tc main_arg4) := rfl
theorem val0_main_arg5 : val0 V (no_index (Proc.devRef .tc main_arg5)) = V (Proc.devRef .tc main_arg5) := rfl
theorem val0_main_arg6 : val0 V (no_index (Proc.devRef .tc main_arg6)) = V (Proc.devRef .tc main_arg6) := rfl
theorem val0_main_arg7 : val0 V (no_index (Proc.devRef .tc main_arg7)) = V (Proc.devRef .tc main_arg7) := rfl
theorem val0_main_arg8 : val0 V (no_index (Proc.devRef .tc main_arg8)) = V (Proc.devRef .tc main_arg8) := rfl
theorem val0_main_arg9 : val0 V (no_index (Proc.devRef .tc main_arg9)) = V (Proc.devRef .tc main_arg9) := rfl
theorem val0_main_arg10 : val0 V (no_index (Proc.devRef .tc main_arg10)) = V (Proc.devRef .tc main_arg10) := rfl
theorem val0_main_arg11 : val0 V (no_index (Proc.devRef .tc main_arg11)) = V (Proc.devRef .tc main_arg11) := rfl
theorem val0_main_arg12 : val0 V (no_index (Proc.devRef .tc main_arg12)) = V (Proc.devRef .tc main_arg12) := rfl
theorem val0_main_arg13 : val0 V (no_index (Proc.devRef .tc main_arg13)) = V (Proc.devRef .tc main_arg13) := rfl
theorem val0_main_arg14 : val0 V (no_index (Proc.devRef .tc main_arg14)) = V (Proc.devRef .tc main_arg14) := rfl
theorem val0_main_arg15 : val0 V (no_index (Proc.devRef .tc main_arg15)) = V (Proc.devRef .tc main_arg15) := rfl
theorem val0_main_arg16 : val0 V (no_index (Proc.devRef .tc main_arg16)) = V (Proc.devRef .tc main_arg16) := rfl

/-- The contents after the first 1 stage. -/
def val1 : Valuation τ sig (Elt F) := after opsEmb (val0 V)

theorem val1_keep (r : Ref sig .tc) (h : r ∉ opsEmb_W) :
    val1 V (Proc.devRef .tc r) = val0 V (Proc.devRef .tc r) :=
  after_of_writes_sub opsEmb _ opsEmb_writes h
theorem val1_main_arg0 : val1 V (no_index (Proc.devRef .tc main_arg0)) = V (Proc.devRef .tc main_arg0) :=
  (val1_keep V main_arg0 (by decide)).trans (val0_main_arg0 V)
theorem val1_main_arg1 : val1 V (no_index (Proc.devRef .tc main_arg1)) = V (Proc.devRef .tc main_arg1) :=
  (val1_keep V main_arg1 (by decide)).trans (val0_main_arg1 V)
theorem val1_main_arg2 : val1 V (no_index (Proc.devRef .tc main_arg2)) = V (Proc.devRef .tc main_arg2) :=
  (val1_keep V main_arg2 (by decide)).trans (val0_main_arg2 V)
theorem val1_main_arg3 : val1 V (no_index (Proc.devRef .tc main_arg3)) = V (Proc.devRef .tc main_arg3) :=
  (val1_keep V main_arg3 (by decide)).trans (val0_main_arg3 V)
theorem val1_main_arg4 : val1 V (no_index (Proc.devRef .tc main_arg4)) = V (Proc.devRef .tc main_arg4) :=
  (val1_keep V main_arg4 (by decide)).trans (val0_main_arg4 V)
theorem val1_main_arg5 : val1 V (no_index (Proc.devRef .tc main_arg5)) = V (Proc.devRef .tc main_arg5) :=
  (val1_keep V main_arg5 (by decide)).trans (val0_main_arg5 V)
theorem val1_main_arg6 : val1 V (no_index (Proc.devRef .tc main_arg6)) = V (Proc.devRef .tc main_arg6) :=
  (val1_keep V main_arg6 (by decide)).trans (val0_main_arg6 V)
theorem val1_main_arg7 : val1 V (no_index (Proc.devRef .tc main_arg7)) = V (Proc.devRef .tc main_arg7) :=
  (val1_keep V main_arg7 (by decide)).trans (val0_main_arg7 V)
theorem val1_main_arg8 : val1 V (no_index (Proc.devRef .tc main_arg8)) = V (Proc.devRef .tc main_arg8) :=
  (val1_keep V main_arg8 (by decide)).trans (val0_main_arg8 V)
theorem val1_main_arg9 : val1 V (no_index (Proc.devRef .tc main_arg9)) = V (Proc.devRef .tc main_arg9) :=
  (val1_keep V main_arg9 (by decide)).trans (val0_main_arg9 V)
theorem val1_main_arg10 : val1 V (no_index (Proc.devRef .tc main_arg10)) = V (Proc.devRef .tc main_arg10) :=
  (val1_keep V main_arg10 (by decide)).trans (val0_main_arg10 V)
theorem val1_main_arg11 : val1 V (no_index (Proc.devRef .tc main_arg11)) = V (Proc.devRef .tc main_arg11) :=
  (val1_keep V main_arg11 (by decide)).trans (val0_main_arg11 V)
theorem val1_main_arg12 : val1 V (no_index (Proc.devRef .tc main_arg12)) = V (Proc.devRef .tc main_arg12) :=
  (val1_keep V main_arg12 (by decide)).trans (val0_main_arg12 V)
theorem val1_main_arg13 : val1 V (no_index (Proc.devRef .tc main_arg13)) = V (Proc.devRef .tc main_arg13) :=
  (val1_keep V main_arg13 (by decide)).trans (val0_main_arg13 V)
theorem val1_main_arg14 : val1 V (no_index (Proc.devRef .tc main_arg14)) = V (Proc.devRef .tc main_arg14) :=
  (val1_keep V main_arg14 (by decide)).trans (val0_main_arg14 V)
theorem val1_main_arg15 : val1 V (no_index (Proc.devRef .tc main_arg15)) = V (Proc.devRef .tc main_arg15) :=
  (val1_keep V main_arg15 (by decide)).trans (val0_main_arg15 V)
theorem val1_main_arg16 : val1 V (no_index (Proc.devRef .tc main_arg16)) = V (Proc.devRef .tc main_arg16) :=
  (val1_keep V main_arg16 (by decide)).trans (val0_main_arg16 V)
theorem val1_main_v6 : val1 V (no_index (Proc.devRef .tc main_v6)) = t6 V :=
  (emb_out (val0 V)).trans (by simp only [val0_main_arg0, val0_main_arg4, t6])

/-- The contents after the first 2 stages. -/
def val2 : Valuation τ sig (Elt F) := after opsEnc (val1 V)

theorem val2_keep (r : Ref sig .tc) (h : r ∉ opsEnc_W) :
    val2 V (Proc.devRef .tc r) = val1 V (Proc.devRef .tc r) :=
  after_of_writes_sub opsEnc _ opsEnc_writes h
theorem val2_main_arg0 : val2 V (no_index (Proc.devRef .tc main_arg0)) = V (Proc.devRef .tc main_arg0) :=
  (val2_keep V main_arg0 (by decide)).trans (val1_main_arg0 V)
theorem val2_main_arg1 : val2 V (no_index (Proc.devRef .tc main_arg1)) = V (Proc.devRef .tc main_arg1) :=
  (val2_keep V main_arg1 (by decide)).trans (val1_main_arg1 V)
theorem val2_main_arg2 : val2 V (no_index (Proc.devRef .tc main_arg2)) = V (Proc.devRef .tc main_arg2) :=
  (val2_keep V main_arg2 (by decide)).trans (val1_main_arg2 V)
theorem val2_main_arg3 : val2 V (no_index (Proc.devRef .tc main_arg3)) = V (Proc.devRef .tc main_arg3) :=
  (val2_keep V main_arg3 (by decide)).trans (val1_main_arg3 V)
theorem val2_main_arg4 : val2 V (no_index (Proc.devRef .tc main_arg4)) = V (Proc.devRef .tc main_arg4) :=
  (val2_keep V main_arg4 (by decide)).trans (val1_main_arg4 V)
theorem val2_main_arg5 : val2 V (no_index (Proc.devRef .tc main_arg5)) = V (Proc.devRef .tc main_arg5) :=
  (val2_keep V main_arg5 (by decide)).trans (val1_main_arg5 V)
theorem val2_main_arg6 : val2 V (no_index (Proc.devRef .tc main_arg6)) = V (Proc.devRef .tc main_arg6) :=
  (val2_keep V main_arg6 (by decide)).trans (val1_main_arg6 V)
theorem val2_main_arg7 : val2 V (no_index (Proc.devRef .tc main_arg7)) = V (Proc.devRef .tc main_arg7) :=
  (val2_keep V main_arg7 (by decide)).trans (val1_main_arg7 V)
theorem val2_main_arg8 : val2 V (no_index (Proc.devRef .tc main_arg8)) = V (Proc.devRef .tc main_arg8) :=
  (val2_keep V main_arg8 (by decide)).trans (val1_main_arg8 V)
theorem val2_main_arg9 : val2 V (no_index (Proc.devRef .tc main_arg9)) = V (Proc.devRef .tc main_arg9) :=
  (val2_keep V main_arg9 (by decide)).trans (val1_main_arg9 V)
theorem val2_main_arg10 : val2 V (no_index (Proc.devRef .tc main_arg10)) = V (Proc.devRef .tc main_arg10) :=
  (val2_keep V main_arg10 (by decide)).trans (val1_main_arg10 V)
theorem val2_main_arg11 : val2 V (no_index (Proc.devRef .tc main_arg11)) = V (Proc.devRef .tc main_arg11) :=
  (val2_keep V main_arg11 (by decide)).trans (val1_main_arg11 V)
theorem val2_main_arg12 : val2 V (no_index (Proc.devRef .tc main_arg12)) = V (Proc.devRef .tc main_arg12) :=
  (val2_keep V main_arg12 (by decide)).trans (val1_main_arg12 V)
theorem val2_main_arg13 : val2 V (no_index (Proc.devRef .tc main_arg13)) = V (Proc.devRef .tc main_arg13) :=
  (val2_keep V main_arg13 (by decide)).trans (val1_main_arg13 V)
theorem val2_main_arg14 : val2 V (no_index (Proc.devRef .tc main_arg14)) = V (Proc.devRef .tc main_arg14) :=
  (val2_keep V main_arg14 (by decide)).trans (val1_main_arg14 V)
theorem val2_main_arg15 : val2 V (no_index (Proc.devRef .tc main_arg15)) = V (Proc.devRef .tc main_arg15) :=
  (val2_keep V main_arg15 (by decide)).trans (val1_main_arg15 V)
theorem val2_main_arg16 : val2 V (no_index (Proc.devRef .tc main_arg16)) = V (Proc.devRef .tc main_arg16) :=
  (val2_keep V main_arg16 (by decide)).trans (val1_main_arg16 V)
theorem val2_main_v25 : val2 V (no_index (Proc.devRef .tc main_v25)) = t25 V :=
  (enc_out (val1 V)).trans (by simp only [val1_main_v6, val1_main_arg1, val1_main_arg5, val1_main_arg6, val1_main_arg7, val1_main_arg8, val1_main_arg9, val1_main_arg10, t25])

/-- The contents after the first 3 stages. -/
def val3 : Valuation τ sig (Elt F) := after opsDeg (val2 V)

theorem val3_keep (r : Ref sig .tc) (h : r ∉ opsDeg_W) :
    val3 V (Proc.devRef .tc r) = val2 V (Proc.devRef .tc r) :=
  after_of_writes_sub opsDeg _ opsDeg_writes h
theorem val3_main_arg0 : val3 V (no_index (Proc.devRef .tc main_arg0)) = V (Proc.devRef .tc main_arg0) :=
  (val3_keep V main_arg0 (by decide)).trans (val2_main_arg0 V)
theorem val3_main_arg1 : val3 V (no_index (Proc.devRef .tc main_arg1)) = V (Proc.devRef .tc main_arg1) :=
  (val3_keep V main_arg1 (by decide)).trans (val2_main_arg1 V)
theorem val3_main_arg2 : val3 V (no_index (Proc.devRef .tc main_arg2)) = V (Proc.devRef .tc main_arg2) :=
  (val3_keep V main_arg2 (by decide)).trans (val2_main_arg2 V)
theorem val3_main_arg3 : val3 V (no_index (Proc.devRef .tc main_arg3)) = V (Proc.devRef .tc main_arg3) :=
  (val3_keep V main_arg3 (by decide)).trans (val2_main_arg3 V)
theorem val3_main_arg4 : val3 V (no_index (Proc.devRef .tc main_arg4)) = V (Proc.devRef .tc main_arg4) :=
  (val3_keep V main_arg4 (by decide)).trans (val2_main_arg4 V)
theorem val3_main_arg5 : val3 V (no_index (Proc.devRef .tc main_arg5)) = V (Proc.devRef .tc main_arg5) :=
  (val3_keep V main_arg5 (by decide)).trans (val2_main_arg5 V)
theorem val3_main_arg6 : val3 V (no_index (Proc.devRef .tc main_arg6)) = V (Proc.devRef .tc main_arg6) :=
  (val3_keep V main_arg6 (by decide)).trans (val2_main_arg6 V)
theorem val3_main_arg7 : val3 V (no_index (Proc.devRef .tc main_arg7)) = V (Proc.devRef .tc main_arg7) :=
  (val3_keep V main_arg7 (by decide)).trans (val2_main_arg7 V)
theorem val3_main_arg8 : val3 V (no_index (Proc.devRef .tc main_arg8)) = V (Proc.devRef .tc main_arg8) :=
  (val3_keep V main_arg8 (by decide)).trans (val2_main_arg8 V)
theorem val3_main_arg9 : val3 V (no_index (Proc.devRef .tc main_arg9)) = V (Proc.devRef .tc main_arg9) :=
  (val3_keep V main_arg9 (by decide)).trans (val2_main_arg9 V)
theorem val3_main_arg10 : val3 V (no_index (Proc.devRef .tc main_arg10)) = V (Proc.devRef .tc main_arg10) :=
  (val3_keep V main_arg10 (by decide)).trans (val2_main_arg10 V)
theorem val3_main_arg11 : val3 V (no_index (Proc.devRef .tc main_arg11)) = V (Proc.devRef .tc main_arg11) :=
  (val3_keep V main_arg11 (by decide)).trans (val2_main_arg11 V)
theorem val3_main_arg12 : val3 V (no_index (Proc.devRef .tc main_arg12)) = V (Proc.devRef .tc main_arg12) :=
  (val3_keep V main_arg12 (by decide)).trans (val2_main_arg12 V)
theorem val3_main_arg13 : val3 V (no_index (Proc.devRef .tc main_arg13)) = V (Proc.devRef .tc main_arg13) :=
  (val3_keep V main_arg13 (by decide)).trans (val2_main_arg13 V)
theorem val3_main_arg14 : val3 V (no_index (Proc.devRef .tc main_arg14)) = V (Proc.devRef .tc main_arg14) :=
  (val3_keep V main_arg14 (by decide)).trans (val2_main_arg14 V)
theorem val3_main_arg15 : val3 V (no_index (Proc.devRef .tc main_arg15)) = V (Proc.devRef .tc main_arg15) :=
  (val3_keep V main_arg15 (by decide)).trans (val2_main_arg15 V)
theorem val3_main_arg16 : val3 V (no_index (Proc.devRef .tc main_arg16)) = V (Proc.devRef .tc main_arg16) :=
  (val3_keep V main_arg16 (by decide)).trans (val2_main_arg16 V)
theorem val3_main_v25 : val3 V (no_index (Proc.devRef .tc main_v25)) = t25 V :=
  (val3_keep V main_v25 (by decide)).trans (val2_main_v25 V)
theorem val3_main_v32 : val3 V (no_index (Proc.devRef .tc main_v32)) = t32 V :=
  (deg_out (val2 V)).trans (by simp only [val2_main_arg3, t32])

/-- The contents after the first 4 stages. -/
def val4 : Valuation τ sig (Elt F) := after opsNbr0b (after opsNbr0a (val3 V))

theorem val4_keep (r : Ref sig .tc) (ha : r ∉ opsNbr0a_W) (hb : r ∉ opsNbr0b_W) :
    val4 V (Proc.devRef .tc r) = val3 V (Proc.devRef .tc r) :=
  (after_of_writes_sub opsNbr0b _ opsNbr0b_writes hb).trans (after_of_writes_sub opsNbr0a _ opsNbr0a_writes ha)
theorem val4_main_arg0 : val4 V (no_index (Proc.devRef .tc main_arg0)) = V (Proc.devRef .tc main_arg0) :=
  (val4_keep V main_arg0 (by decide) (by decide)).trans (val3_main_arg0 V)
theorem val4_main_arg1 : val4 V (no_index (Proc.devRef .tc main_arg1)) = V (Proc.devRef .tc main_arg1) :=
  (val4_keep V main_arg1 (by decide) (by decide)).trans (val3_main_arg1 V)
theorem val4_main_arg2 : val4 V (no_index (Proc.devRef .tc main_arg2)) = V (Proc.devRef .tc main_arg2) :=
  (val4_keep V main_arg2 (by decide) (by decide)).trans (val3_main_arg2 V)
theorem val4_main_arg3 : val4 V (no_index (Proc.devRef .tc main_arg3)) = V (Proc.devRef .tc main_arg3) :=
  (val4_keep V main_arg3 (by decide) (by decide)).trans (val3_main_arg3 V)
theorem val4_main_arg4 : val4 V (no_index (Proc.devRef .tc main_arg4)) = V (Proc.devRef .tc main_arg4) :=
  (val4_keep V main_arg4 (by decide) (by decide)).trans (val3_main_arg4 V)
theorem val4_main_arg5 : val4 V (no_index (Proc.devRef .tc main_arg5)) = V (Proc.devRef .tc main_arg5) :=
  (val4_keep V main_arg5 (by decide) (by decide)).trans (val3_main_arg5 V)
theorem val4_main_arg6 : val4 V (no_index (Proc.devRef .tc main_arg6)) = V (Proc.devRef .tc main_arg6) :=
  (val4_keep V main_arg6 (by decide) (by decide)).trans (val3_main_arg6 V)
theorem val4_main_arg7 : val4 V (no_index (Proc.devRef .tc main_arg7)) = V (Proc.devRef .tc main_arg7) :=
  (val4_keep V main_arg7 (by decide) (by decide)).trans (val3_main_arg7 V)
theorem val4_main_arg8 : val4 V (no_index (Proc.devRef .tc main_arg8)) = V (Proc.devRef .tc main_arg8) :=
  (val4_keep V main_arg8 (by decide) (by decide)).trans (val3_main_arg8 V)
theorem val4_main_arg9 : val4 V (no_index (Proc.devRef .tc main_arg9)) = V (Proc.devRef .tc main_arg9) :=
  (val4_keep V main_arg9 (by decide) (by decide)).trans (val3_main_arg9 V)
theorem val4_main_arg10 : val4 V (no_index (Proc.devRef .tc main_arg10)) = V (Proc.devRef .tc main_arg10) :=
  (val4_keep V main_arg10 (by decide) (by decide)).trans (val3_main_arg10 V)
theorem val4_main_arg11 : val4 V (no_index (Proc.devRef .tc main_arg11)) = V (Proc.devRef .tc main_arg11) :=
  (val4_keep V main_arg11 (by decide) (by decide)).trans (val3_main_arg11 V)
theorem val4_main_arg12 : val4 V (no_index (Proc.devRef .tc main_arg12)) = V (Proc.devRef .tc main_arg12) :=
  (val4_keep V main_arg12 (by decide) (by decide)).trans (val3_main_arg12 V)
theorem val4_main_arg13 : val4 V (no_index (Proc.devRef .tc main_arg13)) = V (Proc.devRef .tc main_arg13) :=
  (val4_keep V main_arg13 (by decide) (by decide)).trans (val3_main_arg13 V)
theorem val4_main_arg14 : val4 V (no_index (Proc.devRef .tc main_arg14)) = V (Proc.devRef .tc main_arg14) :=
  (val4_keep V main_arg14 (by decide) (by decide)).trans (val3_main_arg14 V)
theorem val4_main_arg15 : val4 V (no_index (Proc.devRef .tc main_arg15)) = V (Proc.devRef .tc main_arg15) :=
  (val4_keep V main_arg15 (by decide) (by decide)).trans (val3_main_arg15 V)
theorem val4_main_arg16 : val4 V (no_index (Proc.devRef .tc main_arg16)) = V (Proc.devRef .tc main_arg16) :=
  (val4_keep V main_arg16 (by decide) (by decide)).trans (val3_main_arg16 V)
theorem val4_main_v25 : val4 V (no_index (Proc.devRef .tc main_v25)) = t25 V :=
  (val4_keep V main_v25 (by decide) (by decide)).trans (val3_main_v25 V)
theorem val4_main_v32 : val4 V (no_index (Proc.devRef .tc main_v32)) = t32 V :=
  (val4_keep V main_v32 (by decide) (by decide)).trans (val3_main_v32 V)
theorem val4_main_v50 : val4 V (no_index (Proc.devRef .tc main_v50)) = t50 V :=
  (nbr0_out (val3 V)).trans (by simp only [val3_main_v25, val3_main_v32, val3_main_arg2, val3_main_arg3, t50])

/-- The contents after the first 5 stages. -/
def val5 : Valuation τ sig (Elt F) := after opsA0 (val4 V)

theorem val5_keep (r : Ref sig .tc) (h : r ∉ opsA0_W) :
    val5 V (Proc.devRef .tc r) = val4 V (Proc.devRef .tc r) :=
  after_of_writes_sub opsA0 _ opsA0_writes h
theorem val5_main_arg0 : val5 V (no_index (Proc.devRef .tc main_arg0)) = V (Proc.devRef .tc main_arg0) :=
  (val5_keep V main_arg0 (by decide)).trans (val4_main_arg0 V)
theorem val5_main_arg1 : val5 V (no_index (Proc.devRef .tc main_arg1)) = V (Proc.devRef .tc main_arg1) :=
  (val5_keep V main_arg1 (by decide)).trans (val4_main_arg1 V)
theorem val5_main_arg2 : val5 V (no_index (Proc.devRef .tc main_arg2)) = V (Proc.devRef .tc main_arg2) :=
  (val5_keep V main_arg2 (by decide)).trans (val4_main_arg2 V)
theorem val5_main_arg3 : val5 V (no_index (Proc.devRef .tc main_arg3)) = V (Proc.devRef .tc main_arg3) :=
  (val5_keep V main_arg3 (by decide)).trans (val4_main_arg3 V)
theorem val5_main_arg4 : val5 V (no_index (Proc.devRef .tc main_arg4)) = V (Proc.devRef .tc main_arg4) :=
  (val5_keep V main_arg4 (by decide)).trans (val4_main_arg4 V)
theorem val5_main_arg5 : val5 V (no_index (Proc.devRef .tc main_arg5)) = V (Proc.devRef .tc main_arg5) :=
  (val5_keep V main_arg5 (by decide)).trans (val4_main_arg5 V)
theorem val5_main_arg6 : val5 V (no_index (Proc.devRef .tc main_arg6)) = V (Proc.devRef .tc main_arg6) :=
  (val5_keep V main_arg6 (by decide)).trans (val4_main_arg6 V)
theorem val5_main_arg7 : val5 V (no_index (Proc.devRef .tc main_arg7)) = V (Proc.devRef .tc main_arg7) :=
  (val5_keep V main_arg7 (by decide)).trans (val4_main_arg7 V)
theorem val5_main_arg8 : val5 V (no_index (Proc.devRef .tc main_arg8)) = V (Proc.devRef .tc main_arg8) :=
  (val5_keep V main_arg8 (by decide)).trans (val4_main_arg8 V)
theorem val5_main_arg9 : val5 V (no_index (Proc.devRef .tc main_arg9)) = V (Proc.devRef .tc main_arg9) :=
  (val5_keep V main_arg9 (by decide)).trans (val4_main_arg9 V)
theorem val5_main_arg10 : val5 V (no_index (Proc.devRef .tc main_arg10)) = V (Proc.devRef .tc main_arg10) :=
  (val5_keep V main_arg10 (by decide)).trans (val4_main_arg10 V)
theorem val5_main_arg11 : val5 V (no_index (Proc.devRef .tc main_arg11)) = V (Proc.devRef .tc main_arg11) :=
  (val5_keep V main_arg11 (by decide)).trans (val4_main_arg11 V)
theorem val5_main_arg12 : val5 V (no_index (Proc.devRef .tc main_arg12)) = V (Proc.devRef .tc main_arg12) :=
  (val5_keep V main_arg12 (by decide)).trans (val4_main_arg12 V)
theorem val5_main_arg13 : val5 V (no_index (Proc.devRef .tc main_arg13)) = V (Proc.devRef .tc main_arg13) :=
  (val5_keep V main_arg13 (by decide)).trans (val4_main_arg13 V)
theorem val5_main_arg14 : val5 V (no_index (Proc.devRef .tc main_arg14)) = V (Proc.devRef .tc main_arg14) :=
  (val5_keep V main_arg14 (by decide)).trans (val4_main_arg14 V)
theorem val5_main_arg15 : val5 V (no_index (Proc.devRef .tc main_arg15)) = V (Proc.devRef .tc main_arg15) :=
  (val5_keep V main_arg15 (by decide)).trans (val4_main_arg15 V)
theorem val5_main_arg16 : val5 V (no_index (Proc.devRef .tc main_arg16)) = V (Proc.devRef .tc main_arg16) :=
  (val5_keep V main_arg16 (by decide)).trans (val4_main_arg16 V)
theorem val5_main_v32 : val5 V (no_index (Proc.devRef .tc main_v32)) = t32 V :=
  (val5_keep V main_v32 (by decide)).trans (val4_main_v32 V)
theorem val5_main_v85 : val5 V (no_index (Proc.devRef .tc main_v85)) = t85 V :=
  (layerA0_out (val4 V)).trans (by simp only [val4_main_v25, val4_main_v50, val4_main_arg11, val4_main_arg12, val4_main_arg13, val4_main_arg14, val4_main_arg15, val4_main_arg16, t85])

/-- The contents after the first 6 stages. -/
def val6 : Valuation τ sig (Elt F) := after opsNbr1b (after opsNbr1a (val5 V))

theorem val6_keep (r : Ref sig .tc) (ha : r ∉ opsNbr1a_W) (hb : r ∉ opsNbr1b_W) :
    val6 V (Proc.devRef .tc r) = val5 V (Proc.devRef .tc r) :=
  (after_of_writes_sub opsNbr1b _ opsNbr1b_writes hb).trans (after_of_writes_sub opsNbr1a _ opsNbr1a_writes ha)
theorem val6_main_arg0 : val6 V (no_index (Proc.devRef .tc main_arg0)) = V (Proc.devRef .tc main_arg0) :=
  (val6_keep V main_arg0 (by decide) (by decide)).trans (val5_main_arg0 V)
theorem val6_main_arg1 : val6 V (no_index (Proc.devRef .tc main_arg1)) = V (Proc.devRef .tc main_arg1) :=
  (val6_keep V main_arg1 (by decide) (by decide)).trans (val5_main_arg1 V)
theorem val6_main_arg2 : val6 V (no_index (Proc.devRef .tc main_arg2)) = V (Proc.devRef .tc main_arg2) :=
  (val6_keep V main_arg2 (by decide) (by decide)).trans (val5_main_arg2 V)
theorem val6_main_arg3 : val6 V (no_index (Proc.devRef .tc main_arg3)) = V (Proc.devRef .tc main_arg3) :=
  (val6_keep V main_arg3 (by decide) (by decide)).trans (val5_main_arg3 V)
theorem val6_main_arg4 : val6 V (no_index (Proc.devRef .tc main_arg4)) = V (Proc.devRef .tc main_arg4) :=
  (val6_keep V main_arg4 (by decide) (by decide)).trans (val5_main_arg4 V)
theorem val6_main_arg5 : val6 V (no_index (Proc.devRef .tc main_arg5)) = V (Proc.devRef .tc main_arg5) :=
  (val6_keep V main_arg5 (by decide) (by decide)).trans (val5_main_arg5 V)
theorem val6_main_arg6 : val6 V (no_index (Proc.devRef .tc main_arg6)) = V (Proc.devRef .tc main_arg6) :=
  (val6_keep V main_arg6 (by decide) (by decide)).trans (val5_main_arg6 V)
theorem val6_main_arg7 : val6 V (no_index (Proc.devRef .tc main_arg7)) = V (Proc.devRef .tc main_arg7) :=
  (val6_keep V main_arg7 (by decide) (by decide)).trans (val5_main_arg7 V)
theorem val6_main_arg8 : val6 V (no_index (Proc.devRef .tc main_arg8)) = V (Proc.devRef .tc main_arg8) :=
  (val6_keep V main_arg8 (by decide) (by decide)).trans (val5_main_arg8 V)
theorem val6_main_arg9 : val6 V (no_index (Proc.devRef .tc main_arg9)) = V (Proc.devRef .tc main_arg9) :=
  (val6_keep V main_arg9 (by decide) (by decide)).trans (val5_main_arg9 V)
theorem val6_main_arg10 : val6 V (no_index (Proc.devRef .tc main_arg10)) = V (Proc.devRef .tc main_arg10) :=
  (val6_keep V main_arg10 (by decide) (by decide)).trans (val5_main_arg10 V)
theorem val6_main_arg11 : val6 V (no_index (Proc.devRef .tc main_arg11)) = V (Proc.devRef .tc main_arg11) :=
  (val6_keep V main_arg11 (by decide) (by decide)).trans (val5_main_arg11 V)
theorem val6_main_arg12 : val6 V (no_index (Proc.devRef .tc main_arg12)) = V (Proc.devRef .tc main_arg12) :=
  (val6_keep V main_arg12 (by decide) (by decide)).trans (val5_main_arg12 V)
theorem val6_main_arg13 : val6 V (no_index (Proc.devRef .tc main_arg13)) = V (Proc.devRef .tc main_arg13) :=
  (val6_keep V main_arg13 (by decide) (by decide)).trans (val5_main_arg13 V)
theorem val6_main_arg14 : val6 V (no_index (Proc.devRef .tc main_arg14)) = V (Proc.devRef .tc main_arg14) :=
  (val6_keep V main_arg14 (by decide) (by decide)).trans (val5_main_arg14 V)
theorem val6_main_arg15 : val6 V (no_index (Proc.devRef .tc main_arg15)) = V (Proc.devRef .tc main_arg15) :=
  (val6_keep V main_arg15 (by decide) (by decide)).trans (val5_main_arg15 V)
theorem val6_main_arg16 : val6 V (no_index (Proc.devRef .tc main_arg16)) = V (Proc.devRef .tc main_arg16) :=
  (val6_keep V main_arg16 (by decide) (by decide)).trans (val5_main_arg16 V)
theorem val6_main_v32 : val6 V (no_index (Proc.devRef .tc main_v32)) = t32 V :=
  (val6_keep V main_v32 (by decide) (by decide)).trans (val5_main_v32 V)
theorem val6_main_v85 : val6 V (no_index (Proc.devRef .tc main_v85)) = t85 V :=
  (val6_keep V main_v85 (by decide) (by decide)).trans (val5_main_v85 V)
theorem val6_main_v103 : val6 V (no_index (Proc.devRef .tc main_v103)) = t103 V :=
  (nbr1_out (val5 V)).trans (by simp only [val5_main_v85, val5_main_v32, val5_main_arg2, val5_main_arg3, t103])

/-- The contents after the first 7 stages. -/
def val7 : Valuation τ sig (Elt F) := after opsA1 (val6 V)

theorem val7_keep (r : Ref sig .tc) (h : r ∉ opsA1_W) :
    val7 V (Proc.devRef .tc r) = val6 V (Proc.devRef .tc r) :=
  after_of_writes_sub opsA1 _ opsA1_writes h
theorem val7_main_arg0 : val7 V (no_index (Proc.devRef .tc main_arg0)) = V (Proc.devRef .tc main_arg0) :=
  (val7_keep V main_arg0 (by decide)).trans (val6_main_arg0 V)
theorem val7_main_arg1 : val7 V (no_index (Proc.devRef .tc main_arg1)) = V (Proc.devRef .tc main_arg1) :=
  (val7_keep V main_arg1 (by decide)).trans (val6_main_arg1 V)
theorem val7_main_arg2 : val7 V (no_index (Proc.devRef .tc main_arg2)) = V (Proc.devRef .tc main_arg2) :=
  (val7_keep V main_arg2 (by decide)).trans (val6_main_arg2 V)
theorem val7_main_arg3 : val7 V (no_index (Proc.devRef .tc main_arg3)) = V (Proc.devRef .tc main_arg3) :=
  (val7_keep V main_arg3 (by decide)).trans (val6_main_arg3 V)
theorem val7_main_arg4 : val7 V (no_index (Proc.devRef .tc main_arg4)) = V (Proc.devRef .tc main_arg4) :=
  (val7_keep V main_arg4 (by decide)).trans (val6_main_arg4 V)
theorem val7_main_arg5 : val7 V (no_index (Proc.devRef .tc main_arg5)) = V (Proc.devRef .tc main_arg5) :=
  (val7_keep V main_arg5 (by decide)).trans (val6_main_arg5 V)
theorem val7_main_arg6 : val7 V (no_index (Proc.devRef .tc main_arg6)) = V (Proc.devRef .tc main_arg6) :=
  (val7_keep V main_arg6 (by decide)).trans (val6_main_arg6 V)
theorem val7_main_arg7 : val7 V (no_index (Proc.devRef .tc main_arg7)) = V (Proc.devRef .tc main_arg7) :=
  (val7_keep V main_arg7 (by decide)).trans (val6_main_arg7 V)
theorem val7_main_arg8 : val7 V (no_index (Proc.devRef .tc main_arg8)) = V (Proc.devRef .tc main_arg8) :=
  (val7_keep V main_arg8 (by decide)).trans (val6_main_arg8 V)
theorem val7_main_arg9 : val7 V (no_index (Proc.devRef .tc main_arg9)) = V (Proc.devRef .tc main_arg9) :=
  (val7_keep V main_arg9 (by decide)).trans (val6_main_arg9 V)
theorem val7_main_arg10 : val7 V (no_index (Proc.devRef .tc main_arg10)) = V (Proc.devRef .tc main_arg10) :=
  (val7_keep V main_arg10 (by decide)).trans (val6_main_arg10 V)
theorem val7_main_arg11 : val7 V (no_index (Proc.devRef .tc main_arg11)) = V (Proc.devRef .tc main_arg11) :=
  (val7_keep V main_arg11 (by decide)).trans (val6_main_arg11 V)
theorem val7_main_arg12 : val7 V (no_index (Proc.devRef .tc main_arg12)) = V (Proc.devRef .tc main_arg12) :=
  (val7_keep V main_arg12 (by decide)).trans (val6_main_arg12 V)
theorem val7_main_arg13 : val7 V (no_index (Proc.devRef .tc main_arg13)) = V (Proc.devRef .tc main_arg13) :=
  (val7_keep V main_arg13 (by decide)).trans (val6_main_arg13 V)
theorem val7_main_arg14 : val7 V (no_index (Proc.devRef .tc main_arg14)) = V (Proc.devRef .tc main_arg14) :=
  (val7_keep V main_arg14 (by decide)).trans (val6_main_arg14 V)
theorem val7_main_arg15 : val7 V (no_index (Proc.devRef .tc main_arg15)) = V (Proc.devRef .tc main_arg15) :=
  (val7_keep V main_arg15 (by decide)).trans (val6_main_arg15 V)
theorem val7_main_arg16 : val7 V (no_index (Proc.devRef .tc main_arg16)) = V (Proc.devRef .tc main_arg16) :=
  (val7_keep V main_arg16 (by decide)).trans (val6_main_arg16 V)
theorem val7_main_v32 : val7 V (no_index (Proc.devRef .tc main_v32)) = t32 V :=
  (val7_keep V main_v32 (by decide)).trans (val6_main_v32 V)
theorem val7_main_v138 : val7 V (no_index (Proc.devRef .tc main_v138)) = t138 V :=
  (layerA1_out (val6 V)).trans (by simp only [val6_main_v85, val6_main_v103, val6_main_arg11, val6_main_arg12, val6_main_arg13, val6_main_arg14, val6_main_arg15, val6_main_arg16, t138])

/-- The contents after the first 8 stages. -/
def val8 : Valuation τ sig (Elt F) := after opsNbr2b (after opsNbr2a (val7 V))

theorem val8_keep (r : Ref sig .tc) (ha : r ∉ opsNbr2a_W) (hb : r ∉ opsNbr2b_W) :
    val8 V (Proc.devRef .tc r) = val7 V (Proc.devRef .tc r) :=
  (after_of_writes_sub opsNbr2b _ opsNbr2b_writes hb).trans (after_of_writes_sub opsNbr2a _ opsNbr2a_writes ha)
theorem val8_main_arg0 : val8 V (no_index (Proc.devRef .tc main_arg0)) = V (Proc.devRef .tc main_arg0) :=
  (val8_keep V main_arg0 (by decide) (by decide)).trans (val7_main_arg0 V)
theorem val8_main_arg1 : val8 V (no_index (Proc.devRef .tc main_arg1)) = V (Proc.devRef .tc main_arg1) :=
  (val8_keep V main_arg1 (by decide) (by decide)).trans (val7_main_arg1 V)
theorem val8_main_arg2 : val8 V (no_index (Proc.devRef .tc main_arg2)) = V (Proc.devRef .tc main_arg2) :=
  (val8_keep V main_arg2 (by decide) (by decide)).trans (val7_main_arg2 V)
theorem val8_main_arg3 : val8 V (no_index (Proc.devRef .tc main_arg3)) = V (Proc.devRef .tc main_arg3) :=
  (val8_keep V main_arg3 (by decide) (by decide)).trans (val7_main_arg3 V)
theorem val8_main_arg4 : val8 V (no_index (Proc.devRef .tc main_arg4)) = V (Proc.devRef .tc main_arg4) :=
  (val8_keep V main_arg4 (by decide) (by decide)).trans (val7_main_arg4 V)
theorem val8_main_arg5 : val8 V (no_index (Proc.devRef .tc main_arg5)) = V (Proc.devRef .tc main_arg5) :=
  (val8_keep V main_arg5 (by decide) (by decide)).trans (val7_main_arg5 V)
theorem val8_main_arg6 : val8 V (no_index (Proc.devRef .tc main_arg6)) = V (Proc.devRef .tc main_arg6) :=
  (val8_keep V main_arg6 (by decide) (by decide)).trans (val7_main_arg6 V)
theorem val8_main_arg7 : val8 V (no_index (Proc.devRef .tc main_arg7)) = V (Proc.devRef .tc main_arg7) :=
  (val8_keep V main_arg7 (by decide) (by decide)).trans (val7_main_arg7 V)
theorem val8_main_arg8 : val8 V (no_index (Proc.devRef .tc main_arg8)) = V (Proc.devRef .tc main_arg8) :=
  (val8_keep V main_arg8 (by decide) (by decide)).trans (val7_main_arg8 V)
theorem val8_main_arg9 : val8 V (no_index (Proc.devRef .tc main_arg9)) = V (Proc.devRef .tc main_arg9) :=
  (val8_keep V main_arg9 (by decide) (by decide)).trans (val7_main_arg9 V)
theorem val8_main_arg10 : val8 V (no_index (Proc.devRef .tc main_arg10)) = V (Proc.devRef .tc main_arg10) :=
  (val8_keep V main_arg10 (by decide) (by decide)).trans (val7_main_arg10 V)
theorem val8_main_arg11 : val8 V (no_index (Proc.devRef .tc main_arg11)) = V (Proc.devRef .tc main_arg11) :=
  (val8_keep V main_arg11 (by decide) (by decide)).trans (val7_main_arg11 V)
theorem val8_main_arg12 : val8 V (no_index (Proc.devRef .tc main_arg12)) = V (Proc.devRef .tc main_arg12) :=
  (val8_keep V main_arg12 (by decide) (by decide)).trans (val7_main_arg12 V)
theorem val8_main_arg13 : val8 V (no_index (Proc.devRef .tc main_arg13)) = V (Proc.devRef .tc main_arg13) :=
  (val8_keep V main_arg13 (by decide) (by decide)).trans (val7_main_arg13 V)
theorem val8_main_arg14 : val8 V (no_index (Proc.devRef .tc main_arg14)) = V (Proc.devRef .tc main_arg14) :=
  (val8_keep V main_arg14 (by decide) (by decide)).trans (val7_main_arg14 V)
theorem val8_main_arg15 : val8 V (no_index (Proc.devRef .tc main_arg15)) = V (Proc.devRef .tc main_arg15) :=
  (val8_keep V main_arg15 (by decide) (by decide)).trans (val7_main_arg15 V)
theorem val8_main_arg16 : val8 V (no_index (Proc.devRef .tc main_arg16)) = V (Proc.devRef .tc main_arg16) :=
  (val8_keep V main_arg16 (by decide) (by decide)).trans (val7_main_arg16 V)
theorem val8_main_v138 : val8 V (no_index (Proc.devRef .tc main_v138)) = t138 V :=
  (val8_keep V main_v138 (by decide) (by decide)).trans (val7_main_v138 V)
theorem val8_main_v156 : val8 V (no_index (Proc.devRef .tc main_v156)) = t156 V :=
  (nbr2_out (val7 V)).trans (by simp only [val7_main_v138, val7_main_v32, val7_main_arg2, val7_main_arg3, t156])

/-- The contents after the first 9 stages. -/
def val9 : Valuation τ sig (Elt F) := after opsB (val8 V)

theorem val9_keep (r : Ref sig .tc) (h : r ∉ opsB_W) :
    val9 V (Proc.devRef .tc r) = val8 V (Proc.devRef .tc r) :=
  after_of_writes_sub opsB _ opsB_writes h
theorem val9_main_arg0 : val9 V (no_index (Proc.devRef .tc main_arg0)) = V (Proc.devRef .tc main_arg0) :=
  (val9_keep V main_arg0 (by decide)).trans (val8_main_arg0 V)
theorem val9_main_arg1 : val9 V (no_index (Proc.devRef .tc main_arg1)) = V (Proc.devRef .tc main_arg1) :=
  (val9_keep V main_arg1 (by decide)).trans (val8_main_arg1 V)
theorem val9_main_arg2 : val9 V (no_index (Proc.devRef .tc main_arg2)) = V (Proc.devRef .tc main_arg2) :=
  (val9_keep V main_arg2 (by decide)).trans (val8_main_arg2 V)
theorem val9_main_arg3 : val9 V (no_index (Proc.devRef .tc main_arg3)) = V (Proc.devRef .tc main_arg3) :=
  (val9_keep V main_arg3 (by decide)).trans (val8_main_arg3 V)
theorem val9_main_arg4 : val9 V (no_index (Proc.devRef .tc main_arg4)) = V (Proc.devRef .tc main_arg4) :=
  (val9_keep V main_arg4 (by decide)).trans (val8_main_arg4 V)
theorem val9_main_arg5 : val9 V (no_index (Proc.devRef .tc main_arg5)) = V (Proc.devRef .tc main_arg5) :=
  (val9_keep V main_arg5 (by decide)).trans (val8_main_arg5 V)
theorem val9_main_arg6 : val9 V (no_index (Proc.devRef .tc main_arg6)) = V (Proc.devRef .tc main_arg6) :=
  (val9_keep V main_arg6 (by decide)).trans (val8_main_arg6 V)
theorem val9_main_arg7 : val9 V (no_index (Proc.devRef .tc main_arg7)) = V (Proc.devRef .tc main_arg7) :=
  (val9_keep V main_arg7 (by decide)).trans (val8_main_arg7 V)
theorem val9_main_arg8 : val9 V (no_index (Proc.devRef .tc main_arg8)) = V (Proc.devRef .tc main_arg8) :=
  (val9_keep V main_arg8 (by decide)).trans (val8_main_arg8 V)
theorem val9_main_arg9 : val9 V (no_index (Proc.devRef .tc main_arg9)) = V (Proc.devRef .tc main_arg9) :=
  (val9_keep V main_arg9 (by decide)).trans (val8_main_arg9 V)
theorem val9_main_arg10 : val9 V (no_index (Proc.devRef .tc main_arg10)) = V (Proc.devRef .tc main_arg10) :=
  (val9_keep V main_arg10 (by decide)).trans (val8_main_arg10 V)
theorem val9_main_arg11 : val9 V (no_index (Proc.devRef .tc main_arg11)) = V (Proc.devRef .tc main_arg11) :=
  (val9_keep V main_arg11 (by decide)).trans (val8_main_arg11 V)
theorem val9_main_arg12 : val9 V (no_index (Proc.devRef .tc main_arg12)) = V (Proc.devRef .tc main_arg12) :=
  (val9_keep V main_arg12 (by decide)).trans (val8_main_arg12 V)
theorem val9_main_arg13 : val9 V (no_index (Proc.devRef .tc main_arg13)) = V (Proc.devRef .tc main_arg13) :=
  (val9_keep V main_arg13 (by decide)).trans (val8_main_arg13 V)
theorem val9_main_arg14 : val9 V (no_index (Proc.devRef .tc main_arg14)) = V (Proc.devRef .tc main_arg14) :=
  (val9_keep V main_arg14 (by decide)).trans (val8_main_arg14 V)
theorem val9_main_arg15 : val9 V (no_index (Proc.devRef .tc main_arg15)) = V (Proc.devRef .tc main_arg15) :=
  (val9_keep V main_arg15 (by decide)).trans (val8_main_arg15 V)
theorem val9_main_arg16 : val9 V (no_index (Proc.devRef .tc main_arg16)) = V (Proc.devRef .tc main_arg16) :=
  (val9_keep V main_arg16 (by decide)).trans (val8_main_arg16 V)
theorem val9_main_v171 : val9 V (no_index (Proc.devRef .tc main_v171)) = t171 V :=
  (layerB_out (val8 V)).trans (by simp only [val8_main_v138, val8_main_v156, val8_main_arg11, val8_main_arg12, t171])

/-! ## The whole program -/

/-- The contents after all the operations are the contents after the nine stages. -/
theorem after_ops : after ops V = val9 V := by
  simp only [ops, win0, win1, win2, win3, StableHlo.after_append]
  rfl

/-- After the program the result buffer holds the reference's result, as the composition of the stages. -/
theorem out_eq : after ops V (Proc.devRef .tc main_v171)
    = RefTerm.result (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) (V (Proc.devRef .tc main_arg13)) (V (Proc.devRef .tc main_arg14)) (V (Proc.devRef .tc main_arg15)) (V (Proc.devRef .tc main_arg16)) := by
  rw [after_ops]
  exact (val9_main_v171 V).trans (t171_eq V)

/-- After the program an argument buffer holds what it held: `val9_main_argN` through `after_ops`. -/
theorem arg_eq {r : Ref sig .tc} (h : val9 V (Proc.devRef .tc r) = V (Proc.devRef .tc r)) :
    after ops V (Proc.devRef .tc r) = V (Proc.devRef .tc r) := by
  rw [after_ops]; exact h

end Cert.ReferenceIdeal.RefRun
end
-- ==== Proof.RefRun.lean ====
/-
  The reference's run.

  The reference's program is a straight line of 256 array operations (the functions it calls unfolded at their calls), so
  every weakly fair execution of it terminates, and ends with every buffer at the operations' composition over the
  contents it started from. Read stage by stage, the result buffer then holds the reference's result as the composition
  of the stage functions of the seventeen arguments, and every argument buffer holds what it held.
-/
import proofs.«167175_j43568148251366_1_alg».proof.Proof.RefRun0
import proofs.«167175_j43568148251366_1_alg».proof.Proof.RefTerm
import proofs.«167175_j43568148251366_1_alg».proof.Proof.RefRun1
import proofs.«167175_j43568148251366_1_alg».proof.Proof.RefRun2
import proofs.«167175_j43568148251366_1_alg».proof.Proof.RefRun3
import proofs.«167175_j43568148251366_1_alg».proof.Proof.RefRun9

noncomputable section

namespace Cert.ReferenceIdeal.RefRun

open Cert.ReferenceIdeal Idealize.ShloMosaic Idealize.ShloMosaic.StableHlo Idealize.SL.Sem
open Cert.ReferenceIdeal.Facts₀ Cert.ReferenceIdeal.Facts

variable {F : FTy → Type} [FloatOps F] [Facts]

/-- The program is the straight line of its 256 operations: window by window. -/
theorem main_eq (c : Dev nD) : main (F := F) c = seq ops := by
  rw [show (ops : List (HloOp τ sig (Elt F))) = win0 ++ (win1 ++ (win2 ++ win3)) from rfl,
    seq_append win0, seq_append win1, seq_append win2,
    ← main_part0_eq c, ← main_part1_eq c, ← main_part2_eq c, ← main_part3_eq c]
  rfl

set_option maxRecDepth 8192 in
/-- On every device, for any float values, from any memory with zero counters: every weakly fair execution of the
    reference terminates with the result buffer at the stages' composition over the arguments and the arguments
    unchanged. -/
theorem run (m : (ℓ : Loc nD τ sig) → Buf (Elt F) ℓ) (ρ : Dev nD → PrngReg) :
    θ_run (defs (F := F)) (onTc (τ := τ) (main (F := F))) ⟨m, fun _ => 0, ρ⟩ (fun r => ∀ c : Dev nD,
      r.2.mem ((c.tc : Thread nD τ).loc main_v171) = RefTerm.result (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)) :=
  (θ_run defs _ _).mono (fun _ h c => ⟨(h c main_v171).trans (out_eq (launchContents m c)),
      (h c main_arg0).trans (arg_eq _ (val9_main_arg0 (launchContents m c))),
      (h c main_arg1).trans (arg_eq _ (val9_main_arg1 (launchContents m c))),
      (h c main_arg2).trans (arg_eq _ (val9_main_arg2 (launchContents m c))),
      (h c main_arg3).trans (arg_eq _ (val9_main_arg3 (launchContents m c))),
      (h c main_arg4).trans (arg_eq _ (val9_main_arg4 (launchContents m c))),
      (h c main_arg5).trans (arg_eq _ (val9_main_arg5 (launchContents m c))),
      (h c main_arg6).trans (arg_eq _ (val9_main_arg6 (launchContents m c))),
      (h c main_arg7).trans (arg_eq _ (val9_main_arg7 (launchContents m c))),
      (h c main_arg8).trans (arg_eq _ (val9_main_arg8 (launchContents m c))),
      (h c main_arg9).trans (arg_eq _ (val9_main_arg9 (launchContents m c))),
      (h c main_arg10).trans (arg_eq _ (val9_main_arg10 (launchContents m c))),
      (h c main_arg11).trans (arg_eq _ (val9_main_arg11 (launchContents m c))),
      (h c main_arg12).trans (arg_eq _ (val9_main_arg12 (launchContents m c))),
      (h c main_arg13).trans (arg_eq _ (val9_main_arg13 (launchContents m c))),
      (h c main_arg14).trans (arg_eq _ (val9_main_arg14 (launchContents m c))),
      (h c main_arg15).trans (arg_eq _ (val9_main_arg15 (launchContents m c))),
      (h c main_arg16).trans (arg_eq _ (val9_main_arg16 (launchContents m c)))⟩)
    (run_seq scopedRefs_eq scopedSems_eq defs main (fun _ => ops) main_eq (fun _ => ops_sub) m ρ)

end Cert.ReferenceIdeal.RefRun
end
-- ==== Proof.Math.lean ====
/-
  Arithmetic of the extended reals that the two programs' agreement rests on.

  An entry is REAL when it is the image of a real number. Real entries are closed under sums, products, the leaky
  rectifier, and division by a positive real; a row of real entries has a positive real floored norm whatever the sum
  of its squares is. On real entries the cancellation  (a + h) - h = a  holds for every extended real a, which is the
  one place where the two programs differ by more than a rearrangement of sums. The rectifier's two spellings
  (strict and non-strict comparison with zero) agree because the slope times zero is zero, and a sum over 512 terms is
  the sum of its two halves.
-/
import proofs.«167175_j43568148251366_1_alg».proof.Proof.Spec

noncomputable section

namespace Cert.Math

open Idealize.ShloMosaic Idealize.ShloMosaic.ValueIdx Cert.Spec
open scoped BigOperators

/-- An extended real that is a real number. -/
def IsReal (x : EReal) : Prop := ∃ r : ℝ, x = (r : EReal)

/-- An extended real that is a positive real number. -/
def IsPos (x : EReal) : Prop := ∃ r : ℝ, 0 < r ∧ x = (r : EReal)

theorem IsReal.zero : IsReal 0 := ⟨0, rfl⟩

theorem IsReal.add {x y : EReal} (hx : IsReal x) (hy : IsReal y) : IsReal (x + y) := by
  obtain ⟨a, rfl⟩ := hx
  obtain ⟨b, rfl⟩ := hy
  exact ⟨a + b, (EReal.coe_add a b).symm⟩

theorem IsReal.mul {x y : EReal} (hx : IsReal x) (hy : IsReal y) : IsReal (x * y) := by
  obtain ⟨a, rfl⟩ := hx
  obtain ⟨b, rfl⟩ := hy
  exact ⟨a * b, (EReal.coe_mul a b).symm⟩

theorem IsReal.sum {ι : Type*} (s : Finset ι) (f : ι → EReal) (h : ∀ i ∈ s, IsReal (f i)) : IsReal (∑ i ∈ s, f i) :=
  Finset.sum_induction f IsReal (fun _ _ => IsReal.add) IsReal.zero h

theorem IsPos.isReal {x : EReal} (h : IsPos x) : IsReal x := by
  obtain ⟨r, _, rfl⟩ := h
  exact ⟨r, rfl⟩

/-- A real divided by a positive real is real. -/
theorem IsReal.div {x y : EReal} (hx : IsReal x) (hy : IsPos y) : IsReal (Ideal.div x y) := by
  obtain ⟨r, hr, rfl⟩ := hy
  rw [Ideal.div_coe hr.ne']
  exact hx.mul ⟨1 / r, rfl⟩

/-- What the two literal constants of the network are: the slope a real, the norm's floor a positive real. -/
structure Consts : Prop where
  slope : IsReal Spec.slope
  floor : IsPos Spec.normFloor

theorem lrelu_real (hc : Consts) {x : EReal} (hx : IsReal x) : IsReal (lrelu x) := by
  unfold lrelu
  split
  · exact hx
  · exact hc.slope.mul hx

/-- The rectifier with the non-strict comparison: at zero both branches are zero. -/
theorem lrelu_eq_ge (x : EReal) : lrelu x = if 0 ≤ x then x else slope * x := by
  unfold lrelu
  by_cases h : 0 < x
  · rw [if_pos h, if_pos h.le]
  · rw [if_neg h]
    by_cases h0 : 0 ≤ x
    · have hx : x = 0 := le_antisymm (not_lt.mp h) h0
      rw [if_pos h0, hx, mul_zero]
    · rw [if_neg h0]

/-- The floored norm of a row of real entries is a positive real. -/
theorem rowNorm_pos (hc : Consts) (x : Fin 256 → EReal) (hx : ∀ j, IsReal (x j)) : IsPos (rowNorm x) := by
  obtain ⟨e, he, hfe⟩ := hc.floor
  obtain ⟨s, hs⟩ := IsReal.sum Finset.univ (fun j => x j * x j) (fun j _ => (hx j).mul (hx j))
  unfold rowNorm
  rw [hs, hfe, Ideal.sqrt_coe]
  split
  · exact ⟨e, he, max_eq_right bot_le⟩
  · exact ⟨max (Real.sqrt s) e, lt_max_of_lt_right he, (EReal.coe_strictMono.monotone.map_max).symm⟩

theorem unitRow_real (hc : Consts) (x : Fin 256 → EReal) (hx : ∀ j, IsReal (x j)) (q : Fin 256) : IsReal (unitRow x q) :=
  (hx q).div (rowNorm_pos hc x hx)

theorem dense_real {n k m : ℕ} (a : Mat n k) (w : Mat k m) (b : Mat 1 m) (ha : ∀ i, IsReal (a i)) (hw : ∀ i, IsReal (w i))
    (hb : ∀ i, IsReal (b i)) (p : Fin n) (q : Fin m) : IsReal (dense a w b p q) :=
  (IsReal.sum _ _ fun _ _ => (ha _).mul (hw _)).add (hb _)

theorem enc_real (hc : Consts) {n : ℕ} (E : Mat n 64) (X : Mat n 300) (We : Mat 64 256) (be : Mat 1 256) (W1 : Mat 300 300)
    (b1 : Mat 1 300) (W2 : Mat 300 256) (b2 : Mat 1 256) (hE : ∀ i, IsReal (E i)) (hX : ∀ i, IsReal (X i))
    (hWe : ∀ i, IsReal (We i)) (hbe : ∀ i, IsReal (be i)) (hW1 : ∀ i, IsReal (W1 i)) (hb1 : ∀ i, IsReal (b1 i))
    (hW2 : ∀ i, IsReal (W2 i)) (hb2 : ∀ i, IsReal (b2 i)) (p : Fin n) (q : Fin 256) :
    IsReal (enc E X We be W1 b1 W2 b2 p q) :=
  (lrelu_real hc (dense_real E We be hE hWe hbe p q)).add
    (lrelu_real hc ((IsReal.sum _ _ fun j _ => (lrelu_real hc (dense_real X W1 b1 hX hW1 hb1 p j)).mul (hW2 _)).add (hb2 _)))

theorem conv_real {n : ℕ} (H HA : Mat n 256) (W1 W2 : Mat 256 256) (bc : Mat 1 256) (hH : ∀ i, IsReal (H i))
    (hHA : ∀ i, IsReal (HA i)) (hW1 : ∀ i, IsReal (W1 i)) (hW2 : ∀ i, IsReal (W2 i)) (hbc : ∀ i, IsReal (bc i))
    (p : Fin n) (q : Fin 256) : IsReal (conv H HA W1 W2 bc p q) :=
  ((IsReal.sum _ _ fun _ _ => (hH _).mul (hW1 _)).add (IsReal.sum _ _ fun _ _ => (hHA _).mul (hW2 _))).add (hbc _)

theorem layerB_real (hc : Consts) {n : ℕ} (H HA : Mat n 256) (W1 W2 : Mat 256 256) (bc : Mat 1 256) (hH : ∀ i, IsReal (H i))
    (hHA : ∀ i, IsReal (HA i)) (hW1 : ∀ i, IsReal (W1 i)) (hW2 : ∀ i, IsReal (W2 i)) (hbc : ∀ i, IsReal (bc i))
    (p : Fin n) (q : Fin 256) : IsReal (layerB H HA W1 W2 bc p q) :=
  unitRow_real hc _ (fun l => conv_real H HA W1 W2 bc hH hHA hW1 hW2 hbc p l) q

theorem layerA_real (hc : Consts) {n : ℕ} (H HA : Mat n 256) (W1 W2 : Mat 256 256) (bc : Mat 1 256) (Wo1 : Mat 256 256)
    (bo1 : Mat 1 256) (Wo2 : Mat 256 256) (bo2 : Mat 1 256) (hH : ∀ i, IsReal (H i)) (hHA : ∀ i, IsReal (HA i))
    (hW1 : ∀ i, IsReal (W1 i)) (hW2 : ∀ i, IsReal (W2 i)) (hbc : ∀ i, IsReal (bc i)) (hWo1 : ∀ i, IsReal (Wo1 i))
    (hbo1 : ∀ i, IsReal (bo1 i)) (hWo2 : ∀ i, IsReal (Wo2 i)) (hbo2 : ∀ i, IsReal (bo2 i)) (p : Fin n) (q : Fin 256) :
    IsReal (layerA H HA W1 W2 bc Wo1 bo1 Wo2 bo2 p q) :=
  (IsReal.sum _ _ fun j _ =>
      (lrelu_real hc
        ((IsReal.sum _ _ fun i _ =>
            (unitRow_real hc _ (fun l => lrelu_real hc (conv_real H HA W1 W2 bc hH hHA hW1 hW2 hbc p l)) i).mul (hWo1 _)).add
          (hbo1 _))).mul (hWo2 _)).add (hbo2 _)

/-- Adding a real and taking it away again changes nothing, whatever the other term. -/
theorem add_sub_cancel_real (a : EReal) {h : EReal} (hh : IsReal h) : a + h - h = a := by
  obtain ⟨r, rfl⟩ := hh
  exact EReal.add_sub_cancel_right

/-- A sum over 512 terms is the sum of its two halves. -/
theorem sum_halves (f : Fin (256 + 256) → EReal) :
    ∑ k : Fin (256 + 256), f k = ∑ j : Fin 256, f (Fin.castAdd 256 j) + ∑ j : Fin 256, f (Fin.natAdd 256 j) :=
  Fin.sum_univ_add f

end Cert.Math

end
-- ==== Proof.LibDotRead.lean ====
/-
  The host's matrix product read at an entry, for ANY contraction record of the "rows by columns" form.

  The host's product of an `a × K` by a `K × b` array has no accumulator; at the ideal instance it is the
  accumulating product started from the all-zero block, so its entry `(p, q)` is `Σ_k lhs[p, k] · rhs[k, q]`
  with `k` over `Fin K`. The record is a variable, so one proof serves every host product of this form.
-/
import Idealize.ShloMosaic.Lib.KernelVsHost
import proofs.«167175_j43568148251366_1_alg».proof.Proof.LibMatmulRead

noncomputable section

namespace Idealize.ShloMosaic.MatmulRead

open Idealize.ShloMosaic Idealize.ShloMosaic.ValueIdx
open scoped BigOperators

variable {a K b : ℕ} {D : DotDims (⟨2, ![a, K]⟩ : Shape) (⟨2, ![K, b]⟩ : Shape) (⟨2, ![a, b]⟩ : Shape)}

/-- Entry `(p, q)` of the host's product is `Σ_k lhs[p, k] · rhs[k, q]`. -/
theorem hostDot_ix2 (h : RowsByCols D) (hr : D.contr.rank = 1) (hs : D.contr.size ⟨0, by omega⟩ = K)
    (prec : Option ContractPrecision) {φ₁ φ₂ : FTy} (lhs : FVec Ideal (⟨2, ![a, K]⟩ : Shape) φ₁)
    (rhs : FVec Ideal (⟨2, ![K, b]⟩ : Shape) φ₂) (p : Fin a) (q : Fin b) :
    Host.dotGeneral D prec lhs rhs (ix2 p q) = ∑ k : Fin K, lhs (ix2 p k) * rhs (ix2 k q) := by
  rw [← matmul_zero_eq_dotGeneral]
  exact matmul_zero_ix2 h hr hs prec lhs rhs p q

end Idealize.ShloMosaic.MatmulRead
-- ==== Proof.RefRead.lean ====
/-
  The reference's stages read entry by entry, over the extended reals.

  Each whole-array operation of the reference has a plain reading at one index: the host's matrix product is the sum
  over the contracted axis, a bias repeated down the rows is its entry of that column, the rectifier's compare and
  select are its case split (its non-strict comparison agrees with the strict one because the slope times zero is
  zero), the row norm is the square root of the row's sum of squares. Read this way the first node representation and
  the three layers are the network's formulas at the weights' transposed slabs; the product over the 512 joined columns
  splits into the node half and the neighbour half.
-/
import Idealize.ShloMosaic.Lib.ValueLayout
import Idealize.ShloMosaic.Lib.IdealHost
import Idealize.ShloMosaic.Lib.KernelVsHost
import Idealize.ShloMosaic.Lib.Pipeline.Value
import proofs.«167175_j43568148251366_1_alg».proof.Proof.RefTerm
import proofs.«167175_j43568148251366_1_alg».proof.Proof.Math
import proofs.«167175_j43568148251366_1_alg».proof.Proof.Canon
import proofs.«167175_j43568148251366_1_alg».proof.Proof.LibDotRead
import proofs.«167175_j43568148251366_1_alg».proof.Proof.LibKeepdims

noncomputable section

namespace Cert.ReferenceIdeal.RefRead

open Idealize.ShloMosaic Idealize.ShloMosaic.ValueIdx Idealize.ShloMosaic.MatmulRead
open Cert.ReferenceIdeal Cert.ReferenceIdeal.RefTerm
open Cert.ReferenceIdeal.Facts₀ Cert.ReferenceIdeal.Facts
open scoped BigOperators

variable [Facts]

/-! ## The shared pieces -/

/-- The rectifier as the reference spells it (compare `≥`, multiply, select), at an index. -/
theorem lrelu_ge_elt (x : EReal) :
    Scalar.select (Ideal.cmp .oge x (Ideal.ofBits .f32 0x00000000#32)) x (Ideal.ofBits .f32 0x3DCCCCCD#32 * x)
      = Cert.Spec.lrelu x := by
  rw [Cert.Math.lrelu_eq_ge]
  unfold Cert.Spec.slope Scalar.select Ideal.cmp
  rw [Ideal.ofBits_zero_f32]
  by_cases h : (0 : EReal) ≤ x
  · simp [h]
  · simp [h]

theorem lrelu256_apply (x : FVec Ideal S50000x256 .f32) (i : S50000x256.Idx) :
    lrelu256 (F := Ideal) x slopeC i = Cert.Spec.lrelu (x i) := by
  unfold lrelu256 slopeC
  show Scalar.select (Ideal.cmp .oge (x i) (broadcastInDim S50000x256 ![] bcast_S_S50000x256 (constant (F := Ideal) S_ .f32 0x00000000#32) i))
      (x i) (broadcastInDim S50000x256 ![] bcast_S_S50000x256 (id (constant (F := Ideal) S_ .f32 0x3DCCCCCD#32)) i * x i) = _
  rw [broadcastInDim_scalar_apply, broadcastInDim_scalar_apply]
  exact lrelu_ge_elt (x i)

theorem lrelu300_apply (x : FVec Ideal S50000x300 .f32) (i : S50000x300.Idx) :
    lrelu300 (F := Ideal) x slopeC i = Cert.Spec.lrelu (x i) := by
  unfold lrelu300 slopeC
  show Scalar.select (Ideal.cmp .oge (x i) (broadcastInDim S50000x300 ![] bcast_S_S50000x300 (constant (F := Ideal) S_ .f32 0x00000000#32) i))
      (x i) (broadcastInDim S50000x300 ![] bcast_S_S50000x300 (id (constant (F := Ideal) S_ .f32 0x3DCCCCCD#32)) i * x i) = _
  rw [broadcastInDim_scalar_apply, broadcastInDim_scalar_apply]
  exact lrelu_ge_elt (x i)

/-- A vector repeated down the rows reads, at (p, q), its entry q. -/
theorem biasRows256_apply (b : FVec Ideal S256 .f32) (p : Fin 50000) (q : Fin 256) :
    biasRows256 (F := Ideal) b (ix2 p q) = b (ix1 q) := by
  unfold biasRows256
  rw [broadcastInDim_oneRow_apply]
  refine broadcastInDim_apply ![1] bcast_S256_S1x256_1 b (ix2 (0 : Fin 1) q) (ix1 q) fun a => ?_
  match a with
  | ⟨0, _⟩ =>
    show q.val = if (256 : ℕ) = 1 then 0 else q.val
    rw [if_neg (by decide)]

theorem biasRows300_apply (b : FVec Ideal S300 .f32) (p : Fin 50000) (q : Fin 300) :
    biasRows300 (F := Ideal) b (ix2 p q) = b (ix1 q) := by
  unfold biasRows300
  rw [broadcastInDim_oneRow_apply]
  refine broadcastInDim_apply ![1] bcast_S300_S1x300_1 b (ix2 (0 : Fin 1) q) (ix1 q) fun a => ?_
  match a with
  | ⟨0, _⟩ =>
    show q.val = if (300 : ℕ) = 1 then 0 else q.val
    rw [if_neg (by decide)]

theorem rbc_e : RowsByCols dot_S50000x64_S64x256_S50000x256_1_0_0_1_n_n := ⟨rfl, rfl, rfl, rfl, rfl, rfl⟩
theorem rbc_1 : RowsByCols dot_S50000x300_S300x300_S50000x300_1_0_0_1_n_n := ⟨rfl, rfl, rfl, rfl, rfl, rfl⟩
theorem rbc_2 : RowsByCols dot_S50000x300_S300x256_S50000x256_1_0_0_1_n_n := ⟨rfl, rfl, rfl, rfl, rfl, rfl⟩
theorem rbc_mix : RowsByCols dot_S50000x512_S512x256_S50000x256_1_0_0_1_n_n := ⟨rfl, rfl, rfl, rfl, rfl, rfl⟩
theorem rbc_d : RowsByCols dot_S50000x256_S256x256_S50000x256_1_0_0_1_n_n := ⟨rfl, rfl, rfl, rfl, rfl, rfl⟩

/-! ## The first node representation -/

/-- The reference's first stage at (p, q): the network's first representation, at the transposed weight arrays and the
    biases as one-row arrays. -/
theorem enc_apply (e : FVec Ideal S50000x64 .f32) (a1 : FVec Ideal S50000x300 .f32) (a5 : FVec Ideal S256x64 .f32)
    (a6 : FVec Ideal S256 .f32) (a7 : FVec Ideal S300x300 .f32) (a8 : FVec Ideal S300 .f32) (a9 : FVec Ideal S256x300 .f32)
    (a10 : FVec Ideal S256 .f32) (p : Fin 50000) (q : Fin 256) :
    enc (F := Ideal) e a1 a5 a6 a7 a8 a9 a10 (ix2 p q)
      = Cert.Spec.enc e a1 (transpose S64x256 [1, 0] a5 transposes_S256x64_S64x256_1_0) (Cert.Canon.rowOf a6)
          (transpose S300x300 [1, 0] a7 transposes_S300x300_S300x300_1_0) (Cert.Canon.rowOf a8)
          (transpose S300x256 [1, 0] a9 transposes_S256x300_S300x256_1_0) (Cert.Canon.rowOf a10) p q := by
  unfold enc Cert.Spec.enc Cert.Spec.dense
  show lrelu256 (F := Ideal) _ slopeC (ix2 p q) + lrelu256 (F := Ideal) _ slopeC (ix2 p q) = _
  rw [lrelu256_apply, lrelu256_apply]
  refine congrArg₂ (fun x y => Cert.Spec.lrelu x + Cert.Spec.lrelu y) ?_ ?_
  · show Host.dotGeneral (F := Ideal) _ none e _ (ix2 p q) + biasRows256 (F := Ideal) a6 (ix2 p q) = _
    rw [hostDot_ix2 rbc_e rfl rfl, biasRows256_apply]
    rfl
  · show Host.dotGeneral (F := Ideal) _ none _ _ (ix2 p q) + biasRows256 (F := Ideal) a10 (ix2 p q) = _
    rw [hostDot_ix2 rbc_2 rfl rfl, biasRows256_apply]
    refine congrArg₂ (· + ·) (Finset.sum_congr rfl fun j _ => congrArg (· * _) ?_) rfl
    rw [lrelu300_apply]
    refine congrArg Cert.Spec.lrelu ?_
    show Host.dotGeneral (F := Ideal) _ none a1 _ (ix2 p j) + biasRows300 (F := Ideal) a8 (ix2 p j) = _
    rw [hostDot_ix2 rbc_1 rfl rfl, biasRows300_apply]
    rfl

end Cert.ReferenceIdeal.RefRead

end
-- ==== Proof.RefRead2.lean ====
/-
  The reference's layers read entry by entry, over the extended reals.

  A message-passing layer of the reference joins the node rows and the neighbour means side by side and multiplies
  the 512 joined columns by the transposed weight slab; read at one entry that product is the sum over the node half
  plus the sum over the neighbour half, each against its own half of the slab. A dense map of 256-wide rows is the
  sum against the transposed slab plus the bias's entry. Dividing every row by its floored norm reads, at one entry,
  as the entry over the larger of the square root of the row's sum of squares and the floor. Composed, the inner
  layers and the last layer are the network's formulas at the weights' transposed slabs.
-/
import proofs.«167175_j43568148251366_1_alg».proof.Proof.RefRead

noncomputable section

namespace Cert.ReferenceIdeal.RefRead2

open Idealize.ShloMosaic Idealize.ShloMosaic.ValueIdx Idealize.ShloMosaic.MatmulRead
open Cert.ReferenceIdeal Cert.ReferenceIdeal.RefTerm Cert.ReferenceIdeal.RefRead
open Cert.ReferenceIdeal.Facts₀ Cert.ReferenceIdeal.Facts
open scoped BigOperators

variable [Facts]

/-- The transposed 256 × 512 slab at row `k` of its 512 and column `q` is the slab's entry `(0, q, k)`. -/
theorem slab512_apply (w : FVec Ideal S1x256x512 .f32) (k : Fin 512) (q : Fin 256) :
    transpose S512x256 [1, 0] (shapeCast S256x512 w shapeCasts_S1x256x512_S256x512) transposes_S256x512_S512x256_1_0 (ix2 k q)
      = w (ix3 (0 : Fin 1) q k) := by
  rw [transpose_ix2_apply, shapeCast_1ab_ab_apply]

/-- The transposed 256 × 256 slab at `(j, q)` is the slab's entry `(0, q, j)`. -/
theorem slab256_apply (w : FVec Ideal S1x256x256 .f32) (j q : Fin 256) :
    transpose S256x256 [1, 0] (shapeCast S256x256 w shapeCasts_S1x256x256_S256x256) transposes_S256x256_S256x256_1_0 (ix2 j q)
      = w (ix3 (0 : Fin 1) q j) := by
  rw [transpose_ix2_apply, shapeCast_1ab_ab_apply]

/-- The joined array's first 256 columns are the node rows … -/
theorem joined_left (h a : FVec Ideal S50000x256 .f32) (p : Fin 50000) (j : Fin 256) :
    concatenate S50000x512 1 [⟨S50000x256, h⟩, ⟨S50000x256, a⟩] concatenates_S50000x256_S50000x256_S50000x512_d1
        (ix2 p (Fin.castAdd 256 j)) = h (ix2 p j) :=
  concatenate_pair_apply_left 1 h a concatenates_S50000x256_S50000x256_S50000x512_d1 (ix2 p (Fin.castAdd 256 j)) rfl (ix2 p j)
    fun b => match b with | ⟨0, _⟩ => rfl | ⟨1, _⟩ => rfl

/-- … and its last 256 the neighbour means. -/
theorem joined_right (h a : FVec Ideal S50000x256 .f32) (p : Fin 50000) (j : Fin 256) :
    concatenate S50000x512 1 [⟨S50000x256, h⟩, ⟨S50000x256, a⟩] concatenates_S50000x256_S50000x256_S50000x512_d1
        (ix2 p (Fin.natAdd 256 j)) = a (ix2 p j) :=
  concatenate_pair_apply_right 1 h a concatenates_S50000x256_S50000x256_S50000x512_d1 (ix2 p (Fin.natAdd 256 j)) rfl rfl (ix2 p j)
    (fun b => match b with | ⟨0, _⟩ => fun _ => rfl | ⟨1, _⟩ => fun hne => absurd rfl hne)
    (by show j.val + 256 = 256 + j.val; omega)

/-- The layer's affine map at `(p, q)`: the node half and the neighbour half of the 512-term product, plus the bias. -/
theorem mix_apply (h a : FVec Ideal S50000x256 .f32) (w : FVec Ideal S1x256x512 .f32) (b : FVec Ideal S1x256 .f32)
    (p : Fin 50000) (q : Fin 256) :
    mix (F := Ideal) h a w b (ix2 p q) = Cert.Spec.conv h a (Cert.Canon.halfL w) (Cert.Canon.halfR w) b p q := by
  unfold mix Cert.Spec.conv
  show Host.dotGeneral (F := Ideal) _ none _ _ (ix2 p q) + biasRows256 (F := Ideal) _ (ix2 p q) = _
  rw [hostDot_ix2 rbc_mix rfl rfl, biasRows256_apply, shapeCast_1a_a_apply]
  refine congrArg (· + b (ix2 (0 : Fin 1) q)) ?_
  refine (Cert.Math.sum_halves _).trans ?_
  refine congrArg₂ (· + ·) (Finset.sum_congr rfl fun j _ => ?_) (Finset.sum_congr rfl fun j _ => ?_)
  · exact congrArg₂ (· * ·) (joined_left h a p j) (slab512_apply w (Fin.castAdd 256 j) q)
  · exact congrArg₂ (· * ·) (joined_right h a p j) (slab512_apply w (Fin.natAdd 256 j) q)

/-- A dense map of 256-wide rows at `(p, q)`. -/
theorem dense256_apply (x : FVec Ideal S50000x256 .f32) (w : FVec Ideal S1x256x256 .f32) (b : FVec Ideal S1x256 .f32)
    (p : Fin 50000) (q : Fin 256) :
    dense256 (F := Ideal) x w b (ix2 p q) = Cert.Spec.dense x (Cert.Canon.slabT w) b p q := by
  unfold dense256 Cert.Spec.dense
  show Host.dotGeneral (F := Ideal) _ none x _ (ix2 p q) + biasRows256 (F := Ideal) _ (ix2 p q) = _
  rw [hostDot_ix2 rbc_d rfl rfl, biasRows256_apply, shapeCast_1a_a_apply]
  refine congrArg (· + b (ix2 (0 : Fin 1) q)) ?_
  exact Finset.sum_congr rfl fun j _ => congrArg (x (ix2 p j) * ·) (slab256_apply w j q)

/-- The host's square root at an index is the square root of the entry. -/
theorem hostSqrt_apply {s : Shape} {φ : FTy} (v : FVec Ideal s φ) (i : s.Idx) : Host.sqrt v i = Ideal.sqrt (v i) := rfl

/-- A vector `[a]` laid out as the column `[a, 1]` reads, at `(p, u)`, its entry `p`. -/
theorem vecCol_apply {a : ℕ} {α : Type} (v : (⟨1, ![a]⟩ : Shape).Idx → α)
    (h : (⟨1, ![a]⟩ : Shape).BroadcastsInDim (⟨2, ![a, 1]⟩ : Shape) ![0]) (p : Fin a) (u : Fin 1) :
    broadcastInDim (⟨2, ![a, 1]⟩ : Shape) ![0] h v (ix2 p u) = v (ix1 p) := by
  refine broadcastInDim_apply ![0] h v (ix2 p u) (ix1 p) fun c => ?_
  match c with
  | ⟨0, _⟩ =>
    show p.val = if a = 1 then 0 else p.val
    split
    · have := p.isLt; omega
    · rfl

/-- A column `[a, 1]` repeated over `b` lanes reads, at `(p, q)`, the column's entry of row `p`. -/
theorem colLanes_apply {a b : ℕ} {α : Type} (v : (⟨2, ![a, 1]⟩ : Shape).Idx → α)
    (h : (⟨2, ![a, 1]⟩ : Shape).BroadcastsInDim (⟨2, ![a, b]⟩ : Shape) ![0, 1]) (p : Fin a) (q : Fin b) :
    broadcastInDim (⟨2, ![a, b]⟩ : Shape) ![0, 1] h v (ix2 p q) = v (ix2 p (0 : Fin 1)) := by
  refine broadcastInDim_apply ![0, 1] h v (ix2 p q) (ix2 p (0 : Fin 1)) fun c => ?_
  match c with
  | ⟨0, _⟩ =>
    show p.val = if a = 1 then 0 else p.val
    split
    · have := p.isLt; omega
    · rfl
  | ⟨1, _⟩ =>
    show (0 : ℕ) = if (1 : ℕ) = 1 then 0 else q.val
    rw [if_pos rfl]

/-- The reference's row norm, as a column, at row `p`: the square root of the row's sum of squares. -/
theorem rowNorm_apply (x : FVec Ideal S50000x256 .f32) (p : Fin 50000) :
    rowNorm (F := Ideal) x (ix2 p (0 : Fin 1)) = Ideal.sqrt (∑ j : Fin 256, x (ix2 p j) * x (ix2 p j)) := by
  have hR : S50000x256.Reduces [1] S50000 := by decide
  unfold rowNorm
  rw [hostSqrt_apply, vecCol_apply, hostReduceAdd_apply, Ideal.hostReduceAdd_single reducesTo_S50000x256_S50000_d1 hR]
  refine congrArg Ideal.sqrt ?_
  show Ideal.ofBits .f32 0x00000000#32 + _ = _
  rw [Ideal.ofBits_zero_f32, zero_add]
  refine Finset.sum_congr rfl fun k _ => ?_
  have e : hR.lift (ix1 p) k = ix2 p k := funext fun c => by
    match c with
    | ⟨0, _⟩ => exact Fin.ext rfl
    | ⟨1, _⟩ => exact Fin.ext rfl
  rw [e]
  rfl

/-- Every row divided by its floored norm, at `(p, q)`. -/
theorem unitRows_apply (x : FVec Ideal S50000x256 .f32) (p : Fin 50000) (q : Fin 256) :
    unitRows (F := Ideal) x (ix2 p q) = Cert.Spec.unitRow (fun l => x (ix2 p l)) q := by
  unfold unitRows Cert.Spec.unitRow Cert.Spec.rowNorm Cert.Spec.normFloor
  rw [hostDivf_apply, colLanes_apply, maximumf_apply, rowNorm_apply, broadcastInDim_scalar_apply]
  rfl

/-- An inner layer at `(p, q)`. -/
theorem layerA_apply (h a : FVec Ideal S50000x256 .f32) (w : FVec Ideal S1x256x512 .f32) (b : FVec Ideal S1x256 .f32)
    (w1 : FVec Ideal S1x256x256 .f32) (b1 : FVec Ideal S1x256 .f32) (w2 : FVec Ideal S1x256x256 .f32)
    (b2 : FVec Ideal S1x256 .f32) (p : Fin 50000) (q : Fin 256) :
    layerA (F := Ideal) h a w b w1 b1 w2 b2 (ix2 p q)
      = Cert.Spec.layerA h a (Cert.Canon.halfL w) (Cert.Canon.halfR w) b (Cert.Canon.slabT w1) b1 (Cert.Canon.slabT w2) b2 p q := by
  unfold layerA Cert.Spec.layerA
  rw [dense256_apply]
  unfold Cert.Spec.dense
  refine congrArg (· + b2 (ix2 (0 : Fin 1) q)) ?_
  refine Finset.sum_congr rfl fun j _ => congrArg (· * Cert.Canon.slabT w2 (ix2 j q)) ?_
  rw [lrelu256_apply]
  refine congrArg Cert.Spec.lrelu ?_
  rw [dense256_apply]
  unfold Cert.Spec.dense
  refine congrArg (· + b1 (ix2 (0 : Fin 1) j)) ?_
  refine Finset.sum_congr rfl fun i _ => congrArg (· * Cert.Canon.slabT w1 (ix2 i j)) ?_
  rw [unitRows_apply]
  refine congrArg (fun f => Cert.Spec.unitRow f i) (funext fun l => ?_)
  rw [lrelu256_apply, mix_apply]

/-- The last layer at `(p, q)`. -/
theorem layerB_apply (h a : FVec Ideal S50000x256 .f32) (w : FVec Ideal S1x256x512 .f32) (b : FVec Ideal S1x256 .f32)
    (p : Fin 50000) (q : Fin 256) :
    unitRows (F := Ideal) (mix (F := Ideal) h a w b) (ix2 p q)
      = Cert.Spec.layerB h a (Cert.Canon.halfL w) (Cert.Canon.halfR w) b p q := by
  unfold Cert.Spec.layerB
  rw [unitRows_apply]
  exact congrArg (fun f => Cert.Spec.unitRow f q) (funext fun l => mix_apply h a w b p l)

end Cert.ReferenceIdeal.RefRead2

end
-- ==== Proof.PreConsts.lean ====
/-
  Four float literals of the two programs, read as extended reals: one, zero, the rectifier's slope on the negative
  side, and the floor under a row's norm. A binary32 pattern with sign bit clear, exponent field `E` (neither zero nor
  all ones) and fraction field `T` denotes the real `(2²³ + T) · 2^(E − 127 − 23)`; the all-zero pattern denotes zero.
-/
import Idealize.ShloMosaic.PureOps.Ideal.Laws

namespace Cert.PreFinite

open Idealize.ShloMosaic

/-- Exponent field 127, fraction field zero: `2²³ · 2⁻²³`, the real one. -/
theorem one_eq : Ideal.ofBits .f32 0x3F800000#32 = ((1 : ℝ) : EReal) := by
  simp [Ideal.ofBits, Ideal.ieee, -EReal.coe_mul]; norm_num

/-- The all-zero pattern is zero. -/
theorem zero_eq : Ideal.ofBits .f32 0x00000000#32 = 0 := Ideal.ofBits_zero_f32

/-- Exponent field 123, fraction field 5033165: `13421773 · 2⁻²⁷`, the binary32 value nearest one tenth. -/
theorem slope_eq : Ideal.ofBits .f32 0x3DCCCCCD#32 = (((13421773 : ℝ) / 134217728 : ℝ) : EReal) := by
  simp [Ideal.ofBits, Ideal.ieee, -EReal.coe_mul]; norm_num

/-- Exponent field 107, fraction field 407485: `8796093 · 2⁻⁴³`, the binary32 value nearest one millionth. -/
theorem floor_eq : Ideal.ofBits .f32 0x358637BD#32 = (((8796093 : ℝ) / 8796093022208 : ℝ) : EReal) := by
  simp [Ideal.ofBits, Ideal.ieee, -EReal.coe_mul]; norm_num

/-- The slope is a real number. -/
theorem slope_real : ∃ r : ℝ, Ideal.ofBits .f32 0x3DCCCCCD#32 = (r : EReal) := ⟨_, slope_eq⟩

/-- The slope is a positive real number below one. -/
theorem slope_pos : ∃ r : ℝ, 0 < r ∧ r < 1 ∧ Ideal.ofBits .f32 0x3DCCCCCD#32 = (r : EReal) :=
  ⟨_, by norm_num, by norm_num, slope_eq⟩

/-- The floor is a positive real number. -/
theorem floor_pos : ∃ r : ℝ, 0 < r ∧ Ideal.ofBits .f32 0x358637BD#32 = (r : EReal) :=
  ⟨_, by norm_num, floor_eq⟩

end Cert.PreFinite
-- ==== Proof.MeanBridge.lean ====
/-
  The reference's neighbour mean is the plain mean, and its entries are real.

  The reference forms the mean of a node's neighbours in a roundabout way: to the sum of the neighbours' rows it adds the
  node's own row and takes it away again, and to the in-degree it adds one and takes it away again before flooring it
  at one. Over the extended reals  (a + h) - h = a  needs `h` to be a real number (at an infinity the difference is not
  `a`), so the first step uses that the node rows are real; the second is  (d + 1) - 1 = d, the literal one being the
  real one. The plain mean itself has real entries when the node rows do: its numerator is zero plus a finite sum of
  entries of the node rows, and its denominator, the larger of a finite sum of ones and one, is a positive real.
  A gathered or broadcast array takes each of its entries from the array it reads, so whatever holds of every entry of
  that array holds of every entry of the result; where each entry comes from does not matter here.
-/
import proofs.«167175_j43568148251366_1_alg».proof.Proof.RefTerm
import proofs.«167175_j43568148251366_1_alg».proof.Proof.MeanForm
import proofs.«167175_j43568148251366_1_alg».proof.Proof.Math
import proofs.«167175_j43568148251366_1_alg».proof.Proof.PreConsts
import Idealize.ShloMosaic.Lib.IdealHost

namespace Cert.ReferenceIdeal.MeanBridge

open Idealize.ShloMosaic Cert.ReferenceIdeal Cert.ReferenceIdeal.RefTerm
open Cert.ReferenceIdeal.Facts₀ Cert.ReferenceIdeal.Facts
open Cert.Math (IsReal IsPos)
open scoped BigOperators

variable [Facts]

/-! ## Entries of gathered, broadcast and scattered arrays -/

/-- Every entry of a broadcast array is an entry of its operand. -/
theorem bcast_all {s t : Shape} {α : Type} {P : α → Prop} (dims : Fin s.rank → Fin t.rank)
    (hb : s.BroadcastsInDim t dims) (x : s.Idx → α) (hx : ∀ k, P (x k)) (j : t.Idx) :
    P (broadcastInDim t dims hb x j) := by
  unfold broadcastInDim
  exact hx _

/-- Every entry of a gathered array is an entry of its operand. -/
theorem gather_all {s si t : Shape} {α : Type} {w : ℕ} {P : α → Prop} (d : GatherDims s si t) (x : s.Idx → α)
    (idx : IVec si w) (hx : ∀ k, P (x k)) (j : t.Idx) : P (Host.gather d x idx j) := by
  unfold Host.gather
  exact hx _

/-- The zero pattern is a real number. -/
theorem zero_real : IsReal (Ideal.ofBits .f32 0x00000000#32) := ⟨0, Cert.PreFinite.zero_eq⟩

/-- The pattern of one is a real number. -/
theorem one_real : IsReal (Ideal.ofBits .f32 0x3F800000#32) := ⟨1, Cert.PreFinite.one_eq⟩

/-- An accumulating scatter of real updates into a real operand has real entries: each is the operand's entry plus a
    finite sum of updates. -/
theorem scatterAdd_real {s si su : Shape} {w : ℕ} (d : ScatterDims s si su) (x : FVec Ideal s .f32) (idx : IVec si w)
    (upd : FVec Ideal su .f32) (hx : ∀ i, IsReal (x i)) (hu : ∀ j, IsReal (upd j)) (i : s.Idx) :
    IsReal (Host.scatterAdd d x idx upd i) := by
  show IsReal (Ideal.hostScatterAdd d x idx upd i)
  unfold Ideal.hostScatterAdd
  exact (hx i).add (Cert.Math.IsReal.sum _ _ fun j _ => hu j)

/-! ## The embedding rows -/

/-- The embedding rows are rows of the table: real when the table is. -/
theorem embRows_real (a0 : Arr Ideal S50000 .i32) (a4 : Arr Ideal S50001x64 .f32) (h4 : ∀ i, IsReal (a4 i)) :
    ∀ i, IsReal (embRows (F := Ideal) a0 a4 i) := by
  intro i
  unfold embRows
  exact gather_all _ _ _ h4 i

/-! ## The plain mean has real entries -/

/-- The larger of a real number and one is a positive real. -/
theorem max_one_pos {x : EReal} (hx : IsReal x) : IsPos (max x (Ideal.ofBits .f32 0x3F800000#32)) := by
  obtain ⟨r, rfl⟩ := hx
  rw [Cert.PreFinite.one_eq]
  exact ⟨max r 1, lt_max_of_lt_right one_pos, (EReal.coe_strictMono.monotone.map_max).symm⟩

/-- An array filled with the zero pattern has real entries. -/
theorem zeros_real {s : Shape} (hb : S_.BroadcastsInDim s (![] : Fin 0 → Fin s.rank)) (i : s.Idx) :
    IsReal (broadcastInDim s ![] hb (constant (F := Ideal) S_ .f32 0x00000000#32) i) :=
  bcast_all (P := IsReal) _ _ _ (fun _ => zero_real) i

/-- An array filled with the pattern of one has real entries. -/
theorem ones_real {s : Shape} (hb : S_.BroadcastsInDim s (![] : Fin 0 → Fin s.rank)) (i : s.Idx) :
    IsReal (broadcastInDim s ![] hb (constant (F := Ideal) S_ .f32 0x3F800000#32) i) :=
  bcast_all (P := IsReal) _ _ _ (fun _ => one_real) i

/-- The floored in-degree is a positive real: the larger of zero plus a finite sum of ones, and one. -/
theorem den_pos (a3 : Arr Ideal S1000000 .i32) (k : S50000x1.Idx) : IsPos (MeanForm.den (F := Ideal) a3 k) := by
  unfold MeanForm.den
  refine bcast_all (P := IsPos) _ _ _ (fun k' => ?_) k
  rw [ValueIdx.maximumf_apply]
  exact max_one_pos (scatterAdd_real _ _ _ _ (fun i => zeros_real _ i) (fun j => ones_real _ j) k')

/-- The plain neighbour mean of real node rows has real entries. -/
theorem mean_real (h : Arr Ideal S50000x256 .f32) (hh : ∀ i, IsReal (h i)) (a2 a3 : Arr Ideal S1000000 .i32) :
    ∀ i, IsReal (MeanForm.mean (F := Ideal) h a2 a3 i) := by
  intro i
  unfold MeanForm.mean
  rw [ValueIdx.hostDivf_apply]
  exact Cert.Math.IsReal.div
    (scatterAdd_real _ _ _ _ (fun k => zeros_real _ k) (fun j => gather_all (P := IsReal) _ _ _ hh j) i)
    (bcast_all (P := IsPos) _ _ _ (den_pos a3) i)

/-! ## The reference's mean is the plain mean -/

/-- One plus the in-degree, less one, floored at one, is the in-degree floored at one. -/
theorem den_eq (a3 : Arr Ideal S1000000 .i32) :
    maximumf (subf (degPlus (F := Ideal) a3)
        (broadcastInDim S50000x1 ![] bcast_S_S50000x1 (constant (F := Ideal) S_ .f32 0x3F800000#32)))
      (broadcastInDim S50000x1 ![] bcast_S_S50000x1 (constant (F := Ideal) S_ .f32 0x3F800000#32))
      = MeanForm.den (F := Ideal) a3 := by
  unfold degPlus MeanForm.den
  generalize Host.scatterAdd (F := Ideal) scatter_S50000_S1000000x1_S1000000_n_0_0_1 _ _ _ = deg
  funext k
  rw [ValueIdx.maximumf_apply, ValueIdx.subf_apply]
  unfold broadcastInDim
  rw [ValueIdx.addf_apply, ValueIdx.maximumf_apply]
  simp only [ValueIdx.constant_apply]
  rw [Cert.PreFinite.one_eq, EReal.add_sub_cancel_right]

/-- The reference's neighbour mean of real node rows is the plain mean. -/
theorem nbrMean_eq (h : Arr Ideal S50000x256 .f32) (hh : ∀ i, IsReal (h i)) (a2 a3 : Arr Ideal S1000000 .i32) :
    nbrMean (F := Ideal) h (degPlus a3) a2 a3 = MeanForm.mean (F := Ideal) h a2 a3 := by
  unfold nbrMean MeanForm.mean
  rw [den_eq a3]
  generalize Host.scatterAdd (F := Ideal) scatter_S50000x256_S1000000x1_S1000000x256_1_0_0_1 _ _ _ = sums
  funext i
  rw [ValueIdx.hostDivf_apply, ValueIdx.hostDivf_apply, ValueIdx.subf_apply, ValueIdx.addf_apply,
    Cert.Math.add_sub_cancel_real (sums i) (hh i)]

end Cert.ReferenceIdeal.MeanBridge
-- ==== Proof.Bridge.lean ====
/-
  The two programs compute the same array.

  Whatever arrays K0, K1, K2, KR are, if K0 is the network's first representation of the arguments, K1 and K2 the inner
  layers of their predecessors and the predecessors' plain neighbour means, and KR the last layer of K2 and its plain
  neighbour mean — which is how the blockwise program's regions read — then KR is the reference's result. The proof
  walks the stages. At every stage the two arrays agree, and their entries are real numbers because the arguments'
  entries are: so the reference's "add the node's row and take it away again" is the identity, its neighbour mean is
  the plain one, and the next stage's formulas are fed the same arrays.
-/
import proofs.«167175_j43568148251366_1_alg».proof.Proof.RefRead
import proofs.«167175_j43568148251366_1_alg».proof.Proof.RefRead2
import proofs.«167175_j43568148251366_1_alg».proof.Proof.MeanBridge

noncomputable section

namespace Cert.ReferenceIdeal.Bridge

open Idealize.ShloMosaic Idealize.ShloMosaic.ValueIdx
open Cert.ReferenceIdeal Cert.ReferenceIdeal.RefTerm Cert.ReferenceIdeal.MeanForm
open Cert.ReferenceIdeal.Facts₀ Cert.ReferenceIdeal.Facts
open Cert.Math Cert.Canon

variable [Facts]

/-! ## Entries of re-laid arrays are entries of the array -/

theorem real_transpose {a b : ℕ} (x : (⟨2, ![a, b]⟩ : Shape).Idx → EReal) (hx : ∀ i, IsReal (x i))
    (h : (⟨2, ![a, b]⟩ : Shape).Transposes [1, 0] ⟨2, ![b, a]⟩) (i : (⟨2, ![b, a]⟩ : Shape).Idx) :
    IsReal (transpose ⟨2, ![b, a]⟩ [1, 0] x h i) := by
  obtain ⟨j, k, rfl⟩ : ∃ (j : Fin b) (k : Fin a), i = ix2 j k := ⟨i 0, i 1, eq_ix2 i⟩
  rw [transpose_ix2_apply]
  exact hx _

theorem real_rowOf {k : ℕ} (b : (⟨1, ![k]⟩ : Shape).Idx → EReal) (hb : ∀ i, IsReal (b i)) (i : (⟨2, ![1, k]⟩ : Shape).Idx) :
    IsReal (rowOf b i) := hb _

theorem real_slice {s t : Shape} (off : Fin s.rank → Nat) (x : s.Idx → EReal) (hx : ∀ i, IsReal (x i)) (h : s.Slices off t)
    (j : t.Idx) : IsReal (extractStridedSlice t off x h j) := hx _

theorem real_halfL (w : (⟨3, ![1, 256, 512]⟩ : Shape).Idx → EReal) (hw : ∀ i, IsReal (w i)) (i : (⟨2, ![256, 256]⟩ : Shape).Idx) :
    IsReal (halfL w i) := hw _
theorem real_halfR (w : (⟨3, ![1, 256, 512]⟩ : Shape).Idx → EReal) (hw : ∀ i, IsReal (w i)) (i : (⟨2, ![256, 256]⟩ : Shape).Idx) :
    IsReal (halfR w i) := hw _
theorem real_slabT (w : (⟨3, ![1, 256, 256]⟩ : Shape).Idx → EReal) (hw : ∀ i, IsReal (w i)) (i : (⟨2, ![256, 256]⟩ : Shape).Idx) :
    IsReal (slabT w i) := hw _

/-- Two 50000 × 256 arrays with the same entries are one array. -/
theorem ext2 (x y : FVec Ideal S50000x256 .f32) (h : ∀ (p : Fin 50000) (q : Fin 256), x (ix2 p q) = y (ix2 p q)) : x = y :=
  funext fun i => by rw [eq_ix2 i]; exact h _ _

/-- An array all of whose entries, read by coordinates, are real. -/
theorem real2 (x : FVec Ideal S50000x256 .f32) (h : ∀ (p : Fin 50000) (q : Fin 256), IsReal (x (ix2 p q))) (i : S50000x256.Idx) :
    IsReal (x i) := by rw [eq_ix2 i]; exact h _ _

/-! ## The stages -/

section
variable (a0 : Arr Ideal S50000 .i32) (a1 : Arr Ideal S50000x300 .f32) (a2 a3 : Arr Ideal S1000000 .i32)
  (a4 : Arr Ideal S50001x64 .f32) (a5 : Arr Ideal S256x64 .f32) (a6 : Arr Ideal S256 .f32) (a7 : Arr Ideal S300x300 .f32)
  (a8 : Arr Ideal S300 .f32) (a9 : Arr Ideal S256x300 .f32) (a10 : Arr Ideal S256 .f32) (a11 : Arr Ideal S3x256x512 .f32)
  (a12 : Arr Ideal S3x256 .f32) (a13 : Arr Ideal S2x256x256 .f32) (a14 : Arr Ideal S2x256 .f32)
  (a15 : Arr Ideal S2x256x256 .f32) (a16 : Arr Ideal S2x256 .f32)

/-- One inner layer: if the node arrays agree and are real, so do the layer's results. `sw … sb2` are the layer's slabs. -/
theorem layerA_step (hc : Consts) (K R K' : FVec Ideal S50000x256 .f32) (hKR : K = R) (hR : ∀ i, IsReal (R i))
    (sw : FVec Ideal S1x256x512 .f32) (sb : FVec Ideal S1x256 .f32) (sw1 : FVec Ideal S1x256x256 .f32)
    (sb1 : FVec Ideal S1x256 .f32) (sw2 : FVec Ideal S1x256x256 .f32) (sb2 : FVec Ideal S1x256 .f32)
    (hsw : ∀ i, IsReal (sw i)) (hsb : ∀ i, IsReal (sb i)) (hsw1 : ∀ i, IsReal (sw1 i)) (hsb1 : ∀ i, IsReal (sb1 i))
    (hsw2 : ∀ i, IsReal (sw2 i)) (hsb2 : ∀ i, IsReal (sb2 i))
    (hK' : ∀ (p : Fin 50000) (q : Fin 256), K' (ix2 p q)
      = Cert.Spec.layerA K (mean (F := Ideal) K a2 a3) (halfL sw) (halfR sw) sb (slabT sw1) sb1 (slabT sw2) sb2 p q) :
    K' = layerA (F := Ideal) R (nbrMean (F := Ideal) R (degPlus (F := Ideal) a3) a2 a3) sw sb sw1 sb1 sw2 sb2
      ∧ ∀ i, IsReal (K' i) := by
  subst hKR
  have hm := Cert.ReferenceIdeal.MeanBridge.nbrMean_eq K hR a2 a3
  have hmr := Cert.ReferenceIdeal.MeanBridge.mean_real K hR a2 a3
  refine ⟨ext2 _ _ fun p q => ?_, real2 _ fun p q => ?_⟩
  · rw [hK', hm, Cert.ReferenceIdeal.RefRead2.layerA_apply]
  · rw [hK']
    exact layerA_real hc _ _ _ _ _ _ _ _ _ hR hmr (real_halfL sw hsw) (real_halfR sw hsw) hsb (real_slabT sw1 hsw1) hsb1
      (real_slabT sw2 hsw2) hsb2 p q

/-- The whole chain: arrays that read as the network's stages are the reference's stages; the last is its result. -/
theorem result_eq (hc : Consts) (h1 : ∀ i, IsReal (a1 i)) (h4 : ∀ i, IsReal (a4 i)) (h5 : ∀ i, IsReal (a5 i)) (h6 : ∀ i, IsReal (a6 i))
    (h7 : ∀ i, IsReal (a7 i)) (h8 : ∀ i, IsReal (a8 i)) (h9 : ∀ i, IsReal (a9 i)) (h10 : ∀ i, IsReal (a10 i))
    (h11 : ∀ i, IsReal (a11 i)) (h12 : ∀ i, IsReal (a12 i)) (h13 : ∀ i, IsReal (a13 i)) (h14 : ∀ i, IsReal (a14 i))
    (h15 : ∀ i, IsReal (a15 i)) (h16 : ∀ i, IsReal (a16 i))
    (K0 K1 K2 KR : FVec Ideal S50000x256 .f32)
    (hK0 : ∀ (p : Fin 50000) (q : Fin 256), K0 (ix2 p q)
      = Cert.Spec.enc (embRows (F := Ideal) a0 a4) a1 (transpose S64x256 [1, 0] a5 transposes_S256x64_S64x256_1_0) (rowOf a6)
          (transpose S300x300 [1, 0] a7 transposes_S300x300_S300x300_1_0) (rowOf a8)
          (transpose S300x256 [1, 0] a9 transposes_S256x300_S300x256_1_0) (rowOf a10) p q)
    (hK1 : ∀ (p : Fin 50000) (q : Fin 256), K1 (ix2 p q)
      = Cert.Spec.layerA K0 (mean (F := Ideal) K0 a2 a3)
          (halfL (extractStridedSlice S1x256x512 ![0, 0, 0] a11 slices_S3x256x512_S1x256x512_0_0_0))
          (halfR (extractStridedSlice S1x256x512 ![0, 0, 0] a11 slices_S3x256x512_S1x256x512_0_0_0))
          (extractStridedSlice S1x256 ![0, 0] a12 slices_S3x256_S1x256_0_0)
          (slabT (extractStridedSlice S1x256x256 ![0, 0, 0] a13 slices_S2x256x256_S1x256x256_0_0_0))
          (extractStridedSlice S1x256 ![0, 0] a14 slices_S2x256_S1x256_0_0)
          (slabT (extractStridedSlice S1x256x256 ![0, 0, 0] a15 slices_S2x256x256_S1x256x256_0_0_0))
          (extractStridedSlice S1x256 ![0, 0] a16 slices_S2x256_S1x256_0_0) p q)
    (hK2 : ∀ (p : Fin 50000) (q : Fin 256), K2 (ix2 p q)
      = Cert.Spec.layerA K1 (mean (F := Ideal) K1 a2 a3)
          (halfL (extractStridedSlice S1x256x512 ![1, 0, 0] a11 slices_S3x256x512_S1x256x512_1_0_0))
          (halfR (extractStridedSlice S1x256x512 ![1, 0, 0] a11 slices_S3x256x512_S1x256x512_1_0_0))
          (extractStridedSlice S1x256 ![1, 0] a12 slices_S3x256_S1x256_1_0)
          (slabT (extractStridedSlice S1x256x256 ![1, 0, 0] a13 slices_S2x256x256_S1x256x256_1_0_0))
          (extractStridedSlice S1x256 ![1, 0] a14 slices_S2x256_S1x256_1_0)
          (slabT (extractStridedSlice S1x256x256 ![1, 0, 0] a15 slices_S2x256x256_S1x256x256_1_0_0))
          (extractStridedSlice S1x256 ![1, 0] a16 slices_S2x256_S1x256_1_0) p q)
    (hKR : ∀ (p : Fin 50000) (q : Fin 256), KR (ix2 p q)
      = Cert.Spec.layerB K2 (mean (F := Ideal) K2 a2 a3)
          (halfL (extractStridedSlice S1x256x512 ![2, 0, 0] a11 slices_S3x256x512_S1x256x512_2_0_0))
          (halfR (extractStridedSlice S1x256x512 ![2, 0, 0] a11 slices_S3x256x512_S1x256x512_2_0_0))
          (extractStridedSlice S1x256 ![2, 0] a12 slices_S3x256_S1x256_2_0) p q) :
    KR = result (F := Ideal) a0 a1 a2 a3 a4 a5 a6 a7 a8 a9 a10 a11 a12 a13 a14 a15 a16 := by
  -- the first representation
  have e0 : K0 = enc (F := Ideal) (embRows (F := Ideal) a0 a4) a1 a5 a6 a7 a8 a9 a10 :=
    ext2 _ _ fun p q => by rw [hK0, Cert.ReferenceIdeal.RefRead.enc_apply]
  have r0 : ∀ i, IsReal (enc (F := Ideal) (embRows (F := Ideal) a0 a4) a1 a5 a6 a7 a8 a9 a10 i) := by
    rw [← e0]
    refine real2 _ fun p q => ?_
    rw [hK0]
    exact enc_real hc _ _ _ _ _ _ _ _ (Cert.ReferenceIdeal.MeanBridge.embRows_real a0 a4 h4) h1
      (real_transpose a5 h5 _) (real_rowOf a6 h6) (real_transpose a7 h7 _) (real_rowOf a8 h8)
      (real_transpose a9 h9 _) (real_rowOf a10 h10) p q
  -- the two inner layers
  obtain ⟨e1, r1⟩ := layerA_step a2 a3 hc K0 _ K1 e0 r0 _ _ _ _ _ _
    (real_slice _ a11 h11 _) (real_slice _ a12 h12 _) (real_slice _ a13 h13 _) (real_slice _ a14 h14 _)
    (real_slice _ a15 h15 _) (real_slice _ a16 h16 _) hK1
  obtain ⟨e2, r2⟩ := layerA_step a2 a3 hc K1 _ K2 e1 (by rw [← e1]; exact r1) _ _ _ _ _ _
    (real_slice _ a11 h11 _) (real_slice _ a12 h12 _) (real_slice _ a13 h13 _) (real_slice _ a14 h14 _)
    (real_slice _ a15 h15 _) (real_slice _ a16 h16 _) hK2
  -- the last layer
  have eres : result (F := Ideal) a0 a1 a2 a3 a4 a5 a6 a7 a8 a9 a10 a11 a12 a13 a14 a15 a16
      = layerB (F := Ideal) K2 (nbrMean (F := Ideal) K2 (degPlus (F := Ideal) a3) a2 a3) a11 a12 := by
    rw [e2]
    rfl
  rw [eres]
  refine ext2 _ _ fun p q => ?_
  rw [hKR, ← Cert.ReferenceIdeal.MeanBridge.nbrMean_eq K2 r2 a2 a3]
  exact (Cert.ReferenceIdeal.RefRead2.layerB_apply K2 _ _ _ p q).symm

end

end Cert.ReferenceIdeal.Bridge

end
-- ==== Proof.PreFinite.lean ====
/-
  The precondition decoded: every entry of every float argument is a real number.

  The precondition is the conjunction, over the fourteen float arguments, of "every entry's absolute value is below
  plus infinity": each conjunct compares the array of absolute values with an array filled with the pattern of plus
  infinity and reduces the comparison words by `and` over all axes, from the word one; the conjuncts are joined by
  `and` of one-bit words. Over the extended reals the absolute value of `x` is `max x (-x)`, which is below `⊤` exactly
  when `x` is neither `⊤` nor `⊥`, that is, when `x` is a real number. The three integer arguments are not constrained.
-/
import proofs.«167175_j43568148251366_1_alg».proof.Defs
import proofs.«167175_j43568148251366_1_alg».proof.Proof.PreConsts
import Idealize.ShloMosaic.Lib.ReduceAll
import Idealize.ShloMosaic.Lib.ValueIdx

namespace Cert.PreFinite

open Idealize.ShloMosaic Idealize.SL.Sem
open Cert.Pre_finite_inputs

/-- An entry that is a real number. -/
def IsReal (x : EReal) : Prop := ∃ r : ℝ, x = (r : EReal)

/-- The shape with no axes has one index. -/
instance : Subsingleton S_.Idx := ⟨fun a b => funext fun d => d.elim0⟩

/-- The binary32 pattern with exponent field all ones and fraction field zero is plus infinity. -/
theorem inf_eq : Ideal.ofBits .f32 0x7F800000#32 = ⊤ := by simp [Ideal.ofBits, Ideal.ieee]

/-- An extended real whose absolute value compares below plus infinity is a real number. -/
theorem isReal_of_abs_lt (x : EReal)
    (h : Ideal.cmp .olt (max x (-x)) (Ideal.ofBits .f32 0x7F800000#32) = 1#1) : IsReal x := by
  rw [inf_eq] at h
  unfold Ideal.cmp at h
  induction x using EReal.rec with
  | bot => simp at h
  | coe r => exact ⟨r, rfl⟩
  | top => simp at h

/-- One conjunct of the precondition, for an array of any shape: if the comparison of the absolute values with the
    array filled with plus infinity, reduced by `and` over all axes, is the word one, every entry is a real number. -/
theorem real_of_all {s : Shape} {axes : List (Fin s.rank)} (x : FVec Ideal s .f32)
    (hb : S_.BroadcastsInDim s (![] : Fin 0 → Fin s.rank)) (hr : s.ReducesTo axes S_) (hu : 0 < S_.numel) (j : S_.Idx)
    (e : Host.reduce IntOp.andi
          (cmpf .olt (Host.absf x) (broadcastInDim s ![] hb (constant (F := Ideal) S_ .f32 0x7F800000#32)))
          (constantI S_ 1 1#1) hr hu j = 1#1)
    (i : s.Idx) : IsReal (x i) :=
  isReal_of_abs_lt (x i) (Host.reduce_andi_all _ _ hr hu j e i)

/-- The precondition, read at the extended reals: all fourteen float arguments have only real entries. -/
theorem of_fn [Cert.Pre_finite_inputs.Facts] (a0 : IVec S50000 32) (a1 : FVec Ideal S50000x300 .f32) (a2 : IVec S1000000 32) (a3 : IVec S1000000 32) (a4 : FVec Ideal S50001x64 .f32) (a5 : FVec Ideal S256x64 .f32) (a6 : FVec Ideal S256 .f32) (a7 : FVec Ideal S300x300 .f32) (a8 : FVec Ideal S300 .f32) (a9 : FVec Ideal S256x300 .f32) (a10 : FVec Ideal S256 .f32) (a11 : FVec Ideal S3x256x512 .f32) (a12 : FVec Ideal S3x256 .f32) (a13 : FVec Ideal S2x256x256 .f32) (a14 : FVec Ideal S2x256 .f32) (a15 : FVec Ideal S2x256x256 .f32) (a16 : FVec Ideal S2x256 .f32)
    (h : Cert.Pre_finite_inputs.fn (F := Ideal) a0 a1 a2 a3 a4 a5 a6 a7 a8 a9 a10 a11 a12 a13 a14 a15 a16 = fun _ => 1#1) :
    (∀ i, IsReal (a1 i)) ∧ (∀ i, IsReal (a4 i)) ∧ (∀ i, IsReal (a5 i)) ∧ (∀ i, IsReal (a6 i)) ∧ (∀ i, IsReal (a7 i)) ∧ (∀ i, IsReal (a8 i)) ∧ (∀ i, IsReal (a9 i)) ∧ (∀ i, IsReal (a10 i)) ∧ (∀ i, IsReal (a11 i)) ∧ (∀ i, IsReal (a12 i)) ∧ (∀ i, IsReal (a13 i)) ∧ (∀ i, IsReal (a14 i)) ∧ (∀ i, IsReal (a15 i)) ∧ (∀ i, IsReal (a16 i)) := by
  have h0 := congrFun h ValueIdx.ix0
  dsimp only [fn, fn_part1, fn_part2, fn_part3, fn_part4, andi] at h0
  simp only [IntOp.andi_eq_one] at h0
  obtain ⟨⟨⟨⟨⟨⟨⟨⟨⟨⟨⟨⟨⟨h1, h4⟩, h5⟩, h6⟩, h7⟩, h8⟩, h9⟩, h10⟩, h11⟩, h12⟩, h13⟩, h14⟩, h15⟩, h16⟩ := h0
  exact ⟨fun i => real_of_all _ _ _ _ _ h1 i,
    fun i => real_of_all _ _ _ _ _ h4 i,
    fun i => real_of_all _ _ _ _ _ h5 i,
    fun i => real_of_all _ _ _ _ _ h6 i,
    fun i => real_of_all _ _ _ _ _ h7 i,
    fun i => real_of_all _ _ _ _ _ h8 i,
    fun i => real_of_all _ _ _ _ _ h9 i,
    fun i => real_of_all _ _ _ _ _ h10 i,
    fun i => real_of_all _ _ _ _ _ h11 i,
    fun i => real_of_all _ _ _ _ _ h12 i,
    fun i => real_of_all _ _ _ _ _ h13 i,
    fun i => real_of_all _ _ _ _ _ h14 i,
    fun i => real_of_all _ _ _ _ _ h15 i,
    fun i => real_of_all _ _ _ _ _ h16 i⟩

/-- The same of a memory of which the precondition holds, on every device. -/
theorem of_pre [Cert.Pre_finite_inputs.Facts]
    (m : (ℓ : Loc Cert.KernelIdeal.nD Cert.KernelIdeal.τ Cert.KernelIdeal.sig) → Buf (Elt Ideal) ℓ)
    (h : Cert.Pre_KernelIdeal m) (c : Dev Cert.KernelIdeal.nD) :
    (∀ i : S50000x300.Idx, IsReal (((m ((c.tc : Thread Cert.KernelIdeal.nD Cert.KernelIdeal.τ).loc Cert.KernelIdeal.main_arg1)) : FVec Ideal S50000x300 .f32) i))
      ∧ (∀ i : S50001x64.Idx, IsReal (((m ((c.tc : Thread Cert.KernelIdeal.nD Cert.KernelIdeal.τ).loc Cert.KernelIdeal.main_arg4)) : FVec Ideal S50001x64 .f32) i))
      ∧ (∀ i : S256x64.Idx, IsReal (((m ((c.tc : Thread Cert.KernelIdeal.nD Cert.KernelIdeal.τ).loc Cert.KernelIdeal.main_arg5)) : FVec Ideal S256x64 .f32) i))
      ∧ (∀ i : S256.Idx, IsReal (((m ((c.tc : Thread Cert.KernelIdeal.nD Cert.KernelIdeal.τ).loc Cert.KernelIdeal.main_arg6)) : FVec Ideal S256 .f32) i))
      ∧ (∀ i : S300x300.Idx, IsReal (((m ((c.tc : Thread Cert.KernelIdeal.nD Cert.KernelIdeal.τ).loc Cert.KernelIdeal.main_arg7)) : FVec Ideal S300x300 .f32) i))
      ∧ (∀ i : S300.Idx, IsReal (((m ((c.tc : Thread Cert.KernelIdeal.nD Cert.KernelIdeal.τ).loc Cert.KernelIdeal.main_arg8)) : FVec Ideal S300 .f32) i))
      ∧ (∀ i : S256x300.Idx, IsReal (((m ((c.tc : Thread Cert.KernelIdeal.nD Cert.KernelIdeal.τ).loc Cert.KernelIdeal.main_arg9)) : FVec Ideal S256x300 .f32) i))
      ∧ (∀ i : S256.Idx, IsReal (((m ((c.tc : Thread Cert.KernelIdeal.nD Cert.KernelIdeal.τ).loc Cert.KernelIdeal.main_arg10)) : FVec Ideal S256 .f32) i))
      ∧ (∀ i : S3x256x512.Idx, IsReal (((m ((c.tc : Thread Cert.KernelIdeal.nD Cert.KernelIdeal.τ).loc Cert.KernelIdeal.main_arg11)) : FVec Ideal S3x256x512 .f32) i))
      ∧ (∀ i : S3x256.Idx, IsReal (((m ((c.tc : Thread Cert.KernelIdeal.nD Cert.KernelIdeal.τ).loc Cert.KernelIdeal.main_arg12)) : FVec Ideal S3x256 .f32) i))
      ∧ (∀ i : S2x256x256.Idx, IsReal (((m ((c.tc : Thread Cert.KernelIdeal.nD Cert.KernelIdeal.τ).loc Cert.KernelIdeal.main_arg13)) : FVec Ideal S2x256x256 .f32) i))
      ∧ (∀ i : S2x256.Idx, IsReal (((m ((c.tc : Thread Cert.KernelIdeal.nD Cert.KernelIdeal.τ).loc Cert.KernelIdeal.main_arg14)) : FVec Ideal S2x256 .f32) i))
      ∧ (∀ i : S2x256x256.Idx, IsReal (((m ((c.tc : Thread Cert.KernelIdeal.nD Cert.KernelIdeal.τ).loc Cert.KernelIdeal.main_arg15)) : FVec Ideal S2x256x256 .f32) i))
      ∧ (∀ i : S2x256.Idx, IsReal (((m ((c.tc : Thread Cert.KernelIdeal.nD Cert.KernelIdeal.τ).loc Cert.KernelIdeal.main_arg16)) : FVec Ideal S2x256 .f32) i)) :=
  of_fn _ _ _ _ _ _ _ _ _ _ _ _ _ _ _ _ _ (h c)

end Cert.PreFinite
-- ==== Proof.lean ====
/-
  A three-layer graph network with neighbour-mean message passing, computed blockwise over the nodes, against the same
  network written as whole-array operations.

  Both programs gather the embedding rows, form each node's first representation, and then three times take the mean
  of the neighbours' rows (the edges' source rows summed at their targets, over the in-degree floored at one) and apply
  a layer: an affine map of the node's row and the mean, a row normalisation, and for the inner layers two more dense
  maps with the leaky rectifier. The blockwise program runs four regions over blocks of 1000 node rows with the weights
  whole; the other program multiplies the joined 512-wide rows by one transposed slab, and reaches the neighbour sum
  and the degree by adding a term and taking it away again. Over the extended reals the two agree entry by entry:
  the sums are rearrangements of one another, and the two cancellations are exact because every entry that is
  cancelled is a real number — which follows, stage by stage, from the arguments' entries being real.

  The modules: the network's formulas at one entry; each region's result as a whole array of those formulas; the
  regions chained through the host operations between them; the whole-array program's run and its stages read at
  one entry; the arithmetic of real entries; and the chain of stage-by-stage agreements.
-/
import proofs.«167175_j43568148251366_1_alg».proof.Defs
import proofs.«167175_j43568148251366_1_alg».proof.Proof.Gen.Kernel
import proofs.«167175_j43568148251366_1_alg».proof.Proof.Gen.Kernel.Frame
import proofs.«167175_j43568148251366_1_alg».proof.Proof.Gen.KernelIdeal
import proofs.«167175_j43568148251366_1_alg».proof.Proof.Gen.KernelIdeal.Frame
import proofs.«167175_j43568148251366_1_alg».proof.Proof.Gen.ReferenceIdeal
import proofs.«167175_j43568148251366_1_alg».proof.Proof.Gen.Pre_finite_inputs
import proofs.«167175_j43568148251366_1_alg».proof.Proof.KRun
import proofs.«167175_j43568148251366_1_alg».proof.Proof.KChain
import proofs.«167175_j43568148251366_1_alg».proof.Proof.RefRun
import proofs.«167175_j43568148251366_1_alg».proof.Proof.Bridge
import proofs.«167175_j43568148251366_1_alg».proof.Proof.PreFinite
import Idealize.ShloMosaic.Adequacy
import Idealize.ShloMosaic.Init

noncomputable section

namespace Cert.Proof

open Idealize.ShloMosaic Idealize.SL.Sem

/-- The rectifier's slope is a real number and the norm's floor a positive real number. -/
theorem consts : Cert.Math.Consts :=
  ⟨show ∃ r : ℝ, Ideal.ofBits .f32 0x3DCCCCCD#32 = (r : EReal) from Cert.PreFinite.slope_real,
   show ∃ r : ℝ, 0 < r ∧ Ideal.ofBits .f32 0x358637BD#32 = (r : EReal) from Cert.PreFinite.floor_pos⟩

theorem frame_k : Cert.frame_Kernel := fun m ρ _ => Cert.Kernel.Gen.frame m ρ

theorem frame_ki : Cert.frame_KernelIdeal := fun m ρ _ => Cert.KernelIdeal.Gen.frame m ρ

/-- The whole-array program's run, its result forgotten. -/
theorem frame_ri : Cert.frame_ReferenceIdeal := fun m ρ _ =>
  (θ_run (Cert.ReferenceIdeal.defs (F := Ideal)) _ _).mono (fun _ h c => (h c).2) (Cert.ReferenceIdeal.RefRun.run m ρ)

theorem preserves : Cert.preserves_Kernel_KernelIdeal := trivial

/-- From memories agreeing on the arguments both programs end with one and the same result array: the blockwise
    program's last region leaves the last layer of the chained stages, and that array is the other program's result. -/
theorem algebraic : Cert.algebraic_KernelIdeal_ReferenceIdeal := by
  intro m ρ m' ρ' hpre hagree
  refine ⟨fun c => Cert.KernelIdeal.Gen.W8 m ρ c (Proc.devRef .tc Cert.KernelIdeal.main_v110),
    Cert.KernelIdeal.KRun.run m ρ, ?_⟩
  refine (θ_run (Cert.ReferenceIdeal.defs (F := Ideal)) _ _).mono (fun _ h c => ⟨(h c).1.trans ?_, (h c).2⟩)
    (Cert.ReferenceIdeal.RefRun.run m' ρ')
  obtain ⟨g0, g1, g2, g3, g4, g5, g6, g7, g8, g9, g10, g11, g12, g13, g14, g15, g16⟩ := hagree c
  rw [g0, g1, g2, g3, g4, g5, g6, g7, g8, g9, g10, g11, g12, g13, g14, g15, g16]
  obtain ⟨h1, h4, h5, h6, h7, h8, h9, h10, h11, h12, h13, h14, h15, h16⟩ := Cert.PreFinite.of_pre m hpre c
  exact (Cert.ReferenceIdeal.Bridge.result_eq _ _ _ _ _ _ _ _ _ _ _ _ _ _ _ _ _ consts
    (fun i => h1 i) (fun i => h4 i) (fun i => h5 i) (fun i => h6 i) (fun i => h7 i) (fun i => h8 i) (fun i => h9 i) (fun i => h10 i) (fun i => h11 i) (fun i => h12 i) (fun i => h13 i) (fun i => h14 i) (fun i => h15 i) (fun i => h16 i)
    (Cert.KernelIdeal.KChain.K0 m ρ c) (Cert.KernelIdeal.KChain.K1 m ρ c) (Cert.KernelIdeal.KChain.K2 m ρ c)
    (Cert.KernelIdeal.KChain.KR m ρ c) (Cert.KernelIdeal.KChain.K0_apply m ρ c) (Cert.KernelIdeal.KChain.K1_apply m ρ c)
    (Cert.KernelIdeal.KChain.K2_apply m ρ c) (Cert.KernelIdeal.KChain.KR_apply m ρ c)).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
